-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v235) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x1024x1 : Shape := ⟨4, ![128, 256, 1024, 1]⟩
abbrev S128x5 : Shape := ⟨2, ![128, 5]⟩
abbrev S_ : Shape := ⟨0, ![]⟩

class Facts : Prop where
  bcast_S_S128x256x1024x1 : S_.BroadcastsInDim S128x256x1024x1 (![] : Fin 0 → Fin S128x256x1024x1.rank)
  reducesTo_S128x256x1024x1_S_d0_1_2_3 : S128x256x1024x1.ReducesTo [0, 1, 2, 3] S_
  h_S_ : 0 < S_.numel
  bcast_S_S128x5 : S_.BroadcastsInDim S128x5 (![] : Fin 0 → Fin S128x5.rank)
  reducesTo_S128x5_S_d0_1 : S128x5.ReducesTo [0, 1] S_

variable [Facts]

def fn {F : FTy → Type} [FloatOps F] (main_arg0 : FVec F S128x256x1024x1 .f32) (main_arg1 : IVec S128x5 32) (main_arg2 : IVec S128x5 32) (main_arg3 : IVec S128x5 32) (main_arg4 : IVec S128x5 32) (main_arg5 : FVec F S128x5 .f32) : IVec S_ 1 :=
  let main_v0 : FVec F S128x256x1024x1 .f32 := Host.absf main_arg0
  let main_cst : FVec F S_ .f32 := constant S_ .f32 0x7F800000#32
  let main_v1 : FVec F S128x256x1024x1 .f32 := broadcastInDim S128x256x1024x1 ![] bcast_S_S128x256x1024x1 main_cst
  let main_v2 : IVec S128x256x1024x1 1 := cmpf .olt main_v0 main_v1
  let main_c : IVec S_ 1 := constantI S_ 1 1#1
  let main_v3 : IVec S_ 1 := (fun x v => Host.reduce IntOp.andi x v reducesTo_S128x256x1024x1_S_d0_1_2_3 h_S_) main_v2 main_c
  let main_v4 : FVec F S128x5 .f32 := Host.absf main_arg5
  let main_cst_0 : FVec F S_ .f32 := constant S_ .f32 0x7F800000#32
  let main_v5 : FVec F S128x5 .f32 := broadcastInDim S128x5 ![] bcast_S_S128x5 main_cst_0
  let main_v6 : IVec S128x5 1 := cmpf .olt main_v4 main_v5
  let main_c_1 : IVec S_ 1 := constantI S_ 1 1#1
  let main_v7 : IVec S_ 1 := (fun x v => Host.reduce IntOp.andi x v reducesTo_S128x5_S_d0_1 h_S_) main_v6 main_c_1
  let main_v8 : IVec S_ 1 := andi main_v3 main_v7
  main_v8
-- ==== Kernel.lean ====
abbrev S128x256x1024x1 : Shape := ⟨4, ![128, 256, 1024, 1]⟩
abbrev S128x5 : Shape := ⟨2, ![128, 5]⟩
abbrev S128x256x1024 : Shape := ⟨3, ![128, 256, 1024]⟩
abbrev S_ : Shape := ⟨0, ![]⟩
abbrev S1x1 : Shape := ⟨2, ![1, 1]⟩
abbrev S16x256x1024 : Shape := ⟨3, ![16, 256, 1024]⟩
abbrev S16x256 : Shape := ⟨2, ![16, 256]⟩
abbrev S16x256x1 : Shape := ⟨3, ![16, 256, 1]⟩
abbrev S16x1 : Shape := ⟨2, ![16, 1]⟩
abbrev S16x1x1 : Shape := ⟨3, ![16, 1, 1]⟩
abbrev S1x1x1 : Shape := ⟨3, ![1, 1, 1]⟩
abbrev S8x64x1024 : Shape := ⟨3, ![8, 64, 1024]⟩
abbrev S8x5 : Shape := ⟨2, ![8, 5]⟩
abbrev S1x64x1 : Shape := ⟨3, ![1, 64, 1]⟩
abbrev S1x1x1024 : Shape := ⟨3, ![1, 1, 1024]⟩
abbrev S8x1 : Shape := ⟨2, ![8, 1]⟩
abbrev S8x1x1 : Shape := ⟨3, ![8, 1, 1]⟩
abbrev S8x64x1 : Shape := ⟨3, ![8, 64, 1]⟩
abbrev S8x1x1024 : Shape := ⟨3, ![8, 1, 1024]⟩

abbrev nBuf : Space → Nat
  | .hbm => 131
  | .vmem => 19
  | .smem => 0
  | _ => 0

abbrev hbmTy0_0 (i : Nat) : BufTy := match i % 128 with
  | 0 => ⟨S128x256x1024x1, .f32⟩
  | 1 => ⟨S128x5, .i32⟩
  | 2 => ⟨S128x5, .i32⟩
  | 3 => ⟨S128x5, .i32⟩
  | 4 => ⟨S128x5, .i32⟩
  | 5 => ⟨S128x5, .f32⟩
  | 6 => ⟨S128x256x1024, .f32⟩
  | 7 => ⟨S_, .i32⟩
  | 8 => ⟨S128x5, .i32⟩
  | 9 => ⟨S128x5, .i32⟩
  | 10 => ⟨S_, .i32⟩
  | 11 => ⟨S128x5, .i32⟩
  | 12 => ⟨S128x5, .i32⟩
  | 13 => ⟨S_, .i32⟩
  | 14 => ⟨S_, .i32⟩
  | 15 => ⟨S128x5, .i32⟩
  | 16 => ⟨S128x5, .i32⟩
  | 17 => ⟨S128x5, .i32⟩
  | 18 => ⟨S_, .i32⟩
  | 19 => ⟨S128x5, .i32⟩
  | 20 => ⟨S128x5, .i1⟩
  | 21 => ⟨S128x5, .i32⟩
  | 22 => ⟨S128x5, .i32⟩
  | 23 => ⟨S_, .i32⟩
  | 24 => ⟨S128x5, .i32⟩
  | 25 => ⟨S128x5, .i1⟩
  | 26 => ⟨S128x5, .i1⟩
  | 27 => ⟨S_, .i32⟩
  | 28 => ⟨S128x5, .i32⟩
  | 29 => ⟨S128x5, .i32⟩
  | 30 => ⟨S128x5, .i32⟩
  | 31 => ⟨S128x5, .i32⟩
  | 32 => ⟨S_, .i32⟩
  | 33 => ⟨S_, .i32⟩
  | 34 => ⟨S_, .i32⟩
  | 35 => ⟨S128x5, .i32⟩
  | 36 => ⟨S128x5, .i32⟩
  | 37 => ⟨S_, .i32⟩
  | 38 => ⟨S128x5, .i32⟩
  | 39 => ⟨S128x5, .i32⟩
  | 40 => ⟨S_, .i32⟩
  | 41 => ⟨S_, .i32⟩
  | 42 => ⟨S128x5, .i32⟩
  | 43 => ⟨S128x5, .i32⟩
  | 44 => ⟨S128x5, .i32⟩
  | 45 => ⟨S_, .i32⟩
  | 46 => ⟨S128x5, .i32⟩
  | 47 => ⟨S128x5, .i1⟩
  | 48 => ⟨S128x5, .i32⟩
  | 49 => ⟨S128x5, .i32⟩
  | 50 => ⟨S_, .i32⟩
  | 51 => ⟨S128x5, .i32⟩
  | 52 => ⟨S128x5, .i1⟩
  | 53 => ⟨S128x5, .i1⟩
  | 54 => ⟨S_, .i32⟩
  | 55 => ⟨S128x5, .i32⟩
  | 56 => ⟨S128x5, .i32⟩
  | 57 => ⟨S128x5, .i32⟩
  | 58 => ⟨S128x5, .i32⟩
  | 59 => ⟨S_, .i32⟩
  | 60 => ⟨S_, .i32⟩
  | 61 => ⟨S_, .i32⟩
  | 62 => ⟨S128x5, .i32⟩
  | 63 => ⟨S128x5, .i32⟩
  | 64 => ⟨S_, .i32⟩
  | 65 => ⟨S128x5, .i32⟩
  | 66 => ⟨S128x5, .i32⟩
  | 67 => ⟨S_, .i32⟩
  | 68 => ⟨S_, .i32⟩
  | 69 => ⟨S128x5, .i32⟩
  | 70 => ⟨S128x5, .i32⟩
  | 71 => ⟨S128x5, .i32⟩
  | 72 => ⟨S_, .i32⟩
  | 73 => ⟨S128x5, .i32⟩
  | 74 => ⟨S128x5, .i1⟩
  | 75 => ⟨S128x5, .i32⟩
  | 76 => ⟨S128x5, .i32⟩
  | 77 => ⟨S_, .i32⟩
  | 78 => ⟨S128x5, .i32⟩
  | 79 => ⟨S128x5, .i1⟩
  | 80 => ⟨S128x5, .i1⟩
  | 81 => ⟨S_, .i32⟩
  | 82 => ⟨S128x5, .i32⟩
  | 83 => ⟨S128x5, .i32⟩
  | 84 => ⟨S128x5, .i32⟩
  | 85 => ⟨S128x5, .i32⟩
  | 86 => ⟨S_, .i32⟩
  | 87 => ⟨S_, .i32⟩
  | 88 => ⟨S_, .i32⟩
  | 89 => ⟨S128x5, .i32⟩
  | 90 => ⟨S128x5, .i32⟩
  | 91 => ⟨S_, .i32⟩
  | 92 => ⟨S128x5, .i32⟩
  | 93 => ⟨S128x5, .i32⟩
  | 94 => ⟨S_, .i32⟩
  | 95 => ⟨S_, .i32⟩
  | 96 => ⟨S128x5, .i32⟩
  | 97 => ⟨S128x5, .i32⟩
  | 98 => ⟨S128x5, .i32⟩
  | 99 => ⟨S_, .i32⟩
  | 100 => ⟨S128x5, .i32⟩
  | 101 => ⟨S128x5, .i1⟩
  | 102 => ⟨S128x5, .i32⟩
  | 103 => ⟨S128x5, .i32⟩
  | 104 => ⟨S_, .i32⟩
  | 105 => ⟨S128x5, .i32⟩
  | 106 => ⟨S128x5, .i1⟩
  | 107 => ⟨S128x5, .i1⟩
  | 108 => ⟨S_, .i32⟩
  | 109 => ⟨S128x5, .i32⟩
  | 110 => ⟨S128x5, .i32⟩
  | 111 => ⟨S128x5, .i32⟩
  | 112 => ⟨S128x5, .i32⟩
  | 113 => ⟨S_, .i32⟩
  | 114 => ⟨S_, .i32⟩
  | 115 => ⟨S_, .i32⟩
  | 116 => ⟨S128x5, .i32⟩
  | 117 => ⟨S128x5, .i32⟩
  | 118 => ⟨S_, .i32⟩
  | 119 => ⟨S128x5, .i32⟩
  | 120 => ⟨S128x5, .i32⟩
  | 121 => ⟨S_, .f32⟩
  | 122 => ⟨S128x5, .f32⟩
  | 123 => ⟨S128x5, .i1⟩
  | 124 => ⟨S128x5, .i32⟩
  | 125 => ⟨S1x1, .f32⟩
  | 126 => ⟨S_, .f32⟩
  | 127 => ⟨S1x1, .f32⟩
  | _ => ⟨S128x256x1024x1, .f32⟩

abbrev hbmTy0_1 (i : Nat) : BufTy := match i % 128 with
  | 0 => ⟨S1x1, .f32⟩
  | 1 => ⟨S128x256x1024, .f32⟩
  | 2 => ⟨S128x256x1024x1, .f32⟩
  | _ => ⟨S128x256x1024x1, .f32⟩

abbrev hbmTy (i : Nat) : BufTy := match i / 128 with
  | 0 => hbmTy0_0 i
  | 1 => hbmTy0_1 i
  | _ => ⟨S128x256x1024x1, .f32⟩

abbrev bufTy : (tb : Table) → Fin (tcTables nBuf tb) → BufTy
  | .hbm, ⟨i, _⟩ => hbmTy i
  | .local _ .vmem, ⟨0, _⟩ => ⟨S16x256x1024, .f32⟩
  | .local _ .vmem, ⟨1, _⟩ => ⟨S16x256x1024, .f32⟩
  | .local _ .vmem, ⟨2, _⟩ => ⟨S1x1, .f32⟩
  | .local _ .vmem, ⟨3, _⟩ => ⟨S1x1, .f32⟩
  | .local _ .vmem, ⟨4, _⟩ => ⟨S8x64x1024, .f32⟩
  | .local _ .vmem, ⟨5, _⟩ => ⟨S8x64x1024, .f32⟩
  | .local _ .vmem, ⟨6, _⟩ => ⟨S8x5, .i32⟩
  | .local _ .vmem, ⟨7, _⟩ => ⟨S8x5, .i32⟩
  | .local _ .vmem, ⟨8, _⟩ => ⟨S8x5, .i32⟩
  | .local _ .vmem, ⟨9, _⟩ => ⟨S8x5, .i32⟩
  | .local _ .vmem, ⟨10, _⟩ => ⟨S8x5, .i32⟩
  | .local _ .vmem, ⟨11, _⟩ => ⟨S8x5, .i32⟩
  | .local _ .vmem, ⟨12, _⟩ => ⟨S8x5, .i32⟩
  | .local _ .vmem, ⟨13, _⟩ => ⟨S8x5, .i32⟩
  | .local _ .vmem, ⟨14, _⟩ => ⟨S8x5, .i32⟩
  | .local _ .vmem, ⟨15, _⟩ => ⟨S8x5, .i32⟩
  | .local _ .vmem, ⟨16, _⟩ => ⟨S1x1, .f32⟩
  | .local _ .vmem, ⟨17, _⟩ => ⟨S8x64x1024, .f32⟩
  | .local _ .vmem, ⟨18, _⟩ => ⟨S8x64x1024, .f32⟩
  | _, _ => ⟨S128x256x1024x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v5 : Ref sig .tc := ⟨.hbm, 30, rfl⟩
abbrev main_v6 : Ref sig .tc := ⟨.hbm, 31, rfl⟩
abbrev main_c_2 : Ref sig .tc := ⟨.hbm, 32, rfl⟩
abbrev main_c_3 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v7 : Ref sig .tc := ⟨.hbm, 39, rfl⟩
abbrev main_c_4 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_c : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_c_0 : Ref sig .tc := ⟨.hbm, 54, rfl⟩
abbrev main_call2_v12 : Ref sig .tc := ⟨.hbm, 55, rfl⟩
abbrev main_call2_v13 : Ref sig .tc := ⟨.hbm, 56, rfl⟩
abbrev main_v8 : Ref sig .tc := ⟨.hbm, 57, rfl⟩
abbrev main_v9 : Ref sig .tc := ⟨.hbm, 58, rfl⟩
abbrev main_c_5 : Ref sig .tc := ⟨.hbm, 59, rfl⟩
abbrev main_c_6 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_v10 : Ref sig .tc := ⟨.hbm, 66, rfl⟩
abbrev main_c_7 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_call4_v3 : Ref sig .tc := ⟨.hbm, 71, rfl⟩
abbrev main_call4_v4 : Ref sig .tc := ⟨.hbm, 72, rfl⟩
abbrev main_call4_v5 : Ref sig .tc := ⟨.hbm, 73, rfl⟩
abbrev main_call4_v6 : Ref sig .tc := ⟨.hbm, 74, rfl⟩
abbrev main_call4_v7 : Ref sig .tc := ⟨.hbm, 75, rfl⟩
abbrev main_call4_v8 : Ref sig .tc := ⟨.hbm, 76, rfl⟩
abbrev main_call4_c : Ref sig .tc := ⟨.hbm, 77, rfl⟩
abbrev main_call4_v9 : Ref sig .tc := ⟨.hbm, 78, rfl⟩
abbrev main_call4_v10 : Ref sig .tc := ⟨.hbm, 79, rfl⟩
abbrev main_call4_v11 : Ref sig .tc := ⟨.hbm, 80, rfl⟩
abbrev main_call4_c_0 : Ref sig .tc := ⟨.hbm, 81, rfl⟩
abbrev main_call4_v12 : Ref sig .tc := ⟨.hbm, 82, rfl⟩
abbrev main_call4_v13 : Ref sig .tc := ⟨.hbm, 83, rfl⟩
abbrev main_v11 : Ref sig .tc := ⟨.hbm, 84, rfl⟩
abbrev main_v12 : Ref sig .tc := ⟨.hbm, 85, rfl⟩
abbrev main_c_8 : Ref sig .tc := ⟨.hbm, 86, rfl⟩
abbrev main_c_9 : Ref sig .tc := ⟨.hbm, 87, rfl⟩
abbrev main_call5_v0 : Ref sig .tc := ⟨.hbm, 88, rfl⟩
abbrev main_call5_v1 : Ref sig .tc := ⟨.hbm, 89, rfl⟩
abbrev main_call5_v2 : Ref sig .tc := ⟨.hbm, 90, rfl⟩
abbrev main_call5_v3 : Ref sig .tc := ⟨.hbm, 91, rfl⟩
abbrev main_call5_v4 : Ref sig .tc := ⟨.hbm, 92, rfl⟩
abbrev main_v13 : Ref sig .tc := ⟨.hbm, 93, rfl⟩
abbrev main_c_10 : Ref sig .tc := ⟨.hbm, 94, rfl⟩
abbrev main_call6_v0 : Ref sig .tc := ⟨.hbm, 95, rfl⟩
abbrev main_call6_v1 : Ref sig .tc := ⟨.hbm, 96, rfl⟩
abbrev main_call6_v2 : Ref sig .tc := ⟨.hbm, 97, rfl⟩
abbrev main_call6_v3 : Ref sig .tc := ⟨.hbm, 98, rfl⟩
abbrev main_call6_v4 : Ref sig .tc := ⟨.hbm, 99, rfl⟩
abbrev main_call6_v5 : Ref sig .tc := ⟨.hbm, 100, rfl⟩
abbrev main_call6_v6 : Ref sig .tc := ⟨.hbm, 101, rfl⟩
abbrev main_call6_v7 : Ref sig .tc := ⟨.hbm, 102, rfl⟩
abbrev main_call6_v8 : Ref sig .tc := ⟨.hbm, 103, rfl⟩
abbrev main_call6_c : Ref sig .tc := ⟨.hbm, 104, rfl⟩
abbrev main_call6_v9 : Ref sig .tc := ⟨.hbm, 105, rfl⟩
abbrev main_call6_v10 : Ref sig .tc := ⟨.hbm, 106, rfl⟩
abbrev main_call6_v11 : Ref sig .tc := ⟨.hbm, 107, rfl⟩
abbrev main_call6_c_0 : Ref sig .tc := ⟨.hbm, 108, rfl⟩
abbrev main_call6_v12 : Ref sig .tc := ⟨.hbm, 109, rfl⟩
abbrev main_call6_v13 : Ref sig .tc := ⟨.hbm, 110, rfl⟩
abbrev main_v14 : Ref sig .tc := ⟨.hbm, 111, rfl⟩
abbrev main_v15 : Ref sig .tc := ⟨.hbm, 112, rfl⟩
abbrev main_c_11 : Ref sig .tc := ⟨.hbm, 113, rfl⟩
abbrev main_c_12 : Ref sig .tc := ⟨.hbm, 114, rfl⟩
abbrev main_call7_v0 : Ref sig .tc := ⟨.hbm, 115, rfl⟩
abbrev main_call7_v1 : Ref sig .tc := ⟨.hbm, 116, rfl⟩
abbrev main_call7_v2 : Ref sig .tc := ⟨.hbm, 117, rfl⟩
abbrev main_call7_v3 : Ref sig .tc := ⟨.hbm, 118, rfl⟩
abbrev main_call7_v4 : Ref sig .tc := ⟨.hbm, 119, rfl⟩
abbrev main_v16 : Ref sig .tc := ⟨.hbm, 120, rfl⟩
abbrev main_cst : Ref sig .tc := ⟨.hbm, 121, rfl⟩
abbrev main_v17 : Ref sig .tc := ⟨.hbm, 122, rfl⟩
abbrev main_v18 : Ref sig .tc := ⟨.hbm, 123, rfl⟩
abbrev main_v19 : Ref sig .tc := ⟨.hbm, 124, rfl⟩
abbrev main_v20 : Ref sig .tc := ⟨.hbm, 125, rfl⟩
abbrev main_cst_13 : Ref sig .tc := ⟨.hbm, 126, rfl⟩
abbrev main_v21 : Ref sig .tc := ⟨.hbm, 127, rfl⟩
abbrev main_v22 : Ref sig .tc := ⟨.hbm, 128, rfl⟩
abbrev main_v23 : Ref sig .tc := ⟨.hbm, 129, rfl⟩
abbrev main_v24 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v17 : BitVec 1 := Scalar.cmpi .eq arg0 c7_i32
  let v18 : BitVec 32 := Scalar.extui v17
  let c0_i32_9 : BitVec 32 := 0#32
  let v19 : BitVec 1 := Scalar.cmpi .ne v18 c0_i32_9
  v19

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S8x64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x5 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x5 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S8x5 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S8x5 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S8x5 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S8x64x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  shapeCasts_S128x256x1024x1_S128x256x1024 : S128x256x1024x1.ShapeCasts S128x256x1024
  bcast_S_S128x5 : S_.BroadcastsInDim S128x5 (![] : Fin 0 → Fin S128x5.rank)
  natLt_1_32 : 1 < 32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16x256x1024_S16x256x1024_0_0_0 : ∀ a, (![0, 0, 0] : Fin 3 → Nat) a + S16x256x1024.size a ≤ S16x256x1024.size a
  h_S16x256x1024 : 0 < S16x256x1024.numel
  shapeCasts_S16x256x1024_S16x256x1024 : S16x256x1024.ShapeCasts S16x256x1024
  reduces_S16x256x1024_S16x256 : S16x256x1024.Reduces [2] S16x256
  shapeCasts_S16x256_S16x256x1 : S16x256.ShapeCasts S16x256x1
  reduces_S16x256x1_S16x1 : S16x256x1.Reduces [1] S16x1
  shapeCasts_S16x1_S16x1x1 : S16x1.ShapeCasts S16x1x1
  reduces_S16x1x1_S1x1 : S16x1x1.Reduces [0] S1x1
  shapeCasts_S1x1_S1x1x1 : S1x1.ShapeCasts S1x1x1
  shapeCasts_S1x1x1_S1x1 : S1x1x1.ShapeCasts S1x1
  bcast_S_S1x1 : S_.BroadcastsInDim S1x1 (![] : Fin 0 → Fin S1x1.rank)
  iota_S1x64x1_d1_w32 : S1x64x1.Iotas .tc 32 [1]
  iota_S1x1x1024_d2_w32 : S1x1x1024.Iotas .tc 32 [2]
  inb_S8x5_S8x5_0_0 : ∀ a, (![0, 0] : Fin 2 → Nat) a + S8x5.size a ≤ S8x5.size a
  h_S8x5 : 0 < S8x5.numel
  shapeCasts_S8x5_S8x5 : S8x5.ShapeCasts S8x5
  slices_S8x5_o0_0_S8x1 : S8x5.Slices ![0, 0] S8x1
  shapeCasts_S8x1_S8x1x1 : S8x1.ShapeCasts S8x1x1
  broadcasts_S8x1x1_S8x64x1 : S8x1x1.Broadcasts S8x64x1
  broadcasts_S1x64x1_S8x64x1 : S1x64x1.Broadcasts S8x64x1
  broadcasts_S8x1x1_S8x1x1024 : S8x1x1.Broadcasts S8x1x1024
  broadcasts_S1x1x1024_S8x1x1024 : S1x1x1024.Broadcasts S8x1x1024
  broadcasts_S8x64x1_S8x64x1024 : S8x64x1.Broadcasts S8x64x1024
  broadcasts_S8x1x1024_S8x64x1024 : S8x1x1024.Broadcasts S8x64x1024
  broadcasts_S8x1x1_S8x64x1024 : S8x1x1.Broadcasts S8x64x1024
  slices_S8x5_o0_1_S8x1 : S8x5.Slices ![0, 1] S8x1
  slices_S8x5_o0_2_S8x1 : S8x5.Slices ![0, 2] S8x1
  slices_S8x5_o0_3_S8x1 : S8x5.Slices ![0, 3] S8x1
  slices_S8x5_o0_4_S8x1 : S8x5.Slices ![0, 4] S8x1
  inpos_S1x1_p0_0 : ∀ a, (![0, 0] : Fin 2 → Nat) a < S1x1.size a
  inb_S8x64x1024_S8x64x1024_0_0_0 : ∀ a, (![0, 0, 0] : Fin 3 → Nat) a + S8x64x1024.size a ≤ S8x64x1024.size a
  h_S8x64x1024 : 0 < S8x64x1024.numel
  shapeCasts_S8x64x1024_S8x64x1024 : S8x64x1024.ShapeCasts S8x64x1024
  bcast_S128x256x1024_S128x256x1024x1_0_1_2 : S128x256x1024.BroadcastsInDim S128x256x1024x1 (![0, 1, 2] : Fin 3 → Fin S128x256x1024x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x1024.size a ≤ S128x256x1024.size a
  hwx0_0 : ∀ i : grid0.Coords, EltTy.bits .f32 = 32 ∨ (Rect.block (s := S128x256x1024) S16x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x64x1024.size a ≤ S128x256x1024.size a
  hwx1_0 : ∀ i : grid1.Coords, EltTy.bits .f32 = 32 ∨ (Rect.block (s := S128x256x1024) S8x64x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x5.size a ≤ S128x5.size a
  hwx1_1 : ∀ i : grid1.Coords, EltTy.bits .i32 = 32 ∨ (Rect.block (s := S128x5) S8x5.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x5.size a ≤ S128x5.size a
  hwx1_2 : ∀ i : grid1.Coords, EltTy.bits .i32 = 32 ∨ (Rect.block (s := S128x5) S8x5.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x5.size a ≤ S128x5.size a
  hwx1_3 : ∀ i : grid1.Coords, EltTy.bits .i32 = 32 ∨ (Rect.block (s := S128x5) S8x5.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x5.size a ≤ S128x5.size a
  hwx1_4 : ∀ i : grid1.Coords, EltTy.bits .i32 = 32 ∨ (Rect.block (s := S128x5) S8x5.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x5.size a ≤ S128x5.size a
  hwx1_5 : ∀ i : grid1.Coords, EltTy.bits .i32 = 32 ∨ (Rect.block (s := S128x5) S8x5.size (cc1_transform_5 i) (hinb1_5 i)).WholeWords (EltTy.packing .i32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8x64x1024.size a ≤ S128x256x1024.size a
  hwx1_7 : ∀ i : grid1.Coords, EltTy.bits .f32 = 32 ∨ (Rect.block (s := S128x256x1024) S8x64x1024.size (cc1_transform_7 i) (hinb1_7 i)).WholeWords (EltTy.packing .f32)

variable [Facts₀]

abbrev win0_0 : Pipeline.Window sig grid0 :=
  Pipeline.Window.ofSpec (Memref.whole main_v0) S16x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v0) S8x64x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S8x5.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S8x5.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S8x5.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16) S8x5.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v19) S8x5.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v22) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S8x64x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S128x256x1024x1 : Shape := ⟨4, ![128, 256, 1024, 1]⟩
abbrev S128x5 : Shape := ⟨2, ![128, 5]⟩
abbrev S_ : Shape := ⟨0, ![]⟩
abbrev S256 : Shape := ⟨1, ![256]⟩
abbrev S1024 : Shape := ⟨1, ![1024]⟩
abbrev S128x256x1024 : Shape := ⟨3, ![128, 256, 1024]⟩
abbrev S128x1 : Shape := ⟨2, ![128, 1]⟩
abbrev S128 : Shape := ⟨1, ![128]⟩
abbrev S1x256 : Shape := ⟨2, ![1, 256]⟩
abbrev S128x256 : Shape := ⟨2, ![128, 256]⟩
abbrev S1x1024 : Shape := ⟨2, ![1, 1024]⟩
abbrev S128x1024 : Shape := ⟨2, ![128, 1024]⟩
abbrev S128x256x1 : Shape := ⟨3, ![128, 256, 1]⟩
abbrev S128x1x1024 : Shape := ⟨3, ![128, 1, 1024]⟩
abbrev S128x1x1 : Shape := ⟨3, ![128, 1, 1]⟩

abbrev nBuf : Space → Nat
  | .hbm => 345
  | .vmem => 0
  | .smem => 0
  | _ => 0

abbrev hbmTy0_0 (i : Nat) : BufTy := match i % 128 with
  | 0 => ⟨S128x256x1024x1, .f32⟩
  | 1 => ⟨S128x5, .i32⟩
  | 2 => ⟨S128x5, .i32⟩
  | 3 => ⟨S128x5, .i32⟩
  | 4 => ⟨S128x5, .i32⟩
  | 5 => ⟨S128x5, .f32⟩
  | 6 => ⟨S_, .i32⟩
  | 7 => ⟨S128x5, .i32⟩
  | 8 => ⟨S128x5, .i32⟩
  | 9 => ⟨S_, .i32⟩
  | 10 => ⟨S128x5, .i32⟩
  | 11 => ⟨S128x5, .i32⟩
  | 12 => ⟨S_, .i32⟩
  | 13 => ⟨S_, .i32⟩
  | 14 => ⟨S128x5, .i32⟩
  | 15 => ⟨S128x5, .i32⟩
  | 16 => ⟨S128x5, .i32⟩
  | 17 => ⟨S_, .i32⟩
  | 18 => ⟨S128x5, .i32⟩
  | 19 => ⟨S128x5, .i1⟩
  | 20 => ⟨S128x5, .i32⟩
  | 21 => ⟨S128x5, .i32⟩
  | 22 => ⟨S_, .i32⟩
  | 23 => ⟨S128x5, .i32⟩
  | 24 => ⟨S128x5, .i1⟩
  | 25 => ⟨S128x5, .i1⟩
  | 26 => ⟨S_, .i32⟩
  | 27 => ⟨S128x5, .i32⟩
  | 28 => ⟨S128x5, .i32⟩
  | 29 => ⟨S128x5, .i32⟩
  | 30 => ⟨S128x5, .i32⟩
  | 31 => ⟨S_, .i32⟩
  | 32 => ⟨S_, .i32⟩
  | 33 => ⟨S_, .i32⟩
  | 34 => ⟨S128x5, .i32⟩
  | 35 => ⟨S128x5, .i32⟩
  | 36 => ⟨S_, .i32⟩
  | 37 => ⟨S128x5, .i32⟩
  | 38 => ⟨S128x5, .i32⟩
  | 39 => ⟨S_, .i32⟩
  | 40 => ⟨S_, .i32⟩
  | 41 => ⟨S128x5, .i32⟩
  | 42 => ⟨S128x5, .i32⟩
  | 43 => ⟨S128x5, .i32⟩
  | 44 => ⟨S_, .i32⟩
  | 45 => ⟨S128x5, .i32⟩
  | 46 => ⟨S128x5, .i1⟩
  | 47 => ⟨S128x5, .i32⟩
  | 48 => ⟨S128x5, .i32⟩
  | 49 => ⟨S_, .i32⟩
  | 50 => ⟨S128x5, .i32⟩
  | 51 => ⟨S128x5, .i1⟩
  | 52 => ⟨S128x5, .i1⟩
  | 53 => ⟨S_, .i32⟩
  | 54 => ⟨S128x5, .i32⟩
  | 55 => ⟨S128x5, .i32⟩
  | 56 => ⟨S128x5, .i32⟩
  | 57 => ⟨S128x5, .i32⟩
  | 58 => ⟨S_, .i32⟩
  | 59 => ⟨S_, .i32⟩
  | 60 => ⟨S_, .i32⟩
  | 61 => ⟨S128x5, .i32⟩
  | 62 => ⟨S128x5, .i32⟩
  | 63 => ⟨S_, .i32⟩
  | 64 => ⟨S128x5, .i32⟩
  | 65 => ⟨S128x5, .i32⟩
  | 66 => ⟨S_, .i32⟩
  | 67 => ⟨S_, .i32⟩
  | 68 => ⟨S128x5, .i32⟩
  | 69 => ⟨S128x5, .i32⟩
  | 70 => ⟨S128x5, .i32⟩
  | 71 => ⟨S_, .i32⟩
  | 72 => ⟨S128x5, .i32⟩
  | 73 => ⟨S128x5, .i1⟩
  | 74 => ⟨S128x5, .i32⟩
  | 75 => ⟨S128x5, .i32⟩
  | 76 => ⟨S_, .i32⟩
  | 77 => ⟨S128x5, .i32⟩
  | 78 => ⟨S128x5, .i1⟩
  | 79 => ⟨S128x5, .i1⟩
  | 80 => ⟨S_, .i32⟩
  | 81 => ⟨S128x5, .i32⟩
  | 82 => ⟨S128x5, .i32⟩
  | 83 => ⟨S128x5, .i32⟩
  | 84 => ⟨S128x5, .i32⟩
  | 85 => ⟨S_, .i32⟩
  | 86 => ⟨S_, .i32⟩
  | 87 => ⟨S_, .i32⟩
  | 88 => ⟨S128x5, .i32⟩
  | 89 => ⟨S128x5, .i32⟩
  | 90 => ⟨S_, .i32⟩
  | 91 => ⟨S128x5, .i32⟩
  | 92 => ⟨S128x5, .i32⟩
  | 93 => ⟨S_, .i32⟩
  | 94 => ⟨S_, .i32⟩
  | 95 => ⟨S128x5, .i32⟩
  | 96 => ⟨S128x5, .i32⟩
  | 97 => ⟨S128x5, .i32⟩
  | 98 => ⟨S_, .i32⟩
  | 99 => ⟨S128x5, .i32⟩
  | 100 => ⟨S128x5, .i1⟩
  | 101 => ⟨S128x5, .i32⟩
  | 102 => ⟨S128x5, .i32⟩
  | 103 => ⟨S_, .i32⟩
  | 104 => ⟨S128x5, .i32⟩
  | 105 => ⟨S128x5, .i1⟩
  | 106 => ⟨S128x5, .i1⟩
  | 107 => ⟨S_, .i32⟩
  | 108 => ⟨S128x5, .i32⟩
  | 109 => ⟨S128x5, .i32⟩
  | 110 => ⟨S128x5, .i32⟩
  | 111 => ⟨S128x5, .i32⟩
  | 112 => ⟨S_, .i32⟩
  | 113 => ⟨S_, .i32⟩
  | 114 => ⟨S_, .i32⟩
  | 115 => ⟨S128x5, .i32⟩
  | 116 => ⟨S128x5, .i32⟩
  | 117 => ⟨S_, .i32⟩
  | 118 => ⟨S128x5, .i32⟩
  | 119 => ⟨S128x5, .i32⟩
  | 120 => ⟨S_, .f32⟩
  | 121 => ⟨S128x5, .f32⟩
  | 122 => ⟨S128x5, .i1⟩
  | 123 => ⟨S256, .i32⟩
  | 124 => ⟨S1024, .i32⟩
  | 125 => ⟨S_, .i1⟩
  | 126 => ⟨S128x256x1024, .i1⟩
  | 127 => ⟨S128x1, .i32⟩
  | _ => ⟨S128x256x1024x1, .f32⟩

abbrev hbmTy0_1 (i : Nat) : BufTy := match i % 128 with
  | 0 => ⟨S128, .i32⟩
  | 1 => ⟨S128x1, .i32⟩
  | 2 => ⟨S1x256, .i32⟩
  | 3 => ⟨S128x256, .i32⟩
  | 4 => ⟨S128x256, .i32⟩
  | 5 => ⟨S128x256, .i1⟩
  | 6 => ⟨S128x1, .i32⟩
  | 7 => ⟨S128, .i32⟩
  | 8 => ⟨S128x1, .i32⟩
  | 9 => ⟨S1x256, .i32⟩
  | 10 => ⟨S128x256, .i32⟩
  | 11 => ⟨S128x256, .i32⟩
  | 12 => ⟨S128x256, .i1⟩
  | 13 => ⟨S128x256, .i1⟩
  | 14 => ⟨S128x1, .i32⟩
  | 15 => ⟨S128, .i32⟩
  | 16 => ⟨S128x1, .i32⟩
  | 17 => ⟨S1x1024, .i32⟩
  | 18 => ⟨S128x1024, .i32⟩
  | 19 => ⟨S128x1024, .i32⟩
  | 20 => ⟨S128x1024, .i1⟩
  | 21 => ⟨S128x1, .i32⟩
  | 22 => ⟨S128, .i32⟩
  | 23 => ⟨S128x1, .i32⟩
  | 24 => ⟨S1x1024, .i32⟩
  | 25 => ⟨S128x1024, .i32⟩
  | 26 => ⟨S128x1024, .i32⟩
  | 27 => ⟨S128x1024, .i1⟩
  | 28 => ⟨S128x1024, .i1⟩
  | 29 => ⟨S128x256x1, .i1⟩
  | 30 => ⟨S128x1x1024, .i1⟩
  | 31 => ⟨S128x256x1024, .i1⟩
  | 32 => ⟨S128x256x1024, .i1⟩
  | 33 => ⟨S128x256x1024, .i1⟩
  | 34 => ⟨S128x1, .i1⟩
  | 35 => ⟨S128, .i1⟩
  | 36 => ⟨S128x1x1, .i1⟩
  | 37 => ⟨S128x256x1024, .i1⟩
  | 38 => ⟨S128x256x1024, .i1⟩
  | 39 => ⟨S128x256x1024, .i1⟩
  | 40 => ⟨S128x1, .i32⟩
  | 41 => ⟨S128, .i32⟩
  | 42 => ⟨S128x1, .i32⟩
  | 43 => ⟨S1x256, .i32⟩
  | 44 => ⟨S128x256, .i32⟩
  | 45 => ⟨S128x256, .i32⟩
  | 46 => ⟨S128x256, .i1⟩
  | 47 => ⟨S128x1, .i32⟩
  | 48 => ⟨S128, .i32⟩
  | 49 => ⟨S128x1, .i32⟩
  | 50 => ⟨S1x256, .i32⟩
  | 51 => ⟨S128x256, .i32⟩
  | 52 => ⟨S128x256, .i32⟩
  | 53 => ⟨S128x256, .i1⟩
  | 54 => ⟨S128x256, .i1⟩
  | 55 => ⟨S128x1, .i32⟩
  | 56 => ⟨S128, .i32⟩
  | 57 => ⟨S128x1, .i32⟩
  | 58 => ⟨S1x1024, .i32⟩
  | 59 => ⟨S128x1024, .i32⟩
  | 60 => ⟨S128x1024, .i32⟩
  | 61 => ⟨S128x1024, .i1⟩
  | 62 => ⟨S128x1, .i32⟩
  | 63 => ⟨S128, .i32⟩
  | 64 => ⟨S128x1, .i32⟩
  | 65 => ⟨S1x1024, .i32⟩
  | 66 => ⟨S128x1024, .i32⟩
  | 67 => ⟨S128x1024, .i32⟩
  | 68 => ⟨S128x1024, .i1⟩
  | 69 => ⟨S128x1024, .i1⟩
  | 70 => ⟨S128x256x1, .i1⟩
  | 71 => ⟨S128x1x1024, .i1⟩
  | 72 => ⟨S128x256x1024, .i1⟩
  | 73 => ⟨S128x256x1024, .i1⟩
  | 74 => ⟨S128x256x1024, .i1⟩
  | 75 => ⟨S128x1, .i1⟩
  | 76 => ⟨S128, .i1⟩
  | 77 => ⟨S128x1x1, .i1⟩
  | 78 => ⟨S128x256x1024, .i1⟩
  | 79 => ⟨S128x256x1024, .i1⟩
  | 80 => ⟨S128x256x1024, .i1⟩
  | 81 => ⟨S128x1, .i32⟩
  | 82 => ⟨S128, .i32⟩
  | 83 => ⟨S128x1, .i32⟩
  | 84 => ⟨S1x256, .i32⟩
  | 85 => ⟨S128x256, .i32⟩
  | 86 => ⟨S128x256, .i32⟩
  | 87 => ⟨S128x256, .i1⟩
  | 88 => ⟨S128x1, .i32⟩
  | 89 => ⟨S128, .i32⟩
  | 90 => ⟨S128x1, .i32⟩
  | 91 => ⟨S1x256, .i32⟩
  | 92 => ⟨S128x256, .i32⟩
  | 93 => ⟨S128x256, .i32⟩
  | 94 => ⟨S128x256, .i1⟩
  | 95 => ⟨S128x256, .i1⟩
  | 96 => ⟨S128x1, .i32⟩
  | 97 => ⟨S128, .i32⟩
  | 98 => ⟨S128x1, .i32⟩
  | 99 => ⟨S1x1024, .i32⟩
  | 100 => ⟨S128x1024, .i32⟩
  | 101 => ⟨S128x1024, .i32⟩
  | 102 => ⟨S128x1024, .i1⟩
  | 103 => ⟨S128x1, .i32⟩
  | 104 => ⟨S128, .i32⟩
  | 105 => ⟨S128x1, .i32⟩
  | 106 => ⟨S1x1024, .i32⟩
  | 107 => ⟨S128x1024, .i32⟩
  | 108 => ⟨S128x1024, .i32⟩
  | 109 => ⟨S128x1024, .i1⟩
  | 110 => ⟨S128x1024, .i1⟩
  | 111 => ⟨S128x256x1, .i1⟩
  | 112 => ⟨S128x1x1024, .i1⟩
  | 113 => ⟨S128x256x1024, .i1⟩
  | 114 => ⟨S128x256x1024, .i1⟩
  | 115 => ⟨S128x256x1024, .i1⟩
  | 116 => ⟨S128x1, .i1⟩
  | 117 => ⟨S128, .i1⟩
  | 118 => ⟨S128x1x1, .i1⟩
  | 119 => ⟨S128x256x1024, .i1⟩
  | 120 => ⟨S128x256x1024, .i1⟩
  | 121 => ⟨S128x256x1024, .i1⟩
  | 122 => ⟨S128x1, .i32⟩
  | 123 => ⟨S128, .i32⟩
  | 124 => ⟨S128x1, .i32⟩
  | 125 => ⟨S1x256, .i32⟩
  | 126 => ⟨S128x256, .i32⟩
  | 127 => ⟨S128x256, .i32⟩
  | _ => ⟨S128x256x1024x1, .f32⟩

abbrev hbmTy0_2 (i : Nat) : BufTy := match i % 128 with
  | 0 => ⟨S128x256, .i1⟩
  | 1 => ⟨S128x1, .i32⟩
  | 2 => ⟨S128, .i32⟩
  | 3 => ⟨S128x1, .i32⟩
  | 4 => ⟨S1x256, .i32⟩
  | 5 => ⟨S128x256, .i32⟩
  | 6 => ⟨S128x256, .i32⟩
  | 7 => ⟨S128x256, .i1⟩
  | 8 => ⟨S128x256, .i1⟩
  | 9 => ⟨S128x1, .i32⟩
  | 10 => ⟨S128, .i32⟩
  | 11 => ⟨S128x1, .i32⟩
  | 12 => ⟨S1x1024, .i32⟩
  | 13 => ⟨S128x1024, .i32⟩
  | 14 => ⟨S128x1024, .i32⟩
  | 15 => ⟨S128x1024, .i1⟩
  | 16 => ⟨S128x1, .i32⟩
  | 17 => ⟨S128, .i32⟩
  | 18 => ⟨S128x1, .i32⟩
  | 19 => ⟨S1x1024, .i32⟩
  | 20 => ⟨S128x1024, .i32⟩
  | 21 => ⟨S128x1024, .i32⟩
  | 22 => ⟨S128x1024, .i1⟩
  | 23 => ⟨S128x1024, .i1⟩
  | 24 => ⟨S128x256x1, .i1⟩
  | 25 => ⟨S128x1x1024, .i1⟩
  | 26 => ⟨S128x256x1024, .i1⟩
  | 27 => ⟨S128x256x1024, .i1⟩
  | 28 => ⟨S128x256x1024, .i1⟩
  | 29 => ⟨S128x1, .i1⟩
  | 30 => ⟨S128, .i1⟩
  | 31 => ⟨S128x1x1, .i1⟩
  | 32 => ⟨S128x256x1024, .i1⟩
  | 33 => ⟨S128x256x1024, .i1⟩
  | 34 => ⟨S128x256x1024, .i1⟩
  | 35 => ⟨S128x1, .i32⟩
  | 36 => ⟨S128, .i32⟩
  | 37 => ⟨S128x1, .i32⟩
  | 38 => ⟨S1x256, .i32⟩
  | 39 => ⟨S128x256, .i32⟩
  | 40 => ⟨S128x256, .i32⟩
  | 41 => ⟨S128x256, .i1⟩
  | 42 => ⟨S128x1, .i32⟩
  | 43 => ⟨S128, .i32⟩
  | 44 => ⟨S128x1, .i32⟩
  | 45 => ⟨S1x256, .i32⟩
  | 46 => ⟨S128x256, .i32⟩
  | 47 => ⟨S128x256, .i32⟩
  | 48 => ⟨S128x256, .i1⟩
  | 49 => ⟨S128x256, .i1⟩
  | 50 => ⟨S128x1, .i32⟩
  | 51 => ⟨S128, .i32⟩
  | 52 => ⟨S128x1, .i32⟩
  | 53 => ⟨S1x1024, .i32⟩
  | 54 => ⟨S128x1024, .i32⟩
  | 55 => ⟨S128x1024, .i32⟩
  | 56 => ⟨S128x1024, .i1⟩
  | 57 => ⟨S128x1, .i32⟩
  | 58 => ⟨S128, .i32⟩
  | 59 => ⟨S128x1, .i32⟩
  | 60 => ⟨S1x1024, .i32⟩
  | 61 => ⟨S128x1024, .i32⟩
  | 62 => ⟨S128x1024, .i32⟩
  | 63 => ⟨S128x1024, .i1⟩
  | 64 => ⟨S128x1024, .i1⟩
  | 65 => ⟨S128x256x1, .i1⟩
  | 66 => ⟨S128x1x1024, .i1⟩
  | 67 => ⟨S128x256x1024, .i1⟩
  | 68 => ⟨S128x256x1024, .i1⟩
  | 69 => ⟨S128x256x1024, .i1⟩
  | 70 => ⟨S128x1, .i1⟩
  | 71 => ⟨S128, .i1⟩
  | 72 => ⟨S128x1x1, .i1⟩
  | 73 => ⟨S128x256x1024, .i1⟩
  | 74 => ⟨S128x256x1024, .i1⟩
  | 75 => ⟨S128x256x1024, .i1⟩
  | 76 => ⟨S128x256x1024x1, .i1⟩
  | 77 => ⟨S128x256x1024x1, .f32⟩
  | 78 => ⟨S_, .f32⟩
  | 79 => ⟨S_, .f32⟩
  | 80 => ⟨S_, .f32⟩
  | 81 => ⟨S_, .f32⟩
  | 82 => ⟨S_, .f32⟩
  | 83 => ⟨S128x256x1024x1, .f32⟩
  | 84 => ⟨S128x256x1024x1, .f32⟩
  | 85 => ⟨S128x256x1024x1, .f32⟩
  | 86 => ⟨S128x256x1024x1, .f32⟩
  | 87 => ⟨S128x256x1024x1, .f32⟩
  | 88 => ⟨S128x256x1024x1, .f32⟩
  | _ => ⟨S128x256x1024x1, .f32⟩

abbrev hbmTy (i : Nat) : BufTy := match i / 128 with
  | 0 => hbmTy0_0 i
  | 1 => hbmTy0_1 i
  | 2 => hbmTy0_2 i
  | _ => ⟨S128x256x1024x1, .f32⟩

abbrev bufTy : (tb : Table) → Fin (tcTables nBuf tb) → BufTy
  | .hbm, ⟨i, _⟩ => hbmTy i
  | _, _ => ⟨S128x256x1024x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_v5 : Ref sig .tc := ⟨.hbm, 30, rfl⟩
abbrev main_c_2 : Ref sig .tc := ⟨.hbm, 31, rfl⟩
abbrev main_c_3 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v6 : Ref sig .tc := ⟨.hbm, 38, rfl⟩
abbrev main_c_4 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_v5 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_c : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_0 : Ref sig .tc := ⟨.hbm, 53, rfl⟩
abbrev main_call2_v12 : Ref sig .tc := ⟨.hbm, 54, rfl⟩
abbrev main_call2_v13 : Ref sig .tc := ⟨.hbm, 55, rfl⟩
abbrev main_v7 : Ref sig .tc := ⟨.hbm, 56, rfl⟩
abbrev main_v8 : Ref sig .tc := ⟨.hbm, 57, rfl⟩
abbrev main_c_5 : Ref sig .tc := ⟨.hbm, 58, rfl⟩
abbrev main_c_6 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_v9 : Ref sig .tc := ⟨.hbm, 65, rfl⟩
abbrev main_c_7 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_call4_v3 : Ref sig .tc := ⟨.hbm, 70, rfl⟩
abbrev main_call4_v4 : Ref sig .tc := ⟨.hbm, 71, rfl⟩
abbrev main_call4_v5 : Ref sig .tc := ⟨.hbm, 72, rfl⟩
abbrev main_call4_v6 : Ref sig .tc := ⟨.hbm, 73, rfl⟩
abbrev main_call4_v7 : Ref sig .tc := ⟨.hbm, 74, rfl⟩
abbrev main_call4_v8 : Ref sig .tc := ⟨.hbm, 75, rfl⟩
abbrev main_call4_c : Ref sig .tc := ⟨.hbm, 76, rfl⟩
abbrev main_call4_v9 : Ref sig .tc := ⟨.hbm, 77, rfl⟩
abbrev main_call4_v10 : Ref sig .tc := ⟨.hbm, 78, rfl⟩
abbrev main_call4_v11 : Ref sig .tc := ⟨.hbm, 79, rfl⟩
abbrev main_call4_c_0 : Ref sig .tc := ⟨.hbm, 80, rfl⟩
abbrev main_call4_v12 : Ref sig .tc := ⟨.hbm, 81, rfl⟩
abbrev main_call4_v13 : Ref sig .tc := ⟨.hbm, 82, rfl⟩
abbrev main_v10 : Ref sig .tc := ⟨.hbm, 83, rfl⟩
abbrev main_v11 : Ref sig .tc := ⟨.hbm, 84, rfl⟩
abbrev main_c_8 : Ref sig .tc := ⟨.hbm, 85, rfl⟩
abbrev main_c_9 : Ref sig .tc := ⟨.hbm, 86, rfl⟩
abbrev main_call5_v0 : Ref sig .tc := ⟨.hbm, 87, rfl⟩
abbrev main_call5_v1 : Ref sig .tc := ⟨.hbm, 88, rfl⟩
abbrev main_call5_v2 : Ref sig .tc := ⟨.hbm, 89, rfl⟩
abbrev main_call5_v3 : Ref sig .tc := ⟨.hbm, 90, rfl⟩
abbrev main_call5_v4 : Ref sig .tc := ⟨.hbm, 91, rfl⟩
abbrev main_v12 : Ref sig .tc := ⟨.hbm, 92, rfl⟩
abbrev main_c_10 : Ref sig .tc := ⟨.hbm, 93, rfl⟩
abbrev main_call6_v0 : Ref sig .tc := ⟨.hbm, 94, rfl⟩
abbrev main_call6_v1 : Ref sig .tc := ⟨.hbm, 95, rfl⟩
abbrev main_call6_v2 : Ref sig .tc := ⟨.hbm, 96, rfl⟩
abbrev main_call6_v3 : Ref sig .tc := ⟨.hbm, 97, rfl⟩
abbrev main_call6_v4 : Ref sig .tc := ⟨.hbm, 98, rfl⟩
abbrev main_call6_v5 : Ref sig .tc := ⟨.hbm, 99, rfl⟩
abbrev main_call6_v6 : Ref sig .tc := ⟨.hbm, 100, rfl⟩
abbrev main_call6_v7 : Ref sig .tc := ⟨.hbm, 101, rfl⟩
abbrev main_call6_v8 : Ref sig .tc := ⟨.hbm, 102, rfl⟩
abbrev main_call6_c : Ref sig .tc := ⟨.hbm, 103, rfl⟩
abbrev main_call6_v9 : Ref sig .tc := ⟨.hbm, 104, rfl⟩
abbrev main_call6_v10 : Ref sig .tc := ⟨.hbm, 105, rfl⟩
abbrev main_call6_v11 : Ref sig .tc := ⟨.hbm, 106, rfl⟩
abbrev main_call6_c_0 : Ref sig .tc := ⟨.hbm, 107, rfl⟩
abbrev main_call6_v12 : Ref sig .tc := ⟨.hbm, 108, rfl⟩
abbrev main_call6_v13 : Ref sig .tc := ⟨.hbm, 109, rfl⟩
abbrev main_v13 : Ref sig .tc := ⟨.hbm, 110, rfl⟩
abbrev main_v14 : Ref sig .tc := ⟨.hbm, 111, rfl⟩
abbrev main_c_11 : Ref sig .tc := ⟨.hbm, 112, rfl⟩
abbrev main_c_12 : Ref sig .tc := ⟨.hbm, 113, rfl⟩
abbrev main_call7_v0 : Ref sig .tc := ⟨.hbm, 114, rfl⟩
abbrev main_call7_v1 : Ref sig .tc := ⟨.hbm, 115, rfl⟩
abbrev main_call7_v2 : Ref sig .tc := ⟨.hbm, 116, rfl⟩
abbrev main_call7_v3 : Ref sig .tc := ⟨.hbm, 117, rfl⟩
abbrev main_call7_v4 : Ref sig .tc := ⟨.hbm, 118, rfl⟩
abbrev main_v15 : Ref sig .tc := ⟨.hbm, 119, rfl⟩
abbrev main_cst : Ref sig .tc := ⟨.hbm, 120, rfl⟩
abbrev main_v16 : Ref sig .tc := ⟨.hbm, 121, rfl⟩
abbrev main_v17 : Ref sig .tc := ⟨.hbm, 122, rfl⟩
abbrev main_v18 : Ref sig .tc := ⟨.hbm, 123, rfl⟩
abbrev main_v19 : Ref sig .tc := ⟨.hbm, 124, rfl⟩
abbrev main_c_13 : Ref sig .tc := ⟨.hbm, 125, rfl⟩
abbrev main_v20 : Ref sig .tc := ⟨.hbm, 126, rfl⟩
abbrev main_v21 : Ref sig .tc := ⟨.hbm, 127, rfl⟩
abbrev main_v22 : Ref sig .tc := ⟨.hbm, 128, rfl⟩
abbrev main_v23 : Ref sig .tc := ⟨.hbm, 129, rfl⟩
abbrev main_v24 : Ref sig .tc := ⟨.hbm, 130, rfl⟩
abbrev main_v25 : Ref sig .tc := ⟨.hbm, 131, rfl⟩
abbrev main_v26 : Ref sig .tc := ⟨.hbm, 132, rfl⟩
abbrev main_v27 : Ref sig .tc := ⟨.hbm, 133, rfl⟩
abbrev main_v28 : Ref sig .tc := ⟨.hbm, 134, rfl⟩
abbrev main_v29 : Ref sig .tc := ⟨.hbm, 135, rfl⟩
abbrev main_v30 : Ref sig .tc := ⟨.hbm, 136, rfl⟩
abbrev main_v31 : Ref sig .tc := ⟨.hbm, 137, rfl⟩
abbrev main_v32 : Ref sig .tc := ⟨.hbm, 138, rfl⟩
abbrev main_v33 : Ref sig .tc := ⟨.hbm, 139, rfl⟩
abbrev main_v34 : Ref sig .tc := ⟨.hbm, 140, rfl⟩
abbrev main_v35 : Ref sig .tc := ⟨.hbm, 141, rfl⟩
abbrev main_v36 : Ref sig .tc := ⟨.hbm, 142, rfl⟩
abbrev main_v37 : Ref sig .tc := ⟨.hbm, 143, rfl⟩
abbrev main_v38 : Ref sig .tc := ⟨.hbm, 144, rfl⟩
abbrev main_v39 : Ref sig .tc := ⟨.hbm, 145, rfl⟩
abbrev main_v40 : Ref sig .tc := ⟨.hbm, 146, rfl⟩
abbrev main_v41 : Ref sig .tc := ⟨.hbm, 147, rfl⟩
abbrev main_v42 : Ref sig .tc := ⟨.hbm, 148, rfl⟩
abbrev main_v43 : Ref sig .tc := ⟨.hbm, 149, rfl⟩
abbrev main_v44 : Ref sig .tc := ⟨.hbm, 150, rfl⟩
abbrev main_v45 : Ref sig .tc := ⟨.hbm, 151, rfl⟩
abbrev main_v46 : Ref sig .tc := ⟨.hbm, 152, rfl⟩
abbrev main_v47 : Ref sig .tc := ⟨.hbm, 153, rfl⟩
abbrev main_v48 : Ref sig .tc := ⟨.hbm, 154, rfl⟩
abbrev main_v49 : Ref sig .tc := ⟨.hbm, 155, rfl⟩
abbrev main_v50 : Ref sig .tc := ⟨.hbm, 156, rfl⟩
abbrev main_v51 : Ref sig .tc := ⟨.hbm, 157, rfl⟩
abbrev main_v52 : Ref sig .tc := ⟨.hbm, 158, rfl⟩
abbrev main_v53 : Ref sig .tc := ⟨.hbm, 159, rfl⟩
abbrev main_v54 : Ref sig .tc := ⟨.hbm, 160, rfl⟩
abbrev main_v55 : Ref sig .tc := ⟨.hbm, 161, rfl⟩
abbrev main_v56 : Ref sig .tc := ⟨.hbm, 162, rfl⟩
abbrev main_v57 : Ref sig .tc := ⟨.hbm, 163, rfl⟩
abbrev main_v58 : Ref sig .tc := ⟨.hbm, 164, rfl⟩
abbrev main_v59 : Ref sig .tc := ⟨.hbm, 165, rfl⟩
abbrev main_v60 : Ref sig .tc := ⟨.hbm, 166, rfl⟩
abbrev main_v61 : Ref sig .tc := ⟨.hbm, 167, rfl⟩
abbrev main_v62 : Ref sig .tc := ⟨.hbm, 168, rfl⟩
abbrev main_v63 : Ref sig .tc := ⟨.hbm, 169, rfl⟩
abbrev main_v64 : Ref sig .tc := ⟨.hbm, 170, rfl⟩
abbrev main_v65 : Ref sig .tc := ⟨.hbm, 171, rfl⟩
abbrev main_v66 : Ref sig .tc := ⟨.hbm, 172, rfl⟩
abbrev main_v67 : Ref sig .tc := ⟨.hbm, 173, rfl⟩
abbrev main_v68 : Ref sig .tc := ⟨.hbm, 174, rfl⟩
abbrev main_v69 : Ref sig .tc := ⟨.hbm, 175, rfl⟩
abbrev main_v70 : Ref sig .tc := ⟨.hbm, 176, rfl⟩
abbrev main_v71 : Ref sig .tc := ⟨.hbm, 177, rfl⟩
abbrev main_v72 : Ref sig .tc := ⟨.hbm, 178, rfl⟩
abbrev main_v73 : Ref sig .tc := ⟨.hbm, 179, rfl⟩
abbrev main_v74 : Ref sig .tc := ⟨.hbm, 180, rfl⟩
abbrev main_v75 : Ref sig .tc := ⟨.hbm, 181, rfl⟩
abbrev main_v76 : Ref sig .tc := ⟨.hbm, 182, rfl⟩
abbrev main_v77 : Ref sig .tc := ⟨.hbm, 183, rfl⟩
abbrev main_v78 : Ref sig .tc := ⟨.hbm, 184, rfl⟩
abbrev main_v79 : Ref sig .tc := ⟨.hbm, 185, rfl⟩
abbrev main_v80 : Ref sig .tc := ⟨.hbm, 186, rfl⟩
abbrev main_v81 : Ref sig .tc := ⟨.hbm, 187, rfl⟩
abbrev main_v82 : Ref sig .tc := ⟨.hbm, 188, rfl⟩
abbrev main_v83 : Ref sig .tc := ⟨.hbm, 189, rfl⟩
abbrev main_v84 : Ref sig .tc := ⟨.hbm, 190, rfl⟩
abbrev main_v85 : Ref sig .tc := ⟨.hbm, 191, rfl⟩
abbrev main_v86 : Ref sig .tc := ⟨.hbm, 192, rfl⟩
abbrev main_v87 : Ref sig .tc := ⟨.hbm, 193, rfl⟩
abbrev main_v88 : Ref sig .tc := ⟨.hbm, 194, rfl⟩
abbrev main_v89 : Ref sig .tc := ⟨.hbm, 195, rfl⟩
abbrev main_v90 : Ref sig .tc := ⟨.hbm, 196, rfl⟩
abbrev main_v91 : Ref sig .tc := ⟨.hbm, 197, rfl⟩
abbrev main_v92 : Ref sig .tc := ⟨.hbm, 198, rfl⟩
abbrev main_v93 : Ref sig .tc := ⟨.hbm, 199, rfl⟩
abbrev main_v94 : Ref sig .tc := ⟨.hbm, 200, rfl⟩
abbrev main_v95 : Ref sig .tc := ⟨.hbm, 201, rfl⟩
abbrev main_v96 : Ref sig .tc := ⟨.hbm, 202, rfl⟩
abbrev main_v97 : Ref sig .tc := ⟨.hbm, 203, rfl⟩
abbrev main_v98 : Ref sig .tc := ⟨.hbm, 204, rfl⟩
abbrev main_v99 : Ref sig .tc := ⟨.hbm, 205, rfl⟩
abbrev main_v100 : Ref sig .tc := ⟨.hbm, 206, rfl⟩
abbrev main_v101 : Ref sig .tc := ⟨.hbm, 207, rfl⟩
abbrev main_v102 : Ref sig .tc := ⟨.hbm, 208, rfl⟩
abbrev main_v103 : Ref sig .tc := ⟨.hbm, 209, rfl⟩
abbrev main_v104 : Ref sig .tc := ⟨.hbm, 210, rfl⟩
abbrev main_v105 : Ref sig .tc := ⟨.hbm, 211, rfl⟩
abbrev main_v106 : Ref sig .tc := ⟨.hbm, 212, rfl⟩
abbrev main_v107 : Ref sig .tc := ⟨.hbm, 213, rfl⟩
abbrev main_v108 : Ref sig .tc := ⟨.hbm, 214, rfl⟩
abbrev main_v109 : Ref sig .tc := ⟨.hbm, 215, rfl⟩
abbrev main_v110 : Ref sig .tc := ⟨.hbm, 216, rfl⟩
abbrev main_v111 : Ref sig .tc := ⟨.hbm, 217, rfl⟩
abbrev main_v112 : Ref sig .tc := ⟨.hbm, 218, rfl⟩
abbrev main_v113 : Ref sig .tc := ⟨.hbm, 219, rfl⟩
abbrev main_v114 : Ref sig .tc := ⟨.hbm, 220, rfl⟩
abbrev main_v115 : Ref sig .tc := ⟨.hbm, 221, rfl⟩
abbrev main_v116 : Ref sig .tc := ⟨.hbm, 222, rfl⟩
abbrev main_v117 : Ref sig .tc := ⟨.hbm, 223, rfl⟩
abbrev main_v118 : Ref sig .tc := ⟨.hbm, 224, rfl⟩
abbrev main_v119 : Ref sig .tc := ⟨.hbm, 225, rfl⟩
abbrev main_v120 : Ref sig .tc := ⟨.hbm, 226, rfl⟩
abbrev main_v121 : Ref sig .tc := ⟨.hbm, 227, rfl⟩
abbrev main_v122 : Ref sig .tc := ⟨.hbm, 228, rfl⟩
abbrev main_v123 : Ref sig .tc := ⟨.hbm, 229, rfl⟩
abbrev main_v124 : Ref sig .tc := ⟨.hbm, 230, rfl⟩
abbrev main_v125 : Ref sig .tc := ⟨.hbm, 231, rfl⟩
abbrev main_v126 : Ref sig .tc := ⟨.hbm, 232, rfl⟩
abbrev main_v127 : Ref sig .tc := ⟨.hbm, 233, rfl⟩
abbrev main_v128 : Ref sig .tc := ⟨.hbm, 234, rfl⟩
abbrev main_v129 : Ref sig .tc := ⟨.hbm, 235, rfl⟩
abbrev main_v130 : Ref sig .tc := ⟨.hbm, 236, rfl⟩
abbrev main_v131 : Ref sig .tc := ⟨.hbm, 237, rfl⟩
abbrev main_v132 : Ref sig .tc := ⟨.hbm, 238, rfl⟩
abbrev main_v133 : Ref sig .tc := ⟨.hbm, 239, rfl⟩
abbrev main_v134 : Ref sig .tc := ⟨.hbm, 240, rfl⟩
abbrev main_v135 : Ref sig .tc := ⟨.hbm, 241, rfl⟩
abbrev main_v136 : Ref sig .tc := ⟨.hbm, 242, rfl⟩
abbrev main_v137 : Ref sig .tc := ⟨.hbm, 243, rfl⟩
abbrev main_v138 : Ref sig .tc := ⟨.hbm, 244, rfl⟩
abbrev main_v139 : Ref sig .tc := ⟨.hbm, 245, rfl⟩
abbrev main_v140 : Ref sig .tc := ⟨.hbm, 246, rfl⟩
abbrev main_v141 : Ref sig .tc := ⟨.hbm, 247, rfl⟩
abbrev main_v142 : Ref sig .tc := ⟨.hbm, 248, rfl⟩
abbrev main_v143 : Ref sig .tc := ⟨.hbm, 249, rfl⟩
abbrev main_v144 : Ref sig .tc := ⟨.hbm, 250, rfl⟩
abbrev main_v145 : Ref sig .tc := ⟨.hbm, 251, rfl⟩
abbrev main_v146 : Ref sig .tc := ⟨.hbm, 252, rfl⟩
abbrev main_v147 : Ref sig .tc := ⟨.hbm, 253, rfl⟩
abbrev main_v148 : Ref sig .tc := ⟨.hbm, 254, rfl⟩
abbrev main_v149 : Ref sig .tc := ⟨.hbm, 255, rfl⟩
abbrev main_v150 : Ref sig .tc := ⟨.hbm, 256, rfl⟩
abbrev main_v151 : Ref sig .tc := ⟨.hbm, 257, rfl⟩
abbrev main_v152 : Ref sig .tc := ⟨.hbm, 258, rfl⟩
abbrev main_v153 : Ref sig .tc := ⟨.hbm, 259, rfl⟩
abbrev main_v154 : Ref sig .tc := ⟨.hbm, 260, rfl⟩
abbrev main_v155 : Ref sig .tc := ⟨.hbm, 261, rfl⟩
abbrev main_v156 : Ref sig .tc := ⟨.hbm, 262, rfl⟩
abbrev main_v157 : Ref sig .tc := ⟨.hbm, 263, rfl⟩
abbrev main_v158 : Ref sig .tc := ⟨.hbm, 264, rfl⟩
abbrev main_v159 : Ref sig .tc := ⟨.hbm, 265, rfl⟩
abbrev main_v160 : Ref sig .tc := ⟨.hbm, 266, rfl⟩
abbrev main_v161 : Ref sig .tc := ⟨.hbm, 267, rfl⟩
abbrev main_v162 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_v166 : Ref sig .tc := ⟨.hbm, 272, rfl⟩
abbrev main_v167 : Ref sig .tc := ⟨.hbm, 273, rfl⟩
abbrev main_v168 : Ref sig .tc := ⟨.hbm, 274, rfl⟩
abbrev main_v169 : Ref sig .tc := ⟨.hbm, 275, rfl⟩
abbrev main_v170 : Ref sig .tc := ⟨.hbm, 276, rfl⟩
abbrev main_v171 : Ref sig .tc := ⟨.hbm, 277, rfl⟩
abbrev main_v172 : Ref sig .tc := ⟨.hbm, 278, rfl⟩
abbrev main_v173 : Ref sig .tc := ⟨.hbm, 279, rfl⟩
abbrev main_v174 : Ref sig .tc := ⟨.hbm, 280, rfl⟩
abbrev main_v175 : Ref sig .tc := ⟨.hbm, 281, rfl⟩
abbrev main_v176 : Ref sig .tc := ⟨.hbm, 282, rfl⟩
abbrev main_v177 : Ref sig .tc := ⟨.hbm, 283, rfl⟩
abbrev main_v178 : Ref sig .tc := ⟨.hbm, 284, rfl⟩
abbrev main_v179 : Ref sig .tc := ⟨.hbm, 285, rfl⟩
abbrev main_v180 : Ref sig .tc := ⟨.hbm, 286, rfl⟩
abbrev main_v181 : Ref sig .tc := ⟨.hbm, 287, rfl⟩
abbrev main_v182 : Ref sig .tc := ⟨.hbm, 288, rfl⟩
abbrev main_v183 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_v187 : Ref sig .tc := ⟨.hbm, 293, rfl⟩
abbrev main_v188 : Ref sig .tc := ⟨.hbm, 294, rfl⟩
abbrev main_v189 : Ref sig .tc := ⟨.hbm, 295, rfl⟩
abbrev main_v190 : Ref sig .tc := ⟨.hbm, 296, rfl⟩
abbrev main_v191 : Ref sig .tc := ⟨.hbm, 297, rfl⟩
abbrev main_v192 : Ref sig .tc := ⟨.hbm, 298, rfl⟩
abbrev main_v193 : Ref sig .tc := ⟨.hbm, 299, rfl⟩
abbrev main_v194 : Ref sig .tc := ⟨.hbm, 300, rfl⟩
abbrev main_v195 : Ref sig .tc := ⟨.hbm, 301, rfl⟩
abbrev main_v196 : Ref sig .tc := ⟨.hbm, 302, rfl⟩
abbrev main_v197 : Ref sig .tc := ⟨.hbm, 303, rfl⟩
abbrev main_v198 : Ref sig .tc := ⟨.hbm, 304, rfl⟩
abbrev main_v199 : Ref sig .tc := ⟨.hbm, 305, rfl⟩
abbrev main_v200 : Ref sig .tc := ⟨.hbm, 306, rfl⟩
abbrev main_v201 : Ref sig .tc := ⟨.hbm, 307, rfl⟩
abbrev main_v202 : Ref sig .tc := ⟨.hbm, 308, rfl⟩
abbrev main_v203 : Ref sig .tc := ⟨.hbm, 309, rfl⟩
abbrev main_v204 : Ref sig .tc := ⟨.hbm, 310, rfl⟩
abbrev main_v205 : Ref sig .tc := ⟨.hbm, 311, rfl⟩
abbrev main_v206 : Ref sig .tc := ⟨.hbm, 312, rfl⟩
abbrev main_v207 : Ref sig .tc := ⟨.hbm, 313, rfl⟩
abbrev main_v208 : Ref sig .tc := ⟨.hbm, 314, rfl⟩
abbrev main_v209 : Ref sig .tc := ⟨.hbm, 315, rfl⟩
abbrev main_v210 : Ref sig .tc := ⟨.hbm, 316, rfl⟩
abbrev main_v211 : Ref sig .tc := ⟨.hbm, 317, rfl⟩
abbrev main_v212 : Ref sig .tc := ⟨.hbm, 318, rfl⟩
abbrev main_v213 : Ref sig .tc := ⟨.hbm, 319, rfl⟩
abbrev main_v214 : Ref sig .tc := ⟨.hbm, 320, rfl⟩
abbrev main_v215 : Ref sig .tc := ⟨.hbm, 321, rfl⟩
abbrev main_v216 : Ref sig .tc := ⟨.hbm, 322, rfl⟩
abbrev main_v217 : Ref sig .tc := ⟨.hbm, 323, rfl⟩
abbrev main_v218 : Ref sig .tc := ⟨.hbm, 324, rfl⟩
abbrev main_v219 : Ref sig .tc := ⟨.hbm, 325, rfl⟩
abbrev main_v220 : Ref sig .tc := ⟨.hbm, 326, rfl⟩
abbrev main_v221 : Ref sig .tc := ⟨.hbm, 327, rfl⟩
abbrev main_v222 : Ref sig .tc := ⟨.hbm, 328, rfl⟩
abbrev main_v223 : Ref sig .tc := ⟨.hbm, 329, rfl⟩
abbrev main_v224 : Ref sig .tc := ⟨.hbm, 330, rfl⟩
abbrev main_v225 : Ref sig .tc := ⟨.hbm, 331, rfl⟩
abbrev main_v226 : Ref sig .tc := ⟨.hbm, 332, rfl⟩
abbrev main_v227 : Ref sig .tc := ⟨.hbm, 333, rfl⟩
abbrev main_cst_14 : Ref sig .tc := ⟨.hbm, 334, rfl⟩
abbrev main_v228 : Ref sig .tc := ⟨.hbm, 335, rfl⟩
abbrev main_cst_15 : Ref sig .tc := ⟨.hbm, 336, rfl⟩
abbrev main_v229 : Ref sig .tc := ⟨.hbm, 337, rfl⟩
abbrev main_cst_16 : Ref sig .tc := ⟨.hbm, 338, rfl⟩
abbrev main_v230 : Ref sig .tc := ⟨.hbm, 339, rfl⟩
abbrev main_v231 : Ref sig .tc := ⟨.hbm, 340, rfl⟩
abbrev main_v232 : Ref sig .tc := ⟨.hbm, 341, rfl⟩
abbrev main_v233 : Ref sig .tc := ⟨.hbm, 342, rfl⟩
abbrev main_v234 : Ref sig .tc := ⟨.hbm, 343, rfl⟩
abbrev main_v235 : Ref sig .tc := ⟨.hbm, 344, rfl⟩

abbrev nD : Nat := 1
abbrev τ : Topo := Topo.v7x

variable {F : FTy → Type} [FloatOps F]

class Facts₀ : Prop where
  bcast_S_S128x5 : S_.BroadcastsInDim S128x5 (![] : Fin 0 → Fin S128x5.rank)
  bcast_S_S128x256x1024 : S_.BroadcastsInDim S128x256x1024 (![] : Fin 0 → Fin S128x256x1024.rank)
  slices_S128x5_S128x1_0_0 : S128x5.Slices ![0, 0] S128x1
  shapeCasts_S128x1_S128 : S128x1.ShapeCasts S128
  bcast_S128_S128x1_0 : S128.BroadcastsInDim S128x1 (![0] : Fin 1 → Fin S128x1.rank)
  bcast_S256_S1x256_1 : S256.BroadcastsInDim S1x256 (![1] : Fin 1 → Fin S1x256.rank)
  bcast_S128x1_S128x256_0_1 : S128x1.BroadcastsInDim S128x256 (![0, 1] : Fin 2 → Fin S128x256.rank)
  bcast_S1x256_S128x256_0_1 : S1x256.BroadcastsInDim S128x256 (![0, 1] : Fin 2 → Fin S128x256.rank)
  bcast_S1024_S1x1024_1 : S1024.BroadcastsInDim S1x1024 (![1] : Fin 1 → Fin S1x1024.rank)
  bcast_S128x1_S128x1024_0_1 : S128x1.BroadcastsInDim S128x1024 (![0, 1] : Fin 2 → Fin S128x1024.rank)
  bcast_S1x1024_S128x1024_0_1 : S1x1024.BroadcastsInDim S128x1024 (![0, 1] : Fin 2 → Fin S128x1024.rank)
  bcast_S128x256_S128x256x1_0_1 : S128x256.BroadcastsInDim S128x256x1 (![0, 1] : Fin 2 → Fin S128x256x1.rank)
  bcast_S128x1024_S128x1x1024_0_2 : S128x1024.BroadcastsInDim S128x1x1024 (![0, 2] : Fin 2 → Fin S128x1x1024.rank)
  bcast_S128x256x1_S128x256x1024_0_1_2 : S128x256x1.BroadcastsInDim S128x256x1024 (![0, 1, 2] : Fin 3 → Fin S128x256x1024.rank)
  bcast_S128x1x1024_S128x256x1024_0_1_2 : S128x1x1024.BroadcastsInDim S128x256x1024 (![0, 1, 2] : Fin 3 → Fin S128x256x1024.rank)
  bcast_S128_S128x1x1_0 : S128.BroadcastsInDim S128x1x1 (![0] : Fin 1 → Fin S128x1x1.rank)
  bcast_S128x1x1_S128x256x1024_0_1_2 : S128x1x1.BroadcastsInDim S128x256x1024 (![0, 1, 2] : Fin 3 → Fin S128x256x1024.rank)
  slices_S128x5_S128x1_0_1 : S128x5.Slices ![0, 1] S128x1
  slices_S128x5_S128x1_0_2 : S128x5.Slices ![0, 2] S128x1
  slices_S128x5_S128x1_0_3 : S128x5.Slices ![0, 3] S128x1
  slices_S128x5_S128x1_0_4 : S128x5.Slices ![0, 4] S128x1
  bcast_S128x256x1024_S128x256x1024x1_0_1_2 : S128x256x1024.BroadcastsInDim S128x256x1024x1 (![0, 1, 2] : Fin 3 → Fin S128x256x1024x1.rank)
  reducesTo_S128x256x1024x1_S_d0_1_2_3 : S128x256x1024x1.ReducesTo [0, 1, 2, 3] S_
  h_S_ : 0 < S_.numel
  bcast_S_S128x256x1024x1 : S_.BroadcastsInDim S128x256x1024x1 (![] : Fin 0 → Fin S128x256x1024x1.rank)

variable [Facts₀]

class Facts : Prop extends Facts₀ where

variable [Facts]
-- ==== Proof.SumRuns.lean ====
/-
  The summing kernel (pipeline 0, a grid of 8 points): at each point it adds the sum of one block of 16 x 256 x 1024
  entries to a one-entry scratch accumulator, which it first sets to zero at the first point and copies to its one-entry
  output block at the last point. This module runs the body once for each of the three kinds of point — the first, a
  middle one, the last — on whole staging buffers, and names what each run leaves in the scratch and in the output.
-/
import proofs.«152792_j38062000177638_1_alg».proof.Proof.Gen.KernelIdeal.Launch
import proofs.«152792_j38062000177638_1_alg».proof.Proof.Gen.KernelIdeal.Skeleton
import proofs.«152792_j38062000177638_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Sum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## Which point is the first, which the last -/

/-- The body's first branch condition: the grid coordinate is 0. -/
abbrev isFirst (i : grid0.Coords) : Prop :=
  (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- The body's second branch condition: the grid coordinate is 7. -/
abbrev isLast (i : grid0.Coords) : Prop := k0_cond2 i = 1#1
theorem isLast_iff : ∀ t : Fin cfg0.N, isLast (grid0.coords t) ↔ t.val = 7 :=
  (by decide +kernel : ∀ t : Fin grid0.N, isLast (grid0.coords t) ↔ t.val = 7)

/-- The input block is stored into by no point. -/
theorem live_in : ∀ t : Fin cfg0.N, cfg0.idle 0 (grid0.coords t) = false := by decide +kernel
/-- Away from the last point the output block is neither stored into nor written back. -/
theorem idle_out : ∀ t : Fin cfg0.N, ¬isLast (grid0.coords t) → cfg0.idle 1 (grid0.coords t) = true := by decide +kernel
theorem noflush_out : ∀ t : Fin cfg0.N, ¬isLast (grid0.coords t) → (cfg0.win 1).flush t = false := by decide +kernel
/-- At the last point the output block is stored into. -/
theorem live_out : ∀ t : Fin cfg0.N, isLast (grid0.coords t) → cfg0.idle 1 (grid0.coords t) = false := by decide +kernel

/-! ## The buffers the body is called with -/

abbrev msIn (t : Fin cfg0.N) : Memref sig .tc .vmem S16x256x1024 .f32 := win0_0.stage (cfg0.slots t 0)
abbrev hsIn (t : Fin cfg0.N) : (msIn t).IsWhole := hstage0_0 ((cfg0.slots t 0).cast nbuf0_0)
abbrev msOut (t : Fin cfg0.N) : Memref sig .tc .vmem S1x1 .f32 := win0_1.stage (cfg0.slots t 1)
abbrev hsOut (t : Fin cfg0.N) : (msOut t).IsWhole := hstage0_1 ((cfg0.slots t 1).cast nbuf0_1)
/-- The accumulator: a whole scoped buffer of the kernel's own. -/
abbrev accM : Memref sig .tc .vmem S1x1 .f32 := Memref.whole cc0_scratch0
abbrev accV : View sig .tc .vmem S1x1 .f32 := accM.view
abbrev outV : View sig .tc .vmem S1x1 .f32 := (Memref.whole cc0_stg1_0 : Memref sig .tc .vmem S1x1 .f32).view

/-! ## The three runs -/

set_option maxHeartbeats 1000000 in
/-- THE FIRST POINT: the accumulator, found at anything, is set to zero and then to zero plus the block's sum; the
    output block is handed back as found. -/
noncomputable def runFirst (c : Dev nD) (i : grid0.Coords) (arg1 : Memref sig .tc .vmem S16x256x1024 .f32) (harg1 : arg1.IsWhole)
    (arg2 : Memref sig .tc .vmem S1x1 .f32) (harg2 : arg2.IsWhole) (arg3 : Memref sig .tc .vmem S1x1 .f32) (harg3 : arg3.IsWhole)
    (h1 : isFirst i) (h2 : ¬isLast i) (x0 : Vec F S16x256x1024 .f32) :
    { LS : List (View.Piece (Elt F) S1x1 .f32) //
      ∀ (xi : Vec F S1x1 .f32) (E : Set ℕ) (K : PUnit → sProp 𝕄),
        iprop(owns (c : Thread nD τ) arg1 fullShare x0 ∗ owns (c : Thread nD τ) arg2 fullShare xi ∗ (∃ d, owns (c : Thread nD τ) arg3 fullShare d)
            ∗ (iprop(owns (c : Thread nD τ) arg1 fullShare x0 ∗ owns (c : Thread nD τ) arg2 fullShare xi
                ∗ (∃ f, arg3.view.loc (c : Thread nD τ) ↦[arg3.view.set]{fullShare} arg3.view.writes (Elt F) f LS)) -∗ K ⟨⟩))
          ⊢ wp frame (wpE (defs₀ (F := F)) Variants.none c none) E (cc0__sum_kernel i arg1 harg1 arg2 harg2 arg3 harg3) K } := by
  refine ⟨?_, fun xi E K => ?run⟩
  case run =>
    simp only [cc0__sum_kernel_eq_skeleton]; unfold cc0__sum_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact h1 | exact h2)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- A MIDDLE POINT: the accumulator, found at `xs`, is set to `xs` plus the block's sum; the output block is handed
    back as found. -/
noncomputable def runMid (c : Dev nD) (i : grid0.Coords) (arg1 : Memref sig .tc .vmem S16x256x1024 .f32) (harg1 : arg1.IsWhole)
    (arg2 : Memref sig .tc .vmem S1x1 .f32) (harg2 : arg2.IsWhole) (arg3 : Memref sig .tc .vmem S1x1 .f32) (harg3 : arg3.IsWhole)
    (h1 : ¬isFirst i) (h2 : ¬isLast i) (x0 : Vec F S16x256x1024 .f32) (xs : Vec F S1x1 .f32) :
    { LS : List (View.Piece (Elt F) S1x1 .f32) //
      ∀ (xi : Vec F S1x1 .f32) (E : Set ℕ) (K : PUnit → sProp 𝕄),
        iprop(owns (c : Thread nD τ) arg1 fullShare x0 ∗ owns (c : Thread nD τ) arg2 fullShare xi ∗ owns (c : Thread nD τ) arg3 fullShare xs
            ∗ (iprop(owns (c : Thread nD τ) arg1 fullShare x0 ∗ owns (c : Thread nD τ) arg2 fullShare xi
                ∗ (∃ f, arg3.view.loc (c : Thread nD τ) ↦[arg3.view.set]{fullShare} arg3.view.writes (Elt F) f LS)) -∗ K ⟨⟩))
          ⊢ wp frame (wpE (defs₀ (F := F)) Variants.none c none) E (cc0__sum_kernel i arg1 harg1 arg2 harg2 arg3 harg3) K } := by
  refine ⟨?_, fun xi E K => ?run⟩
  case run =>
    simp only [cc0__sum_kernel_eq_skeleton]; unfold cc0__sum_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact h1 | exact h2)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- THE LAST POINT: the accumulator, found at `xs`, is set to `xs` plus the block's sum, and that value is stored into
    the output block, found at anything. -/
noncomputable def runLast (c : Dev nD) (i : grid0.Coords) (arg1 : Memref sig .tc .vmem S16x256x1024 .f32) (harg1 : arg1.IsWhole)
    (arg2 : Memref sig .tc .vmem S1x1 .f32) (harg2 : arg2.IsWhole) (arg3 : Memref sig .tc .vmem S1x1 .f32) (harg3 : arg3.IsWhole)
    (h1 : ¬isFirst i) (h2 : isLast i) (x0 : Vec F S16x256x1024 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs
            ∗ (iprop(owns (c : Thread nD τ) arg1 fullShare x0
                ∗ (∃ f, arg2.view.loc (c : Thread nD τ) ↦[arg2.view.set]{fullShare} arg2.view.writes (Elt F) f LO)
                ∗ (∃ f, arg3.view.loc (c : Thread nD τ) ↦[arg3.view.set]{fullShare} arg3.view.writes (Elt F) f LS)) -∗ K ⟨⟩))
          ⊢ wp frame (wpE (defs₀ (F := F)) Variants.none c none) E (cc0__sum_kernel i arg1 harg1 arg2 harg2 arg3 harg3) K } := by
  refine ⟨?_, ?_, fun E K => ?run⟩
  case run =>
    simp only [cc0__sum_kernel_eq_skeleton]; unfold cc0__sum_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact h1 | exact h2)
    sl_step
    iapply Hk
    isplitl [H0]
    · iexists _; isplitr; · ipureintro; exact harg1.read_unread _
      iexact H0
    isplitl [H1]; · iexists _; iexact H1
    iexists _; iexact HS0

end Cert.KernelIdeal.Sum

end
-- ==== Proof.SumDat.lean ====
/-
  The summing kernel, point by point. After point n the scratch accumulator holds what the run at n left in it, found
  from what point n - 1 left (nothing is assumed of it before the first point, which overwrites it); the output block is
  stored at the last point only and idle elsewhere. From this the module builds the pipeline's proof data at given
  region-entry contents `V` and proves the body obligation: the invariant carried between points says the accumulator
  holds the previous point's value, beside the untouched remaining scoped buffers and the generator register.
-/
import proofs.«152792_j38062000177638_1_alg».proof.Proof.SumRuns

set_option maxRecDepth 16384

noncomputable section

namespace Cert.KernelIdeal.Sum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input block -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds the point's block, for any proof data over `V` that leaves it in place. -/
theorem before_in_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## What each run leaves -/

theorem coverFirst (c : Dev nD) (i : grid0.Coords) (arg1 : Memref sig .tc .vmem S16x256x1024 .f32) (harg1 : arg1.IsWhole)
    (arg2 : Memref sig .tc .vmem S1x1 .f32) (harg2 : arg2.IsWhole) (arg3 : Memref sig .tc .vmem S1x1 .f32) (harg3 : arg3.IsWhole)
    (h1 : isFirst i) (h2 : ¬isLast i) (x0 : Vec F S16x256x1024 .f32) (y : S1x1.Idx) :
    ∃ pc ∈ (runFirst c i arg1 harg1 arg2 harg2 arg3 harg3 h1 h2 x0).1, y ∈ pc.1.set :=
  View.cover_of_tiledL (runFirst c i arg1 harg1 arg2 harg2 arg3 harg3 h1 h2 x0).1 S1x1.size (by sl_kernel_rfl) y

/-- The accumulator after the first point. -/
def accFirst (c : Dev nD) (i : grid0.Coords) (arg1 : Memref sig .tc .vmem S16x256x1024 .f32) (harg1 : arg1.IsWhole)
    (arg2 : Memref sig .tc .vmem S1x1 .f32) (harg2 : arg2.IsWhole) (arg3 : Memref sig .tc .vmem S1x1 .f32) (harg3 : arg3.IsWhole)
    (h1 : isFirst i) (h2 : ¬isLast i) (x0 : Vec F S16x256x1024 .f32) : Vec F S1x1 .f32 :=
  accV.read (Elt F) (accV.writes (Elt F) accV.junk (runFirst c i arg1 harg1 arg2 harg2 arg3 harg3 h1 h2 x0).1)

theorem coverMid (c : Dev nD) (i : grid0.Coords) (arg1 : Memref sig .tc .vmem S16x256x1024 .f32) (harg1 : arg1.IsWhole)
    (arg2 : Memref sig .tc .vmem S1x1 .f32) (harg2 : arg2.IsWhole) (arg3 : Memref sig .tc .vmem S1x1 .f32) (harg3 : arg3.IsWhole)
    (h1 : ¬isFirst i) (h2 : ¬isLast i) (x0 : Vec F S16x256x1024 .f32) (xs : Vec F S1x1 .f32) (y : S1x1.Idx) :
    ∃ pc ∈ (runMid c i arg1 harg1 arg2 harg2 arg3 harg3 h1 h2 x0 xs).1, y ∈ pc.1.set :=
  View.cover_of_tiledL (runMid c i arg1 harg1 arg2 harg2 arg3 harg3 h1 h2 x0 xs).1 S1x1.size (by sl_kernel_rfl) y

/-- The accumulator after a middle point that found `xs` in it. -/
def accMid (c : Dev nD) (i : grid0.Coords) (arg1 : Memref sig .tc .vmem S16x256x1024 .f32) (harg1 : arg1.IsWhole)
    (arg2 : Memref sig .tc .vmem S1x1 .f32) (harg2 : arg2.IsWhole) (arg3 : Memref sig .tc .vmem S1x1 .f32) (harg3 : arg3.IsWhole)
    (h1 : ¬isFirst i) (h2 : ¬isLast i) (x0 : Vec F S16x256x1024 .f32) (xs : Vec F S1x1 .f32) : Vec F S1x1 .f32 :=
  accV.read (Elt F) (accV.writes (Elt F) accV.junk (runMid c i arg1 harg1 arg2 harg2 arg3 harg3 h1 h2 x0 xs).1)

theorem coverLastAcc (c : Dev nD) (i : grid0.Coords) (arg1 : Memref sig .tc .vmem S16x256x1024 .f32) (harg1 : arg1.IsWhole)
    (arg2 : Memref sig .tc .vmem S1x1 .f32) (harg2 : arg2.IsWhole) (arg3 : Memref sig .tc .vmem S1x1 .f32) (harg3 : arg3.IsWhole)
    (h1 : ¬isFirst i) (h2 : isLast i) (x0 : Vec F S16x256x1024 .f32) (xs : Vec F S1x1 .f32) (y : S1x1.Idx) :
    ∃ pc ∈ (runLast c i arg1 harg1 arg2 harg2 arg3 harg3 h1 h2 x0 xs).2.1, y ∈ pc.1.set :=
  View.cover_of_tiledL (runLast c i arg1 harg1 arg2 harg2 arg3 harg3 h1 h2 x0 xs).2.1 S1x1.size (by sl_kernel_rfl) y

theorem coverLastOut (c : Dev nD) (i : grid0.Coords) (arg1 : Memref sig .tc .vmem S16x256x1024 .f32) (harg1 : arg1.IsWhole)
    (arg2 : Memref sig .tc .vmem S1x1 .f32) (harg2 : arg2.IsWhole) (arg3 : Memref sig .tc .vmem S1x1 .f32) (harg3 : arg3.IsWhole)
    (h1 : ¬isFirst i) (h2 : isLast i) (x0 : Vec F S16x256x1024 .f32) (xs : Vec F S1x1 .f32) (y : S1x1.Idx) :
    ∃ pc ∈ (runLast c i arg1 harg1 arg2 harg2 arg3 harg3 h1 h2 x0 xs).1, y ∈ pc.1.set :=
  View.cover_of_tiledL (runLast c i arg1 harg1 arg2 harg2 arg3 harg3 h1 h2 x0 xs).1 S1x1.size (by sl_kernel_rfl) y

/-- The accumulator after the last point, which found `xs` in it. -/
def accLast (c : Dev nD) (i : grid0.Coords) (arg1 : Memref sig .tc .vmem S16x256x1024 .f32) (harg1 : arg1.IsWhole)
    (arg2 : Memref sig .tc .vmem S1x1 .f32) (harg2 : arg2.IsWhole) (arg3 : Memref sig .tc .vmem S1x1 .f32) (harg3 : arg3.IsWhole)
    (h1 : ¬isFirst i) (h2 : isLast i) (x0 : Vec F S16x256x1024 .f32) (xs : Vec F S1x1 .f32) : Vec F S1x1 .f32 :=
  accV.read (Elt F) (accV.writes (Elt F) accV.junk (runLast c i arg1 harg1 arg2 harg2 arg3 harg3 h1 h2 x0 xs).2.1)

/-- The output block after the last point. -/
def outLast (c : Dev nD) (i : grid0.Coords) (arg1 : Memref sig .tc .vmem S16x256x1024 .f32) (harg1 : arg1.IsWhole)
    (arg2 : Memref sig .tc .vmem S1x1 .f32) (harg2 : arg2.IsWhole) (arg3 : Memref sig .tc .vmem S1x1 .f32) (harg3 : arg3.IsWhole)
    (h1 : ¬isFirst i) (h2 : isLast i) (x0 : Vec F S16x256x1024 .f32) (xs : Vec F S1x1 .f32) : Vec F S1x1 .f32 :=
  outV.read (Elt F) (outV.writes (Elt F) outV.junk (runLast c i arg1 harg1 arg2 harg2 arg3 harg3 h1 h2 x0 xs).1)

/-! ## The accumulation -/

/-- What the output block's staging buffer and the accumulator hold after the body at position `n`: the run the
    position selects, a later point's over the accumulator the point before left. (Away from the last point the first
    component is a placeholder nothing consults: the output block is idle there.) -/
def outsAt (c : Dev nD) : (n : ℕ) → n < cfg0.N → Vec F S1x1 .f32 × Vec F S1x1 .f32
  | 0, hn => (accV.junk (Val := Elt F) |> accV.read (Elt F),
      accFirst c (grid0.coords ⟨0, hn⟩) (msIn ⟨0, hn⟩) (hsIn ⟨0, hn⟩) (msOut ⟨0, hn⟩) (hsOut ⟨0, hn⟩) accM (Memref.isWhole_whole _)
        ((isFirst_iff ⟨0, hn⟩).mpr rfl) (fun h => absurd ((isLast_iff ⟨0, hn⟩).mp h) (show ¬ (0 : ℕ) = 7 by decide)) (iblk V c 0 ⟨0, hn⟩))
  | n + 1, hn =>
    if h7 : n + 1 = 7 then
      (outLast c (grid0.coords ⟨n + 1, hn⟩) (msIn ⟨n + 1, hn⟩) (hsIn ⟨n + 1, hn⟩) (msOut ⟨n + 1, hn⟩) (hsOut ⟨n + 1, hn⟩) accM (Memref.isWhole_whole _)
          (fun h => absurd ((isFirst_iff ⟨n + 1, hn⟩).mp h) (Nat.succ_ne_zero n)) ((isLast_iff ⟨n + 1, hn⟩).mpr h7) (iblk V c 0 ⟨n + 1, hn⟩) (outsAt c n (Nat.lt_of_succ_lt hn)).2,
        accLast c (grid0.coords ⟨n + 1, hn⟩) (msIn ⟨n + 1, hn⟩) (hsIn ⟨n + 1, hn⟩) (msOut ⟨n + 1, hn⟩) (hsOut ⟨n + 1, hn⟩) accM (Memref.isWhole_whole _)
          (fun h => absurd ((isFirst_iff ⟨n + 1, hn⟩).mp h) (Nat.succ_ne_zero n)) ((isLast_iff ⟨n + 1, hn⟩).mpr h7) (iblk V c 0 ⟨n + 1, hn⟩) (outsAt c n (Nat.lt_of_succ_lt hn)).2)
    else
      (accV.junk (Val := Elt F) |> accV.read (Elt F),
        accMid c (grid0.coords ⟨n + 1, hn⟩) (msIn ⟨n + 1, hn⟩) (hsIn ⟨n + 1, hn⟩) (msOut ⟨n + 1, hn⟩) (hsOut ⟨n + 1, hn⟩) accM (Memref.isWhole_whole _)
          (fun h => absurd ((isFirst_iff ⟨n + 1, hn⟩).mp h) (Nat.succ_ne_zero n)) (fun h => h7 ((isLast_iff ⟨n + 1, hn⟩).mp h)) (iblk V c 0 ⟨n + 1, hn⟩) (outsAt c n (Nat.lt_of_succ_lt hn)).2)

theorem outsAt_first (c : Dev nD) (t : Fin cfg0.N) (h0 : t.val = 0) :
    (outsAt V c t.val t.isLt).2 = accFirst c (grid0.coords t) (msIn t) (hsIn t) (msOut t) (hsOut t) accM (Memref.isWhole_whole _)
      ((isFirst_iff t).mpr h0) (fun h => absurd ((isLast_iff t).mp h) (by omega)) (iblk V c 0 t) := by
  obtain ⟨n, hn⟩ := t
  cases n with
  | zero => rfl
  | succ n => exact absurd h0 (Nat.succ_ne_zero n)

theorem outsAt_mid (c : Dev nD) (t : Fin cfg0.N) (h0 : t.val ≠ 0) (h7 : t.val ≠ 7) :
    (outsAt V c t.val t.isLt).2 = accMid c (grid0.coords t) (msIn t) (hsIn t) (msOut t) (hsOut t) accM (Memref.isWhole_whole _)
      (fun h => h0 ((isFirst_iff t).mp h)) (fun h => h7 ((isLast_iff t).mp h)) (iblk V c 0 t)
      (outsAt V c (t.val - 1) (Nat.lt_of_le_of_lt (Nat.sub_le _ _) t.isLt)).2 := by
  obtain ⟨n, hn⟩ := t
  cases n with
  | zero => exact absurd rfl h0
  | succ n => exact congrArg Prod.snd ((dif_neg h7).trans rfl)

theorem outsAt_last (c : Dev nD) (t : Fin cfg0.N) (h0 : t.val ≠ 0) (h7 : t.val = 7) :
    outsAt V c t.val t.isLt = (outLast c (grid0.coords t) (msIn t) (hsIn t) (msOut t) (hsOut t) accM (Memref.isWhole_whole _)
        (fun h => h0 ((isFirst_iff t).mp h)) ((isLast_iff t).mpr h7) (iblk V c 0 t)
        (outsAt V c (t.val - 1) (Nat.lt_of_le_of_lt (Nat.sub_le _ _) t.isLt)).2,
      accLast c (grid0.coords t) (msIn t) (hsIn t) (msOut t) (hsOut t) accM (Memref.isWhole_whole _)
        (fun h => h0 ((isFirst_iff t).mp h)) ((isLast_iff t).mpr h7) (iblk V c 0 t)
        (outsAt V c (t.val - 1) (Nat.lt_of_le_of_lt (Nat.sub_le _ _) t.isLt)).2) := by
  obtain ⟨n, hn⟩ := t
  cases n with
  | zero => exact absurd rfl h0
  | succ n => exact (dif_pos h7).trans rfl

/-! ## The invariant between points -/

/-- The scoped buffers other than the accumulator and the staging buffers of this pipeline, at anything. -/
abbrev others (c : Dev nD) : sProp 𝕄 :=
  Pipeline.scopedRestBut (Ix := Unit) (Name := ℕ) (U := UR sig nD τ) (Lvl := ℕ) (Val := Elt F) spec0 c [cc0_scratch0]

/-- What the launch hands the region, with the accumulator singled out. -/
theorem PhiA_eq (c : Dev nD) :
    (Pipeline.ΦA spec0 c : sProp 𝕄)
      = iprop(((∃ d, owns (c : Thread nD τ) accM fullShare d) ∗ others c) ∗ (∃ r, prngReg c r)) := by
  unfold Pipeline.ΦA
  rw [Pipeline.scopedRest_split_of_list spec0 c [cc0_scratch0] (by decide) (by decide)]
  simp only [bigSepL, accM, owns_whole]; try rfl

/-- Before position `n`: at the start what the launch hands over; later the accumulator at what the point before left. -/
def PhiS (c : Dev nD) : (n : ℕ) → n ≤ cfg0.N → sProp 𝕄
  | 0, _ => Pipeline.ΦA spec0 c
  | n + 1, hn => iprop((owns (c : Thread nD τ) accM fullShare ((outsAt V c n hn).2) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) accM fullShare ((outsAt V c n hn).2) ∗ others c) ∗ (∃ r, prngReg c r)) := rfl

theorem PhiS_pos (c : Dev nD) (n : ℕ) (h : n ≤ cfg0.N) (hz : n ≠ 0) :
    PhiS V c n h = iprop((owns (c : Thread nD τ) accM fullShare ((outsAt V c (n - 1) (by omega)).2) ∗ others c) ∗ (∃ r, prngReg c r)) := by
  cases n with
  | zero => exact absurd rfl hz
  | succ n => rfl

/-! ## The proof data -/

/-- Pipeline 0's proof data on core `c` at the region-entry contents `V`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = PhiS V c t.val (Nat.le_of_lt t.isLt) := by
  dsimp only [dat]; simp only [Fin.coe_castSucc]

theorem after_in (c : Dev nD) (t : Fin cfg0.N) : (dat V c).after 0 t = iblk V c 0 t := by dsimp only [dat]
theorem after_out (c : Dev nD) (t : Fin cfg0.N) : (dat V c).after 1 t = (outsAt V c t.val t.isLt).1 := by dsimp only [dat]

theorem before_in (c : Dev nD) (t : Fin cfg0.N) (d) : (dat V c).before 0 t d = iblk V c 0 t :=
  before_in_of V (dat V c) (A_eq V c 0) (after_in V c) t d

/-! ## The body obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (msIn t) fullShare ((dat V c).before 0 t d))
    ∗ (∃ d, owns (c : Thread nD τ) (msOut t) fullShare ((dat V c).before 1 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4800000 in
/-- The body at any point: the input's buffer holds the point's block; the point's position says which run applies; the
    invariant hands the run the accumulator at what the point before left (at anything before the first point) and takes
    it back at this point's value; away from the last point the output block comes back untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (msIn t) fullShare ((dat V c).after 0 t) from by
      unfold Dat.leavesExact; rw [live_in t], after_in]
  have hN : t.val < 8 := lt_of_lt_of_eq t.isLt (show cfg0.N = 8 from N_0)
  by_cases h7 : t.val = 7
  · have h0 : t.val ≠ 0 := by omega
    rw [show (dat V c).leavesExact 1 t = owns (c : Thread nD τ) (msOut t) fullShare ((dat V c).after 1 t) from by
      unfold Dat.leavesExact; rw [live_out t ((isLast_iff t).mpr h7)], after_out]
    rw [outsAt_last V c t h0 h7]
    unfold outLast accLast; (try dsimp only)
    rw [Phi_castSucc V c t, PhiS_pos V c _ _ h0]
    iintro ⟨⟨⟨HS, Hoth⟩, Hg⟩, Ho, ⟨%d0, H0⟩, ⟨%d1, H1⟩⟩
    iapply ((runLast c (grid0.coords t) _ _ _ _ _ _ (fun h => h0 ((isFirst_iff t).mp h)) ((isLast_iff t).mpr h7) (iblk V c 0 t) _).2.2 Set.univ _)
    isplitl [H0]; · iexact H0
    isplitl [H1]; · iexists _; iexact H1
    isplitl [HS]; · iexact HS
    iintro ⟨H0, ⟨%e1, H1⟩, ⟨%es, HS⟩⟩
    isplitl [HS Hoth Hg]
    · isplitl [HS Hoth]
      · isplitl [HS]
        · unfold owns; iexists _; isplitr
          swap; · iexact HS
          ipureintro; exact View.read_writes_of_cover _ _ _ _ _ (coverLastAcc c _ _ _ _ _ _ _ _ _ _ _)
        iexact Hoth
      iexact Hg
    isplitl [Ho]; · iexact Ho
    isplitl [H0]; · iexact H0
    unfold owns; iexists _; isplitr
    swap; · iexact H1
    ipureintro; exact View.read_writes_of_cover _ _ _ _ _ (coverLastOut c _ _ _ _ _ _ _ _ _ _ _)
  · rw [Dat.leavesExact_idle (dat V c) 1 t (idle_out t (fun h => h7 ((isLast_iff t).mp h))) (noflush_out t (fun h => h7 ((isLast_iff t).mp h)))]
    by_cases h0 : t.val = 0
    · rw [outsAt_first V c t h0]
      unfold accFirst; (try dsimp only)
      rw [Phi_castSucc V c t, PhiS_zero V c _ _ h0, PhiA_eq]
      iintro ⟨⟨⟨HS, Hoth⟩, Hg⟩, Ho, ⟨%d0, H0⟩, ⟨%d1, H1⟩⟩
      iapply ((runFirst c (grid0.coords t) _ _ _ _ _ _ ((isFirst_iff t).mpr h0) (fun h => h7 ((isLast_iff t).mp h)) (iblk V c 0 t)).2 _ Set.univ _)
      isplitl [H0]; · iexact H0
      isplitl [H1]; · iexact H1
      isplitl [HS]; · iexact HS
      iintro ⟨H0, H1, ⟨%es, HS⟩⟩
      isplitl [HS Hoth Hg]
      · isplitl [HS Hoth]
        · isplitl [HS]
          · unfold owns; iexists _; isplitr
            swap; · iexact HS
            ipureintro; exact View.read_writes_of_cover _ _ _ _ _ (coverFirst c _ _ _ _ _ _ _ _ _ _)
          iexact Hoth
        iexact Hg
      isplitl [Ho]; · iexact Ho
      isplitl [H0]; · iexact H0
      iexists _; iexact H1
    · rw [outsAt_mid V c t h0 h7]
      unfold accMid; (try dsimp only)
      rw [Phi_castSucc V c t, PhiS_pos V c _ _ h0]
      iintro ⟨⟨⟨HS, Hoth⟩, Hg⟩, Ho, ⟨%d0, H0⟩, ⟨%d1, H1⟩⟩
      iapply ((runMid c (grid0.coords t) _ _ _ _ _ _ (fun h => h0 ((isFirst_iff t).mp h)) (fun h => h7 ((isLast_iff t).mp h)) (iblk V c 0 t) _).2 _ Set.univ _)
      isplitl [H0]; · iexact H0
      isplitl [H1]; · iexact H1
      isplitl [HS]; · iexact HS
      iintro ⟨H0, H1, ⟨%es, HS⟩⟩
      isplitl [HS Hoth Hg]
      · isplitl [HS Hoth]
        · isplitl [HS]
          · unfold owns; iexists _; isplitr
            swap; · iexact HS
            ipureintro; exact View.read_writes_of_cover _ _ _ _ _ (coverMid c _ _ _ _ _ _ _ _ _ _ _)
          iexact Hoth
        iexact Hg
      isplitl [Ho]; · iexact Ho
      isplitl [H0]; · iexact H0
      iexists _; iexact H1

/-- The body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the launch's form back: the accumulator's value is forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 8 := N_0; omega), PhiA_eq]
  iintro ⟨⟨HS, Hoth⟩, Hg⟩
  isplitl [HS Hoth]
  · isplitl [HS]; · iexists _; iexact HS
    iexact Hoth
  iexact Hg

end Cert.KernelIdeal.Sum

end
-- ==== Proof.MaskBody.lean ====
/- The mask-select kernel (pipeline 1) as a class-A body: what its one store leaves in the output window's
   buffer as a function of the seven input blocks and the grid position, the body's triple, the pipeline's
   proof data at arbitrary entry contents `V`, and the body obligation. -/
import proofs.«152792_j38062000177638_1_alg».proof.Proof.Gen.KernelIdeal.Launch
import proofs.«152792_j38062000177638_1_alg».proof.Proof.Gen.KernelIdeal.Skeleton
import proofs.«152792_j38062000177638_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Mask

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: the parameter the whole module is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched the block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched the block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched the block index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is not
    fetched the block index has not moved since the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where it is not
    fetched the block index has not moved since the point before. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: where it is not
    fetched the block index has not moved since the point before. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not: where it is not
    fetched the block index has not moved since the point before. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: three whole-buffer rectangles -/

abbrev rX : Rect S8x64x1024 := Rect.unit (s := S8x64x1024) ![0, 0, 0] S8x64x1024.size inb_S8x64x1024_S8x64x1024_0_0_0
abbrev rP : Rect S8x5 := Rect.unit (s := S8x5) ![0, 0] S8x5.size inb_S8x5_S8x5_0_0
abbrev rS : Rect S1x1 := Rect.unit (s := S1x1) ![0, 0] S1x1.size inb_S1x1_S1x1_0_0

/-! ## What the body stores, as one function of its loads -/

/-- The lane-index vector 0..1023 along the last axis. -/
abbrev laneIota : IVec S1x1x1024 32 := iota .tc S1x1x1024 32 [2] iota_S1x1x1024_d2_w32

/-- The running maximum over holes 0 and 1. -/
def mask01 (i : grid1.Coords) (v5 v7 v9 v11 v13 : Vec F S8x5 .i32) : FVec F S8x64x1024 .f32 :=
  k1_pay13 (k1_pay2 i) laneIota (k1_pay3 v5) (k1_pay4 v7) (k1_pay5 v9) (k1_pay6 v11) (k1_pay7 v13) (k1_pay8 (F := F))
    (k1_pay9 v13) (k1_pay10 i v9 v11) (k1_pay11 v5) (k1_pay12 v7)

/-- The running maximum over holes 0, 1 and 2. -/
def mask012 (i : grid1.Coords) (v5 v7 v9 v11 v13 : Vec F S8x5 .i32) : FVec F S8x64x1024 .f32 :=
  k1_pay19 (k1_pay2 i) laneIota (mask01 i v5 v7 v9 v11 v13) (k1_pay14 (k1_pay6 v11)) (k1_pay15 (k1_pay3 v5)) (k1_pay16 (k1_pay4 v7))
    (k1_pay17 (F := F) (k1_pay7 v13)) (k1_pay18 (k1_pay5 v9))

/-- The stored value: x * (1 - mask) + mask * fill, the mask the maximum over all five holes. -/
def storedVal (i : grid1.Coords) (v213 : Vec F S8x64x1024 .f32) (v5 v7 v9 v11 v13 : Vec F S8x5 .i32) (v211 : Vec F S1x1 .f32) :
    FVec F S8x64x1024 .f32 :=
  k1_pay1
    (k1_pay24 (k1_pay2 i) laneIota (k1_pay3 v5) (k1_pay4 v7) (k1_pay5 v9) (k1_pay6 v11) (k1_pay7 v13) (mask012 i v5 v7 v9 v11 v13)
      (k1_pay20 (F := F) (k1_pay7 v13)) (k1_pay21 (F := F) (k1_pay2 i) (k1_pay5 v9) (k1_pay6 v11)) (k1_pay22 (F := F) laneIota (k1_pay3 v5) (k1_pay4 v7)) v213)
    (k1_pay25 (k1_pay2 i) laneIota (k1_pay3 v5) (k1_pay4 v7) (k1_pay5 v9) (k1_pay6 v11) (k1_pay7 v13) (mask012 i v5 v7 v9 v11 v13)
      (k1_pay20 (F := F) (k1_pay7 v13)) (k1_pay21 (F := F) (k1_pay2 i) (k1_pay5 v9) (k1_pay6 v11)) (k1_pay22 (F := F) laneIota (k1_pay3 v5) (k1_pay4 v7)) v211)

/-! ## What the body leaves in the output window's buffer -/

/-- Window 7's staging buffer after the body at grid position `i`, from the input windows' blocks: its one store. -/
def out1_7 (i : grid1.Coords) (x0 : Vec F S8x64x1024 .f32) (x1 x2 x3 x4 x5 : Vec F S8x5 .i32) (x6 : Vec F S1x1 .f32) : Vec F S8x64x1024 .f32 :=
  View.canon [⟨rX, storedVal i (View.ld x0 rX) (View.ld x1 rP) (View.ld x2 rP) (View.ld x3 rP) (View.ld x4 rP) (View.ld x5 rP) (View.ld x6 rS)⟩]

/-- The store covers the buffer. -/
theorem cover1_7 (p0 : Vec F S8x64x1024 .f32) (y : S8x64x1024.Idx) :
    ∃ pc ∈ ([⟨rX, p0⟩] : List (View.Piece (Elt F) S8x64x1024 .f32)), y ∈ pc.1.set :=
  View.cover_of_tiled [⟨rX, p0⟩] S8x64x1024.size (by rfl) y

/-! ## The body's triple -/

set_option maxHeartbeats 4000000 in
/-- The kernel body on whole staging memrefs, the inputs' at read contents `xW` and the output's at anything, runs to
    the continuation holding the inputs' as they were and the output's at `out1_7` of the inputs'. -/
theorem sound_kernel1 (c : Dev nD) (E : Set ℕ) (i : grid1.Coords)
    (arg2 : Memref sig .tc .vmem S8x64x1024 .f32) (harg2 : arg2.IsWhole)
    (arg3 : Memref sig .tc .vmem S8x5 .i32) (harg3 : arg3.IsWhole)
    (arg4 : Memref sig .tc .vmem S8x5 .i32) (harg4 : arg4.IsWhole)
    (arg5 : Memref sig .tc .vmem S8x5 .i32) (harg5 : arg5.IsWhole)
    (arg6 : Memref sig .tc .vmem S8x5 .i32) (harg6 : arg6.IsWhole)
    (arg7 : Memref sig .tc .vmem S8x5 .i32) (harg7 : arg7.IsWhole)
    (arg8 : Memref sig .tc .vmem S1x1 .f32) (harg8 : arg8.IsWhole)
    (arg9 : Memref sig .tc .vmem S8x64x1024 .f32) (harg9 : arg9.IsWhole)
    (x0 : Vec F S8x64x1024 .f32) (x1 : Vec F S8x5 .i32) (x2 : Vec F S8x5 .i32) (x3 : Vec F S8x5 .i32) (x4 : Vec F S8x5 .i32) (x5 : Vec F S8x5 .i32) (x6 : Vec F S1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out1_7 i x0 x1 x2 x3 x4 x5 x6)) -∗ K ⟨⟩))
      ⊢ wp frame (wpE (defs₀ (F := F)) Variants.none c none) E (cc1__mask_kernel i arg2 harg2 arg3 harg3 arg4 harg4 arg5 harg5 arg6 harg6 arg7 harg7 arg8 harg8 arg9 harg9) K := by
  simp only [cc1__mask_kernel_eq_skeleton]; unfold cc1__mask_kernel_skel
  simp only [k1_part1_eq_skeleton]; unfold k1_part1_skel
  simp only [k1_part2_eq_skeleton]; unfold k1_part2_skel
  simp only [k1_part3_eq_skeleton]; unfold k1_part3_skel
  simp only [k1_part4_eq_skeleton]; unfold k1_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover1_7 _)

/-! ## The pipeline's proof data -/

/-- The proof data of pipeline 1 on core `c`: the arrays as the region finds them (`V`); after the body at point `t`
    each input's buffer at its block and the output's at `out1_7` of the input blocks at the point's grid position;
    the invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (grid1.coords t) (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = out1_7 (grid1.coords t) (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Mask

end
-- ==== Proof.Run.lean ====
/-
  The whole program as one run. @main is seventeen stretches of host operations (the integer geometry of the five holes),
  the summing kernel, a host division (the mean), the mask-and-select kernel, and a last host reshape. Each boundary
  between two of these has a named valuation of the core's unscoped buffers: the launch memory pushed through the host
  stretches, and through each kernel region by replacing the region's arrays with what its write-backs leave. Every
  weakly fair execution terminates with every unscoped buffer at the last valuation; from it follow the frame claim
  (no stretch and no region writes an argument) and the value of the result buffer.
-/
import proofs.«152792_j38062000177638_1_alg».proof.Proof.SumDat
import proofs.«152792_j38062000177638_1_alg».proof.Proof.MaskBody
import proofs.«152792_j38062000177638_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the regions' boundaries -/

/-- What the summing region finds: the launch memory after the seventeen host stretches. -/
abbrev E0 : (c : Dev nD) → (b : Ref sig .tc) → Buf (Elt F) ((c : Thread nD τ).loc b) := fun c b => V17 m c b

/-- After the summing region: its arrays at what its write-backs leave, every other buffer as it was. -/
def B18 (c : Dev nD) : Valuation τ sig (Elt F) :=
  Pipeline.withArrays spec0 c (V17 m c) fun w => (Sum.dat (E0 m) c).arrAt w cfg0.N
theorem B18_arr (c : Dev nD) (w : Fin cfg0.W) :
    B18 m c (Proc.devRef .tc (Pipeline.arrRef spec0 w)) = (Sum.dat (E0 m) c).arrAt w cfg0.N := by
  unfold B18; exact Pipeline.withArrays_arr spec0 launch0.win.arr_inj c _ _ w
theorem B18_of_ne (c : Dev nD) (b : Ref sig .tc) (hb : ∀ w, Pipeline.arrRef spec0 w ≠ b) :
    B18 m c (Proc.devRef .tc b) = V17 m c (Proc.devRef .tc b) := by
  unfold B18; exact Pipeline.withArrays_of_ne spec0 c _ _ b hb
abbrev X0 : (c : Dev nD) → (b : Ref sig .tc) → Buf (Elt F) ((c : Thread nD τ).loc b) := fun c b => B18 m c b
theorem hF0 (c : Dev nD) (w : Fin cfg0.W) : (Sum.dat (E0 m) c).arrAt w cfg0.N = X0 m c (Pipeline.arrRef spec0 w) :=
  (B18_arr m c w).symm
theorem hrest0 (c : Dev nD) : ∀ b, b ∉ Finset.univ.image (Pipeline.arrRef spec0) → X0 m c b = E0 m c b :=
  fun b hb => B18_of_ne m c b fun w e => hb (Finset.mem_image.mpr ⟨w, Finset.mem_univ _, e⟩)

/-- After the host division: what the mask-and-select region finds. -/
abbrev B19 : Dev nD → Valuation τ sig (Elt F) := fun c => StableHlo.after hostOps1 (B18 m c)
abbrev E1 : (c : Dev nD) → (b : Ref sig .tc) → Buf (Elt F) ((c : Thread nD τ).loc b) := fun c b => B19 m c b

/-- After the mask-and-select region. -/
def B20 (c : Dev nD) : Valuation τ sig (Elt F) :=
  Pipeline.withArrays spec1 c (B19 m c) fun w => (Mask.dat1 (E1 m) c).arrAt w cfg1.N
theorem B20_arr (c : Dev nD) (w : Fin cfg1.W) :
    B20 m c (Proc.devRef .tc (Pipeline.arrRef spec1 w)) = (Mask.dat1 (E1 m) c).arrAt w cfg1.N := by
  unfold B20; exact Pipeline.withArrays_arr spec1 launch1.win.arr_inj c _ _ w
theorem B20_of_ne (c : Dev nD) (b : Ref sig .tc) (hb : ∀ w, Pipeline.arrRef spec1 w ≠ b) :
    B20 m c (Proc.devRef .tc b) = B19 m c (Proc.devRef .tc b) := by
  unfold B20; exact Pipeline.withArrays_of_ne spec1 c _ _ b hb
abbrev X1 : (c : Dev nD) → (b : Ref sig .tc) → Buf (Elt F) ((c : Thread nD τ).loc b) := fun c b => B20 m c b
theorem hF1 (c : Dev nD) (w : Fin cfg1.W) : (Mask.dat1 (E1 m) c).arrAt w cfg1.N = X1 m c (Pipeline.arrRef spec1 w) :=
  (B20_arr m c w).symm
theorem hrest1 (c : Dev nD) : ∀ b, b ∉ Finset.univ.image (Pipeline.arrRef spec1) → X1 m c b = E1 m c b :=
  fun b hb => B20_of_ne m c b fun w e => hb (Finset.mem_image.mpr ⟨w, Finset.mem_univ _, e⟩)

/-- After the last host stretch: the program's end. -/
abbrev B21 : Dev nD → Valuation τ sig (Elt F) := fun c => StableHlo.after hostOps2 (B20 m c)

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => Sum.dat (E0 m) c
  | ⟨1, _⟩ => fun c => Mask.dat1 (E1 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (B21 m c) ∗ ∃ r, prngReg c r)

/-! ## The regions as segments -/

set_option backward.isDefEq.respectTransparency.types false in
/-- THE SUMMING REGION over the thread state: its arrays split out of the unscoped buffers and put back at the exit
    contents; the generator register and the scoped rest into the region's invariant and out. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Sum.body_obligation (E0 m) c).loose
  hwaits := Pipeline.hwaits_of_owed_zero _ _ _ _ L lv 0 fun _ _ => rfl
  pre c := iprop(StableHlo.held (c : Thread nD τ) (Pipeline.ucRefs τ sig) (V17 m c) ∗ R c)
  post c := iprop(StableHlo.held (c : Thread nD τ) (Pipeline.ucRefs τ sig) (B18 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (Sum.dat (E0 m) c).Φ 0 from rfl]
    refine (show _ ⊢ (Pipeline.ΦA spec0 c : sProp 𝕄) from ?_).trans (Sum.hin (E0 m) c)
    unfold Pipeline.ΦA
    iintro ⟨Hp, -, Hr⟩
    isplitl [Hr]; · iexact Hr
    iexact Hp
  hout c := by
    rw [Pipeline.ownSems0_none, show (pdats m 0 c).Φ (Fin.last _) = (Sum.dat (E0 m) c).Φ (Fin.last cfg0.N) from rfl]
    refine (Sum.hout (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE MASK-AND-SELECT REGION over the thread state: as the summing region, its invariant the untouched scoped rest and
    the generator register. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Mask.body_obligation1 (E1 m) c).loose
  hwaits := Pipeline.hwaits_of_owed_zero _ _ _ _ L lv 1 fun _ _ => rfl
  pre c := iprop(StableHlo.held (c : Thread nD τ) (Pipeline.ucRefs τ sig) (B19 m c) ∗ R c)
  post c := iprop(StableHlo.held (c : Thread nD τ) (Pipeline.ucRefs τ sig) (B20 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's twenty-one segments in order. -/
abbrev segs : List (Pipeline.Seg (pcfgs (F := F)) adm (pdats m) () defs₀ 𝒱₀ L lv) :=
  [
    .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .host (hseg hostOps0_7 hostOps0_7_sub hostOps0_7_fresh (V7 m)),
    .host (hseg hostOps0_8 hostOps0_8_sub hostOps0_8_fresh (V8 m)),
    .host (hseg hostOps0_9 hostOps0_9_sub hostOps0_9_fresh (V9 m)),
    .host (hseg hostOps0_10 hostOps0_10_sub hostOps0_10_fresh (V10 m)),
    .host (hseg hostOps0_11 hostOps0_11_sub hostOps0_11_fresh (V11 m)),
    .host (hseg hostOps0_12 hostOps0_12_sub hostOps0_12_fresh (V12 m)),
    .host (hseg hostOps0_13 hostOps0_13_sub hostOps0_13_fresh (V13 m)),
    .host (hseg hostOps0_14 hostOps0_14_sub hostOps0_14_fresh (V14 m)),
    .host (hseg hostOps0_15 hostOps0_15_sub hostOps0_15_fresh (V15 m)),
    .host (hseg hostOps0_16 hostOps0_16_sub hostOps0_16_fresh (V16 m)),
    .region (reg0 m),
    .host (hseg hostOps1 hostOps1_sub hostOps1_fresh (B18 m)),
    .region (reg1 m),
    .host (hseg hostOps2 hostOps2_sub hostOps2_fresh (B20 m)) ]

set_option backward.isDefEq.respectTransparency.types false in
/-- THE RUN: from any memory with zero counters every weakly fair execution of @main terminates, nothing faulting, and
    every final state holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = B21 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (B21 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B21 m c b)
    (hfin := fun c s' => by
      iintro ⟨⟨Hh, -⟩, HSI⟩
      unfold StableHlo.held
      imodintro
      iapply (pointsTo_read_all (Pipeline.ucRefs τ sig) (fun b => (((c : Thread nD τ)).1, b)) (B21 m c) s')
      isplitl [Hh] <;> iassumption)
    (hQ := fun s h c => h c)

end Cert.KernelIdeal.Run

end
-- ==== Proof.RunFrame.lean ====
/-
  The frame, read off the run: the six argument arrays are written by no host stretch and are no output of either
  kernel region, so the last boundary's contents at each of them are the launch memory's.
-/
import proofs.«152792_j38062000177638_1_alg».proof.Proof.Run

set_option maxRecDepth 16384

noncomputable section

namespace Cert.KernelIdeal.Run

open Idealize.ShloMosaic Idealize.ShloMosaic.TcCoe
open Idealize.SL.Sem
open Cert.KernelIdeal Cert.KernelIdeal.Gen

variable {F : FTy → Type} [FloatOps F]
variable (m : (ℓ : Loc nD τ sig) → Buf (Elt F) ℓ) (ρ : Dev nD → PrngReg)

/-! ## The arguments end as launched -/

/-- Argument 0 reaches the end as launched: no host stretch writes it and neither region's arrays include it as an output. -/
theorem B21_main_arg0 (c : Dev nD) : B21 m c (Proc.devRef .tc main_arg0) = m ((c : Thread nD τ).loc main_arg0) :=
  (StableHlo.after_of_writes_sub hostOps2 (B20 m c) hostOps2_writes (by decide)).trans <|
  (B20_of_ne m c main_arg0 (by decide)).trans <|
  (StableHlo.after_of_writes_sub hostOps1 (B18 m c) hostOps1_writes (by decide)).trans <|
  (B18_of_ne m c main_arg0 (by decide)).trans <|
  (V17_of m c main_arg0 (by decide)).trans <|
  (V16_of m c main_arg0 (by decide)).trans <|
  (V15_of m c main_arg0 (by decide)).trans <|
  (V14_of m c main_arg0 (by decide)).trans <|
  (V13_of m c main_arg0 (by decide)).trans <|
  (V12_of m c main_arg0 (by decide)).trans <|
  (V11_of m c main_arg0 (by decide)).trans <|
  (V10_of m c main_arg0 (by decide)).trans <|
  (V9_of m c main_arg0 (by decide)).trans <|
  (V8_of m c main_arg0 (by decide)).trans <|
  (V7_of m c main_arg0 (by decide)).trans <|
  (V6_of m c main_arg0 (by decide)).trans <|
  (V5_of m c main_arg0 (by decide)).trans <|
  (V4_of m c main_arg0 (by decide)).trans <|
  (V3_of m c main_arg0 (by decide)).trans <|
  (V2_of m c main_arg0 (by decide)).trans <|
  (V1_of m c main_arg0 (by decide)).trans <|
  rfl

/-- Argument 1 reaches the end as launched: no host stretch writes it and neither region's arrays include it as an output. -/
theorem B21_main_arg1 (c : Dev nD) : B21 m c (Proc.devRef .tc main_arg1) = m ((c : Thread nD τ).loc main_arg1) :=
  (StableHlo.after_of_writes_sub hostOps2 (B20 m c) hostOps2_writes (by decide)).trans <|
  (B20_of_ne m c main_arg1 (by decide)).trans <|
  (StableHlo.after_of_writes_sub hostOps1 (B18 m c) hostOps1_writes (by decide)).trans <|
  (B18_of_ne m c main_arg1 (by decide)).trans <|
  (V17_of m c main_arg1 (by decide)).trans <|
  (V16_of m c main_arg1 (by decide)).trans <|
  (V15_of m c main_arg1 (by decide)).trans <|
  (V14_of m c main_arg1 (by decide)).trans <|
  (V13_of m c main_arg1 (by decide)).trans <|
  (V12_of m c main_arg1 (by decide)).trans <|
  (V11_of m c main_arg1 (by decide)).trans <|
  (V10_of m c main_arg1 (by decide)).trans <|
  (V9_of m c main_arg1 (by decide)).trans <|
  (V8_of m c main_arg1 (by decide)).trans <|
  (V7_of m c main_arg1 (by decide)).trans <|
  (V6_of m c main_arg1 (by decide)).trans <|
  (V5_of m c main_arg1 (by decide)).trans <|
  (V4_of m c main_arg1 (by decide)).trans <|
  (V3_of m c main_arg1 (by decide)).trans <|
  (V2_of m c main_arg1 (by decide)).trans <|
  (V1_of m c main_arg1 (by decide)).trans <|
  rfl

/-- Argument 2 reaches the end as launched: no host stretch writes it and neither region's arrays include it as an output. -/
theorem B21_main_arg2 (c : Dev nD) : B21 m c (Proc.devRef .tc main_arg2) = m ((c : Thread nD τ).loc main_arg2) :=
  (StableHlo.after_of_writes_sub hostOps2 (B20 m c) hostOps2_writes (by decide)).trans <|
  (B20_of_ne m c main_arg2 (by decide)).trans <|
  (StableHlo.after_of_writes_sub hostOps1 (B18 m c) hostOps1_writes (by decide)).trans <|
  (B18_of_ne m c main_arg2 (by decide)).trans <|
  (V17_of m c main_arg2 (by decide)).trans <|
  (V16_of m c main_arg2 (by decide)).trans <|
  (V15_of m c main_arg2 (by decide)).trans <|
  (V14_of m c main_arg2 (by decide)).trans <|
  (V13_of m c main_arg2 (by decide)).trans <|
  (V12_of m c main_arg2 (by decide)).trans <|
  (V11_of m c main_arg2 (by decide)).trans <|
  (V10_of m c main_arg2 (by decide)).trans <|
  (V9_of m c main_arg2 (by decide)).trans <|
  (V8_of m c main_arg2 (by decide)).trans <|
  (V7_of m c main_arg2 (by decide)).trans <|
  (V6_of m c main_arg2 (by decide)).trans <|
  (V5_of m c main_arg2 (by decide)).trans <|
  (V4_of m c main_arg2 (by decide)).trans <|
  (V3_of m c main_arg2 (by decide)).trans <|
  (V2_of m c main_arg2 (by decide)).trans <|
  (V1_of m c main_arg2 (by decide)).trans <|
  rfl

/-- Argument 3 reaches the end as launched: no host stretch writes it and neither region's arrays include it as an output. -/
theorem B21_main_arg3 (c : Dev nD) : B21 m c (Proc.devRef .tc main_arg3) = m ((c : Thread nD τ).loc main_arg3) :=
  (StableHlo.after_of_writes_sub hostOps2 (B20 m c) hostOps2_writes (by decide)).trans <|
  (B20_of_ne m c main_arg3 (by decide)).trans <|
  (StableHlo.after_of_writes_sub hostOps1 (B18 m c) hostOps1_writes (by decide)).trans <|
  (B18_of_ne m c main_arg3 (by decide)).trans <|
  (V17_of m c main_arg3 (by decide)).trans <|
  (V16_of m c main_arg3 (by decide)).trans <|
  (V15_of m c main_arg3 (by decide)).trans <|
  (V14_of m c main_arg3 (by decide)).trans <|
  (V13_of m c main_arg3 (by decide)).trans <|
  (V12_of m c main_arg3 (by decide)).trans <|
  (V11_of m c main_arg3 (by decide)).trans <|
  (V10_of m c main_arg3 (by decide)).trans <|
  (V9_of m c main_arg3 (by decide)).trans <|
  (V8_of m c main_arg3 (by decide)).trans <|
  (V7_of m c main_arg3 (by decide)).trans <|
  (V6_of m c main_arg3 (by decide)).trans <|
  (V5_of m c main_arg3 (by decide)).trans <|
  (V4_of m c main_arg3 (by decide)).trans <|
  (V3_of m c main_arg3 (by decide)).trans <|
  (V2_of m c main_arg3 (by decide)).trans <|
  (V1_of m c main_arg3 (by decide)).trans <|
  rfl

/-- Argument 4 reaches the end as launched: no host stretch writes it and neither region's arrays include it as an output. -/
theorem B21_main_arg4 (c : Dev nD) : B21 m c (Proc.devRef .tc main_arg4) = m ((c : Thread nD τ).loc main_arg4) :=
  (StableHlo.after_of_writes_sub hostOps2 (B20 m c) hostOps2_writes (by decide)).trans <|
  (B20_of_ne m c main_arg4 (by decide)).trans <|
  (StableHlo.after_of_writes_sub hostOps1 (B18 m c) hostOps1_writes (by decide)).trans <|
  (B18_of_ne m c main_arg4 (by decide)).trans <|
  (V17_of m c main_arg4 (by decide)).trans <|
  (V16_of m c main_arg4 (by decide)).trans <|
  (V15_of m c main_arg4 (by decide)).trans <|
  (V14_of m c main_arg4 (by decide)).trans <|
  (V13_of m c main_arg4 (by decide)).trans <|
  (V12_of m c main_arg4 (by decide)).trans <|
  (V11_of m c main_arg4 (by decide)).trans <|
  (V10_of m c main_arg4 (by decide)).trans <|
  (V9_of m c main_arg4 (by decide)).trans <|
  (V8_of m c main_arg4 (by decide)).trans <|
  (V7_of m c main_arg4 (by decide)).trans <|
  (V6_of m c main_arg4 (by decide)).trans <|
  (V5_of m c main_arg4 (by decide)).trans <|
  (V4_of m c main_arg4 (by decide)).trans <|
  (V3_of m c main_arg4 (by decide)).trans <|
  (V2_of m c main_arg4 (by decide)).trans <|
  (V1_of m c main_arg4 (by decide)).trans <|
  rfl

/-- Argument 5 reaches the end as launched: no host stretch writes it and neither region's arrays include it as an output. -/
theorem B21_main_arg5 (c : Dev nD) : B21 m c (Proc.devRef .tc main_arg5) = m ((c : Thread nD τ).loc main_arg5) :=
  (StableHlo.after_of_writes_sub hostOps2 (B20 m c) hostOps2_writes (by decide)).trans <|
  (B20_of_ne m c main_arg5 (by decide)).trans <|
  (StableHlo.after_of_writes_sub hostOps1 (B18 m c) hostOps1_writes (by decide)).trans <|
  (B18_of_ne m c main_arg5 (by decide)).trans <|
  (V17_of m c main_arg5 (by decide)).trans <|
  (V16_of m c main_arg5 (by decide)).trans <|
  (V15_of m c main_arg5 (by decide)).trans <|
  (V14_of m c main_arg5 (by decide)).trans <|
  (V13_of m c main_arg5 (by decide)).trans <|
  (V12_of m c main_arg5 (by decide)).trans <|
  (V11_of m c main_arg5 (by decide)).trans <|
  (V10_of m c main_arg5 (by decide)).trans <|
  (V9_of m c main_arg5 (by decide)).trans <|
  (V8_of m c main_arg5 (by decide)).trans <|
  (V7_of m c main_arg5 (by decide)).trans <|
  (V6_of m c main_arg5 (by decide)).trans <|
  (V5_of m c main_arg5 (by decide)).trans <|
  (V4_of m c main_arg5 (by decide)).trans <|
  (V3_of m c main_arg5 (by decide)).trans <|
  (V2_of m c main_arg5 (by decide)).trans <|
  (V1_of m c main_arg5 (by decide)).trans <|
  rfl

/-- THE FRAME: every weakly fair execution terminates with the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (B21_main_arg0 m c),
     (h c _ (mem_uc main_arg1 (by decide))).trans (B21_main_arg1 m c),
     (h c _ (mem_uc main_arg2 (by decide))).trans (B21_main_arg2 m c),
     (h c _ (mem_uc main_arg3 (by decide))).trans (B21_main_arg3 m c),
     (h c _ (mem_uc main_arg4 (by decide))).trans (B21_main_arg4 m c),
     (h c _ (mem_uc main_arg5 (by decide))).trans (B21_main_arg5 m c)⟩) (run m ρ)

/-- THE RUN WITH THE RESULT: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v24) = B21 m c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v24 (by decide)),
     (h c _ (mem_uc main_arg0 (by decide))).trans (B21_main_arg0 m c),
     (h c _ (mem_uc main_arg1 (by decide))).trans (B21_main_arg1 m c),
     (h c _ (mem_uc main_arg2 (by decide))).trans (B21_main_arg2 m c),
     (h c _ (mem_uc main_arg3 (by decide))).trans (B21_main_arg3 m c),
     (h c _ (mem_uc main_arg4 (by decide))).trans (B21_main_arg4 m c),
     (h c _ (mem_uc main_arg5 (by decide))).trans (B21_main_arg5 m c)⟩) (run m ρ)

end Cert.KernelIdeal.Run

end
-- ==== Proof.SumRunsK.lean ====
/-
  The summing kernel (pipeline 0, a grid of 8 points): at each point it adds the sum of one block of 16 x 256 x 1024
  entries to a one-entry scratch accumulator, which it first sets to zero at the first point and copies to its one-entry
  output block at the last point. This module runs the body once for each of the three kinds of point — the first, a
  middle one, the last — on whole staging buffers, and names what each run leaves in the scratch and in the output.
-/
import proofs.«152792_j38062000177638_1_alg».proof.Proof.Gen.Kernel.Launch
import proofs.«152792_j38062000177638_1_alg».proof.Proof.Gen.Kernel.Skeleton
import proofs.«152792_j38062000177638_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Sum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## Which point is the first, which the last -/

/-- The body's first branch condition: the grid coordinate is 0. -/
abbrev isFirst (i : grid0.Coords) : Prop :=
  (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- The body's second branch condition: the grid coordinate is 7. -/
abbrev isLast (i : grid0.Coords) : Prop := k0_cond2 i = 1#1
theorem isLast_iff : ∀ t : Fin cfg0.N, isLast (grid0.coords t) ↔ t.val = 7 :=
  (by decide +kernel : ∀ t : Fin grid0.N, isLast (grid0.coords t) ↔ t.val = 7)

/-- The input block is stored into by no point. -/
theorem live_in : ∀ t : Fin cfg0.N, cfg0.idle 0 (grid0.coords t) = false := by decide +kernel
/-- Away from the last point the output block is neither stored into nor written back. -/
theorem idle_out : ∀ t : Fin cfg0.N, ¬isLast (grid0.coords t) → cfg0.idle 1 (grid0.coords t) = true := by decide +kernel
theorem noflush_out : ∀ t : Fin cfg0.N, ¬isLast (grid0.coords t) → (cfg0.win 1).flush t = false := by decide +kernel
/-- At the last point the output block is stored into. -/
theorem live_out : ∀ t : Fin cfg0.N, isLast (grid0.coords t) → cfg0.idle 1 (grid0.coords t) = false := by decide +kernel

/-! ## The buffers the body is called with -/

abbrev msIn (t : Fin cfg0.N) : Memref sig .tc .vmem S16x256x1024 .f32 := win0_0.stage (cfg0.slots t 0)
abbrev hsIn (t : Fin cfg0.N) : (msIn t).IsWhole := hstage0_0 ((cfg0.slots t 0).cast nbuf0_0)
abbrev msOut (t : Fin cfg0.N) : Memref sig .tc .vmem S1x1 .f32 := win0_1.stage (cfg0.slots t 1)
abbrev hsOut (t : Fin cfg0.N) : (msOut t).IsWhole := hstage0_1 ((cfg0.slots t 1).cast nbuf0_1)
/-- The accumulator: a whole scoped buffer of the kernel's own. -/
abbrev accM : Memref sig .tc .vmem S1x1 .f32 := Memref.whole cc0_scratch0
abbrev accV : View sig .tc .vmem S1x1 .f32 := accM.view
abbrev outV : View sig .tc .vmem S1x1 .f32 := (Memref.whole cc0_stg1_0 : Memref sig .tc .vmem S1x1 .f32).view

/-! ## The three runs -/

set_option maxHeartbeats 1000000 in
/-- THE FIRST POINT: the accumulator, found at anything, is set to zero and then to zero plus the block's sum; the
    output block is handed back as found. -/
noncomputable def runFirst (c : Dev nD) (i : grid0.Coords) (arg1 : Memref sig .tc .vmem S16x256x1024 .f32) (harg1 : arg1.IsWhole)
    (arg2 : Memref sig .tc .vmem S1x1 .f32) (harg2 : arg2.IsWhole) (arg3 : Memref sig .tc .vmem S1x1 .f32) (harg3 : arg3.IsWhole)
    (h1 : isFirst i) (h2 : ¬isLast i) (x0 : Vec F S16x256x1024 .f32) :
    { LS : List (View.Piece (Elt F) S1x1 .f32) //
      ∀ (xi : Vec F S1x1 .f32) (E : Set ℕ) (K : PUnit → sProp 𝕄),
        iprop(owns (c : Thread nD τ) arg1 fullShare x0 ∗ owns (c : Thread nD τ) arg2 fullShare xi ∗ (∃ d, owns (c : Thread nD τ) arg3 fullShare d)
            ∗ (iprop(owns (c : Thread nD τ) arg1 fullShare x0 ∗ owns (c : Thread nD τ) arg2 fullShare xi
                ∗ (∃ f, arg3.view.loc (c : Thread nD τ) ↦[arg3.view.set]{fullShare} arg3.view.writes (Elt F) f LS)) -∗ K ⟨⟩))
          ⊢ wp frame (wpE (defs₀ (F := F)) Variants.none c none) E (cc0__sum_kernel i arg1 harg1 arg2 harg2 arg3 harg3) K } := by
  refine ⟨?_, fun xi E K => ?run⟩
  case run =>
    simp only [cc0__sum_kernel_eq_skeleton]; unfold cc0__sum_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact h1 | exact h2)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- A MIDDLE POINT: the accumulator, found at `xs`, is set to `xs` plus the block's sum; the output block is handed
    back as found. -/
noncomputable def runMid (c : Dev nD) (i : grid0.Coords) (arg1 : Memref sig .tc .vmem S16x256x1024 .f32) (harg1 : arg1.IsWhole)
    (arg2 : Memref sig .tc .vmem S1x1 .f32) (harg2 : arg2.IsWhole) (arg3 : Memref sig .tc .vmem S1x1 .f32) (harg3 : arg3.IsWhole)
    (h1 : ¬isFirst i) (h2 : ¬isLast i) (x0 : Vec F S16x256x1024 .f32) (xs : Vec F S1x1 .f32) :
    { LS : List (View.Piece (Elt F) S1x1 .f32) //
      ∀ (xi : Vec F S1x1 .f32) (E : Set ℕ) (K : PUnit → sProp 𝕄),
        iprop(owns (c : Thread nD τ) arg1 fullShare x0 ∗ owns (c : Thread nD τ) arg2 fullShare xi ∗ owns (c : Thread nD τ) arg3 fullShare xs
            ∗ (iprop(owns (c : Thread nD τ) arg1 fullShare x0 ∗ owns (c : Thread nD τ) arg2 fullShare xi
                ∗ (∃ f, arg3.view.loc (c : Thread nD τ) ↦[arg3.view.set]{fullShare} arg3.view.writes (Elt F) f LS)) -∗ K ⟨⟩))
          ⊢ wp frame (wpE (defs₀ (F := F)) Variants.none c none) E (cc0__sum_kernel i arg1 harg1 arg2 harg2 arg3 harg3) K } := by
  refine ⟨?_, fun xi E K => ?run⟩
  case run =>
    simp only [cc0__sum_kernel_eq_skeleton]; unfold cc0__sum_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact h1 | exact h2)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- THE LAST POINT: the accumulator, found at `xs`, is set to `xs` plus the block's sum, and that value is stored into
    the output block, found at anything. -/
noncomputable def runLast (c : Dev nD) (i : grid0.Coords) (arg1 : Memref sig .tc .vmem S16x256x1024 .f32) (harg1 : arg1.IsWhole)
    (arg2 : Memref sig .tc .vmem S1x1 .f32) (harg2 : arg2.IsWhole) (arg3 : Memref sig .tc .vmem S1x1 .f32) (harg3 : arg3.IsWhole)
    (h1 : ¬isFirst i) (h2 : isLast i) (x0 : Vec F S16x256x1024 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs
            ∗ (iprop(owns (c : Thread nD τ) arg1 fullShare x0
                ∗ (∃ f, arg2.view.loc (c : Thread nD τ) ↦[arg2.view.set]{fullShare} arg2.view.writes (Elt F) f LO)
                ∗ (∃ f, arg3.view.loc (c : Thread nD τ) ↦[arg3.view.set]{fullShare} arg3.view.writes (Elt F) f LS)) -∗ K ⟨⟩))
          ⊢ wp frame (wpE (defs₀ (F := F)) Variants.none c none) E (cc0__sum_kernel i arg1 harg1 arg2 harg2 arg3 harg3) K } := by
  refine ⟨?_, ?_, fun E K => ?run⟩
  case run =>
    simp only [cc0__sum_kernel_eq_skeleton]; unfold cc0__sum_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact h1 | exact h2)
    sl_step
    iapply Hk
    isplitl [H0]
    · iexists _; isplitr; · ipureintro; exact harg1.read_unread _
      iexact H0
    isplitl [H1]; · iexists _; iexact H1
    iexists _; iexact HS0

end Cert.Kernel.Sum

end
-- ==== Proof.SumDatK.lean ====
/-
  The summing kernel, point by point. After point n the scratch accumulator holds what the run at n left in it, found
  from what point n - 1 left (nothing is assumed of it before the first point, which overwrites it); the output block is
  stored at the last point only and idle elsewhere. From this the module builds the pipeline's proof data at given
  region-entry contents `V` and proves the body obligation: the invariant carried between points says the accumulator
  holds the previous point's value, beside the untouched remaining scoped buffers and the generator register.
-/
import proofs.«152792_j38062000177638_1_alg».proof.Proof.SumRunsK

set_option maxRecDepth 16384

noncomputable section

namespace Cert.Kernel.Sum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input block -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds the point's block, for any proof data over `V` that leaves it in place. -/
theorem before_in_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## What each run leaves -/

theorem coverFirst (c : Dev nD) (i : grid0.Coords) (arg1 : Memref sig .tc .vmem S16x256x1024 .f32) (harg1 : arg1.IsWhole)
    (arg2 : Memref sig .tc .vmem S1x1 .f32) (harg2 : arg2.IsWhole) (arg3 : Memref sig .tc .vmem S1x1 .f32) (harg3 : arg3.IsWhole)
    (h1 : isFirst i) (h2 : ¬isLast i) (x0 : Vec F S16x256x1024 .f32) (y : S1x1.Idx) :
    ∃ pc ∈ (runFirst c i arg1 harg1 arg2 harg2 arg3 harg3 h1 h2 x0).1, y ∈ pc.1.set :=
  View.cover_of_tiledL (runFirst c i arg1 harg1 arg2 harg2 arg3 harg3 h1 h2 x0).1 S1x1.size (by sl_kernel_rfl) y

/-- The accumulator after the first point. -/
def accFirst (c : Dev nD) (i : grid0.Coords) (arg1 : Memref sig .tc .vmem S16x256x1024 .f32) (harg1 : arg1.IsWhole)
    (arg2 : Memref sig .tc .vmem S1x1 .f32) (harg2 : arg2.IsWhole) (arg3 : Memref sig .tc .vmem S1x1 .f32) (harg3 : arg3.IsWhole)
    (h1 : isFirst i) (h2 : ¬isLast i) (x0 : Vec F S16x256x1024 .f32) : Vec F S1x1 .f32 :=
  accV.read (Elt F) (accV.writes (Elt F) accV.junk (runFirst c i arg1 harg1 arg2 harg2 arg3 harg3 h1 h2 x0).1)

theorem coverMid (c : Dev nD) (i : grid0.Coords) (arg1 : Memref sig .tc .vmem S16x256x1024 .f32) (harg1 : arg1.IsWhole)
    (arg2 : Memref sig .tc .vmem S1x1 .f32) (harg2 : arg2.IsWhole) (arg3 : Memref sig .tc .vmem S1x1 .f32) (harg3 : arg3.IsWhole)
    (h1 : ¬isFirst i) (h2 : ¬isLast i) (x0 : Vec F S16x256x1024 .f32) (xs : Vec F S1x1 .f32) (y : S1x1.Idx) :
    ∃ pc ∈ (runMid c i arg1 harg1 arg2 harg2 arg3 harg3 h1 h2 x0 xs).1, y ∈ pc.1.set :=
  View.cover_of_tiledL (runMid c i arg1 harg1 arg2 harg2 arg3 harg3 h1 h2 x0 xs).1 S1x1.size (by sl_kernel_rfl) y

/-- The accumulator after a middle point that found `xs` in it. -/
def accMid (c : Dev nD) (i : grid0.Coords) (arg1 : Memref sig .tc .vmem S16x256x1024 .f32) (harg1 : arg1.IsWhole)
    (arg2 : Memref sig .tc .vmem S1x1 .f32) (harg2 : arg2.IsWhole) (arg3 : Memref sig .tc .vmem S1x1 .f32) (harg3 : arg3.IsWhole)
    (h1 : ¬isFirst i) (h2 : ¬isLast i) (x0 : Vec F S16x256x1024 .f32) (xs : Vec F S1x1 .f32) : Vec F S1x1 .f32 :=
  accV.read (Elt F) (accV.writes (Elt F) accV.junk (runMid c i arg1 harg1 arg2 harg2 arg3 harg3 h1 h2 x0 xs).1)

theorem coverLastAcc (c : Dev nD) (i : grid0.Coords) (arg1 : Memref sig .tc .vmem S16x256x1024 .f32) (harg1 : arg1.IsWhole)
    (arg2 : Memref sig .tc .vmem S1x1 .f32) (harg2 : arg2.IsWhole) (arg3 : Memref sig .tc .vmem S1x1 .f32) (harg3 : arg3.IsWhole)
    (h1 : ¬isFirst i) (h2 : isLast i) (x0 : Vec F S16x256x1024 .f32) (xs : Vec F S1x1 .f32) (y : S1x1.Idx) :
    ∃ pc ∈ (runLast c i arg1 harg1 arg2 harg2 arg3 harg3 h1 h2 x0 xs).2.1, y ∈ pc.1.set :=
  View.cover_of_tiledL (runLast c i arg1 harg1 arg2 harg2 arg3 harg3 h1 h2 x0 xs).2.1 S1x1.size (by sl_kernel_rfl) y

theorem coverLastOut (c : Dev nD) (i : grid0.Coords) (arg1 : Memref sig .tc .vmem S16x256x1024 .f32) (harg1 : arg1.IsWhole)
    (arg2 : Memref sig .tc .vmem S1x1 .f32) (harg2 : arg2.IsWhole) (arg3 : Memref sig .tc .vmem S1x1 .f32) (harg3 : arg3.IsWhole)
    (h1 : ¬isFirst i) (h2 : isLast i) (x0 : Vec F S16x256x1024 .f32) (xs : Vec F S1x1 .f32) (y : S1x1.Idx) :
    ∃ pc ∈ (runLast c i arg1 harg1 arg2 harg2 arg3 harg3 h1 h2 x0 xs).1, y ∈ pc.1.set :=
  View.cover_of_tiledL (runLast c i arg1 harg1 arg2 harg2 arg3 harg3 h1 h2 x0 xs).1 S1x1.size (by sl_kernel_rfl) y

/-- The accumulator after the last point, which found `xs` in it. -/
def accLast (c : Dev nD) (i : grid0.Coords) (arg1 : Memref sig .tc .vmem S16x256x1024 .f32) (harg1 : arg1.IsWhole)
    (arg2 : Memref sig .tc .vmem S1x1 .f32) (harg2 : arg2.IsWhole) (arg3 : Memref sig .tc .vmem S1x1 .f32) (harg3 : arg3.IsWhole)
    (h1 : ¬isFirst i) (h2 : isLast i) (x0 : Vec F S16x256x1024 .f32) (xs : Vec F S1x1 .f32) : Vec F S1x1 .f32 :=
  accV.read (Elt F) (accV.writes (Elt F) accV.junk (runLast c i arg1 harg1 arg2 harg2 arg3 harg3 h1 h2 x0 xs).2.1)

/-- The output block after the last point. -/
def outLast (c : Dev nD) (i : grid0.Coords) (arg1 : Memref sig .tc .vmem S16x256x1024 .f32) (harg1 : arg1.IsWhole)
    (arg2 : Memref sig .tc .vmem S1x1 .f32) (harg2 : arg2.IsWhole) (arg3 : Memref sig .tc .vmem S1x1 .f32) (harg3 : arg3.IsWhole)
    (h1 : ¬isFirst i) (h2 : isLast i) (x0 : Vec F S16x256x1024 .f32) (xs : Vec F S1x1 .f32) : Vec F S1x1 .f32 :=
  outV.read (Elt F) (outV.writes (Elt F) outV.junk (runLast c i arg1 harg1 arg2 harg2 arg3 harg3 h1 h2 x0 xs).1)

/-! ## The accumulation -/

/-- What the output block's staging buffer and the accumulator hold after the body at position `n`: the run the
    position selects, a later point's over the accumulator the point before left. (Away from the last point the first
    component is a placeholder nothing consults: the output block is idle there.) -/
def outsAt (c : Dev nD) : (n : ℕ) → n < cfg0.N → Vec F S1x1 .f32 × Vec F S1x1 .f32
  | 0, hn => (accV.junk (Val := Elt F) |> accV.read (Elt F),
      accFirst c (grid0.coords ⟨0, hn⟩) (msIn ⟨0, hn⟩) (hsIn ⟨0, hn⟩) (msOut ⟨0, hn⟩) (hsOut ⟨0, hn⟩) accM (Memref.isWhole_whole _)
        ((isFirst_iff ⟨0, hn⟩).mpr rfl) (fun h => absurd ((isLast_iff ⟨0, hn⟩).mp h) (show ¬ (0 : ℕ) = 7 by decide)) (iblk V c 0 ⟨0, hn⟩))
  | n + 1, hn =>
    if h7 : n + 1 = 7 then
      (outLast c (grid0.coords ⟨n + 1, hn⟩) (msIn ⟨n + 1, hn⟩) (hsIn ⟨n + 1, hn⟩) (msOut ⟨n + 1, hn⟩) (hsOut ⟨n + 1, hn⟩) accM (Memref.isWhole_whole _)
          (fun h => absurd ((isFirst_iff ⟨n + 1, hn⟩).mp h) (Nat.succ_ne_zero n)) ((isLast_iff ⟨n + 1, hn⟩).mpr h7) (iblk V c 0 ⟨n + 1, hn⟩) (outsAt c n (Nat.lt_of_succ_lt hn)).2,
        accLast c (grid0.coords ⟨n + 1, hn⟩) (msIn ⟨n + 1, hn⟩) (hsIn ⟨n + 1, hn⟩) (msOut ⟨n + 1, hn⟩) (hsOut ⟨n + 1, hn⟩) accM (Memref.isWhole_whole _)
          (fun h => absurd ((isFirst_iff ⟨n + 1, hn⟩).mp h) (Nat.succ_ne_zero n)) ((isLast_iff ⟨n + 1, hn⟩).mpr h7) (iblk V c 0 ⟨n + 1, hn⟩) (outsAt c n (Nat.lt_of_succ_lt hn)).2)
    else
      (accV.junk (Val := Elt F) |> accV.read (Elt F),
        accMid c (grid0.coords ⟨n + 1, hn⟩) (msIn ⟨n + 1, hn⟩) (hsIn ⟨n + 1, hn⟩) (msOut ⟨n + 1, hn⟩) (hsOut ⟨n + 1, hn⟩) accM (Memref.isWhole_whole _)
          (fun h => absurd ((isFirst_iff ⟨n + 1, hn⟩).mp h) (Nat.succ_ne_zero n)) (fun h => h7 ((isLast_iff ⟨n + 1, hn⟩).mp h)) (iblk V c 0 ⟨n + 1, hn⟩) (outsAt c n (Nat.lt_of_succ_lt hn)).2)

theorem outsAt_first (c : Dev nD) (t : Fin cfg0.N) (h0 : t.val = 0) :
    (outsAt V c t.val t.isLt).2 = accFirst c (grid0.coords t) (msIn t) (hsIn t) (msOut t) (hsOut t) accM (Memref.isWhole_whole _)
      ((isFirst_iff t).mpr h0) (fun h => absurd ((isLast_iff t).mp h) (by omega)) (iblk V c 0 t) := by
  obtain ⟨n, hn⟩ := t
  cases n with
  | zero => rfl
  | succ n => exact absurd h0 (Nat.succ_ne_zero n)

theorem outsAt_mid (c : Dev nD) (t : Fin cfg0.N) (h0 : t.val ≠ 0) (h7 : t.val ≠ 7) :
    (outsAt V c t.val t.isLt).2 = accMid c (grid0.coords t) (msIn t) (hsIn t) (msOut t) (hsOut t) accM (Memref.isWhole_whole _)
      (fun h => h0 ((isFirst_iff t).mp h)) (fun h => h7 ((isLast_iff t).mp h)) (iblk V c 0 t)
      (outsAt V c (t.val - 1) (Nat.lt_of_le_of_lt (Nat.sub_le _ _) t.isLt)).2 := by
  obtain ⟨n, hn⟩ := t
  cases n with
  | zero => exact absurd rfl h0
  | succ n => exact congrArg Prod.snd ((dif_neg h7).trans rfl)

theorem outsAt_last (c : Dev nD) (t : Fin cfg0.N) (h0 : t.val ≠ 0) (h7 : t.val = 7) :
    outsAt V c t.val t.isLt = (outLast c (grid0.coords t) (msIn t) (hsIn t) (msOut t) (hsOut t) accM (Memref.isWhole_whole _)
        (fun h => h0 ((isFirst_iff t).mp h)) ((isLast_iff t).mpr h7) (iblk V c 0 t)
        (outsAt V c (t.val - 1) (Nat.lt_of_le_of_lt (Nat.sub_le _ _) t.isLt)).2,
      accLast c (grid0.coords t) (msIn t) (hsIn t) (msOut t) (hsOut t) accM (Memref.isWhole_whole _)
        (fun h => h0 ((isFirst_iff t).mp h)) ((isLast_iff t).mpr h7) (iblk V c 0 t)
        (outsAt V c (t.val - 1) (Nat.lt_of_le_of_lt (Nat.sub_le _ _) t.isLt)).2) := by
  obtain ⟨n, hn⟩ := t
  cases n with
  | zero => exact absurd rfl h0
  | succ n => exact (dif_pos h7).trans rfl

/-! ## The invariant between points -/

/-- The scoped buffers other than the accumulator and the staging buffers of this pipeline, at anything. -/
abbrev others (c : Dev nD) : sProp 𝕄 :=
  Pipeline.scopedRestBut (Ix := Unit) (Name := ℕ) (U := UR sig nD τ) (Lvl := ℕ) (Val := Elt F) spec0 c [cc0_scratch0]

/-- What the launch hands the region, with the accumulator singled out. -/
theorem PhiA_eq (c : Dev nD) :
    (Pipeline.ΦA spec0 c : sProp 𝕄)
      = iprop(((∃ d, owns (c : Thread nD τ) accM fullShare d) ∗ others c) ∗ (∃ r, prngReg c r)) := by
  unfold Pipeline.ΦA
  rw [Pipeline.scopedRest_split_of_list spec0 c [cc0_scratch0] (by decide) (by decide)]
  simp only [bigSepL, accM, owns_whole]; try rfl

/-- Before position `n`: at the start what the launch hands over; later the accumulator at what the point before left. -/
def PhiS (c : Dev nD) : (n : ℕ) → n ≤ cfg0.N → sProp 𝕄
  | 0, _ => Pipeline.ΦA spec0 c
  | n + 1, hn => iprop((owns (c : Thread nD τ) accM fullShare ((outsAt V c n hn).2) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) accM fullShare ((outsAt V c n hn).2) ∗ others c) ∗ (∃ r, prngReg c r)) := rfl

theorem PhiS_pos (c : Dev nD) (n : ℕ) (h : n ≤ cfg0.N) (hz : n ≠ 0) :
    PhiS V c n h = iprop((owns (c : Thread nD τ) accM fullShare ((outsAt V c (n - 1) (by omega)).2) ∗ others c) ∗ (∃ r, prngReg c r)) := by
  cases n with
  | zero => exact absurd rfl hz
  | succ n => rfl

/-! ## The proof data -/

/-- Pipeline 0's proof data on core `c` at the region-entry contents `V`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = PhiS V c t.val (Nat.le_of_lt t.isLt) := by
  dsimp only [dat]; simp only [Fin.coe_castSucc]

theorem after_in (c : Dev nD) (t : Fin cfg0.N) : (dat V c).after 0 t = iblk V c 0 t := by dsimp only [dat]
theorem after_out (c : Dev nD) (t : Fin cfg0.N) : (dat V c).after 1 t = (outsAt V c t.val t.isLt).1 := by dsimp only [dat]

theorem before_in (c : Dev nD) (t : Fin cfg0.N) (d) : (dat V c).before 0 t d = iblk V c 0 t :=
  before_in_of V (dat V c) (A_eq V c 0) (after_in V c) t d

/-! ## The body obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (msIn t) fullShare ((dat V c).before 0 t d))
    ∗ (∃ d, owns (c : Thread nD τ) (msOut t) fullShare ((dat V c).before 1 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4800000 in
/-- The body at any point: the input's buffer holds the point's block; the point's position says which run applies; the
    invariant hands the run the accumulator at what the point before left (at anything before the first point) and takes
    it back at this point's value; away from the last point the output block comes back untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (msIn t) fullShare ((dat V c).after 0 t) from by
      unfold Dat.leavesExact; rw [live_in t], after_in]
  have hN : t.val < 8 := lt_of_lt_of_eq t.isLt (show cfg0.N = 8 from N_0)
  by_cases h7 : t.val = 7
  · have h0 : t.val ≠ 0 := by omega
    rw [show (dat V c).leavesExact 1 t = owns (c : Thread nD τ) (msOut t) fullShare ((dat V c).after 1 t) from by
      unfold Dat.leavesExact; rw [live_out t ((isLast_iff t).mpr h7)], after_out]
    rw [outsAt_last V c t h0 h7]
    unfold outLast accLast; (try dsimp only)
    rw [Phi_castSucc V c t, PhiS_pos V c _ _ h0]
    iintro ⟨⟨⟨HS, Hoth⟩, Hg⟩, Ho, ⟨%d0, H0⟩, ⟨%d1, H1⟩⟩
    iapply ((runLast c (grid0.coords t) _ _ _ _ _ _ (fun h => h0 ((isFirst_iff t).mp h)) ((isLast_iff t).mpr h7) (iblk V c 0 t) _).2.2 Set.univ _)
    isplitl [H0]; · iexact H0
    isplitl [H1]; · iexists _; iexact H1
    isplitl [HS]; · iexact HS
    iintro ⟨H0, ⟨%e1, H1⟩, ⟨%es, HS⟩⟩
    isplitl [HS Hoth Hg]
    · isplitl [HS Hoth]
      · isplitl [HS]
        · unfold owns; iexists _; isplitr
          swap; · iexact HS
          ipureintro; exact View.read_writes_of_cover _ _ _ _ _ (coverLastAcc c _ _ _ _ _ _ _ _ _ _ _)
        iexact Hoth
      iexact Hg
    isplitl [Ho]; · iexact Ho
    isplitl [H0]; · iexact H0
    unfold owns; iexists _; isplitr
    swap; · iexact H1
    ipureintro; exact View.read_writes_of_cover _ _ _ _ _ (coverLastOut c _ _ _ _ _ _ _ _ _ _ _)
  · rw [Dat.leavesExact_idle (dat V c) 1 t (idle_out t (fun h => h7 ((isLast_iff t).mp h))) (noflush_out t (fun h => h7 ((isLast_iff t).mp h)))]
    by_cases h0 : t.val = 0
    · rw [outsAt_first V c t h0]
      unfold accFirst; (try dsimp only)
      rw [Phi_castSucc V c t, PhiS_zero V c _ _ h0, PhiA_eq]
      iintro ⟨⟨⟨HS, Hoth⟩, Hg⟩, Ho, ⟨%d0, H0⟩, ⟨%d1, H1⟩⟩
      iapply ((runFirst c (grid0.coords t) _ _ _ _ _ _ ((isFirst_iff t).mpr h0) (fun h => h7 ((isLast_iff t).mp h)) (iblk V c 0 t)).2 _ Set.univ _)
      isplitl [H0]; · iexact H0
      isplitl [H1]; · iexact H1
      isplitl [HS]; · iexact HS
      iintro ⟨H0, H1, ⟨%es, HS⟩⟩
      isplitl [HS Hoth Hg]
      · isplitl [HS Hoth]
        · isplitl [HS]
          · unfold owns; iexists _; isplitr
            swap; · iexact HS
            ipureintro; exact View.read_writes_of_cover _ _ _ _ _ (coverFirst c _ _ _ _ _ _ _ _ _ _)
          iexact Hoth
        iexact Hg
      isplitl [Ho]; · iexact Ho
      isplitl [H0]; · iexact H0
      iexists _; iexact H1
    · rw [outsAt_mid V c t h0 h7]
      unfold accMid; (try dsimp only)
      rw [Phi_castSucc V c t, PhiS_pos V c _ _ h0]
      iintro ⟨⟨⟨HS, Hoth⟩, Hg⟩, Ho, ⟨%d0, H0⟩, ⟨%d1, H1⟩⟩
      iapply ((runMid c (grid0.coords t) _ _ _ _ _ _ (fun h => h0 ((isFirst_iff t).mp h)) (fun h => h7 ((isLast_iff t).mp h)) (iblk V c 0 t) _).2 _ Set.univ _)
      isplitl [H0]; · iexact H0
      isplitl [H1]; · iexact H1
      isplitl [HS]; · iexact HS
      iintro ⟨H0, H1, ⟨%es, HS⟩⟩
      isplitl [HS Hoth Hg]
      · isplitl [HS Hoth]
        · isplitl [HS]
          · unfold owns; iexists _; isplitr
            swap; · iexact HS
            ipureintro; exact View.read_writes_of_cover _ _ _ _ _ (coverMid c _ _ _ _ _ _ _ _ _ _ _)
          iexact Hoth
        iexact Hg
      isplitl [Ho]; · iexact Ho
      isplitl [H0]; · iexact H0
      iexists _; iexact H1

/-- The body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the launch's form back: the accumulator's value is forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 8 := N_0; omega), PhiA_eq]
  iintro ⟨⟨HS, Hoth⟩, Hg⟩
  isplitl [HS Hoth]
  · isplitl [HS]; · iexists _; iexact HS
    iexact Hoth
  iexact Hg

end Cert.Kernel.Sum

end
-- ==== Proof.MaskBodyK.lean ====
/- The mask-select kernel (pipeline 1) as a class-A body: what its one store leaves in the output window's
   buffer as a function of the seven input blocks and the grid position, the body's triple, the pipeline's
   proof data at arbitrary entry contents `V`, and the body obligation. -/
import proofs.«152792_j38062000177638_1_alg».proof.Proof.Gen.Kernel.Launch
import proofs.«152792_j38062000177638_1_alg».proof.Proof.Gen.Kernel.Skeleton
import proofs.«152792_j38062000177638_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Mask

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: the parameter the whole module is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched the block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched the block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched the block index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is not
    fetched the block index has not moved since the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where it is not
    fetched the block index has not moved since the point before. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: where it is not
    fetched the block index has not moved since the point before. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not: where it is not
    fetched the block index has not moved since the point before. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: three whole-buffer rectangles -/

abbrev rX : Rect S8x64x1024 := Rect.unit (s := S8x64x1024) ![0, 0, 0] S8x64x1024.size inb_S8x64x1024_S8x64x1024_0_0_0
abbrev rP : Rect S8x5 := Rect.unit (s := S8x5) ![0, 0] S8x5.size inb_S8x5_S8x5_0_0
abbrev rS : Rect S1x1 := Rect.unit (s := S1x1) ![0, 0] S1x1.size inb_S1x1_S1x1_0_0

/-! ## What the body stores, as one function of its loads -/

/-- The lane-index vector 0..1023 along the last axis. -/
abbrev laneIota : IVec S1x1x1024 32 := iota .tc S1x1x1024 32 [2] iota_S1x1x1024_d2_w32

/-- The running maximum over holes 0 and 1. -/
def mask01 (i : grid1.Coords) (v5 v7 v9 v11 v13 : Vec F S8x5 .i32) : FVec F S8x64x1024 .f32 :=
  k1_pay13 (k1_pay2 i) laneIota (k1_pay3 v5) (k1_pay4 v7) (k1_pay5 v9) (k1_pay6 v11) (k1_pay7 v13) (k1_pay8 (F := F))
    (k1_pay9 v13) (k1_pay10 i v9 v11) (k1_pay11 v5) (k1_pay12 v7)

/-- The running maximum over holes 0, 1 and 2. -/
def mask012 (i : grid1.Coords) (v5 v7 v9 v11 v13 : Vec F S8x5 .i32) : FVec F S8x64x1024 .f32 :=
  k1_pay19 (k1_pay2 i) laneIota (mask01 i v5 v7 v9 v11 v13) (k1_pay14 (k1_pay6 v11)) (k1_pay15 (k1_pay3 v5)) (k1_pay16 (k1_pay4 v7))
    (k1_pay17 (F := F) (k1_pay7 v13)) (k1_pay18 (k1_pay5 v9))

/-- The stored value: x * (1 - mask) + mask * fill, the mask the maximum over all five holes. -/
def storedVal (i : grid1.Coords) (v213 : Vec F S8x64x1024 .f32) (v5 v7 v9 v11 v13 : Vec F S8x5 .i32) (v211 : Vec F S1x1 .f32) :
    FVec F S8x64x1024 .f32 :=
  k1_pay1
    (k1_pay24 (k1_pay2 i) laneIota (k1_pay3 v5) (k1_pay4 v7) (k1_pay5 v9) (k1_pay6 v11) (k1_pay7 v13) (mask012 i v5 v7 v9 v11 v13)
      (k1_pay20 (F := F) (k1_pay7 v13)) (k1_pay21 (F := F) (k1_pay2 i) (k1_pay5 v9) (k1_pay6 v11)) (k1_pay22 (F := F) laneIota (k1_pay3 v5) (k1_pay4 v7)) v213)
    (k1_pay25 (k1_pay2 i) laneIota (k1_pay3 v5) (k1_pay4 v7) (k1_pay5 v9) (k1_pay6 v11) (k1_pay7 v13) (mask012 i v5 v7 v9 v11 v13)
      (k1_pay20 (F := F) (k1_pay7 v13)) (k1_pay21 (F := F) (k1_pay2 i) (k1_pay5 v9) (k1_pay6 v11)) (k1_pay22 (F := F) laneIota (k1_pay3 v5) (k1_pay4 v7)) v211)

/-! ## What the body leaves in the output window's buffer -/

/-- Window 7's staging buffer after the body at grid position `i`, from the input windows' blocks: its one store. -/
def out1_7 (i : grid1.Coords) (x0 : Vec F S8x64x1024 .f32) (x1 x2 x3 x4 x5 : Vec F S8x5 .i32) (x6 : Vec F S1x1 .f32) : Vec F S8x64x1024 .f32 :=
  View.canon [⟨rX, storedVal i (View.ld x0 rX) (View.ld x1 rP) (View.ld x2 rP) (View.ld x3 rP) (View.ld x4 rP) (View.ld x5 rP) (View.ld x6 rS)⟩]

/-- The store covers the buffer. -/
theorem cover1_7 (p0 : Vec F S8x64x1024 .f32) (y : S8x64x1024.Idx) :
    ∃ pc ∈ ([⟨rX, p0⟩] : List (View.Piece (Elt F) S8x64x1024 .f32)), y ∈ pc.1.set :=
  View.cover_of_tiled [⟨rX, p0⟩] S8x64x1024.size (by rfl) y

/-! ## The body's triple -/

set_option maxHeartbeats 4000000 in
/-- The kernel body on whole staging memrefs, the inputs' at read contents `xW` and the output's at anything, runs to
    the continuation holding the inputs' as they were and the output's at `out1_7` of the inputs'. -/
theorem sound_kernel1 (c : Dev nD) (E : Set ℕ) (i : grid1.Coords)
    (arg2 : Memref sig .tc .vmem S8x64x1024 .f32) (harg2 : arg2.IsWhole)
    (arg3 : Memref sig .tc .vmem S8x5 .i32) (harg3 : arg3.IsWhole)
    (arg4 : Memref sig .tc .vmem S8x5 .i32) (harg4 : arg4.IsWhole)
    (arg5 : Memref sig .tc .vmem S8x5 .i32) (harg5 : arg5.IsWhole)
    (arg6 : Memref sig .tc .vmem S8x5 .i32) (harg6 : arg6.IsWhole)
    (arg7 : Memref sig .tc .vmem S8x5 .i32) (harg7 : arg7.IsWhole)
    (arg8 : Memref sig .tc .vmem S1x1 .f32) (harg8 : arg8.IsWhole)
    (arg9 : Memref sig .tc .vmem S8x64x1024 .f32) (harg9 : arg9.IsWhole)
    (x0 : Vec F S8x64x1024 .f32) (x1 : Vec F S8x5 .i32) (x2 : Vec F S8x5 .i32) (x3 : Vec F S8x5 .i32) (x4 : Vec F S8x5 .i32) (x5 : Vec F S8x5 .i32) (x6 : Vec F S1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out1_7 i x0 x1 x2 x3 x4 x5 x6)) -∗ K ⟨⟩))
      ⊢ wp frame (wpE (defs₀ (F := F)) Variants.none c none) E (cc1__mask_kernel i arg2 harg2 arg3 harg3 arg4 harg4 arg5 harg5 arg6 harg6 arg7 harg7 arg8 harg8 arg9 harg9) K := by
  simp only [cc1__mask_kernel_eq_skeleton]; unfold cc1__mask_kernel_skel
  simp only [k1_part1_eq_skeleton]; unfold k1_part1_skel
  simp only [k1_part2_eq_skeleton]; unfold k1_part2_skel
  simp only [k1_part3_eq_skeleton]; unfold k1_part3_skel
  simp only [k1_part4_eq_skeleton]; unfold k1_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover1_7 _)

/-! ## The pipeline's proof data -/

/-- The proof data of pipeline 1 on core `c`: the arrays as the region finds them (`V`); after the body at point `t`
    each input's buffer at its block and the output's at `out1_7` of the input blocks at the point's grid position;
    the invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (grid1.coords t) (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = out1_7 (grid1.coords t) (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Mask

end
-- ==== Proof.RunK.lean ====
/-
  The whole program as one run. @main is seventeen stretches of host operations (the integer geometry of the five holes),
  the summing kernel, a host division (the mean), the mask-and-select kernel, and a last host reshape. Each boundary
  between two of these has a named valuation of the core's unscoped buffers: the launch memory pushed through the host
  stretches, and through each kernel region by replacing the region's arrays with what its write-backs leave. Every
  weakly fair execution terminates with every unscoped buffer at the last valuation; from it follow the frame claim
  (no stretch and no region writes an argument) and the value of the result buffer.
-/
import proofs.«152792_j38062000177638_1_alg».proof.Proof.SumDatK
import proofs.«152792_j38062000177638_1_alg».proof.Proof.MaskBodyK
import proofs.«152792_j38062000177638_1_alg».proof.Proof.Gen.Kernel.Regions
import Idealize.ShloMosaic.Lib.Pipeline.RegionsLoop
import Idealize.ShloMosaic.Lib.Pipeline.FrameSuffix

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the regions' boundaries -/

/-- What the summing region finds: the launch memory after the seventeen host stretches. -/
abbrev E0 : (c : Dev nD) → (b : Ref sig .tc) → Buf (Elt F) ((c : Thread nD τ).loc b) := fun c b => V17 m c b

/-- After the summing region: its arrays at what its write-backs leave, every other buffer as it was. -/
def B18 (c : Dev nD) : Valuation τ sig (Elt F) :=
  Pipeline.withArrays spec0 c (V17 m c) fun w => (Sum.dat (E0 m) c).arrAt w cfg0.N
theorem B18_arr (c : Dev nD) (w : Fin cfg0.W) :
    B18 m c (Proc.devRef .tc (Pipeline.arrRef spec0 w)) = (Sum.dat (E0 m) c).arrAt w cfg0.N := by
  unfold B18; exact Pipeline.withArrays_arr spec0 launch0.win.arr_inj c _ _ w
theorem B18_of_ne (c : Dev nD) (b : Ref sig .tc) (hb : ∀ w, Pipeline.arrRef spec0 w ≠ b) :
    B18 m c (Proc.devRef .tc b) = V17 m c (Proc.devRef .tc b) := by
  unfold B18; exact Pipeline.withArrays_of_ne spec0 c _ _ b hb
abbrev X0 : (c : Dev nD) → (b : Ref sig .tc) → Buf (Elt F) ((c : Thread nD τ).loc b) := fun c b => B18 m c b
theorem hF0 (c : Dev nD) (w : Fin cfg0.W) : (Sum.dat (E0 m) c).arrAt w cfg0.N = X0 m c (Pipeline.arrRef spec0 w) :=
  (B18_arr m c w).symm
theorem hrest0 (c : Dev nD) : ∀ b, b ∉ Finset.univ.image (Pipeline.arrRef spec0) → X0 m c b = E0 m c b :=
  fun b hb => B18_of_ne m c b fun w e => hb (Finset.mem_image.mpr ⟨w, Finset.mem_univ _, e⟩)

/-- After the host division: what the mask-and-select region finds. -/
abbrev B19 : Dev nD → Valuation τ sig (Elt F) := fun c => StableHlo.after hostOps1 (B18 m c)
abbrev E1 : (c : Dev nD) → (b : Ref sig .tc) → Buf (Elt F) ((c : Thread nD τ).loc b) := fun c b => B19 m c b

/-- After the mask-and-select region. -/
def B20 (c : Dev nD) : Valuation τ sig (Elt F) :=
  Pipeline.withArrays spec1 c (B19 m c) fun w => (Mask.dat1 (E1 m) c).arrAt w cfg1.N
theorem B20_arr (c : Dev nD) (w : Fin cfg1.W) :
    B20 m c (Proc.devRef .tc (Pipeline.arrRef spec1 w)) = (Mask.dat1 (E1 m) c).arrAt w cfg1.N := by
  unfold B20; exact Pipeline.withArrays_arr spec1 launch1.win.arr_inj c _ _ w
theorem B20_of_ne (c : Dev nD) (b : Ref sig .tc) (hb : ∀ w, Pipeline.arrRef spec1 w ≠ b) :
    B20 m c (Proc.devRef .tc b) = B19 m c (Proc.devRef .tc b) := by
  unfold B20; exact Pipeline.withArrays_of_ne spec1 c _ _ b hb
abbrev X1 : (c : Dev nD) → (b : Ref sig .tc) → Buf (Elt F) ((c : Thread nD τ).loc b) := fun c b => B20 m c b
theorem hF1 (c : Dev nD) (w : Fin cfg1.W) : (Mask.dat1 (E1 m) c).arrAt w cfg1.N = X1 m c (Pipeline.arrRef spec1 w) :=
  (B20_arr m c w).symm
theorem hrest1 (c : Dev nD) : ∀ b, b ∉ Finset.univ.image (Pipeline.arrRef spec1) → X1 m c b = E1 m c b :=
  fun b hb => B20_of_ne m c b fun w e => hb (Finset.mem_image.mpr ⟨w, Finset.mem_univ _, e⟩)

/-- After the last host stretch: the program's end. -/
abbrev B21 : Dev nD → Valuation τ sig (Elt F) := fun c => StableHlo.after hostOps2 (B20 m c)

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => Sum.dat (E0 m) c
  | ⟨1, _⟩ => fun c => Mask.dat1 (E1 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (B21 m c) ∗ ∃ r, prngReg c r)

/-! ## The regions as segments -/

set_option backward.isDefEq.respectTransparency.types false in
/-- THE SUMMING REGION over the thread state: its arrays split out of the unscoped buffers and put back at the exit
    contents; the generator register and the scoped rest into the region's invariant and out. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Sum.body_obligation (E0 m) c).loose
  hwaits := Pipeline.hwaits_of_owed_zero _ _ _ _ L lv 0 fun _ _ => rfl
  pre c := iprop(StableHlo.held (c : Thread nD τ) (Pipeline.ucRefs τ sig) (V17 m c) ∗ R c)
  post c := iprop(StableHlo.held (c : Thread nD τ) (Pipeline.ucRefs τ sig) (B18 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (Sum.dat (E0 m) c).Φ 0 from rfl]
    refine (show _ ⊢ (Pipeline.ΦA spec0 c : sProp 𝕄) from ?_).trans (Sum.hin (E0 m) c)
    unfold Pipeline.ΦA
    iintro ⟨Hp, -, Hr⟩
    isplitl [Hr]; · iexact Hr
    iexact Hp
  hout c := by
    rw [Pipeline.ownSems0_none, show (pdats m 0 c).Φ (Fin.last _) = (Sum.dat (E0 m) c).Φ (Fin.last cfg0.N) from rfl]
    refine (Sum.hout (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE MASK-AND-SELECT REGION over the thread state: as the summing region, its invariant the untouched scoped rest and
    the generator register. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Mask.body_obligation1 (E1 m) c).loose
  hwaits := Pipeline.hwaits_of_owed_zero _ _ _ _ L lv 1 fun _ _ => rfl
  pre c := iprop(StableHlo.held (c : Thread nD τ) (Pipeline.ucRefs τ sig) (B19 m c) ∗ R c)
  post c := iprop(StableHlo.held (c : Thread nD τ) (Pipeline.ucRefs τ sig) (B20 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's twenty-one segments in order. -/
abbrev segs : List (Pipeline.Seg (pcfgs (F := F)) adm (pdats m) () defs₀ 𝒱₀ L lv) :=
  [
    .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .host (hseg hostOps0_7 hostOps0_7_sub hostOps0_7_fresh (V7 m)),
    .host (hseg hostOps0_8 hostOps0_8_sub hostOps0_8_fresh (V8 m)),
    .host (hseg hostOps0_9 hostOps0_9_sub hostOps0_9_fresh (V9 m)),
    .host (hseg hostOps0_10 hostOps0_10_sub hostOps0_10_fresh (V10 m)),
    .host (hseg hostOps0_11 hostOps0_11_sub hostOps0_11_fresh (V11 m)),
    .host (hseg hostOps0_12 hostOps0_12_sub hostOps0_12_fresh (V12 m)),
    .host (hseg hostOps0_13 hostOps0_13_sub hostOps0_13_fresh (V13 m)),
    .host (hseg hostOps0_14 hostOps0_14_sub hostOps0_14_fresh (V14 m)),
    .host (hseg hostOps0_15 hostOps0_15_sub hostOps0_15_fresh (V15 m)),
    .host (hseg hostOps0_16 hostOps0_16_sub hostOps0_16_fresh (V16 m)),
    .region (reg0 m),
    .host (hseg hostOps1 hostOps1_sub hostOps1_fresh (B18 m)),
    .region (reg1 m),
    .host (hseg hostOps2 hostOps2_sub hostOps2_fresh (B20 m)) ]

set_option backward.isDefEq.respectTransparency.types false in
/-- THE RUN: from any memory with zero counters every weakly fair execution of @main terminates, nothing faulting, and
    every final state holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = B21 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (B21 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B21 m c b)
    (hfin := fun c s' => by
      iintro ⟨⟨Hh, -⟩, HSI⟩
      unfold StableHlo.held
      imodintro
      iapply (pointsTo_read_all (Pipeline.ucRefs τ sig) (fun b => (((c : Thread nD τ)).1, b)) (B21 m c) s')
      isplitl [Hh] <;> iassumption)
    (hQ := fun s h c => h c)

end Cert.Kernel.Run

end
-- ==== Proof.RunFrameK.lean ====
/-
  The frame, read off the run: the six argument arrays are written by no host stretch and are no output of either
  kernel region, so the last boundary's contents at each of them are the launch memory's.
-/
import proofs.«152792_j38062000177638_1_alg».proof.Proof.RunK

set_option maxRecDepth 16384

noncomputable section

namespace Cert.Kernel.Run

open Idealize.ShloMosaic Idealize.ShloMosaic.TcCoe
open Idealize.SL.Sem
open Cert.Kernel Cert.Kernel.Gen

variable {F : FTy → Type} [FloatOps F]
variable (m : (ℓ : Loc nD τ sig) → Buf (Elt F) ℓ) (ρ : Dev nD → PrngReg)

/-! ## The arguments end as launched -/

/-- Argument 0 reaches the end as launched: no host stretch writes it and neither region's arrays include it as an output. -/
theorem B21_main_arg0 (c : Dev nD) : B21 m c (Proc.devRef .tc main_arg0) = m ((c : Thread nD τ).loc main_arg0) :=
  (StableHlo.after_of_writes_sub hostOps2 (B20 m c) hostOps2_writes (by decide)).trans <|
  (B20_of_ne m c main_arg0 (by decide)).trans <|
  (StableHlo.after_of_writes_sub hostOps1 (B18 m c) hostOps1_writes (by decide)).trans <|
  (B18_of_ne m c main_arg0 (by decide)).trans <|
  (V17_of m c main_arg0 (by decide)).trans <|
  (V16_of m c main_arg0 (by decide)).trans <|
  (V15_of m c main_arg0 (by decide)).trans <|
  (V14_of m c main_arg0 (by decide)).trans <|
  (V13_of m c main_arg0 (by decide)).trans <|
  (V12_of m c main_arg0 (by decide)).trans <|
  (V11_of m c main_arg0 (by decide)).trans <|
  (V10_of m c main_arg0 (by decide)).trans <|
  (V9_of m c main_arg0 (by decide)).trans <|
  (V8_of m c main_arg0 (by decide)).trans <|
  (V7_of m c main_arg0 (by decide)).trans <|
  (V6_of m c main_arg0 (by decide)).trans <|
  (V5_of m c main_arg0 (by decide)).trans <|
  (V4_of m c main_arg0 (by decide)).trans <|
  (V3_of m c main_arg0 (by decide)).trans <|
  (V2_of m c main_arg0 (by decide)).trans <|
  (V1_of m c main_arg0 (by decide)).trans <|
  rfl

/-- Argument 1 reaches the end as launched: no host stretch writes it and neither region's arrays include it as an output. -/
theorem B21_main_arg1 (c : Dev nD) : B21 m c (Proc.devRef .tc main_arg1) = m ((c : Thread nD τ).loc main_arg1) :=
  (StableHlo.after_of_writes_sub hostOps2 (B20 m c) hostOps2_writes (by decide)).trans <|
  (B20_of_ne m c main_arg1 (by decide)).trans <|
  (StableHlo.after_of_writes_sub hostOps1 (B18 m c) hostOps1_writes (by decide)).trans <|
  (B18_of_ne m c main_arg1 (by decide)).trans <|
  (V17_of m c main_arg1 (by decide)).trans <|
  (V16_of m c main_arg1 (by decide)).trans <|
  (V15_of m c main_arg1 (by decide)).trans <|
  (V14_of m c main_arg1 (by decide)).trans <|
  (V13_of m c main_arg1 (by decide)).trans <|
  (V12_of m c main_arg1 (by decide)).trans <|
  (V11_of m c main_arg1 (by decide)).trans <|
  (V10_of m c main_arg1 (by decide)).trans <|
  (V9_of m c main_arg1 (by decide)).trans <|
  (V8_of m c main_arg1 (by decide)).trans <|
  (V7_of m c main_arg1 (by decide)).trans <|
  (V6_of m c main_arg1 (by decide)).trans <|
  (V5_of m c main_arg1 (by decide)).trans <|
  (V4_of m c main_arg1 (by decide)).trans <|
  (V3_of m c main_arg1 (by decide)).trans <|
  (V2_of m c main_arg1 (by decide)).trans <|
  (V1_of m c main_arg1 (by decide)).trans <|
  rfl

/-- Argument 2 reaches the end as launched: no host stretch writes it and neither region's arrays include it as an output. -/
theorem B21_main_arg2 (c : Dev nD) : B21 m c (Proc.devRef .tc main_arg2) = m ((c : Thread nD τ).loc main_arg2) :=
  (StableHlo.after_of_writes_sub hostOps2 (B20 m c) hostOps2_writes (by decide)).trans <|
  (B20_of_ne m c main_arg2 (by decide)).trans <|
  (StableHlo.after_of_writes_sub hostOps1 (B18 m c) hostOps1_writes (by decide)).trans <|
  (B18_of_ne m c main_arg2 (by decide)).trans <|
  (V17_of m c main_arg2 (by decide)).trans <|
  (V16_of m c main_arg2 (by decide)).trans <|
  (V15_of m c main_arg2 (by decide)).trans <|
  (V14_of m c main_arg2 (by decide)).trans <|
  (V13_of m c main_arg2 (by decide)).trans <|
  (V12_of m c main_arg2 (by decide)).trans <|
  (V11_of m c main_arg2 (by decide)).trans <|
  (V10_of m c main_arg2 (by decide)).trans <|
  (V9_of m c main_arg2 (by decide)).trans <|
  (V8_of m c main_arg2 (by decide)).trans <|
  (V7_of m c main_arg2 (by decide)).trans <|
  (V6_of m c main_arg2 (by decide)).trans <|
  (V5_of m c main_arg2 (by decide)).trans <|
  (V4_of m c main_arg2 (by decide)).trans <|
  (V3_of m c main_arg2 (by decide)).trans <|
  (V2_of m c main_arg2 (by decide)).trans <|
  (V1_of m c main_arg2 (by decide)).trans <|
  rfl

/-- Argument 3 reaches the end as launched: no host stretch writes it and neither region's arrays include it as an output. -/
theorem B21_main_arg3 (c : Dev nD) : B21 m c (Proc.devRef .tc main_arg3) = m ((c : Thread nD τ).loc main_arg3) :=
  (StableHlo.after_of_writes_sub hostOps2 (B20 m c) hostOps2_writes (by decide)).trans <|
  (B20_of_ne m c main_arg3 (by decide)).trans <|
  (StableHlo.after_of_writes_sub hostOps1 (B18 m c) hostOps1_writes (by decide)).trans <|
  (B18_of_ne m c main_arg3 (by decide)).trans <|
  (V17_of m c main_arg3 (by decide)).trans <|
  (V16_of m c main_arg3 (by decide)).trans <|
  (V15_of m c main_arg3 (by decide)).trans <|
  (V14_of m c main_arg3 (by decide)).trans <|
  (V13_of m c main_arg3 (by decide)).trans <|
  (V12_of m c main_arg3 (by decide)).trans <|
  (V11_of m c main_arg3 (by decide)).trans <|
  (V10_of m c main_arg3 (by decide)).trans <|
  (V9_of m c main_arg3 (by decide)).trans <|
  (V8_of m c main_arg3 (by decide)).trans <|
  (V7_of m c main_arg3 (by decide)).trans <|
  (V6_of m c main_arg3 (by decide)).trans <|
  (V5_of m c main_arg3 (by decide)).trans <|
  (V4_of m c main_arg3 (by decide)).trans <|
  (V3_of m c main_arg3 (by decide)).trans <|
  (V2_of m c main_arg3 (by decide)).trans <|
  (V1_of m c main_arg3 (by decide)).trans <|
  rfl

/-- Argument 4 reaches the end as launched: no host stretch writes it and neither region's arrays include it as an output. -/
theorem B21_main_arg4 (c : Dev nD) : B21 m c (Proc.devRef .tc main_arg4) = m ((c : Thread nD τ).loc main_arg4) :=
  (StableHlo.after_of_writes_sub hostOps2 (B20 m c) hostOps2_writes (by decide)).trans <|
  (B20_of_ne m c main_arg4 (by decide)).trans <|
  (StableHlo.after_of_writes_sub hostOps1 (B18 m c) hostOps1_writes (by decide)).trans <|
  (B18_of_ne m c main_arg4 (by decide)).trans <|
  (V17_of m c main_arg4 (by decide)).trans <|
  (V16_of m c main_arg4 (by decide)).trans <|
  (V15_of m c main_arg4 (by decide)).trans <|
  (V14_of m c main_arg4 (by decide)).trans <|
  (V13_of m c main_arg4 (by decide)).trans <|
  (V12_of m c main_arg4 (by decide)).trans <|
  (V11_of m c main_arg4 (by decide)).trans <|
  (V10_of m c main_arg4 (by decide)).trans <|
  (V9_of m c main_arg4 (by decide)).trans <|
  (V8_of m c main_arg4 (by decide)).trans <|
  (V7_of m c main_arg4 (by decide)).trans <|
  (V6_of m c main_arg4 (by decide)).trans <|
  (V5_of m c main_arg4 (by decide)).trans <|
  (V4_of m c main_arg4 (by decide)).trans <|
  (V3_of m c main_arg4 (by decide)).trans <|
  (V2_of m c main_arg4 (by decide)).trans <|
  (V1_of m c main_arg4 (by decide)).trans <|
  rfl

/-- Argument 5 reaches the end as launched: no host stretch writes it and neither region's arrays include it as an output. -/
theorem B21_main_arg5 (c : Dev nD) : B21 m c (Proc.devRef .tc main_arg5) = m ((c : Thread nD τ).loc main_arg5) :=
  (StableHlo.after_of_writes_sub hostOps2 (B20 m c) hostOps2_writes (by decide)).trans <|
  (B20_of_ne m c main_arg5 (by decide)).trans <|
  (StableHlo.after_of_writes_sub hostOps1 (B18 m c) hostOps1_writes (by decide)).trans <|
  (B18_of_ne m c main_arg5 (by decide)).trans <|
  (V17_of m c main_arg5 (by decide)).trans <|
  (V16_of m c main_arg5 (by decide)).trans <|
  (V15_of m c main_arg5 (by decide)).trans <|
  (V14_of m c main_arg5 (by decide)).trans <|
  (V13_of m c main_arg5 (by decide)).trans <|
  (V12_of m c main_arg5 (by decide)).trans <|
  (V11_of m c main_arg5 (by decide)).trans <|
  (V10_of m c main_arg5 (by decide)).trans <|
  (V9_of m c main_arg5 (by decide)).trans <|
  (V8_of m c main_arg5 (by decide)).trans <|
  (V7_of m c main_arg5 (by decide)).trans <|
  (V6_of m c main_arg5 (by decide)).trans <|
  (V5_of m c main_arg5 (by decide)).trans <|
  (V4_of m c main_arg5 (by decide)).trans <|
  (V3_of m c main_arg5 (by decide)).trans <|
  (V2_of m c main_arg5 (by decide)).trans <|
  (V1_of m c main_arg5 (by decide)).trans <|
  rfl

/-- THE FRAME: every weakly fair execution terminates with the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (B21_main_arg0 m c),
     (h c _ (mem_uc main_arg1 (by decide))).trans (B21_main_arg1 m c),
     (h c _ (mem_uc main_arg2 (by decide))).trans (B21_main_arg2 m c),
     (h c _ (mem_uc main_arg3 (by decide))).trans (B21_main_arg3 m c),
     (h c _ (mem_uc main_arg4 (by decide))).trans (B21_main_arg4 m c),
     (h c _ (mem_uc main_arg5 (by decide))).trans (B21_main_arg5 m c)⟩) (run m ρ)

/-- THE RUN WITH THE RESULT: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v24) = B21 m c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v24 (by decide)),
     (h c _ (mem_uc main_arg0 (by decide))).trans (B21_main_arg0 m c),
     (h c _ (mem_uc main_arg1 (by decide))).trans (B21_main_arg1 m c),
     (h c _ (mem_uc main_arg2 (by decide))).trans (B21_main_arg2 m c),
     (h c _ (mem_uc main_arg3 (by decide))).trans (B21_main_arg3 m c),
     (h c _ (mem_uc main_arg4 (by decide))).trans (B21_main_arg4 m c),
     (h c _ (mem_uc main_arg5 (by decide))).trans (B21_main_arg5 m c)⟩) (run m ρ)

end Cert.Kernel.Run

end
-- ==== Proof.SumValue.lean ====
/-
  The summing kernel's value. Each run leaves in the accumulator the accumulator's previous value plus the sum of the
  point's block (the first run starts from zero), and the last run copies that into the output block. At the exact
  reals-with-infinities this is: after point n the accumulator holds the sum of the first n + 1 blocks' sums, each a
  triple sum over the block's 16 x 256 x 1024 coordinates.
-/
import proofs.«152792_j38062000177638_1_alg».proof.Proof.SumDat
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Sum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen
open Idealize.ShloMosaic.ValueIdx
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

section Payloads
variable {F : FTy → Type} [FloatOps F]

/-- The first run: the accumulator ends at the body's update of a zero accumulator. -/
theorem accFirst_eq (c : Dev nD) (i : grid0.Coords) (arg1 : Memref sig .tc .vmem S16x256x1024 .f32) (harg1 : arg1.IsWhole)
    (arg2 : Memref sig .tc .vmem S1x1 .f32) (harg2 : arg2.IsWhole) (arg3 : Memref sig .tc .vmem S1x1 .f32) (harg3 : arg3.IsWhole)
    (h1 : isFirst i) (h2 : ¬isLast i) (x0 : Vec F S16x256x1024 .f32) :
    accFirst c i arg1 harg1 arg2 harg2 arg3 harg3 h1 h2 x0 = k0_pay2 x0 (k0_pay1 (F := F)) := by
  unfold accFirst
  rw [View.read_writes_eq_canon _ _ _ (coverFirst c i arg1 harg1 arg2 harg2 arg3 harg3 h1 h2 x0)]
  unfold runFirst
  dsimp only
  try sl_unfold_words
  rw [View.canon_cons_unit_zero hz2, View.readCov_unit_zero (S := S1x1) _ hz2]
  simp only [View.readAt_eq_ld, harg1.read_unread, View.ld_unit_zero (S := S16x256x1024) hz3]

/-- A middle run: the body's update of what the accumulator held. -/
theorem accMid_eq (c : Dev nD) (i : grid0.Coords) (arg1 : Memref sig .tc .vmem S16x256x1024 .f32) (harg1 : arg1.IsWhole)
    (arg2 : Memref sig .tc .vmem S1x1 .f32) (harg2 : arg2.IsWhole) (arg3 : Memref sig .tc .vmem S1x1 .f32) (harg3 : arg3.IsWhole)
    (h1 : ¬isFirst i) (h2 : ¬isLast i) (x0 : Vec F S16x256x1024 .f32) (xs : Vec F S1x1 .f32) :
    accMid c i arg1 harg1 arg2 harg2 arg3 harg3 h1 h2 x0 xs = k0_pay2 x0 xs := by
  unfold accMid
  rw [View.read_writes_eq_canon _ _ _ (coverMid c i arg1 harg1 arg2 harg2 arg3 harg3 h1 h2 x0 xs)]
  unfold runMid
  dsimp only
  try sl_unfold_words
  rw [View.canon_unit_zero hz2]
  simp only [View.readAt_eq_ld, harg1.read_unread, harg3.read_unread, View.ld_unit_zero (S := S16x256x1024) hz3, View.ld_unit_zero (S := S1x1) hz2]

/-- The last run stores into the output block the body's update of what the accumulator held. -/
theorem outLast_eq (c : Dev nD) (i : grid0.Coords) (arg1 : Memref sig .tc .vmem S16x256x1024 .f32) (harg1 : arg1.IsWhole)
    (arg2 : Memref sig .tc .vmem S1x1 .f32) (harg2 : arg2.IsWhole) (arg3 : Memref sig .tc .vmem S1x1 .f32) (harg3 : arg3.IsWhole)
    (h1 : ¬isFirst i) (h2 : isLast i) (x0 : Vec F S16x256x1024 .f32) (xs : Vec F S1x1 .f32) :
    outLast c i arg1 harg1 arg2 harg2 arg3 harg3 h1 h2 x0 xs = k0_pay2 x0 xs := by
  unfold outLast
  rw [View.read_writes_eq_canon _ _ _ (coverLastOut c i arg1 harg1 arg2 harg2 arg3 harg3 h1 h2 x0 xs)]
  unfold runLast
  dsimp only
  try sl_unfold_words
  rw [View.canon_unit_zero hz2, View.readCov_unit_zero (S := S1x1) _ hz2]
  simp only [View.readAt_eq_ld, harg1.read_unread, harg3.read_unread, View.ld_unit_zero (S := S16x256x1024) hz3, View.ld_unit_zero (S := S1x1) hz2]

end Payloads

/-! ## The body's update at the exact values -/

/-- The sum of a block's entries, coordinate by coordinate. -/
def blockSum (x0 : FVec Ideal S16x256x1024 .f32) : EReal :=
  ∑ a : Fin 16, ∑ b : Fin 256, ∑ d : Fin 1024, x0 (ix3 a b d)

theorem lanes (v : FVec Ideal S16x256x1024 .f32) (a : Fin 16) (b : Fin 256) :
    multiReduction (F := Ideal) .add [2] S16x256 v 0x00000000#32 reduces_S16x256x1024_S16x256 (.inl rfl) rfl (ix2 a b)
      = ∑ d : Fin 1024, v (ix3 a b d) := by
  refine (Ideal.multiReduction_add_single v 0x00000000#32 reduces_S16x256x1024_S16x256 (.inl rfl) rfl (ix2 a b)).trans ?_
  refine Finset.sum_congr rfl fun d _ => congrArg v (funext fun e => ?_)
  match e with
  | ⟨0, _⟩ => rfl
  | ⟨1, _⟩ => rfl
  | ⟨2, _⟩ => rfl

theorem rows (v : FVec Ideal S16x256x1 .f32) (a : Fin 16) :
    multiReduction (F := Ideal) .add [1] S16x1 v 0x00000000#32 reduces_S16x256x1_S16x1 (.inl rfl) rfl (ix2 a 0)
      = ∑ b : Fin 256, v (ix3 a b 0) := by
  refine (Ideal.multiReduction_add_single v 0x00000000#32 reduces_S16x256x1_S16x1 (.inl rfl) rfl (ix2 a 0)).trans ?_
  refine Finset.sum_congr rfl fun b _ => congrArg v (funext fun e => ?_)
  match e with
  | ⟨0, _⟩ => rfl
  | ⟨1, _⟩ => rfl
  | ⟨2, _⟩ => rfl

theorem planes (v : FVec Ideal S16x1x1 .f32) :
    multiReduction (F := Ideal) .add [0] S1x1 v 0x00000000#32 reduces_S16x1x1_S1x1 (.inl rfl) rfl (ix2 0 0)
      = ∑ a : Fin 16, v (ix3 a 0 0) := by
  refine (Ideal.multiReduction_add_single v 0x00000000#32 reduces_S16x1x1_S1x1 (.inl rfl) rfl (ix2 0 0)).trans ?_
  refine Finset.sum_congr rfl fun a _ => congrArg v (funext fun e => ?_)
  match e with
  | ⟨0, _⟩ => rfl
  | ⟨1, _⟩ => rfl
  | ⟨2, _⟩ => rfl

/-- The one-entry shape has one index. -/
theorem idx11 (j : S1x1.Idx) : j = ix2 (0 : Fin 1) (0 : Fin 1) := by
  funext a
  match a with
  | ⟨0, _⟩ => exact Fin.ext (by have := idx2_lt0 j; show (j 0).val = 0; omega)
  | ⟨1, _⟩ => exact Fin.ext (by have := idx2_lt1 j; show (j 1).val = 0; omega)

/-- The body's update adds the block's sum to the accumulator's one entry. -/
theorem pay2_apply (x0 : FVec Ideal S16x256x1024 .f32) (s : FVec Ideal S1x1 .f32) (j : S1x1.Idx) :
    k0_pay2 (F := Ideal) x0 s j = s j + blockSum x0 := by
  obtain rfl := idx11 j
  unfold k0_pay2 blockSum
  dsimp only
  rw [shapeCast_self, addf_apply]
  refine congrArg (s (ix2 0 0) + ·) ?_
  rw [shapeCast_apply _ _ (ix2 0 0) (ix3 0 0 0) (by rw [Shape.rowMajor_val_three, Shape.rowMajor_val_two]; rfl)]
  rw [shapeCast_apply _ _ (ix3 0 0 0) (ix2 0 0) (by rw [Shape.rowMajor_val_three, Shape.rowMajor_val_two]; rfl)]
  rw [planes]
  refine Finset.sum_congr rfl fun a _ => ?_
  rw [shapeCast_apply _ _ (ix3 a 0 0) (ix2 a 0) (by rw [Shape.rowMajor_val_three, Shape.rowMajor_val_two]; simp)]
  rw [rows]
  refine Finset.sum_congr rfl fun b _ => ?_
  rw [shapeCast_apply _ _ (ix3 a b 0) (ix2 a b) (by rw [Shape.rowMajor_val_three, Shape.rowMajor_val_two]; simp)]
  rw [lanes, shapeCast_self]

/-- The zero the first run starts from. -/
theorem pay1_apply (j : S1x1.Idx) : k0_pay1 (F := Ideal) j = 0 := by
  unfold k0_pay1
  rw [shapeCast_self, broadcast_apply]
  exact Ideal.ofBits_zero_f32

section LastAcc
variable {F : FTy → Type} [FloatOps F]

/-- The last run leaves the same value in the accumulator. -/
theorem accLast_eq (c : Dev nD) (i : grid0.Coords) (arg1 : Memref sig .tc .vmem S16x256x1024 .f32) (harg1 : arg1.IsWhole)
    (arg2 : Memref sig .tc .vmem S1x1 .f32) (harg2 : arg2.IsWhole) (arg3 : Memref sig .tc .vmem S1x1 .f32) (harg3 : arg3.IsWhole)
    (h1 : ¬isFirst i) (h2 : isLast i) (x0 : Vec F S16x256x1024 .f32) (xs : Vec F S1x1 .f32) :
    accLast c i arg1 harg1 arg2 harg2 arg3 harg3 h1 h2 x0 xs = k0_pay2 x0 xs := by
  unfold accLast
  rw [View.read_writes_eq_canon _ _ _ (coverLastAcc c i arg1 harg1 arg2 harg2 arg3 harg3 h1 h2 x0 xs)]
  unfold runLast
  dsimp only
  try sl_unfold_words
  rw [View.canon_unit_zero hz2]
  simp only [View.readAt_eq_ld, harg1.read_unread, harg3.read_unread, View.ld_unit_zero (S := S16x256x1024) hz3, View.ld_unit_zero (S := S1x1) hz2]

end LastAcc

/-! ## The accumulation, point by point -/

section Accumulate

variable (V : (c : Dev nD) → (b : Ref sig .tc) → Buf (Elt Ideal) ((c : Thread nD τ).loc b))

/-- The sum of the block the point at position `t` reads (zero past the grid). -/
def bsum (c : Dev nD) (t : ℕ) : EReal := if h : t < cfg0.N then blockSum (iblk V c 0 ⟨t, h⟩) else 0

/-- One more point adds its block's sum. -/
theorem acc_step (c : Dev nD) (n : ℕ) (hn : n + 1 < cfg0.N) (j : S1x1.Idx) :
    (outsAt V c (n + 1) hn).2 j = (outsAt V c n (Nat.lt_of_succ_lt hn)).2 j + blockSum (iblk V c 0 ⟨n + 1, hn⟩) := by
  by_cases h7 : n + 1 = 7
  · have e := congrArg Prod.snd (outsAt_last V c ⟨n + 1, hn⟩ (Nat.succ_ne_zero n) h7)
    simp only [Nat.add_one_sub_one] at e
    rw [e, accLast_eq, pay2_apply]
  · have e := outsAt_mid V c ⟨n + 1, hn⟩ (Nat.succ_ne_zero n) h7
    simp only [Nat.add_one_sub_one] at e
    rw [e, accMid_eq, pay2_apply]

/-- After the point at position `n` the accumulator holds the sum of the first `n + 1` blocks' sums. -/
theorem acc_at (c : Dev nD) : ∀ (n : ℕ) (hn : n < cfg0.N) (j : S1x1.Idx),
    (outsAt V c n hn).2 j = ∑ t ∈ Finset.range (n + 1), bsum V c t
  | 0, hn, j => by
    have e := outsAt_first V c ⟨0, hn⟩ rfl
    rw [show (outsAt V c 0 hn).2 = _ from e, accFirst_eq, pay2_apply, pay1_apply, zero_add, Finset.sum_range_one]
    exact (show bsum V c 0 = _ from dif_pos hn).symm
  | n + 1, hn, j => by
    rw [acc_step V c n hn j, acc_at c n (Nat.lt_of_succ_lt hn) j, Finset.sum_range_succ _ (n + 1)]
    exact congrArg _ (show bsum V c (n + 1) = _ from dif_pos hn).symm

/-- The total: the eight blocks' sums added. -/
def total (c : Dev nD) : EReal := ∑ t ∈ Finset.range 8, bsum V c t

/-- What the last point stores into the output block is the total. -/
theorem out_last (c : Dev nD) (hn : 7 < cfg0.N) (j : S1x1.Idx) : (outsAt V c 7 hn).1 j = total V c := by
  have e := congrArg Prod.fst (outsAt_last V c ⟨7, hn⟩ (show (7 : ℕ) ≠ 0 by decide) rfl)
  simp only [Nat.add_one_sub_one] at e
  rw [show (outsAt V c 7 hn).1 = _ from e, outLast_eq, pay2_apply]
  show (outsAt V c 6 _).2 j + _ = _
  rw [acc_at V c 6 _ j]
  unfold total
  rw [Finset.sum_range_succ _ 7]
  exact congrArg _ (show bsum V c 7 = _ from dif_pos hn).symm

end Accumulate

end Cert.KernelIdeal.Sum

end
-- ==== Proof.LibSumIdx.lean ====
/-
  Sums over the index sets of rank-3 and rank-4 shapes as iterated sums over the coordinates, and a sum over
  `Fin (n * k)` cut into `n` consecutive blocks of `k`. (Rank 2 is the library's `ValueIdx.sum_idx2`.)
-/
import Idealize.ShloMosaic.Lib.ValueIdx

noncomputable section

open scoped BigOperators

namespace Cert.LibSumIdx

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A sum over `n * k` consecutive indices is the sum over `n` blocks of the sums over the `k` indices of each:
    index `k * t + a` is the `a`-th of block `t`. -/
theorem sum_blocks {M : Type*} [AddCommMonoid M] (n k : Nat) (f : Fin (n * k) → M) :
    ∑ r, f r = ∑ t : Fin n, ∑ a : Fin k, f ⟨k * t.val + a.val, by
      have := t.isLt; have := a.isLt
      calc k * t.val + a.val < k * t.val + k := by omega
        _ = k * (t.val + 1) := by ring
        _ ≤ k * n := Nat.mul_le_mul_left k (by omega)
        _ = n * k := Nat.mul_comm k n⟩ := by
  rw [← Equiv.sum_comp (finProdFinEquiv (m := n) (n := k)) f, Fintype.sum_prod_type]
  refine Finset.sum_congr rfl fun t _ => Finset.sum_congr rfl fun a _ => congrArg f (Fin.ext ?_)
  show a.val + k * t.val = k * t.val + a.val
  omega

end Cert.LibSumIdx

end
-- ==== Proof.SumArray.lean ====
/-
  The summing kernel's arrays. The point at position t reads rows 16 t … 16 t + 15 of the [128, 256, 1024] input
  array, so the eight block sums add up to the sum of every entry of that array; the one write-back, at the last point,
  leaves that total in the one-entry output array.
-/
import proofs.«152792_j38062000177638_1_alg».proof.Proof.SumValue
import proofs.«152792_j38062000177638_1_alg».proof.Proof.LibSumIdx

set_option maxRecDepth 16384

noncomputable section

namespace Cert.KernelIdeal.Sum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen
open Idealize.ShloMosaic.ValueIdx Cert.LibSumIdx
open scoped BigOperators

variable (V : (c : Dev nD) → (b : Ref sig .tc) → Buf (Elt Ideal) ((c : Thread nD τ).loc b))

/-- The [128, 256, 1024] input array as the region finds it. -/
def inArr (c : Dev nD) : S128x256x1024.Idx → EReal := V c main_v0

/-- The last point of the grid. -/
def tLast : Fin cfg0.N := ⟨7, by rw [show cfg0.N = 8 from N_0]; decide⟩

/-- The input window's block index at a point: the point's position on the first axis, 0 on the others. -/
theorem idx_in : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)

/-- The block the point at position `t` reads is rows `16 t … 16 t + 15` of the input array. -/
theorem iblk_apply (c : Dev nD) (t : Fin cfg0.N) (a : Fin 16) (b : Fin 256) (d : Fin 1024) (r : Fin 128) (hr : r.val = 16 * t.val + a.val) :
    (iblk V c 0 t : FVec Ideal S16x256x1024 .f32) (ix3 a b d) = inArr V c (ix3 r b d) := by
  obtain ⟨e0, e1, e2⟩ := idx_in t
  unfold iblk
  rw [View.read_apply]
  show V c main_v0 _ = V c main_v0 _
  refine congrArg (V c main_v0) (funext fun e => Fin.ext ?_)
  match e with
  | ⟨0, _⟩ => show win0_0.index t (0 : Fin 3) * 16 + 1 * a.val = r.val; rw [e0, hr]; omega
  | ⟨1, _⟩ => show win0_0.index t (1 : Fin 3) * 256 + 1 * b.val = b.val; rw [e1]; omega
  | ⟨2, _⟩ => show win0_0.index t (2 : Fin 3) * 1024 + 1 * d.val = d.val; rw [e2]; omega

/-- The eight block sums add up to the sum of every entry of the input array. -/
theorem total_eq (c : Dev nD) : total V c = ∑ i : S128x256x1024.Idx, inArr V c i := by
  have hN : cfg0.N = 8 := N_0
  rw [sum_idx3, sum_blocks 8 16 (fun r : Fin 128 => ∑ b : Fin 256, ∑ d : Fin 1024, inArr V c (ix3 r b d))]
  unfold total
  rw [Finset.sum_range]
  refine Finset.sum_congr rfl fun t _ => ?_
  have ht : t.val < cfg0.N := by rw [hN]; exact t.isLt
  rw [show bsum V c t.val = blockSum (iblk V c 0 ⟨t.val, ht⟩) from dif_pos ht]
  unfold blockSum
  refine Finset.sum_congr rfl fun a _ => Finset.sum_congr rfl fun b _ => Finset.sum_congr rfl fun d _ => ?_
  exact iblk_apply V c ⟨t.val, ht⟩ a b d _ rfl

/-- The one write-back leaves the total in the output array. -/
theorem arr_out (c : Dev nD) : (dat V c).arrAt 1 cfg0.N = fun _ => total V c := by
  have hN : cfg0.N = 8 := N_0
  refine (dat V c).arrAt_eq_of_cover 1 (fun _ => total V c) (fun t hf => ?_) (fun i => ?_)
  · have h7 : t.val = 7 := by have := (flush0_1 t).mp hf; have := t.isLt; omega
    show (cfg0.win 1).cut (grid0.coords t) ((dat V c).after 1 t) = _
    rw [after_out]
    funext y
    rw [View.read_apply]
    obtain ⟨n, hn⟩ := t
    obtain rfl : n = 7 := h7
    exact out_last V c hn y
  · refine ⟨tLast, (flush0_1 tLast).mpr rfl, ?_⟩
    show i ∈ ((View.whole main_v20).slice (win0_1.rect tLast)).set
    rw [View.set_slice_whole, Rect.mem_set_unit]
    intro a
    have h0 : (i 0 : Nat) < 1 := (i 0).isLt
    have h1 : (i 1 : Nat) < 1 := (i 1).isLt
    match a with
    | ⟨0, _⟩ =>
      show win0_1.index tLast 0 * win0_1.size 0 ≤ (i 0 : Nat) ∧ (i 0 : Nat) < win0_1.index tLast 0 * win0_1.size 0 + win0_1.xsize (grid0.coords tLast) 0
      rw [show win0_1.index tLast 0 * win0_1.size 0 = 0 from by decide +kernel,
        show win0_1.xsize (grid0.coords tLast) 0 = 1 from by decide +kernel]
      omega
    | ⟨1, _⟩ =>
      show win0_1.index tLast 1 * win0_1.size 1 ≤ (i 1 : Nat) ∧ (i 1 : Nat) < win0_1.index tLast 1 * win0_1.size 1 + win0_1.xsize (grid0.coords tLast) 1
      rw [show win0_1.index tLast 1 * win0_1.size 1 = 0 from by decide +kernel,
        show win0_1.xsize (grid0.coords tLast) 1 = 1 from by decide +kernel]
      omega

end Cert.KernelIdeal.Sum

end
-- ==== Proof.MaskRead.lean ====
/- The mask-select kernel's payloads read at one index of the block: layout operations (column slices of the
   parameter blocks, broadcasts along the three axes) read by coordinates, a signed comparison widened and converted as a
   0/1 value, and each hole's factor as a product of four such values and the activation word. -/
import proofs.«152792_j38062000177638_1_alg».proof.Proof.Gen.KernelIdeal.Skeleton
import Idealize.ShloMosaic.Lib.ValueLayout

set_option maxRecDepth 16384

noncomputable section

namespace Cert.KernelIdeal.Mask

open Cert.KernelIdeal Cert.KernelIdeal.Gen
open Idealize.ShloMosaic Idealize.ShloMosaic.ValueIdx

/-! ## Layout operations at an index given by coordinates -/

section Layout
variable {α : Type}

/-- Column `k` of an 8×5 block, cut out as 8×1 and viewed 8×1×1, reads row `r` of that column. -/
theorem col_apply (v : S8x5.Idx → α) (o : Nat) (hs : S8x5.Slices ![0, o] S8x1) (hc : S8x1.ShapeCasts S8x1x1)
    (r : Fin 8) (u1 u2 : Fin 1) (k : Fin 5) (hk : k.val = o) :
    shapeCast S8x1x1 (extractStridedSlice S8x1 ![0, o] v hs) hc (ix3 r u1 u2) = v (ix2 r k) := by
  refine (shapeCast_apply _ hc (ix3 r u1 u2) (ix2 r (0 : Fin 1)) ?_).trans
    (slice2_axis1_apply o v hs r (0 : Fin 1) k (by rw [hk]; rfl))
  rw [Shape.rowMajor_val_three, Shape.rowMajor_val_two]
  show r.val * 1 + 0 = (r.val * 1 + u1.val) * 1 + u2.val
  omega

theorem bc_811_8641 (x : S8x1x1.Idx → α) (h : S8x1x1.Broadcasts S8x64x1) (r : Fin 8) (hh : Fin 64) (u : Fin 1) :
    broadcastTo S8x64x1 x h (ix3 r hh u) = x (ix3 r (0 : Fin 1) (0 : Fin 1)) :=
  broadcastTo_apply x h (ix3 r hh u) (ix3 r (0 : Fin 1) (0 : Fin 1)) fun ax => by
    match ax with
    | ⟨0, _⟩ => rfl
    | ⟨1, _⟩ => rfl
    | ⟨2, _⟩ => rfl

theorem bc_1641_8641 (x : S1x64x1.Idx → α) (h : S1x64x1.Broadcasts S8x64x1) (r : Fin 8) (hh : Fin 64) (u : Fin 1) :
    broadcastTo S8x64x1 x h (ix3 r hh u) = x (ix3 (0 : Fin 1) hh (0 : Fin 1)) :=
  broadcastTo_apply x h (ix3 r hh u) (ix3 (0 : Fin 1) hh (0 : Fin 1)) fun ax => by
    match ax with
    | ⟨0, _⟩ => rfl
    | ⟨1, _⟩ => rfl
    | ⟨2, _⟩ => rfl

theorem bc_811_811024 (x : S8x1x1.Idx → α) (h : S8x1x1.Broadcasts S8x1x1024) (r : Fin 8) (u : Fin 1) (w : Fin 1024) :
    broadcastTo S8x1x1024 x h (ix3 r u w) = x (ix3 r (0 : Fin 1) (0 : Fin 1)) :=
  broadcastTo_apply x h (ix3 r u w) (ix3 r (0 : Fin 1) (0 : Fin 1)) fun ax => by
    match ax with
    | ⟨0, _⟩ => rfl
    | ⟨1, _⟩ => rfl
    | ⟨2, _⟩ => rfl

theorem bc_111024_811024 (x : S1x1x1024.Idx → α) (h : S1x1x1024.Broadcasts S8x1x1024) (r : Fin 8) (u : Fin 1) (w : Fin 1024) :
    broadcastTo S8x1x1024 x h (ix3 r u w) = x (ix3 (0 : Fin 1) (0 : Fin 1) w) :=
  broadcastTo_apply x h (ix3 r u w) (ix3 (0 : Fin 1) (0 : Fin 1) w) fun ax => by
    match ax with
    | ⟨0, _⟩ => rfl
    | ⟨1, _⟩ => rfl
    | ⟨2, _⟩ => rfl

theorem bc_8641_full (x : S8x64x1.Idx → α) (h : S8x64x1.Broadcasts S8x64x1024) (r : Fin 8) (hh : Fin 64) (w : Fin 1024) :
    broadcastTo S8x64x1024 x h (ix3 r hh w) = x (ix3 r hh (0 : Fin 1)) :=
  broadcastTo_apply x h (ix3 r hh w) (ix3 r hh (0 : Fin 1)) fun ax => by
    match ax with
    | ⟨0, _⟩ => rfl
    | ⟨1, _⟩ => rfl
    | ⟨2, _⟩ => rfl

theorem bc_811024_full (x : S8x1x1024.Idx → α) (h : S8x1x1024.Broadcasts S8x64x1024) (r : Fin 8) (hh : Fin 64) (w : Fin 1024) :
    broadcastTo S8x64x1024 x h (ix3 r hh w) = x (ix3 r (0 : Fin 1) w) :=
  broadcastTo_apply x h (ix3 r hh w) (ix3 r (0 : Fin 1) w) fun ax => by
    match ax with
    | ⟨0, _⟩ => rfl
    | ⟨1, _⟩ => rfl
    | ⟨2, _⟩ => rfl

theorem bc_811_full (x : S8x1x1.Idx → α) (h : S8x1x1.Broadcasts S8x64x1024) (r : Fin 8) (hh : Fin 64) (w : Fin 1024) :
    broadcastTo S8x64x1024 x h (ix3 r hh w) = x (ix3 r (0 : Fin 1) (0 : Fin 1)) :=
  broadcastTo_apply x h (ix3 r hh w) (ix3 r (0 : Fin 1) (0 : Fin 1)) fun ax => by
    match ax with
    | ⟨0, _⟩ => rfl
    | ⟨1, _⟩ => rfl
    | ⟨2, _⟩ => rfl

end Layout

/-! ## A decided condition as the value 0 or 1 -/

/-- The indicator of a decided condition, as an extended real. -/
def ind (b : Bool) : EReal := if b then 1 else 0

@[simp] theorem ind_true : ind true = 1 := rfl
@[simp] theorem ind_false : ind false = 0 := rfl

theorem ind_mul (a b : Bool) : ind a * ind b = ind (a && b) := by
  cases a <;> cases b <;> simp [ind]

theorem ind_max (a b : Bool) : max (ind a) (ind b) = ind (a || b) := by
  cases a <;> cases b <;> simp [ind]

theorem zero_max_ind (a : Bool) : max (0 : EReal) (ind a) = ind a := by
  cases a <;> simp [ind]

/-- A one-bit word widened to 32 bits and converted: 0 or 1. -/
def bit01 (b : BitVec 1) : EReal := (((b.setWidth 32).toInt : ℝ) : EReal)

theorem bit01_ofBool (c : Bool) : bit01 (BitVec.ofBool c) = ind c := by
  cases c
  · show (((((0#1 : BitVec 1).setWidth 32).toInt : ℤ) : ℝ) : EReal) = 0
    rw [show ((0#1 : BitVec 1).setWidth 32).toInt = 0 by decide]; simp
  · show (((((1#1 : BitVec 1).setWidth 32).toInt : ℤ) : ℝ) : EReal) = 1
    rw [show ((1#1 : BitVec 1).setWidth 32).toInt = 1 by decide]; simp

/-- A signed comparison of two words, widened and converted to a float, is the indicator of the comparison. -/
theorem sle01 {s : Shape} (a b : IVec s 32) (h : 1 < 32) (j : s.Idx) :
    (sitofp .f32 (extui 32 (cmpi .sle a b) h) : FVec Ideal s .f32) j = ind ((a j).sle (b j)) :=
  bit01_ofBool _

/-- A one-bit comparison result, widened and converted. -/
theorem bit01_apply {s : Shape} (c : IVec s 1) (h : 1 < 32) (j : s.Idx) :
    (sitofp .f32 (extui 32 c h) : FVec Ideal s .f32) j = bit01 (c j) := rfl

/-- A word converted to a float is its signed value. -/
theorem sitofp32_apply {s : Shape} (a : IVec s 32) (j : s.Idx) :
    (sitofp .f32 a : FVec Ideal s .f32) j = (((a j).toInt : ℝ) : EReal) := rfl

/-! ## The index words -/

/-- The lane-index vector reads its lane. -/
theorem lane_apply (u1 u2 : Fin 1) (w : Fin 1024) :
    iota .tc S1x1x1024 32 [2] iota_S1x1x1024_d2_w32 (ix3 u1 u2 w) = BitVec.ofNat 32 w.val :=
  iota_single_apply .tc S1x1x1024 32 2 iota_S1x1x1024_d2_w32 (ix3 u1 u2 w)

/-- The row-index vector of the block at grid position `i`: 64 times the second grid coordinate, plus the row. -/
theorem row_apply (i : grid1.Coords) (u1 : Fin 1) (hh : Fin 64) (u2 : Fin 1) :
    k1_pay2 i (ix3 u1 hh u2) = Scalar.muli (BitVec.ofNat 32 (i 1).val) 64#32 + BitVec.ofNat 32 hh.val := by
  unfold k1_pay2
  show IntOp.addi (Scalar.muli (BitVec.ofNat 32 (i 1).val) 64#32) (iota .tc S1x64x1 32 [1] iota_S1x64x1_d1_w32 (ix3 u1 hh u2)) = _
  rw [iota_single_apply .tc S1x64x1 32 1 iota_S1x64x1_d1_w32 (ix3 u1 hh u2)]
  rfl

/-! ## The first hole's factors, computed from the loaded blocks -/

theorem pay9_apply (v13 : Vec Ideal S8x5 .i32) (r : Fin 8) (u1 u2 : Fin 1) :
    k1_pay9 (F := Ideal) v13 (ix3 r u1 u2) = (((v13 (ix2 r (0 : Fin 5))).toInt : ℝ) : EReal) := by
  unfold k1_pay9 k1_pay7
  simp only [sitofp32_apply, col_apply _ 0 _ _ _ _ _ (0 : Fin 5) rfl, shapeCast_self]

theorem pay10_apply (i : grid1.Coords) (v9 v11 : Vec Ideal S8x5 .i32) (r : Fin 8) (hh : Fin 64) (u : Fin 1) :
    k1_pay10 (F := Ideal) i v9 v11 (ix3 r hh u)
      = ind ((v9 (ix2 r (0 : Fin 5))).sle (k1_pay2 i (ix3 (0 : Fin 1) hh (0 : Fin 1))))
        * ind ((k1_pay2 i (ix3 (0 : Fin 1) hh (0 : Fin 1))).sle (v11 (ix2 r (0 : Fin 5)))) := by
  unfold k1_pay10 k1_pay5 k1_pay6
  simp only [mulf_apply, sle01, bc_811_8641, bc_1641_8641, col_apply _ 0 _ _ _ _ _ (0 : Fin 5) rfl, shapeCast_self]

theorem pay11_apply (v5 : Vec Ideal S8x5 .i32) (r : Fin 8) (u : Fin 1) (w : Fin 1024) :
    k1_pay11 (F := Ideal) v5 (ix3 r u w) = ind ((v5 (ix2 r (0 : Fin 5))).sle (BitVec.ofNat 32 w.val)) := by
  unfold k1_pay11 k1_pay3
  simp only [sle01, bc_811_811024, bc_111024_811024, col_apply _ 0 _ _ _ _ _ (0 : Fin 5) rfl, shapeCast_self]
  rw [lane_apply (0 : Fin 1) (0 : Fin 1) w]

theorem pay12_apply (v7 : Vec Ideal S8x5 .i32) (r : Fin 8) (u : Fin 1) (w : Fin 1024) :
    k1_pay12 (F := Ideal) v7 (ix3 r u w) = BitVec.ofBool ((BitVec.ofNat 32 w.val).sle (v7 (ix2 r (0 : Fin 5)))) := by
  unfold k1_pay12 k1_pay4
  show IntOp.cmpi .sle _ _ = _
  simp only [bc_811_811024, bc_111024_811024, col_apply _ 0 _ _ _ _ _ (0 : Fin 5) rfl, shapeCast_self]
  rw [lane_apply (0 : Fin 1) (0 : Fin 1) w]
  rfl

theorem bit01_sle {s : Shape} (a b : IVec s 32) (j : s.Idx) : bit01 (cmpi .sle a b j) = ind ((a j).sle (b j)) :=
  bit01_ofBool _

/-! ## One hole's factor -/

/-- Hole `n`'s factor at row `r` of the block, block row `hh`, lane `w`: the four signed comparisons of the hole's
    bounds against the row-index word and the lane-index word as 0/1 values, times the activation word's signed value.
    `S E` bound the rows, `XS XE` the lanes, `A` is the activation block. -/
def holeAt (S E XS XE A : IVec S8x5 32) (v3 : IVec S1x64x1 32) (v4 : IVec S1x1x1024 32) (n : Fin 5)
    (r : Fin 8) (hh : Fin 64) (w : Fin 1024) : EReal :=
  ((ind ((S (ix2 r n)).sle (v3 (ix3 (0 : Fin 1) hh (0 : Fin 1)))) * ind ((v3 (ix3 (0 : Fin 1) hh (0 : Fin 1))).sle (E (ix2 r n))))
    * (ind ((XS (ix2 r n)).sle (v4 (ix3 (0 : Fin 1) (0 : Fin 1) w))) * ind ((v4 (ix3 (0 : Fin 1) (0 : Fin 1) w)).sle (XE (ix2 r n)))))
    * (((A (ix2 r n)).toInt : ℝ) : EReal)

/-! ## The later payloads at an index, over whatever the earlier parts handed on -/

theorem pay13_apply (v3 : IVec S1x64x1 32) (v4 : IVec S1x1x1024 32) (v6 v8 v10 v12 v14 : IVec S8x5 32)
    (v15 : FVec Ideal S8x64x1024 .f32) (v26 : FVec Ideal S8x1x1 .f32) (v37 : FVec Ideal S8x64x1 .f32)
    (v42 : FVec Ideal S8x1x1024 .f32) (v45 : IVec S8x1x1024 1) (r : Fin 8) (hh : Fin 64) (w : Fin 1024) :
    k1_pay13 (F := Ideal) v3 v4 v6 v8 v10 v12 v14 v15 v26 v37 v42 v45 (ix3 r hh w)
      = max (max (v15 (ix3 r hh w))
            ((v37 (ix3 r hh (0 : Fin 1)) * (v42 (ix3 r (0 : Fin 1) w) * bit01 (v45 (ix3 r (0 : Fin 1) w)))) * v26 (ix3 r (0 : Fin 1) (0 : Fin 1))))
          (holeAt v10 v12 v6 v8 v14 v3 v4 (1 : Fin 5) r hh w) := by
  unfold k1_pay13 holeAt
  simp only [maximumf_apply, mulf_apply, sle01, bit01_apply, bit01_sle, bc_811_8641, bc_1641_8641, bc_811_811024,
    bc_111024_811024, bc_8641_full, bc_811024_full, bc_811_full, col_apply _ 1 _ _ _ _ _ (1 : Fin 5) rfl]
  simp only [sitofp32_apply, col_apply _ 1 _ _ _ _ _ (1 : Fin 5) rfl]

theorem pay14_apply (v12 : IVec S8x5 32) (r : Fin 8) (u1 u2 : Fin 1) : k1_pay14 v12 (ix3 r u1 u2) = v12 (ix2 r (2 : Fin 5)) := by
  unfold k1_pay14; exact col_apply _ 2 _ _ _ _ _ (2 : Fin 5) rfl
theorem pay15_apply (v6 : IVec S8x5 32) (r : Fin 8) (u1 u2 : Fin 1) : k1_pay15 v6 (ix3 r u1 u2) = v6 (ix2 r (2 : Fin 5)) := by
  unfold k1_pay15; exact col_apply _ 2 _ _ _ _ _ (2 : Fin 5) rfl
theorem pay16_apply (v8 : IVec S8x5 32) (r : Fin 8) (u1 u2 : Fin 1) : k1_pay16 v8 (ix3 r u1 u2) = v8 (ix2 r (2 : Fin 5)) := by
  unfold k1_pay16; exact col_apply _ 2 _ _ _ _ _ (2 : Fin 5) rfl
theorem pay17_apply (v14 : IVec S8x5 32) (r : Fin 8) (u1 u2 : Fin 1) :
    k1_pay17 (F := Ideal) v14 (ix3 r u1 u2) = (((v14 (ix2 r (2 : Fin 5))).toInt : ℝ) : EReal) := by
  unfold k1_pay17
  simp only [sitofp32_apply, col_apply _ 2 _ _ _ _ _ (2 : Fin 5) rfl]
theorem pay18_apply (v10 : IVec S8x5 32) (r : Fin 8) (hh : Fin 64) (u : Fin 1) : k1_pay18 v10 (ix3 r hh u) = v10 (ix2 r (2 : Fin 5)) := by
  unfold k1_pay18
  simp only [bc_811_8641, col_apply _ 2 _ _ _ _ _ (2 : Fin 5) rfl]

theorem pay19_apply (v3 : IVec S1x64x1 32) (v4 : IVec S1x1x1024 32) (v93 : FVec Ideal S8x64x1024 .f32)
    (v97 v99 v101 : IVec S8x1x1 32) (v104 : FVec Ideal S8x1x1 .f32) (v105 : IVec S8x64x1 32) (r : Fin 8) (hh : Fin 64) (w : Fin 1024) :
    k1_pay19 (F := Ideal) v3 v4 v93 v97 v99 v101 v104 v105 (ix3 r hh w)
      = max (v93 (ix3 r hh w))
          (((ind ((v105 (ix3 r hh (0 : Fin 1))).sle (v3 (ix3 (0 : Fin 1) hh (0 : Fin 1))))
              * ind ((v3 (ix3 (0 : Fin 1) hh (0 : Fin 1))).sle (v97 (ix3 r (0 : Fin 1) (0 : Fin 1)))))
            * (ind ((v99 (ix3 r (0 : Fin 1) (0 : Fin 1))).sle (v4 (ix3 (0 : Fin 1) (0 : Fin 1) w)))
              * ind ((v4 (ix3 (0 : Fin 1) (0 : Fin 1) w)).sle (v101 (ix3 r (0 : Fin 1) (0 : Fin 1))))))
            * v104 (ix3 r (0 : Fin 1) (0 : Fin 1))) := by
  unfold k1_pay19
  simp only [maximumf_apply, mulf_apply, sle01, bc_811_8641, bc_1641_8641, bc_811_811024,
    bc_111024_811024, bc_8641_full, bc_811024_full, bc_811_full]

theorem pay20_apply (v14 : IVec S8x5 32) (r : Fin 8) (u1 u2 : Fin 1) :
    k1_pay20 (F := Ideal) v14 (ix3 r u1 u2) = (((v14 (ix2 r (3 : Fin 5))).toInt : ℝ) : EReal) := by
  unfold k1_pay20
  simp only [sitofp32_apply, col_apply _ 3 _ _ _ _ _ (3 : Fin 5) rfl]

theorem pay21_apply (v3 : IVec S1x64x1 32) (v10 v12 : IVec S8x5 32) (r : Fin 8) (hh : Fin 64) (u : Fin 1) :
    k1_pay21 (F := Ideal) v3 v10 v12 (ix3 r hh u)
      = ind ((v10 (ix2 r (3 : Fin 5))).sle (v3 (ix3 (0 : Fin 1) hh (0 : Fin 1))))
        * ind ((v3 (ix3 (0 : Fin 1) hh (0 : Fin 1))).sle (v12 (ix2 r (3 : Fin 5)))) := by
  unfold k1_pay21
  simp only [mulf_apply, sle01, bc_811_8641, bc_1641_8641, col_apply _ 3 _ _ _ _ _ (3 : Fin 5) rfl]

theorem pay22_apply (v4 : IVec S1x1x1024 32) (v6 v8 : IVec S8x5 32) (r : Fin 8) (u : Fin 1) (w : Fin 1024) :
    k1_pay22 (F := Ideal) v4 v6 v8 (ix3 r u w)
      = ind ((v6 (ix2 r (3 : Fin 5))).sle (v4 (ix3 (0 : Fin 1) (0 : Fin 1) w)))
        * ind ((v4 (ix3 (0 : Fin 1) (0 : Fin 1) w)).sle (v8 (ix2 r (3 : Fin 5)))) := by
  unfold k1_pay22
  simp only [mulf_apply, sle01, bc_811_811024, bc_111024_811024, col_apply _ 3 _ _ _ _ _ (3 : Fin 5) rfl]

theorem pay23_apply (v3 : IVec S1x64x1 32) (v4 : IVec S1x1x1024 32) (v6 v8 v10 v12 v14 : IVec S8x5 32)
    (v132 : FVec Ideal S8x64x1024 .f32) (v143 : FVec Ideal S8x1x1 .f32) (v154 : FVec Ideal S8x64x1 .f32)
    (v165 : FVec Ideal S8x1x1024 .f32) (r : Fin 8) (hh : Fin 64) (w : Fin 1024) :
    k1_pay23 (F := Ideal) v3 v4 v6 v8 v10 v12 v14 v132 v143 v154 v165 (ix3 r hh w)
      = max (max (v132 (ix3 r hh w))
            ((v154 (ix3 r hh (0 : Fin 1)) * v165 (ix3 r (0 : Fin 1) w)) * v143 (ix3 r (0 : Fin 1) (0 : Fin 1))))
          (holeAt v10 v12 v6 v8 v14 v3 v4 (4 : Fin 5) r hh w) := by
  unfold k1_pay23 holeAt
  simp only [maximumf_apply, mulf_apply, sle01, bc_811_8641, bc_1641_8641, bc_811_811024,
    bc_111024_811024, bc_8641_full, bc_811024_full, bc_811_full, col_apply _ 4 _ _ _ _ _ (4 : Fin 5) rfl]
  simp only [sitofp32_apply, col_apply _ 4 _ _ _ _ _ (4 : Fin 5) rfl]

/-- The x·(1 − mask) term. -/
theorem pay24_apply (v3 : IVec S1x64x1 32) (v4 : IVec S1x1x1024 32) (v6 v8 v10 v12 v14 : IVec S8x5 32)
    (v132 : FVec Ideal S8x64x1024 .f32) (v143 : FVec Ideal S8x1x1 .f32) (v154 : FVec Ideal S8x64x1 .f32)
    (v165 : FVec Ideal S8x1x1024 .f32) (v213 : Vec Ideal S8x64x1024 .f32) (j : S8x64x1024.Idx) :
    k1_pay24 (F := Ideal) v3 v4 v6 v8 v10 v12 v14 v132 v143 v154 v165 v213 j
      = v213 j * ((Scalar.ofBits .f32 0x3F800000#32 : Ideal .f32) - k1_pay23 (F := Ideal) v3 v4 v6 v8 v10 v12 v14 v132 v143 v154 v165 j) := by
  unfold k1_pay24
  simp only [mulf_apply, subf_apply, broadcast_apply, shapeCast_self]

/-- The mask·fill term. -/
theorem pay25_apply (v3 : IVec S1x64x1 32) (v4 : IVec S1x1x1024 32) (v6 v8 v10 v12 v14 : IVec S8x5 32)
    (v132 : FVec Ideal S8x64x1024 .f32) (v143 : FVec Ideal S8x1x1 .f32) (v154 : FVec Ideal S8x64x1 .f32)
    (v165 : FVec Ideal S8x1x1024 .f32) (v211 : Vec Ideal S1x1 .f32) (j : S8x64x1024.Idx) :
    k1_pay25 (F := Ideal) v3 v4 v6 v8 v10 v12 v14 v132 v143 v154 v165 v211 j
      = k1_pay23 (F := Ideal) v3 v4 v6 v8 v10 v12 v14 v132 v143 v154 v165 j * v211 (ix2 (0 : Fin 1) (0 : Fin 1)) := by
  unfold k1_pay25
  simp only [mulf_apply, broadcast_apply]
  refine congrArg (fun z => _ * z) ?_
  unfold extractAt
  exact congrArg v211 (funext fun a => by
    match a with
    | ⟨0, _⟩ => rfl
    | ⟨1, _⟩ => rfl)

theorem pay1_apply (v217 v219 : FVec Ideal S8x64x1024 .f32) (j : S8x64x1024.Idx) :
    k1_pay1 (F := Ideal) v217 v219 j = v217 j + v219 j := rfl

/-- The literal 1.0. -/
theorem one_f32 : (Scalar.ofBits .f32 0x3F800000#32 : Ideal .f32) = 1 := by
  show Ideal.ofBits .f32 0x3F800000#32 = 1
  simp [Ideal.ofBits, Ideal.ieee, -EReal.coe_mul]; norm_num

end Cert.KernelIdeal.Mask

end
-- ==== Proof.MaskValue.lean ====
/- The mask-select kernel's output block read at one index, at the exact (extended-real) instance: the block the
   body leaves is x·(1 − M) + M·fill with M the maximum over the five holes of the product of the four signed
   comparisons (as 0/1 values) and the activation word's signed value; when every activation word is 0 or 1, M is the
   indicator that some active hole contains the position. -/
import proofs.«152792_j38062000177638_1_alg».proof.Proof.MaskBody
import proofs.«152792_j38062000177638_1_alg».proof.Proof.MaskRead
import Idealize.ShloMosaic.PureOps.Ideal.Laws

set_option maxRecDepth 16384

noncomputable section

namespace Cert.KernelIdeal.Mask

open Cert.KernelIdeal Cert.KernelIdeal.Gen
open Idealize.ShloMosaic Idealize.ShloMosaic.ValueIdx

/-! ## The one store is the whole buffer -/

theorem zero3 : (![0, 0, 0] : Fin 3 → Nat) = fun _ => 0 := by
  funext a; match a with
  | ⟨0, _⟩ => rfl
  | ⟨1, _⟩ => rfl
  | ⟨2, _⟩ => rfl

theorem zero2 : (![0, 0] : Fin 2 → Nat) = fun _ => 0 := by
  funext a; match a with
  | ⟨0, _⟩ => rfl
  | ⟨1, _⟩ => rfl

section AnyF
variable {F : FTy → Type} [FloatOps F]

/-- The output buffer after the body is the stored value of the input blocks themselves: the store and the loads go
    through whole-buffer rectangles. -/
theorem out1_7_eq (i : grid1.Coords) (x0 : Vec F S8x64x1024 .f32) (x1 x2 x3 x4 x5 : Vec F S8x5 .i32) (x6 : Vec F S1x1 .f32) :
    out1_7 i x0 x1 x2 x3 x4 x5 x6 = storedVal i x0 x1 x2 x3 x4 x5 x6 := by
  unfold out1_7
  rw [View.canon_unit_zero zero3]
  simp only [View.ld_unit_zero (S := S8x64x1024) zero3, View.ld_unit_zero (S := S8x5) zero2, View.ld_unit_zero (S := S1x1) zero2]

theorem pay3_eq (v : Vec F S8x5 .i32) : k1_pay3 v = v := shapeCast_self v _
theorem pay4_eq (v : Vec F S8x5 .i32) : k1_pay4 v = v := shapeCast_self v _
theorem pay5_eq (v : Vec F S8x5 .i32) : k1_pay5 v = v := shapeCast_self v _
theorem pay6_eq (v : Vec F S8x5 .i32) : k1_pay6 v = v := shapeCast_self v _
theorem pay7_eq (v : Vec F S8x5 .i32) : k1_pay7 v = v := shapeCast_self v _

end AnyF

/-! ## The index words -/

/-- The row-index word of block row `hh` at grid position `i`: 64 times the second grid coordinate plus `hh`, in 32 bits. -/
def rowWord (i : grid1.Coords) (hh : Fin 64) : BitVec 32 := Scalar.muli (BitVec.ofNat 32 (i 1).val) 64#32 + BitVec.ofNat 32 hh.val
/-- The lane-index word of lane `w`. -/
def colWord (w : Fin 1024) : BitVec 32 := BitVec.ofNat 32 w.val

/-! ## The mask at a position -/

/-- Hole `n`'s factor at block row `r`, block line `hh`, lane `w`, from the five parameter blocks
    (`p1 p2` the lane bounds, `p3 p4` the line bounds, `p5` the activation words). -/
def holeVal (i : grid1.Coords) (p1 p2 p3 p4 p5 : Vec Ideal S8x5 .i32) (n : Fin 5) (r : Fin 8) (hh : Fin 64) (w : Fin 1024) : EReal :=
  ((ind ((p3 (ix2 r n)).sle (rowWord i hh)) * ind ((rowWord i hh).sle (p4 (ix2 r n))))
    * (ind ((p1 (ix2 r n)).sle (colWord w)) * ind ((colWord w).sle (p2 (ix2 r n)))))
    * (((p5 (ix2 r n)).toInt : ℝ) : EReal)

/-- The mask value: the running maximum, from zero, over the five holes in order. -/
def maskVal (i : grid1.Coords) (p1 p2 p3 p4 p5 : Vec Ideal S8x5 .i32) (r : Fin 8) (hh : Fin 64) (w : Fin 1024) : EReal :=
  max (max (max (max (max 0 (holeVal i p1 p2 p3 p4 p5 0 r hh w)) (holeVal i p1 p2 p3 p4 p5 1 r hh w)) (holeVal i p1 p2 p3 p4 p5 2 r hh w))
    (holeVal i p1 p2 p3 p4 p5 3 r hh w)) (holeVal i p1 p2 p3 p4 p5 4 r hh w)

theorem holeAt_words (i : grid1.Coords) (p1 p2 p3 p4 p5 : Vec Ideal S8x5 .i32) (n : Fin 5) (r : Fin 8) (hh : Fin 64) (w : Fin 1024) :
    holeAt p3 p4 p1 p2 p5 (k1_pay2 i) laneIota n r hh w = holeVal i p1 p2 p3 p4 p5 n r hh w := by
  unfold holeAt holeVal rowWord colWord
  rw [row_apply, show laneIota (ix3 (0 : Fin 1) (0 : Fin 1) w) = BitVec.ofNat 32 w.val from lane_apply _ _ w]

theorem pay8_apply (j : S8x64x1024.Idx) : k1_pay8 (F := Ideal) j = 0 := by
  unfold k1_pay8
  show Ideal.ofBits .f32 0x00000000#32 = 0
  exact Ideal.ofBits_zero_f32

/-- The stored value at a position of the block. -/
theorem storedVal_apply (i : grid1.Coords) (x0 : Vec Ideal S8x64x1024 .f32) (p1 p2 p3 p4 p5 : Vec Ideal S8x5 .i32) (f : Vec Ideal S1x1 .f32)
    (r : Fin 8) (hh : Fin 64) (w : Fin 1024) :
    storedVal (F := Ideal) i x0 p1 p2 p3 p4 p5 f (ix3 r hh w)
      = x0 (ix3 r hh w) * (1 - maskVal i p1 p2 p3 p4 p5 r hh w) + maskVal i p1 p2 p3 p4 p5 r hh w * f (ix2 (0 : Fin 1) (0 : Fin 1)) := by
  unfold storedVal
  simp only [pay1_apply, pay24_apply, pay25_apply, pay23_apply, mask012, pay19_apply, mask01, pay13_apply,
    pay20_apply, pay21_apply, pay22_apply, pay14_apply, pay15_apply, pay16_apply, pay17_apply, pay18_apply,
    pay9_apply, pay10_apply, pay11_apply, pay12_apply, bit01_ofBool, pay8_apply, one_f32]
  simp only [pay3_eq, pay4_eq, pay5_eq, pay6_eq, pay7_eq, holeAt_words]
  unfold maskVal holeVal rowWord colWord
  rw [row_apply, show laneIota (ix3 (0 : Fin 1) (0 : Fin 1) w) = BitVec.ofNat 32 w.val from lane_apply _ _ w]

/-- The output block the body leaves, at a position: x·(1 − M) + M·fill. -/
theorem out1_7_apply (i : grid1.Coords) (x0 : Vec Ideal S8x64x1024 .f32) (p1 p2 p3 p4 p5 : Vec Ideal S8x5 .i32) (f : Vec Ideal S1x1 .f32)
    (r : Fin 8) (hh : Fin 64) (w : Fin 1024) :
    out1_7 (F := Ideal) i x0 p1 p2 p3 p4 p5 f (ix3 r hh w)
      = x0 (ix3 r hh w) * (1 - maskVal i p1 p2 p3 p4 p5 r hh w) + maskVal i p1 p2 p3 p4 p5 r hh w * f (ix2 (0 : Fin 1) (0 : Fin 1)) := by
  rw [out1_7_eq]; exact storedVal_apply i x0 p1 p2 p3 p4 p5 f r hh w

/-! ## When every activation word is 0 or 1 -/

/-- Hole `n` is active and contains the position: the four signed comparisons hold and the activation word is not zero. -/
def holeCond (i : grid1.Coords) (p1 p2 p3 p4 p5 : Vec Ideal S8x5 .i32) (n : Fin 5) (r : Fin 8) (hh : Fin 64) (w : Fin 1024) : Prop :=
  p5 (ix2 r n) ≠ 0#32 ∧ (p3 (ix2 r n)).sle (rowWord i hh) = true ∧ (rowWord i hh).sle (p4 (ix2 r n)) = true
    ∧ (p1 (ix2 r n)).sle (colWord w) = true ∧ (colWord w).sle (p2 (ix2 r n)) = true

/-- The same as a decided condition. -/
def holeB (i : grid1.Coords) (p1 p2 p3 p4 p5 : Vec Ideal S8x5 .i32) (n : Fin 5) (r : Fin 8) (hh : Fin 64) (w : Fin 1024) : Bool :=
  (((p3 (ix2 r n)).sle (rowWord i hh) && (rowWord i hh).sle (p4 (ix2 r n)))
    && ((p1 (ix2 r n)).sle (colWord w) && (colWord w).sle (p2 (ix2 r n)))) && (p5 (ix2 r n) != 0#32)

theorem holeB_iff (i : grid1.Coords) (p1 p2 p3 p4 p5 : Vec Ideal S8x5 .i32) (n : Fin 5) (r : Fin 8) (hh : Fin 64) (w : Fin 1024) :
    holeB i p1 p2 p3 p4 p5 n r hh w = true ↔ holeCond i p1 p2 p3 p4 p5 n r hh w := by
  unfold holeB holeCond
  simp only [Bool.and_eq_true, bne_iff_ne, ne_eq]
  tauto

theorem toInt_zero32 : (((0#32 : BitVec 32).toInt : ℝ) : EReal) = 0 := by
  rw [show (0#32 : BitVec 32).toInt = 0 by decide]; simp
theorem toInt_one32 : (((1#32 : BitVec 32).toInt : ℝ) : EReal) = 1 := by
  rw [show (1#32 : BitVec 32).toInt = 1 by decide]; simp

/-- With a 0/1 activation word a hole's factor is the indicator of `holeB`. -/
theorem holeVal_of_act01 (i : grid1.Coords) (p1 p2 p3 p4 p5 : Vec Ideal S8x5 .i32) (n : Fin 5) (r : Fin 8) (hh : Fin 64) (w : Fin 1024)
    (h : p5 (ix2 r n) = 0#32 ∨ p5 (ix2 r n) = 1#32) :
    holeVal i p1 p2 p3 p4 p5 n r hh w = ind (holeB i p1 p2 p3 p4 p5 n r hh w) := by
  unfold holeVal holeB
  rw [ind_mul, ind_mul, ind_mul]
  rcases h with h | h
  · rw [h, toInt_zero32, mul_zero]; simp
  · rw [h, toInt_one32, mul_one]; simp

/-- With 0/1 activation words the mask is the indicator that some hole is active and contains the position. -/
theorem maskVal_eq_ind (i : grid1.Coords) (p1 p2 p3 p4 p5 : Vec Ideal S8x5 .i32) (r : Fin 8) (hh : Fin 64) (w : Fin 1024)
    (hact : ∀ n : Fin 5, p5 (ix2 r n) = 0#32 ∨ p5 (ix2 r n) = 1#32) :
    maskVal i p1 p2 p3 p4 p5 r hh w
      = ind ((((holeB i p1 p2 p3 p4 p5 0 r hh w || holeB i p1 p2 p3 p4 p5 1 r hh w) || holeB i p1 p2 p3 p4 p5 2 r hh w)
          || holeB i p1 p2 p3 p4 p5 3 r hh w) || holeB i p1 p2 p3 p4 p5 4 r hh w) := by
  unfold maskVal
  rw [holeVal_of_act01 _ _ _ _ _ _ 0 _ _ _ (hact 0), holeVal_of_act01 _ _ _ _ _ _ 1 _ _ _ (hact 1),
    holeVal_of_act01 _ _ _ _ _ _ 2 _ _ _ (hact 2), holeVal_of_act01 _ _ _ _ _ _ 3 _ _ _ (hact 3),
    holeVal_of_act01 _ _ _ _ _ _ 4 _ _ _ (hact 4), zero_max_ind, ind_max, ind_max, ind_max, ind_max]

theorem maskVal_eq_ite (i : grid1.Coords) (p1 p2 p3 p4 p5 : Vec Ideal S8x5 .i32) (r : Fin 8) (hh : Fin 64) (w : Fin 1024)
    (hact : ∀ n : Fin 5, p5 (ix2 r n) = 0#32 ∨ p5 (ix2 r n) = 1#32) [Decidable (∃ n : Fin 5, holeCond i p1 p2 p3 p4 p5 n r hh w)] :
    maskVal i p1 p2 p3 p4 p5 r hh w = if ∃ n : Fin 5, holeCond i p1 p2 p3 p4 p5 n r hh w then 1 else 0 := by
  rw [maskVal_eq_ind i p1 p2 p3 p4 p5 r hh w hact]
  have key : ((((holeB i p1 p2 p3 p4 p5 0 r hh w || holeB i p1 p2 p3 p4 p5 1 r hh w) || holeB i p1 p2 p3 p4 p5 2 r hh w)
      || holeB i p1 p2 p3 p4 p5 3 r hh w) || holeB i p1 p2 p3 p4 p5 4 r hh w) = true ↔ ∃ n : Fin 5, holeCond i p1 p2 p3 p4 p5 n r hh w := by
    simp only [Bool.or_eq_true, holeB_iff]
    constructor
    · rintro ((((h | h) | h) | h) | h)
      exacts [⟨0, h⟩, ⟨1, h⟩, ⟨2, h⟩, ⟨3, h⟩, ⟨4, h⟩]
    · rintro ⟨n, h⟩
      match n, h with
      | ⟨0, _⟩, h => exact .inl (.inl (.inl (.inl h)))
      | ⟨1, _⟩, h => exact .inl (.inl (.inl (.inr h)))
      | ⟨2, _⟩, h => exact .inl (.inl (.inr h))
      | ⟨3, _⟩, h => exact .inl (.inr h)
      | ⟨4, _⟩, h => exact .inr h
  by_cases hE : ∃ n : Fin 5, holeCond i p1 p2 p3 p4 p5 n r hh w
  · rw [if_pos hE, key.2 hE]; rfl
  · rw [if_neg hE]
    cases hb : ((((holeB i p1 p2 p3 p4 p5 0 r hh w || holeB i p1 p2 p3 p4 p5 1 r hh w) || holeB i p1 p2 p3 p4 p5 2 r hh w)
      || holeB i p1 p2 p3 p4 p5 3 r hh w) || holeB i p1 p2 p3 p4 p5 4 r hh w)
    · rfl
    · exact absurd (key.1 hb) hE

/-- The output block at a position when the activation words of its block row are 0 or 1: x where no active hole
    contains the position, the fill value where one does — in the kernel's own arithmetic x·(1 − M) + M·fill, M ∈ {0, 1}. -/
theorem out1_7_apply_act01 (i : grid1.Coords) (x0 : Vec Ideal S8x64x1024 .f32) (p1 p2 p3 p4 p5 : Vec Ideal S8x5 .i32) (f : Vec Ideal S1x1 .f32)
    (r : Fin 8) (hh : Fin 64) (w : Fin 1024) (hact : ∀ n : Fin 5, p5 (ix2 r n) = 0#32 ∨ p5 (ix2 r n) = 1#32)
    [Decidable (∃ n : Fin 5, holeCond i p1 p2 p3 p4 p5 n r hh w)] :
    out1_7 (F := Ideal) i x0 p1 p2 p3 p4 p5 f (ix3 r hh w)
      = x0 (ix3 r hh w) * (1 - (if ∃ n : Fin 5, holeCond i p1 p2 p3 p4 p5 n r hh w then (1 : EReal) else 0))
        + (if ∃ n : Fin 5, holeCond i p1 p2 p3 p4 p5 n r hh w then (1 : EReal) else 0) * f (ix2 (0 : Fin 1) (0 : Fin 1)) := by
  rw [out1_7_apply, maskVal_eq_ite i p1 p2 p3 p4 p5 r hh w hact]

/-- The two cases apart. -/
theorem maskVal_of_exists (i : grid1.Coords) (p1 p2 p3 p4 p5 : Vec Ideal S8x5 .i32) (r : Fin 8) (hh : Fin 64) (w : Fin 1024)
    (hact : ∀ n : Fin 5, p5 (ix2 r n) = 0#32 ∨ p5 (ix2 r n) = 1#32) (h : ∃ n : Fin 5, holeCond i p1 p2 p3 p4 p5 n r hh w) :
    maskVal i p1 p2 p3 p4 p5 r hh w = 1 := by
  haveI : Decidable (∃ n : Fin 5, holeCond i p1 p2 p3 p4 p5 n r hh w) := isTrue h
  rw [maskVal_eq_ite i p1 p2 p3 p4 p5 r hh w hact, if_pos h]

theorem maskVal_of_not_exists (i : grid1.Coords) (p1 p2 p3 p4 p5 : Vec Ideal S8x5 .i32) (r : Fin 8) (hh : Fin 64) (w : Fin 1024)
    (hact : ∀ n : Fin 5, p5 (ix2 r n) = 0#32 ∨ p5 (ix2 r n) = 1#32) (h : ¬ ∃ n : Fin 5, holeCond i p1 p2 p3 p4 p5 n r hh w) :
    maskVal i p1 p2 p3 p4 p5 r hh w = 0 := by
  haveI : Decidable (∃ n : Fin 5, holeCond i p1 p2 p3 p4 p5 n r hh w) := isFalse h
  rw [maskVal_eq_ite i p1 p2 p3 p4 p5 r hh w hact, if_neg h]

/-! ## The index words as integers -/

theorem colWord_toInt (w : Fin 1024) : (colWord w).toInt = (w.val : ℤ) := by
  unfold colWord
  have h := w.isLt
  rw [BitVec.toInt_eq_toNat_of_lt (by rw [BitVec.toNat_ofNat]; omega), BitVec.toNat_ofNat]
  omega

theorem rowWord_toInt (i : grid1.Coords) (hh : Fin 64) : (rowWord i hh).toInt = (64 * (i 1).val + hh.val : ℤ) := by
  unfold rowWord
  have h4 : (i 1).val < 4 := (i 1).isLt
  have h := hh.isLt
  show (BitVec.ofNat 32 (i 1).val * 64#32 + BitVec.ofNat 32 hh.val).toInt = _
  rw [BitVec.toInt_eq_toNat_of_lt (by rw [BitVec.toNat_add, BitVec.toNat_mul, BitVec.toNat_ofNat, BitVec.toNat_ofNat]; simp; omega),
    BitVec.toNat_add, BitVec.toNat_mul, BitVec.toNat_ofNat, BitVec.toNat_ofNat]
  simp
  omega

end Cert.KernelIdeal.Mask

end
-- ==== Proof.MaskSpec.lean ====
/-
  The cut-out mask and the blend, position by position, with no program in sight. A position (sample b, row h, column w)
  is covered when one of the sample's five holes is active and holds it: the hole's first row ≤ h ≤ its last row and its
  first column ≤ w ≤ its last column, compared as signed 32-bit words. The result there is x · (1 − m) + m · fill with
  m = 1 on covered positions and 0 elsewhere.
-/
import Idealize.ShloMosaic.PureOps.Ideal
import Idealize.ShloMosaic.Lib.ValueIdx

noncomputable section

namespace Cert.MaskSpec

open Idealize.ShloMosaic Idealize.ShloMosaic.ValueIdx

/-- 1 where the condition holds, 0 where it does not. -/
def ind (b : Bool) : EReal := if b then 1 else 0

theorem ind_true : ind true = 1 := rfl
theorem ind_false : ind false = 0 := rfl

/-- Hole `n` of sample `b` is active and holds row `h`, column `w`. -/
def hole (ys ye xs xe : (⟨2, ![128, 5]⟩ : Shape).Idx → BitVec 32) (ac : (⟨2, ![128, 5]⟩ : Shape).Idx → Bool)
    (b : Fin 128) (h : Fin 256) (w : Fin 1024) (n : Fin 5) : Bool :=
  (((ys (ix2 b n)).sle (BitVec.ofNat 32 h.val) && (BitVec.ofNat 32 h.val).sle (ye (ix2 b n)))
    && ((xs (ix2 b n)).sle (BitVec.ofNat 32 w.val) && (BitVec.ofNat 32 w.val).sle (xe (ix2 b n)))) && ac (ix2 b n)

/-- Some hole of sample `b` is active and holds the position. -/
def covered (ys ye xs xe : (⟨2, ![128, 5]⟩ : Shape).Idx → BitVec 32) (ac : (⟨2, ![128, 5]⟩ : Shape).Idx → Bool)
    (b : Fin 128) (h : Fin 256) (w : Fin 1024) : Bool :=
  (((hole ys ye xs xe ac b h w 0 || hole ys ye xs xe ac b h w 1) || hole ys ye xs xe ac b h w 2)
    || hole ys ye xs xe ac b h w 3) || hole ys ye xs xe ac b h w 4

/-- The blend of a value with the fill under a mask value. -/
def blendAt (xv mv fillv : EReal) : EReal := xv * (1 - mv) + mv * fillv

end Cert.MaskSpec

end
-- ==== Proof.MaskArray.lean ====
/- The mask-select region's output array as one function of the arrays the region finds: every grid point writes back
   the block of that function under it, and the blocks cover the array. A block's element sits in its array at block
   index × block size + its coordinate; the row-index word of a block row is the global row number as a 32-bit word. -/
import proofs.«152792_j38062000177638_1_alg».proof.Proof.MaskValue
import proofs.«152792_j38062000177638_1_alg».proof.Proof.MaskSpec
import Idealize.ShloMosaic.Lib.Pipeline.Value

set_option maxRecDepth 16384

noncomputable section

namespace Cert.KernelIdeal.Mask

open Cert.KernelIdeal Cert.KernelIdeal.Gen
open Idealize.ShloMosaic Idealize.ShloMosaic.TcCoe Idealize.ShloMosaic.ValueIdx Idealize.SL.Sem
open Idealize.ShloMosaic.Pipeline (Dat)

-- the buffer contents when the region is entered, at the exact instance
variable (V : (c : Dev nD) → (b : Ref sig .tc) → Buf (Elt Ideal) ((c : Thread nD τ).loc b))

/-! ## The region's arrays, at their literal types -/

/-- The image array. -/
def xArr (c : Dev nD) : S128x256x1024.Idx → EReal := V c main_v0
/-- The holes' first and last columns, first and last rows, and activation words. -/
def xsArr (c : Dev nD) : S128x5.Idx → BitVec 32 := V c main_v7
def xeArr (c : Dev nD) : S128x5.Idx → BitVec 32 := V c main_v10
def ysArr (c : Dev nD) : S128x5.Idx → BitVec 32 := V c main_v13
def yeArr (c : Dev nD) : S128x5.Idx → BitVec 32 := V c main_v16
def acArr (c : Dev nD) : S128x5.Idx → BitVec 32 := V c main_v19
/-- The fill value. -/
def fillArr (c : Dev nD) : S1x1.Idx → EReal := V c main_v22

/-- The result at sample `b`, row `h`, column `w`. -/
def outAt (c : Dev nD) (b : Fin 128) (h : Fin 256) (w : Fin 1024) : EReal :=
  Cert.MaskSpec.blendAt (xArr V c (ix3 b h w))
    (Cert.MaskSpec.ind (Cert.MaskSpec.covered (ysArr V c) (yeArr V c) (xsArr V c) (xeArr V c) (fun j => acArr V c j != 0#32) b h w))
    (fillArr V c (ix2 (0 : Fin 1) (0 : Fin 1)))

/-- The result array. -/
def outArr (c : Dev nD) : S128x256x1024.Idx → EReal := fun i => outAt V c (i 0) (i 1) (i 2)

/-! ## The index maps over the grid -/

/-- Each window's block index at a point, decided over the 64 points: the image and the result move with both grid
    coordinates, the parameter blocks with the first, the fill value stays. -/
theorem idx_facts1 : ∀ t : Fin cfg1.N,
    win1_0.index t (0 : Fin 3) = (grid1.coords t 0).val ∧ win1_0.index t (1 : Fin 3) = (grid1.coords t 1).val ∧ win1_0.index t (2 : Fin 3) = 0
    ∧ win1_1.index t (0 : Fin 2) = (grid1.coords t 0).val ∧ win1_1.index t (1 : Fin 2) = 0
    ∧ win1_2.index t (0 : Fin 2) = (grid1.coords t 0).val ∧ win1_2.index t (1 : Fin 2) = 0
    ∧ win1_3.index t (0 : Fin 2) = (grid1.coords t 0).val ∧ win1_3.index t (1 : Fin 2) = 0
    ∧ win1_4.index t (0 : Fin 2) = (grid1.coords t 0).val ∧ win1_4.index t (1 : Fin 2) = 0
    ∧ win1_5.index t (0 : Fin 2) = (grid1.coords t 0).val ∧ win1_5.index t (1 : Fin 2) = 0
    ∧ win1_6.index t (0 : Fin 2) = 0 ∧ win1_6.index t (1 : Fin 2) = 0
    ∧ win1_7.index t (0 : Fin 3) = (grid1.coords t 0).val ∧ win1_7.index t (1 : Fin 3) = (grid1.coords t 1).val ∧ win1_7.index t (2 : Fin 3) = 0
    ∧ (grid1.coords t 0).val < 16 ∧ (grid1.coords t 1).val < 4 :=
  (by decide +kernel : ∀ t : Fin grid1.N, _)

/-- Every block of the result array is some point's. -/
theorem idx_onto1 : ∀ (q0 : Fin 16) (q1 : Fin 4), ∃ t : Fin cfg1.N, win1_7.index t = ![q0.val, q1.val, 0] :=
  (by decide +kernel : ∀ (q0 : Fin 16) (q1 : Fin 4), ∃ t : Fin grid1.N, win1_7.index t = ![q0.val, q1.val, 0])

/-! ## A block's element in its array -/

theorem iblk0_apply (c : Dev nD) (t : Fin cfg1.N) (r : Fin 8) (hh : Fin 64) (w : Fin 1024) (b : Fin 128) (h : Fin 256)
    (hb : b.val = 8 * (grid1.coords t 0).val + r.val) (hh' : h.val = 64 * (grid1.coords t 1).val + hh.val) :
    (iblk1 V c 0 t) (ix3 r hh w) = xArr V c (ix3 b h w) := by
  obtain ⟨e00, e01, e02, -⟩ := idx_facts1 t
  show V c main_v0 (((cfg1.win 0).blk t).view.emb (ix3 r hh w)) = V c main_v0 (ix3 b h w)
  refine congrArg _ (funext fun a => Fin.ext ?_)
  match a with
  | ⟨0, _⟩ => show win1_0.index t (0 : Fin 3) * 8 + 1 * r.val = b.val; omega
  | ⟨1, _⟩ => show win1_0.index t (1 : Fin 3) * 64 + 1 * hh.val = h.val; omega
  | ⟨2, _⟩ => show win1_0.index t (2 : Fin 3) * 1024 + 1 * w.val = w.val; omega

theorem iblk1_apply (c : Dev nD) (t : Fin cfg1.N) (r : Fin 8) (n : Fin 5) (b : Fin 128)
    (hb : b.val = 8 * (grid1.coords t 0).val + r.val) :
    (iblk1 V c 1 t) (ix2 r n) = xsArr V c (ix2 b n) := by
  obtain ⟨e00, e01, e02, e10, e11, e20, e21, e30, e31, e40, e41, e50, e51, -⟩ := idx_facts1 t
  show V c main_v7 (((cfg1.win 1).blk t).view.emb (ix2 r n)) = V c main_v7 (ix2 b n)
  refine congrArg _ (funext fun a => Fin.ext ?_)
  match a with
  | ⟨0, _⟩ => show win1_1.index t (0 : Fin 2) * 8 + 1 * r.val = b.val; omega
  | ⟨1, _⟩ => show win1_1.index t (1 : Fin 2) * 5 + 1 * n.val = n.val; omega

theorem iblk2_apply (c : Dev nD) (t : Fin cfg1.N) (r : Fin 8) (n : Fin 5) (b : Fin 128)
    (hb : b.val = 8 * (grid1.coords t 0).val + r.val) :
    (iblk1 V c 2 t) (ix2 r n) = xeArr V c (ix2 b n) := by
  obtain ⟨e00, e01, e02, e10, e11, e20, e21, e30, e31, e40, e41, e50, e51, -⟩ := idx_facts1 t
  show V c main_v10 (((cfg1.win 2).blk t).view.emb (ix2 r n)) = V c main_v10 (ix2 b n)
  refine congrArg _ (funext fun a => Fin.ext ?_)
  match a with
  | ⟨0, _⟩ => show win1_2.index t (0 : Fin 2) * 8 + 1 * r.val = b.val; omega
  | ⟨1, _⟩ => show win1_2.index t (1 : Fin 2) * 5 + 1 * n.val = n.val; omega

theorem iblk3_apply (c : Dev nD) (t : Fin cfg1.N) (r : Fin 8) (n : Fin 5) (b : Fin 128)
    (hb : b.val = 8 * (grid1.coords t 0).val + r.val) :
    (iblk1 V c 3 t) (ix2 r n) = ysArr V c (ix2 b n) := by
  obtain ⟨e00, e01, e02, e10, e11, e20, e21, e30, e31, e40, e41, e50, e51, -⟩ := idx_facts1 t
  show V c main_v13 (((cfg1.win 3).blk t).view.emb (ix2 r n)) = V c main_v13 (ix2 b n)
  refine congrArg _ (funext fun a => Fin.ext ?_)
  match a with
  | ⟨0, _⟩ => show win1_3.index t (0 : Fin 2) * 8 + 1 * r.val = b.val; omega
  | ⟨1, _⟩ => show win1_3.index t (1 : Fin 2) * 5 + 1 * n.val = n.val; omega

theorem iblk4_apply (c : Dev nD) (t : Fin cfg1.N) (r : Fin 8) (n : Fin 5) (b : Fin 128)
    (hb : b.val = 8 * (grid1.coords t 0).val + r.val) :
    (iblk1 V c 4 t) (ix2 r n) = yeArr V c (ix2 b n) := by
  obtain ⟨e00, e01, e02, e10, e11, e20, e21, e30, e31, e40, e41, e50, e51, -⟩ := idx_facts1 t
  show V c main_v16 (((cfg1.win 4).blk t).view.emb (ix2 r n)) = V c main_v16 (ix2 b n)
  refine congrArg _ (funext fun a => Fin.ext ?_)
  match a with
  | ⟨0, _⟩ => show win1_4.index t (0 : Fin 2) * 8 + 1 * r.val = b.val; omega
  | ⟨1, _⟩ => show win1_4.index t (1 : Fin 2) * 5 + 1 * n.val = n.val; omega

theorem iblk5_apply (c : Dev nD) (t : Fin cfg1.N) (r : Fin 8) (n : Fin 5) (b : Fin 128)
    (hb : b.val = 8 * (grid1.coords t 0).val + r.val) :
    (iblk1 V c 5 t) (ix2 r n) = acArr V c (ix2 b n) := by
  obtain ⟨e00, e01, e02, e10, e11, e20, e21, e30, e31, e40, e41, e50, e51, -⟩ := idx_facts1 t
  show V c main_v19 (((cfg1.win 5).blk t).view.emb (ix2 r n)) = V c main_v19 (ix2 b n)
  refine congrArg _ (funext fun a => Fin.ext ?_)
  match a with
  | ⟨0, _⟩ => show win1_5.index t (0 : Fin 2) * 8 + 1 * r.val = b.val; omega
  | ⟨1, _⟩ => show win1_5.index t (1 : Fin 2) * 5 + 1 * n.val = n.val; omega

theorem iblk6_apply (c : Dev nD) (t : Fin cfg1.N) :
    (iblk1 V c 6 t) (ix2 (0 : Fin 1) (0 : Fin 1)) = fillArr V c (ix2 (0 : Fin 1) (0 : Fin 1)) := by
  obtain ⟨e00, e01, e02, e10, e11, e20, e21, e30, e31, e40, e41, e50, e51, e60, e61, -⟩ := idx_facts1 t
  show V c main_v22 (((cfg1.win 6).blk t).view.emb (ix2 (0 : Fin 1) (0 : Fin 1))) = V c main_v22 (ix2 (0 : Fin 1) (0 : Fin 1))
  refine congrArg _ (funext fun a => Fin.ext ?_)
  match a with
  | ⟨0, _⟩ => show win1_6.index t (0 : Fin 2) * 1 + 1 * 0 = 0; omega
  | ⟨1, _⟩ => show win1_6.index t (1 : Fin 2) * 1 + 1 * 0 = 0; omega

/-! ## The row-index word is the global row number -/

theorem rowWord_eq (i : grid1.Coords) (hh : Fin 64) : rowWord i hh = BitVec.ofNat 32 (64 * (i 1).val + hh.val) := by
  have key : ∀ (j : Fin 4) (hh : Fin 64),
      Scalar.muli (BitVec.ofNat 32 j.val) 64#32 + BitVec.ofNat 32 hh.val = BitVec.ofNat 32 (64 * j.val + hh.val) := by
    decide +kernel
  exact key ⟨(i 1).val, (i 1).isLt⟩ hh

/-! ## A hole's condition on the block is the hole's condition on the arrays -/

theorem holeB_eq (c : Dev nD) (t : Fin cfg1.N) (r : Fin 8) (hh : Fin 64) (w : Fin 1024) (b : Fin 128) (h : Fin 256)
    (hb : b.val = 8 * (grid1.coords t 0).val + r.val) (hh' : h.val = 64 * (grid1.coords t 1).val + hh.val) (n : Fin 5) :
    holeB (grid1.coords t) (iblk1 V c 1 t) (iblk1 V c 2 t) (iblk1 V c 3 t) (iblk1 V c 4 t) (iblk1 V c 5 t) n r hh w
      = Cert.MaskSpec.hole (ysArr V c) (yeArr V c) (xsArr V c) (xeArr V c) (fun j => acArr V c j != 0#32) b h w n := by
  unfold holeB Cert.MaskSpec.hole colWord
  rw [iblk1_apply V c t r n b hb, iblk2_apply V c t r n b hb, iblk3_apply V c t r n b hb, iblk4_apply V c t r n b hb,
    iblk5_apply V c t r n b hb, rowWord_eq, ← hh']

/-! ## What a point writes back, and the array at the end -/

/-- An index of the result array is in point `t`'s block iff each coordinate is in the block's range on its axis. -/
theorem mem_blk7 (t : Fin cfg1.N) (i : S128x256x1024.Idx) :
    i ∈ ((cfg1.win 7).blk t).view.set ↔ ∀ a : Fin 3, win1_7.index t a * S8x64x1024.size a ≤ (i a).val ∧ (i a).val < win1_7.index t a * S8x64x1024.size a + S8x64x1024.size a := by
  show i ∈ ((View.whole main_v23).slice (win1_7.rect t)).set ↔ _
  rw [View.set_slice_whole, Rect.mem_set_unit]
  exact Iff.rfl

/-- The blocks cover the result array. -/
theorem cover7 (i : S128x256x1024.Idx) : ∃ t : Fin cfg1.N, (cfg1.win 7).flush t = true ∧ i ∈ ((cfg1.win 7).blk t).view.set := by
  have hi0 : (i 0).val < 128 := (i 0).isLt
  have hi1 : (i 1).val < 256 := (i 1).isLt
  have hi2 : (i 2).val < 1024 := (i 2).isLt
  obtain ⟨t, ht⟩ := idx_onto1 ⟨(i 0).val / 8, by omega⟩ ⟨(i 1).val / 64, by omega⟩
  have q0 : win1_7.index t (0 : Fin 3) = (i 0).val / 8 := congrFun ht 0
  have q1 : win1_7.index t (1 : Fin 3) = (i 1).val / 64 := congrFun ht 1
  have q2 : win1_7.index t (2 : Fin 3) = 0 := congrFun ht 2
  refine ⟨t, flush1_7 t, ?_⟩
  rw [mem_blk7]
  intro a
  match a with
  | ⟨0, _⟩ => show win1_7.index t (0 : Fin 3) * 8 ≤ (i 0).val ∧ (i 0).val < win1_7.index t (0 : Fin 3) * 8 + 8; omega
  | ⟨1, _⟩ => show win1_7.index t (1 : Fin 3) * 64 ≤ (i 1).val ∧ (i 1).val < win1_7.index t (1 : Fin 3) * 64 + 64; omega
  | ⟨2, _⟩ => show win1_7.index t (2 : Fin 3) * 1024 ≤ (i 2).val ∧ (i 2).val < win1_7.index t (2 : Fin 3) * 1024 + 1024; omega

/-- What point `t` writes back is block `t` of the result array, when every activation word is 0 or 1. -/
theorem flushed7_eq (c : Dev nD) (hact : ∀ j : S128x5.Idx, acArr V c j = 0#32 ∨ acArr V c j = 1#32) (t : Fin cfg1.N) :
    (dat1 V c).flushed 7 t = ((cfg1.win 7).blk t).view.read (Elt Ideal) (outArr V c) := by
  show (cfg1.win 7).cut (grid1.coords t) ((dat1 V c).after 7 t) = _
  rw [after1_7]
  funext j
  obtain ⟨r, hh, w, rfl⟩ : ∃ (r : Fin 8) (hh : Fin 64) (w : Fin 1024), j = ix3 r hh w := ⟨j 0, j 1, j 2, eq_ix3 j⟩
  obtain ⟨e00, e01, e02, e10, e11, e20, e21, e30, e31, e40, e41, e50, e51, e60, e61, e70, e71, e72, l0, l1⟩ := idx_facts1 t
  have hr := r.isLt
  have hhh := hh.isLt
  obtain ⟨b, hb⟩ : ∃ b : Fin 128, b.val = 8 * (grid1.coords t 0).val + r.val := ⟨⟨8 * (grid1.coords t 0).val + r.val, by omega⟩, rfl⟩
  obtain ⟨h, hh'⟩ : ∃ h : Fin 256, h.val = 64 * (grid1.coords t 1).val + hh.val := ⟨⟨64 * (grid1.coords t 1).val + hh.val, by omega⟩, rfl⟩
  have hemb : ((cfg1.win 7).blk t).view.emb (ix3 r hh w) = ix3 b h w := funext fun a => Fin.ext (by
    match a with
    | ⟨0, _⟩ => show win1_7.index t (0 : Fin 3) * 8 + 1 * r.val = b.val; omega
    | ⟨1, _⟩ => show win1_7.index t (1 : Fin 3) * 64 + 1 * hh.val = h.val; omega
    | ⟨2, _⟩ => show win1_7.index t (2 : Fin 3) * 1024 + 1 * w.val = w.val; omega)
  show out1_7 (F := Ideal) (grid1.coords t) (iblk1 V c 0 t) (iblk1 V c 1 t) (iblk1 V c 2 t) (iblk1 V c 3 t) (iblk1 V c 4 t) (iblk1 V c 5 t) (iblk1 V c 6 t) (ix3 r hh w)
    = outArr V c (((cfg1.win 7).blk t).view.emb (ix3 r hh w))
  rw [hemb, out1_7_apply, maskVal_eq_ind _ _ _ _ _ _ _ _ _ (fun n => by rw [iblk5_apply V c t r n b hb]; exact hact _)]
  show _ = outAt V c b h w
  unfold outAt Cert.MaskSpec.blendAt Cert.MaskSpec.covered
  rw [holeB_eq V c t r hh w b h hb hh' 0, holeB_eq V c t r hh w b h hb hh' 1, holeB_eq V c t r hh w b h hb hh' 2,
    holeB_eq V c t r hh w b h hb hh' 3, holeB_eq V c t r hh w b h hb hh' 4, iblk0_apply V c t r hh w b h hb hh', iblk6_apply]
  rfl

/-- The result array after the region, when every activation word is 0 or 1: the blend, position by position. -/
theorem final1 (c : Dev nD) (hact : ∀ j : S128x5.Idx, acArr V c j = 0#32 ∨ acArr V c j = 1#32) :
    (dat1 V c).arrAt 7 cfg1.N = outArr V c :=
  (dat1 V c).arrAt_eq_of_cover 7 (outArr V c) (fun t _ => flushed7_eq V c hact t) (cover7)

end Cert.KernelIdeal.Mask

end
-- ==== Proof.RefSpec.lean ====
/-
  The values the masked-fill reference computes, as pure terms of its six argument arrays: the hole
  rectangles' corner arrays and activation flags (128 × 5), the union of the five holes' masks
  (128 × 256 × 1024), and the result  x · (1 − mask) + mask · mean(x).  Every definition is the
  composition of the host operations' own functions over whole arrays; nothing here reads a program.
-/
import Idealize.ShloMosaic.PureOps.Ideal
import Idealize.ShloMosaic.Lib.ValueIdx

noncomputable section

namespace Cert.RefSpec

open Idealize.ShloMosaic

/-! ## Shapes -/

abbrev Sc : Shape := ⟨0, ![]⟩
abbrev Sbn : Shape := ⟨2, ![128, 5]⟩
abbrev Sb1 : Shape := ⟨2, ![128, 1]⟩
abbrev Sb : Shape := ⟨1, ![128]⟩
abbrev Sh : Shape := ⟨1, ![256]⟩
abbrev Sw : Shape := ⟨1, ![1024]⟩
abbrev S1h : Shape := ⟨2, ![1, 256]⟩
abbrev S1w : Shape := ⟨2, ![1, 1024]⟩
abbrev Sbh : Shape := ⟨2, ![128, 256]⟩
abbrev Sbw : Shape := ⟨2, ![128, 1024]⟩
abbrev Sbh1 : Shape := ⟨3, ![128, 256, 1]⟩
abbrev Sb1w : Shape := ⟨3, ![128, 1, 1024]⟩
abbrev Sb11 : Shape := ⟨3, ![128, 1, 1]⟩
abbrev Sbhw : Shape := ⟨3, ![128, 256, 1024]⟩
abbrev Sbhw1 : Shape := ⟨4, ![128, 256, 1024, 1]⟩

variable {F : FTy → Type} [FloatOps F]

/-! ## The integer glue: hole corners -/

/-- A rank-zero value at every index of a 128 × 5 array. -/
def splat {w : Nat} (c : IVec Sc w) : IVec Sbn w := broadcastInDim Sbn ![] (by decide) c

/-- Floor division of a 128 × 5 array by a scalar: the truncating quotient, less one where the signs differ and
    the remainder is not zero. -/
def floorDiv (x : IVec Sbn 32) (c : IVec Sc 32) : IVec Sbn 32 :=
  select
    (andi (cmpi .ne (signi x) (splat (signi c)))
          (cmpi .ne (Host.remsi x (splat c)) (splat (constantI Sc 32 0#32))))
    (subi (Host.divsi x (splat c)) (splat (constantI Sc 32 1#32)))
    (Host.divsi x (splat c))

/-- Clamping a 128 × 5 array between two scalars: the lower bound first, then the upper. -/
def clip (x : IVec Sbn 32) (lo hi : IVec Sc 32) : IVec Sbn 32 :=
  minsi (splat hi) (maxsi (splat lo) x)

/-- Hole widths: the raw widths plus 102. -/
def xsW (a3 : IVec Sbn 32) : IVec Sbn 32 := addi a3 (splat (constantI Sc 32 102#32))
/-- Hole heights: the raw heights plus 25. -/
def ysH (a4 : IVec Sbn 32) : IVec Sbn 32 := addi a4 (splat (constantI Sc 32 25#32))

/-- First column of each hole from the centres and the widths: centre minus half the width, clamped to [0, 1022]. -/
def xsStartOf (a1 wd : IVec Sbn 32) : IVec Sbn 32 :=
  clip (subi a1 (floorDiv wd (constantI Sc 32 2#32))) (constantI Sc 32 0#32) (constantI Sc 32 1022#32)
/-- Last column of each hole: centre plus half the width, clamped to [1, 1023]. -/
def xsEndOf (a1 wd : IVec Sbn 32) : IVec Sbn 32 :=
  clip (addi a1 (floorDiv wd (constantI Sc 32 2#32))) (constantI Sc 32 1#32) (constantI Sc 32 1023#32)
/-- First row of each hole from the centres and the heights: centre minus half the height, clamped to [0, 254]. -/
def ysStartOf (a2 ht : IVec Sbn 32) : IVec Sbn 32 :=
  clip (subi a2 (floorDiv ht (constantI Sc 32 2#32))) (constantI Sc 32 0#32) (constantI Sc 32 254#32)
/-- Last row of each hole: centre plus half the height, clamped to [1, 255]. -/
def ysEndOf (a2 ht : IVec Sbn 32) : IVec Sbn 32 :=
  clip (addi a2 (floorDiv ht (constantI Sc 32 2#32))) (constantI Sc 32 1#32) (constantI Sc 32 255#32)

/-- The four corner arrays as terms of the integer arguments (centres xs = a1, ys = a2; raw widths a3, raw heights a4). -/
def xsStart (a1 a3 : IVec Sbn 32) : IVec Sbn 32 := xsStartOf a1 (xsW a3)
def xsEnd (a1 a3 : IVec Sbn 32) : IVec Sbn 32 := xsEndOf a1 (xsW a3)
def ysStart (a2 a4 : IVec Sbn 32) : IVec Sbn 32 := ysStartOf a2 (ysH a4)
def ysEnd (a2 a4 : IVec Sbn 32) : IVec Sbn 32 := ysEndOf a2 (ysH a4)

/-- Which holes are active: the uniform draw below one. -/
def act (a5 : FVec F Sbn .f32) : IVec Sbn 1 :=
  cmpf .olt a5 (broadcastInDim Sbn ![] (by decide) (constant (F := F) Sc .f32 0x3F800000#32))

/-- Row numbers 0 … 255 and column numbers 0 … 1023. -/
def rowIota : IVec Sh 32 := iotaInDim Sh 32 0
def colIota : IVec Sw 32 := iotaInDim Sw 32 0

/-- The empty mask. -/
def mask0 : IVec Sbhw 1 := broadcastInDim Sbhw ![] (by decide) (constantI Sc 1 0#1)

/-! ## One hole's mask -/

/-- Column n of a 128 × 5 array as a 128 × 1 array. -/
def col {w : Nat} (n : Nat) (hs : Sbn.Slices ![0, n] Sb1) (x : IVec Sbn w) : IVec Sb1 w :=
  broadcastInDim Sb1 ![0] (by decide) (shapeCast Sb (extractStridedSlice Sb1 ![0, n] x hs) (by decide))

/-- Column n of a 128 × 5 array as a 128-vector. -/
def colVec {w : Nat} (n : Nat) (hs : Sbn.Slices ![0, n] Sb1) (x : IVec Sbn w) : IVec Sb w :=
  shapeCast Sb (extractStridedSlice Sb1 ![0, n] x hs) (by decide)

/-- Row numbers over a 128 × 256 array, column numbers over a 128 × 1024 array. -/
def rowsOver (r : IVec Sh 32) : IVec Sbh 32 :=
  broadcastInDim Sbh ![0, 1] (by decide) (broadcastInDim S1h ![1] (by decide) r)
def colsOver (c : IVec Sw 32) : IVec Sbw 32 :=
  broadcastInDim Sbw ![0, 1] (by decide) (broadcastInDim S1w ![1] (by decide) c)

/-- Rows within hole n: start ≤ row ∧ row ≤ end, over 128 × 256. -/
def rowsIn (n : Nat) (hs : Sbn.Slices ![0, n] Sb1) (ys ye : IVec Sbn 32) (r : IVec Sh 32) : IVec Sbh 1 :=
  andi (cmpi .sle (broadcastInDim Sbh ![0, 1] (by decide) (col n hs ys)) (rowsOver r))
       (cmpi .sle (rowsOver r) (broadcastInDim Sbh ![0, 1] (by decide) (col n hs ye)))

/-- Columns within hole n: start ≤ column ∧ column ≤ end, over 128 × 1024. -/
def colsIn (n : Nat) (hs : Sbn.Slices ![0, n] Sb1) (xs xe : IVec Sbn 32) (c : IVec Sw 32) : IVec Sbw 1 :=
  andi (cmpi .sle (broadcastInDim Sbw ![0, 1] (by decide) (col n hs xs)) (colsOver c))
       (cmpi .sle (colsOver c) (broadcastInDim Sbw ![0, 1] (by decide) (col n hs xe)))

/-- Hole n's mask over 128 × 256 × 1024: rows within ∧ columns within ∧ active. -/
def holeMask (n : Nat) (hs : Sbn.Slices ![0, n] Sb1) (ys ye xs xe : IVec Sbn 32) (ac : IVec Sbn 1)
    (r : IVec Sh 32) (c : IVec Sw 32) : IVec Sbhw 1 :=
  andi
    (andi (broadcastInDim Sbhw ![0, 1, 2] (by decide) (broadcastInDim Sbh1 ![0, 1] (by decide) (rowsIn n hs ys ye r)))
          (broadcastInDim Sbhw ![0, 1, 2] (by decide) (broadcastInDim Sb1w ![0, 2] (by decide) (colsIn n hs xs xe c))))
    (broadcastInDim Sbhw ![0, 1, 2] (by decide) (broadcastInDim Sb11 ![0] (by decide) (colVec n hs ac)))

/-- The mask so far joined with hole n's. -/
def holeStep (n : Nat) (hs : Sbn.Slices ![0, n] Sb1) (ys ye xs xe : IVec Sbn 32) (ac : IVec Sbn 1)
    (r : IVec Sh 32) (c : IVec Sw 32) (prev : IVec Sbhw 1) : IVec Sbhw 1 :=
  ori prev (holeMask n hs ys ye xs xe ac r c)

/-- The union of the five holes' masks. -/
def maskAll (ys ye xs xe : IVec Sbn 32) (ac : IVec Sbn 1) : IVec Sbhw 1 :=
  holeStep 4 (by decide) ys ye xs xe ac rowIota colIota
    (holeStep 3 (by decide) ys ye xs xe ac rowIota colIota
      (holeStep 2 (by decide) ys ye xs xe ac rowIota colIota
        (holeStep 1 (by decide) ys ye xs xe ac rowIota colIota
          (holeStep 0 (by decide) ys ye xs xe ac rowIota colIota mask0))))

/-! ## The fill -/

/-- The sum of all of x, from the zero initial value. -/
def total (x : FVec F Sbhw1 .f32) : FVec F Sc .f32 :=
  Host.reduceAdd (axes := [0, 1, 2, 3]) (t := Sc) x (constant (F := F) Sc .f32 0x00000000#32) (by decide) (by decide)

/-- The mean: the sum over 2^25. -/
def fill (x : FVec F Sbhw1 .f32) : FVec F Sc .f32 :=
  Host.divf (total x) (constant (F := F) Sc .f32 0x4C000000#32)

/-- The mask as floats over 128 × 256 × 1024 × 1. -/
def maskF (mk : IVec Sbhw 1) : FVec F Sbhw1 .f32 :=
  uitofp .f32 (broadcastInDim Sbhw1 ![0, 1, 2] (by decide) mk)

/-- x · (1 − mask) + mask · fill. -/
def blend (x : FVec F Sbhw1 .f32) (mk : IVec Sbhw 1) : FVec F Sbhw1 .f32 :=
  addf (mulf x (subf (broadcastInDim Sbhw1 ![] (by decide) (constant (F := F) Sc .f32 0x3F800000#32)) (maskF mk)))
       (mulf (maskF mk) (broadcastInDim Sbhw1 ![] (by decide) (fill x)))

/-- The reference's result as a term of its six arguments. -/
def refOut (x : FVec F Sbhw1 .f32) (a1 a2 a3 a4 : IVec Sbn 32) (a5 : FVec F Sbn .f32) : FVec F Sbhw1 .f32 :=
  blend x (maskAll (ysStart a2 a4) (ysEnd a2 a4) (xsStart a1 a3) (xsEnd a1 a3) (act a5))

end Cert.RefSpec

end
-- ==== Proof.GlueXs.lean ====
/-
  The hole columns the host stretches before the kernels compute: the buffers holding the first and the last column of each hole are the centre minus / plus half the width (the raw width plus 102, halved by floor division), clamped — the same composition of whole-array operations the reference applies to the same arguments.
-/
import proofs.«152792_j38062000177638_1_alg».proof.Proof.Run
import proofs.«152792_j38062000177638_1_alg».proof.Proof.RefSpec
import Idealize.ShloMosaic.Lib.StableHlo.Run

set_option maxRecDepth 16384

noncomputable section

namespace Cert.KernelIdeal.Glue

open Idealize.ShloMosaic Idealize.ShloMosaic.TcCoe Idealize.ShloMosaic.StableHlo
open Cert.KernelIdeal Cert.KernelIdeal.Gen

variable {F : FTy → Type} [FloatOps F]
variable (m : (ℓ : Loc nD τ sig) → Buf (Elt F) ℓ)

set_option maxHeartbeats 4000000 in
/-- The first-column buffer. -/
theorem firstCol (c : Dev nD) : (V17 m c main_v7 : S128x5.Idx → BitVec 32)
    = Cert.RefSpec.xsStart (m ((c : Thread nD τ).loc main_arg1)) (m ((c : Thread nD τ).loc main_arg3)) := by
  dsimp only [V17, V16, V15, V14, V13, V12, V11, V10, V9, V8, V7, V6, V5, V4, V3, V2, V1, V0]
  after_results_simp
  rfl

set_option maxHeartbeats 4000000 in
/-- The last-column buffer. -/
theorem lastCol (c : Dev nD) : (V17 m c main_v10 : S128x5.Idx → BitVec 32)
    = Cert.RefSpec.xsEnd (m ((c : Thread nD τ).loc main_arg1)) (m ((c : Thread nD τ).loc main_arg3)) := by
  dsimp only [V17, V16, V15, V14, V13, V12, V11, V10, V9, V8, V7, V6, V5, V4, V3, V2, V1, V0]
  after_results_simp
  rfl

end Cert.KernelIdeal.Glue

end
-- ==== Proof.GlueYs.lean ====
/-
  The hole rows the host stretches before the kernels compute: the buffers holding the first and the last row of each hole are the centre minus / plus half the height (the raw height plus 25, halved by floor division), clamped — the same composition of whole-array operations the reference applies to the same arguments.
-/
import proofs.«152792_j38062000177638_1_alg».proof.Proof.Run
import proofs.«152792_j38062000177638_1_alg».proof.Proof.RefSpec
import Idealize.ShloMosaic.Lib.StableHlo.Run

set_option maxRecDepth 16384

noncomputable section

namespace Cert.KernelIdeal.Glue

open Idealize.ShloMosaic Idealize.ShloMosaic.TcCoe Idealize.ShloMosaic.StableHlo
open Cert.KernelIdeal Cert.KernelIdeal.Gen

variable {F : FTy → Type} [FloatOps F]
variable (m : (ℓ : Loc nD τ sig) → Buf (Elt F) ℓ)

set_option maxHeartbeats 4000000 in
/-- The first-row buffer. -/
theorem firstRow (c : Dev nD) : (V17 m c main_v13 : S128x5.Idx → BitVec 32)
    = Cert.RefSpec.ysStart (m ((c : Thread nD τ).loc main_arg2)) (m ((c : Thread nD τ).loc main_arg4)) := by
  dsimp only [V17, V16, V15, V14, V13, V12, V11, V10, V9, V8, V7, V6, V5, V4, V3, V2, V1, V0]
  after_results_simp
  rfl

set_option maxHeartbeats 4000000 in
/-- The last-row buffer. -/
theorem lastRow (c : Dev nD) : (V17 m c main_v16 : S128x5.Idx → BitVec 32)
    = Cert.RefSpec.ysEnd (m ((c : Thread nD τ).loc main_arg2)) (m ((c : Thread nD τ).loc main_arg4)) := by
  dsimp only [V17, V16, V15, V14, V13, V12, V11, V10, V9, V8, V7, V6, V5, V4, V3, V2, V1, V0]
  after_results_simp
  rfl

end Cert.KernelIdeal.Glue

end
-- ==== Proof.GlueRest.lean ====
/-
  The other two buffers the host stretches before the kernels leave: the activation words (the comparison of the uniform draws with one, each bit widened to a 32-bit word) and the input array with its trailing unit axis dropped.
-/
import proofs.«152792_j38062000177638_1_alg».proof.Proof.Run
import proofs.«152792_j38062000177638_1_alg».proof.Proof.RefSpec
import Idealize.ShloMosaic.Lib.StableHlo.Run

set_option maxRecDepth 16384

noncomputable section

namespace Cert.KernelIdeal.Glue

open Idealize.ShloMosaic Idealize.ShloMosaic.TcCoe Idealize.ShloMosaic.StableHlo
open Cert.KernelIdeal Cert.KernelIdeal.Gen

variable {F : FTy → Type} [FloatOps F]
variable (m : (ℓ : Loc nD τ sig) → Buf (Elt F) ℓ)

set_option maxHeartbeats 4000000 in
/-- The activation words. -/
theorem actWords (c : Dev nD) : (V17 m c main_v19 : S128x5.Idx → BitVec 32)
    = extui 32 (Cert.RefSpec.act (m ((c : Thread nD τ).loc main_arg5))) natLt_1_32 := by
  dsimp only [V17, V16, V15, V14, V13, V12, V11, V10, V9, V8, V7, V6, V5, V4, V3, V2, V1, V0]
  after_results_simp
  rfl

set_option maxHeartbeats 4000000 in
/-- The input array without its unit axis. -/
theorem inputArr (c : Dev nD) : (V17 m c main_v0 : S128x256x1024.Idx → Elt F .f32)
    = shapeCast S128x256x1024 (m ((c : Thread nD τ).loc main_arg0) : S128x256x1024x1.Idx → Elt F .f32) shapeCasts_S128x256x1024x1_S128x256x1024 := by
  dsimp only [V17, V16, V15, V14, V13, V12, V11, V10, V9, V8, V7, V6, V5, V4, V3, V2, V1, V0]
  after_results_simp
  rfl

end Cert.KernelIdeal.Glue

end
-- ==== Proof.GlueLemmas.lean ====
/- Four small facts about layout and conversion operations, read at an index given by coordinates: dropping a trailing
   unit axis of a 128×256×1024×1 array (at an index, and under a sum over all indices), adding it back, and a one-bit
   word widened to 32 bits (it is 0 or 1, and it is nonzero exactly when the bit is set). -/
import proofs.«152792_j38062000177638_1_alg».proof.Proof.LibSumIdx
import Idealize.ShloMosaic.Lib.ValueLayout

noncomputable section

open scoped BigOperators

namespace Cert.GlueLemmas

open Idealize.ShloMosaic Idealize.ShloMosaic.ValueIdx

/-! ## The trailing unit axis -/

/-- The array with its trailing unit axis dropped reads, at (b, h, w), the array at (b, h, w, 0). -/
theorem squeeze_apply {α : Type} (x : (⟨4, ![128, 256, 1024, 1]⟩ : Shape).Idx → α)
    (hc : (⟨4, ![128, 256, 1024, 1]⟩ : Shape).ShapeCasts ⟨3, ![128, 256, 1024]⟩) (b : Fin 128) (h : Fin 256) (w : Fin 1024) :
    shapeCast ⟨3, ![128, 256, 1024]⟩ x hc (ix3 b h w) = x (ix4 b h w (0 : Fin 1)) :=
  shapeCast_apply x hc (ix3 b h w) (ix4 b h w (0 : Fin 1)) (by
    rw [Shape.rowMajor_val_four, Shape.rowMajor_val_three]
    show ((b.val * 256 + h.val) * 1024 + w.val) * 1 + 0 = (b.val * 256 + h.val) * 1024 + w.val
    omega)

/-- Dropping the trailing unit axis does not change the sum over all positions. -/
theorem sum_squeeze (x : (⟨4, ![128, 256, 1024, 1]⟩ : Shape).Idx → EReal)
    (hc : (⟨4, ![128, 256, 1024, 1]⟩ : Shape).ShapeCasts ⟨3, ![128, 256, 1024]⟩) :
    ∑ i, shapeCast ⟨3, ![128, 256, 1024]⟩ x hc i = ∑ i, x i := by
  rw [Cert.LibSumIdx.sum_idx3, Cert.LibSumIdx.sum_idx4]
  refine Finset.sum_congr rfl fun a _ => Finset.sum_congr rfl fun b _ => Finset.sum_congr rfl fun c _ => ?_
  rw [Fin.sum_univ_one]
  exact squeeze_apply x hc a b c

/-- The array with a trailing unit axis added reads, at (b, h, w, 0), the array at (b, h, w). -/
theorem unsqueeze_apply {α : Type} (y : (⟨3, ![128, 256, 1024]⟩ : Shape).Idx → α)
    (hb : (⟨3, ![128, 256, 1024]⟩ : Shape).BroadcastsInDim ⟨4, ![128, 256, 1024, 1]⟩ (![0, 1, 2] : Fin 3 → Fin 4))
    (b : Fin 128) (h : Fin 256) (w : Fin 1024) :
    broadcastInDim ⟨4, ![128, 256, 1024, 1]⟩ (![0, 1, 2] : Fin 3 → Fin 4) hb y (ix4 b h w (0 : Fin 1)) = y (ix3 b h w) :=
  broadcastInDim_apply (![0, 1, 2] : Fin 3 → Fin 4) hb y (ix4 b h w (0 : Fin 1)) (ix3 b h w) fun a => by
    match a with
    | ⟨0, _⟩ => rfl
    | ⟨1, _⟩ => rfl
    | ⟨2, _⟩ => rfl

/-! ## A bit widened to a word -/

/-- A one-bit word widened to 32 bits is nonzero exactly when the bit is set. -/
theorem widen_ne_zero {s : Shape} (c : IVec s 1) (h : 1 < 32) (j : s.Idx) :
    (extui 32 c h j != 0#32) = (c j == 1#1) := by
  show ((c j).setWidth 32 != 0#32) = (c j == 1#1)
  rcases BitVec.eq_zero_or_eq_one (c j) with e | e <;> rw [e] <;> decide

/-- A one-bit word widened to 32 bits is 0 or 1. -/
theorem widen_01 {s : Shape} (c : IVec s 1) (h : 1 < 32) (j : s.Idx) :
    extui 32 c h j = 0#32 ∨ extui 32 c h j = 1#32 := by
  show (c j).setWidth 32 = 0#32 ∨ (c j).setWidth 32 = 1#32
  rcases BitVec.eq_zero_or_eq_one (c j) with e | e <;> rw [e] <;> decide

end Cert.GlueLemmas

end
-- ==== Proof.KernelValue.lean ====
/-
  What the kernel program's result buffer holds at the exact values, position by position. The mask-and-select region
  finds: the input array (its unit axis dropped), the four hole-corner arrays and the activation words computed by the
  host stretches, and the mean — the summing region's total divided by 2^25. Its output array is, at (b, h, w), the blend
  x · (1 − m) + m · mean with m the indicator that an active hole of sample b holds (h, w); the last host operation
  only appends a unit axis.
-/
import proofs.«152792_j38062000177638_1_alg».proof.Proof.RunFrame
import proofs.«152792_j38062000177638_1_alg».proof.Proof.SumArray
import proofs.«152792_j38062000177638_1_alg».proof.Proof.MaskArray
import proofs.«152792_j38062000177638_1_alg».proof.Proof.GlueXs
import proofs.«152792_j38062000177638_1_alg».proof.Proof.GlueYs
import proofs.«152792_j38062000177638_1_alg».proof.Proof.GlueRest
import proofs.«152792_j38062000177638_1_alg».proof.Proof.GlueLemmas
import Idealize.ShloMosaic.Lib.StableHlo.Run

set_option maxRecDepth 16384

noncomputable section

namespace Cert.KernelIdeal.Glue

open Idealize.ShloMosaic Idealize.ShloMosaic.TcCoe Idealize.ShloMosaic.StableHlo Idealize.ShloMosaic.ValueIdx
open Cert.KernelIdeal Cert.KernelIdeal.Gen
open scoped BigOperators

variable (m : (ℓ : Loc nD τ sig) → Buf (Elt Ideal) ℓ)

/-! ## What the mask-and-select region finds -/

/-- A buffer the division stretch does not write and the summing region does not output is as the seventeen host
    stretches left it. -/
theorem E1_keep (c : Dev nD) (b : Ref sig .tc) (h1 : b ∉ hostOps1_W) (h0 : ∀ w, Pipeline.arrRef spec0 w ≠ b) :
    Run.E1 m c b = V17 m c b :=
  (StableHlo.after_of_writes_sub hostOps1 (Run.B18 m c) hostOps1_writes h1).trans (Run.B18_of_ne m c b h0)

/-- The input array is an input of the summing region: it comes out as it went in. -/
theorem E1_input (c : Dev nD) : Run.E1 m c main_v0 = V17 m c main_v0 :=
  (StableHlo.after_of_writes_sub hostOps1 (Run.B18 m c) hostOps1_writes (by decide)).trans
    ((Run.B18_arr m c 0).trans (((Sum.dat (Run.E0 m) c).arrAt_in 0 rfl _).trans (Sum.A_eq (Run.E0 m) c 0)))

theorem xArr_eq (c : Dev nD) : Mask.xArr (Run.E1 m) c
    = shapeCast S128x256x1024 (m ((c : Thread nD τ).loc main_arg0) : S128x256x1024x1.Idx → EReal) shapeCasts_S128x256x1024x1_S128x256x1024 :=
  (E1_input m c).trans (inputArr m c)

theorem xsArr_eq (c : Dev nD) : Mask.xsArr (Run.E1 m) c
    = Cert.RefSpec.xsStart (m ((c : Thread nD τ).loc main_arg1)) (m ((c : Thread nD τ).loc main_arg3)) :=
  (E1_keep m c main_v7 (by decide) (by decide)).trans (firstCol m c)
theorem xeArr_eq (c : Dev nD) : Mask.xeArr (Run.E1 m) c
    = Cert.RefSpec.xsEnd (m ((c : Thread nD τ).loc main_arg1)) (m ((c : Thread nD τ).loc main_arg3)) :=
  (E1_keep m c main_v10 (by decide) (by decide)).trans (lastCol m c)
theorem ysArr_eq (c : Dev nD) : Mask.ysArr (Run.E1 m) c
    = Cert.RefSpec.ysStart (m ((c : Thread nD τ).loc main_arg2)) (m ((c : Thread nD τ).loc main_arg4)) :=
  (E1_keep m c main_v13 (by decide) (by decide)).trans (firstRow m c)
theorem yeArr_eq (c : Dev nD) : Mask.yeArr (Run.E1 m) c
    = Cert.RefSpec.ysEnd (m ((c : Thread nD τ).loc main_arg2)) (m ((c : Thread nD τ).loc main_arg4)) :=
  (E1_keep m c main_v16 (by decide) (by decide)).trans (lastRow m c)
theorem acArr_eq (c : Dev nD) : Mask.acArr (Run.E1 m) c
    = extui 32 (Cert.RefSpec.act (F := Ideal) (m ((c : Thread nD τ).loc main_arg5))) natLt_1_32 :=
  (E1_keep m c main_v19 (by decide) (by decide)).trans (actWords m c)

/-- The mean: the summing region's total over 2^25. -/
theorem fillArr_eq (c : Dev nD) : Mask.fillArr (Run.E1 m) c (ix2 (0 : Fin 1) (0 : Fin 1))
    = Ideal.div (∑ i : S128x256x1024x1.Idx, (m ((c : Thread nD τ).loc main_arg0) : S128x256x1024x1.Idx → EReal) i)
        (Ideal.ofBits .f32 0x4C000000#32) := by
  have e : (Run.E1 m c main_v22 : S1x1.Idx → EReal)
      = Host.divf (F := Ideal) (Run.B18 m c (Proc.devRef .tc main_v20) : S1x1.Idx → EReal)
          (broadcastInDim S1x1 ![] bcast_S_S1x1 (constant (F := Ideal) S_ .f32 0x4C000000#32)) := by
    show StableHlo.after hostOps1 (Run.B18 m c) (Proc.devRef .tc main_v22) = _
    after_results
    try rfl
  have s : (Run.B18 m c (Proc.devRef .tc main_v20) : S1x1.Idx → EReal) = fun _ => Sum.total (Run.E0 m) c :=
    (Run.B18_arr m c 1).trans (Sum.arr_out (Run.E0 m) c)
  show (Run.E1 m c main_v22 : S1x1.Idx → EReal) (ix2 (0 : Fin 1) (0 : Fin 1)) = _
  rw [e, s]
  show Ideal.div (Sum.total (Run.E0 m) c) _ = _
  rw [Sum.total_eq]
  refine congrArg (fun z => Ideal.div z (Ideal.ofBits .f32 0x4C000000#32)) ?_
  have hx : Sum.inArr (Run.E0 m) c
      = shapeCast S128x256x1024 (m ((c : Thread nD τ).loc main_arg0) : S128x256x1024x1.Idx → EReal) shapeCasts_S128x256x1024x1_S128x256x1024 :=
    inputArr m c
  rw [hx]
  exact Cert.GlueLemmas.sum_squeeze _ _

/-! ## The result -/

/-- Every activation word is 0 or 1. -/
theorem act01 (c : Dev nD) (j : S128x5.Idx) : Mask.acArr (Run.E1 m) c j = 0#32 ∨ Mask.acArr (Run.E1 m) c j = 1#32 := by
  rw [acArr_eq]; exact Cert.GlueLemmas.widen_01 _ _ j

/-- The result buffer at (b, h, w, 0). -/
theorem result_apply (c : Dev nD) (b : Fin 128) (h : Fin 256) (w : Fin 1024) :
    (Run.B21 m c (Proc.devRef .tc main_v24) : S128x256x1024x1.Idx → EReal) (ix4 b h w (0 : Fin 1))
      = Cert.MaskSpec.blendAt ((m ((c : Thread nD τ).loc main_arg0) : S128x256x1024x1.Idx → EReal) (ix4 b h w (0 : Fin 1)))
          (Cert.MaskSpec.ind (Cert.MaskSpec.covered
            (Cert.RefSpec.ysStart (m ((c : Thread nD τ).loc main_arg2)) (m ((c : Thread nD τ).loc main_arg4)))
            (Cert.RefSpec.ysEnd (m ((c : Thread nD τ).loc main_arg2)) (m ((c : Thread nD τ).loc main_arg4)))
            (Cert.RefSpec.xsStart (m ((c : Thread nD τ).loc main_arg1)) (m ((c : Thread nD τ).loc main_arg3)))
            (Cert.RefSpec.xsEnd (m ((c : Thread nD τ).loc main_arg1)) (m ((c : Thread nD τ).loc main_arg3)))
            (fun j => Cert.RefSpec.act (F := Ideal) (m ((c : Thread nD τ).loc main_arg5)) j == 1#1) b h w))
          (Ideal.div (∑ i : S128x256x1024x1.Idx, (m ((c : Thread nD τ).loc main_arg0) : S128x256x1024x1.Idx → EReal) i)
            (Ideal.ofBits .f32 0x4C000000#32)) := by
  have e : (Run.B21 m c (Proc.devRef .tc main_v24) : S128x256x1024x1.Idx → EReal)
      = broadcastInDim S128x256x1024x1 ![0, 1, 2] bcast_S128x256x1024_S128x256x1024x1_0_1_2
          (Run.B20 m c (Proc.devRef .tc main_v23) : S128x256x1024.Idx → EReal) := by
    show StableHlo.after hostOps2 (Run.B20 m c) (Proc.devRef .tc main_v24) = _
    after_results
    try rfl
  have o : (Run.B20 m c (Proc.devRef .tc main_v23) : S128x256x1024.Idx → EReal) = Mask.outArr (Run.E1 m) c :=
    (Run.B20_arr m c 7).trans (Mask.final1 (Run.E1 m) c (act01 m c))
  rw [e, o, Cert.GlueLemmas.unsqueeze_apply]
  show Mask.outAt (Run.E1 m) c b h w = _
  unfold Mask.outAt
  rw [xArr_eq, ysArr_eq, yeArr_eq, xsArr_eq, xeArr_eq, fillArr_eq, Cert.GlueLemmas.squeeze_apply]
  refine congrArg (fun a => Cert.MaskSpec.blendAt _ (Cert.MaskSpec.ind (Cert.MaskSpec.covered _ _ _ _ a b h w)) _) ?_
  funext j
  rw [acArr_eq]
  exact Cert.GlueLemmas.widen_ne_zero _ _ j

end Cert.KernelIdeal.Glue

end
-- ==== Proof.RefOps.lean ====
/- GENERATED by: bun scratch/gen_refops.js  (in the unit directory; from proof/ReferenceIdeal.lean). The reference program's 339 host operations as lists: a call's
   callee lines stand at the call site over that call's buffer record; the line is cut into consecutive stages, each ending at a value
   later stages read. Per stage: the operations, the buffers they write, and that every buffer touched is a TensorCore reference. -/
import proofs.«152792_j38062000177638_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- Stage G1: 33 operations, the last writing main_v6. -/
def opsG1 : List (HloOp τ sig (Elt F)) :=
  [ StableHlo.nullary main_c (constantI S_ 32 102#32),
    StableHlo.unary main_c main_v0 (broadcastInDim S128x5 ![] bcast_S_S128x5 : (⟨S_, .i32⟩ : BufTy).Contents (Elt F) → (⟨S128x5, .i32⟩ : BufTy).Contents (Elt F)),
    StableHlo.binary main_arg3 main_v0 main_v1 (addi : (⟨S128x5, .i32⟩ : BufTy).Contents (Elt F) → (⟨S128x5, .i32⟩ : BufTy).Contents (Elt F) → (⟨S128x5, .i32⟩ : BufTy).Contents (Elt F)),
    StableHlo.nullary main_c_0 (constantI S_ 32 25#32),
    StableHlo.unary main_c_0 main_v2 (broadcastInDim S128x5 ![] bcast_S_S128x5 : (⟨S_, .i32⟩ : BufTy).Contents (Elt F) → (⟨S128x5, .i32⟩ : BufTy).Contents (Elt F)),
    StableHlo.binary main_arg4 main_v2 main_v3 (addi : (⟨S128x5, .i32⟩ : BufTy).Contents (Elt F) → (⟨S128x5, .i32⟩ : BufTy).Contents (Elt F) → (⟨S128x5, .i32⟩ : BufTy).Contents (Elt F)),
    StableHlo.nullary main_c_1 (constantI S_ 32 2#32),
    StableHlo.unary main_c_1 main_call0_v0 (id : (⟨S_, .i32⟩ : BufTy).Contents (Elt F) → (⟨S_, .i32⟩ : BufTy).Contents (Elt F)),
    StableHlo.unary main_call0_v0 main_call0_v1 ((broadcastInDim S128x5 ![] bcast_S_S128x5) : (⟨S_, .i32⟩ : BufTy).Contents (Elt F) → (⟨S128x5, .i32⟩ : BufTy).Contents (Elt F)),
    StableHlo.binary main_v1 main_call0_v1 main_call0_v2 (Host.divsi : (⟨S128x5, .i32⟩ : BufTy).Contents (Elt F) → (⟨S128x5, .i32⟩ : BufTy).Contents (Elt F) → (⟨S128x5, .i32⟩ : BufTy).Contents (Elt F)),
    StableHlo.unary main_v1 main_call0_v3 (signi : (⟨S128x5, .i32⟩ : BufTy).Contents (Elt F) → (⟨S128x5, .i32⟩ : BufTy).Contents (Elt F)),
    StableHlo.unary main_call0_v0 main_call0_v4 (signi : (⟨S_, .i32⟩ : BufTy).Contents (Elt F) → (⟨S_, .i32⟩ : BufTy).Contents (Elt F)),
    StableHlo.unary main_call0_v4 main_call0_v5 ((broadcastInDim S128x5 ![] bcast_S_S128x5) : (⟨S_, .i32⟩ : BufTy).Contents (Elt F) → (⟨S128x5, .i32⟩ : BufTy).Contents (Elt F)),
    StableHlo.binary main_call0_v3 main_call0_v5 main_call0_v6 ((cmpi .ne) : (⟨S128x5, .i32⟩ : BufTy).Contents (Elt F) → (⟨S128x5, .i32⟩ : BufTy).Contents (Elt F) → (⟨S128x5, .i1⟩ : BufTy).Contents (Elt F)),
    StableHlo.unary main_call0_v0 main_call0_v7 ((broadcastInDim S128x5 ![] bcast_S_S128x5) : (⟨S_, .i32⟩ : BufTy).Contents (Elt F) → (⟨S128x5, .i32⟩ : BufTy).Contents (Elt F)),
    StableHlo.binary main_v1 main_call0_v7 main_call0_v8 (Host.remsi : (⟨S128x5, .i32⟩ : BufTy).Contents (Elt F) → (⟨S128x5, .i32⟩ : BufTy).Contents (Elt F) → (⟨S128x5, .i32⟩ : BufTy).Contents (Elt F)),
    StableHlo.nullary main_call0_c ((constantI S_ 32 0#32) : (⟨S_, .i32⟩ : BufTy).Contents (Elt F)),
    StableHlo.unary main_call0_c main_call0_v9 ((broadcastInDim S128x5 ![] bcast_S_S128x5) : (⟨S_, .i32⟩ : BufTy).Contents (Elt F) → (⟨S128x5, .i32⟩ : BufTy).Contents (Elt F)),
    StableHlo.binary main_call0_v8 main_call0_v9 main_call0_v10 ((cmpi .ne) : (⟨S128x5, .i32⟩ : BufTy).Contents (Elt F) → (⟨S128x5, .i32⟩ : BufTy).Contents (Elt F) → (⟨S128x5, .i1⟩ : BufTy).Contents (Elt F)),
    StableHlo.binary main_call0_v6 main_call0_v10 main_call0_v11 (andi : (⟨S128x5, .i1⟩ : BufTy).Contents (Elt F) → (⟨S128x5, .i1⟩ : BufTy).Contents (Elt F) → (⟨S128x5, .i1⟩ : BufTy).Contents (Elt F)),
    StableHlo.nullary main_call0_c_0 ((constantI S_ 32 1#32) : (⟨S_, .i32⟩ : BufTy).Contents (Elt F)),
    StableHlo.unary main_call0_c_0 main_call0_v12 ((broadcastInDim S128x5 ![] bcast_S_S128x5) : (⟨S_, .i32⟩ : BufTy).Contents (Elt F) → (⟨S128x5, .i32⟩ : BufTy).Contents (Elt F)),
    StableHlo.binary main_call0_v2 main_call0_v12 main_call0_v13 (subi : (⟨S128x5, .i32⟩ : BufTy).Contents (Elt F) → (⟨S128x5, .i32⟩ : BufTy).Contents (Elt F) → (⟨S128x5, .i32⟩ : BufTy).Contents (Elt F)),
    StableHlo.ternary main_call0_v11 main_call0_v13 main_call0_v2 main_v4 (select : (⟨S128x5, .i1⟩ : BufTy).Contents (Elt F) → (⟨S128x5, .i32⟩ : BufTy).Contents (Elt F) → (⟨S128x5, .i32⟩ : BufTy).Contents (Elt F) → (⟨S128x5, .i32⟩ : BufTy).Contents (Elt F)),
    StableHlo.binary main_arg1 main_v4 main_v5 (subi : (⟨S128x5, .i32⟩ : BufTy).Contents (Elt F) → (⟨S128x5, .i32⟩ : BufTy).Contents (Elt F) → (⟨S128x5, .i32⟩ : BufTy).Contents (Elt F)),
    StableHlo.nullary main_c_2 (constantI S_ 32 0#32),
    StableHlo.nullary main_c_3 (constantI S_ 32 1022#32),
    StableHlo.unary main_c_2 main_call1_v0 (id : (⟨S_, .i32⟩ : BufTy).Contents (Elt F) → (⟨S_, .i32⟩ : BufTy).Contents (Elt F)),
    StableHlo.unary main_call1_v0 main_call1_v1 ((broadcastInDim S128x5 ![] bcast_S_S128x5) : (⟨S_, .i32⟩ : BufTy).Contents (Elt F) → (⟨S128x5, .i32⟩ : BufTy).Contents (Elt F)),
    StableHlo.binary main_call1_v1 main_v5 main_call1_v2 (maxsi : (⟨S128x5, .i32⟩ : BufTy).Contents (Elt F) → (⟨S128x5, .i32⟩ : BufTy).Contents (Elt F) → (⟨S128x5, .i32⟩ : BufTy).Contents (Elt F)),
    StableHlo.unary main_c_3 main_call1_v3 (id : (⟨S_, .i32⟩ : BufTy).Contents (Elt F) → (⟨S_, .i32⟩ : BufTy).Contents (Elt F)),
    StableHlo.unary main_call1_v3 main_call1_v4 ((broadcastInDim S128x5 ![] bcast_S_S128x5) : (⟨S_, .i32⟩ : BufTy).Contents (Elt F) → (⟨S128x5, .i32⟩ : BufTy).Contents (Elt F)),
    StableHlo.binary main_call1_v4 main_call1_v2 main_v6 (minsi : (⟨S128x5, .i32⟩ : BufTy).Contents (Elt F) → (⟨S128x5, .i32⟩ : BufTy).Contents (Elt F) → (⟨S128x5, .i32⟩ : BufTy).Contents (Elt F)) ]

/-- The buffers stage G1 writes, in order. -/
abbrev opsG1_W : List (Ref sig .tc) :=
  [main_c, main_v0, main_v1, main_c_0, main_v2, main_v3, main_c_1, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v4, main_v5, main_c_2, main_c_3, main_call1_v0, main_call1_v1, main_call1_v2, main_call1_v3, main_call1_v4, main_v6]

theorem opsG1_sub : (opsG1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub ..⟩

/-- Stage G2: 27 operations, the last writing main_v9. -/
def opsG2 : List (HloOp τ sig (Elt F)) :=
  [ StableHlo.nullary main_c_4 (constantI S_ 32 2#32),
    StableHlo.unary main_c_4 main_call2_v0 (id : (⟨S_, .i32⟩ : BufTy).Contents (Elt F) → (⟨S_, .i32⟩ : BufTy).Contents (Elt F)),
    StableHlo.unary main_call2_v0 main_call2_v1 ((broadcastInDim S128x5 ![] bcast_S_S128x5) : (⟨S_, .i32⟩ : BufTy).Contents (Elt F) → (⟨S128x5, .i32⟩ : BufTy).Contents (Elt F)),
    StableHlo.binary main_v1 main_call2_v1 main_call2_v2 (Host.divsi : (⟨S128x5, .i32⟩ : BufTy).Contents (Elt F) → (⟨S128x5, .i32⟩ : BufTy).Contents (Elt F) → (⟨S128x5, .i32⟩ : BufTy).Contents (Elt F)),
    StableHlo.unary main_v1 main_call2_v3 (signi : (⟨S128x5, .i32⟩ : BufTy).Contents (Elt F) → (⟨S128x5, .i32⟩ : BufTy).Contents (Elt F)),
    StableHlo.unary main_call2_v0 main_call2_v4 (signi : (⟨S_, .i32⟩ : BufTy).Contents (Elt F) → (⟨S_, .i32⟩ : BufTy).Contents (Elt F)),
    StableHlo.unary main_call2_v4 main_call2_v5 ((broadcastInDim S128x5 ![] bcast_S_S128x5) : (⟨S_, .i32⟩ : BufTy).Contents (Elt F) → (⟨S128x5, .i32⟩ : BufTy).Contents (Elt F)),
    StableHlo.binary main_call2_v3 main_call2_v5 main_call2_v6 ((cmpi .ne) : (⟨S128x5, .i32⟩ : BufTy).Contents (Elt F) → (⟨S128x5, .i32⟩ : BufTy).Contents (Elt F) → (⟨S128x5, .i1⟩ : BufTy).Contents (Elt F)),
    StableHlo.unary main_call2_v0 main_call2_v7 ((broadcastInDim S128x5 ![] bcast_S_S128x5) : (⟨S_, .i32⟩ : BufTy).Contents (Elt F) → (⟨S128x5, .i32⟩ : BufTy).Contents (Elt F)),
    StableHlo.binary main_v1 main_call2_v7 main_call2_v8 (Host.remsi : (⟨S128x5, .i32⟩ : BufTy).Contents (Elt F) → (⟨S128x5, .i32⟩ : BufTy).Contents (Elt F) → (⟨S128x5, .i32⟩ : BufTy).Contents (Elt F)),
    StableHlo.nullary main_call2_c ((constantI S_ 32 0#32) : (⟨S_, .i32⟩ : BufTy).Contents (Elt F)),
    StableHlo.unary main_call2_c main_call2_v9 ((broadcastInDim S128x5 ![] bcast_S_S128x5) : (⟨S_, .i32⟩ : BufTy).Contents (Elt F) → (⟨S128x5, .i32⟩ : BufTy).Contents (Elt F)),
    StableHlo.binary main_call2_v8 main_call2_v9 main_call2_v10 ((cmpi .ne) : (⟨S128x5, .i32⟩ : BufTy).Contents (Elt F) → (⟨S128x5, .i32⟩ : BufTy).Contents (Elt F) → (⟨S128x5, .i1⟩ : BufTy).Contents (Elt F)),
    StableHlo.binary main_call2_v6 main_call2_v10 main_call2_v11 (andi : (⟨S128x5, .i1⟩ : BufTy).Contents (Elt F) → (⟨S128x5, .i1⟩ : BufTy).Contents (Elt F) → (⟨S128x5, .i1⟩ : BufTy).Contents (Elt F)),
    StableHlo.nullary main_call2_c_0 ((constantI S_ 32 1#32) : (⟨S_, .i32⟩ : BufTy).Contents (Elt F)),
    StableHlo.unary main_call2_c_0 main_call2_v12 ((broadcastInDim S128x5 ![] bcast_S_S128x5) : (⟨S_, .i32⟩ : BufTy).Contents (Elt F) → (⟨S128x5, .i32⟩ : BufTy).Contents (Elt F)),
    StableHlo.binary main_call2_v2 main_call2_v12 main_call2_v13 (subi : (⟨S128x5, .i32⟩ : BufTy).Contents (Elt F) → (⟨S128x5, .i32⟩ : BufTy).Contents (Elt F) → (⟨S128x5, .i32⟩ : BufTy).Contents (Elt F)),
    StableHlo.ternary main_call2_v11 main_call2_v13 main_call2_v2 main_v7 (select : (⟨S128x5, .i1⟩ : BufTy).Contents (Elt F) → (⟨S128x5, .i32⟩ : BufTy).Contents (Elt F) → (⟨S128x5, .i32⟩ : BufTy).Contents (Elt F) → (⟨S128x5, .i32⟩ : BufTy).Contents (Elt F)),
    StableHlo.binary main_arg1 main_v7 main_v8 (addi : (⟨S128x5, .i32⟩ : BufTy).Contents (Elt F) → (⟨S128x5, .i32⟩ : BufTy).Contents (Elt F) → (⟨S128x5, .i32⟩ : BufTy).Contents (Elt F)),
    StableHlo.nullary main_c_5 (constantI S_ 32 1#32),
    StableHlo.nullary main_c_6 (constantI S_ 32 1023#32),
    StableHlo.unary main_c_5 main_call3_v0 (id : (⟨S_, .i32⟩ : BufTy).Contents (Elt F) → (⟨S_, .i32⟩ : BufTy).Contents (Elt F)),
    StableHlo.unary main_call3_v0 main_call3_v1 ((broadcastInDim S128x5 ![] bcast_S_S128x5) : (⟨S_, .i32⟩ : BufTy).Contents (Elt F) → (⟨S128x5, .i32⟩ : BufTy).Contents (Elt F)),
    StableHlo.binary main_call3_v1 main_v8 main_call3_v2 (maxsi : (⟨S128x5, .i32⟩ : BufTy).Contents (Elt F) → (⟨S128x5, .i32⟩ : BufTy).Contents (Elt F) → (⟨S128x5, .i32⟩ : BufTy).Contents (Elt F)),
    StableHlo.unary main_c_6 main_call3_v3 (id : (⟨S_, .i32⟩ : BufTy).Contents (Elt F) → (⟨S_, .i32⟩ : BufTy).Contents (Elt F)),
    StableHlo.unary main_call3_v3 main_call3_v4 ((broadcastInDim S128x5 ![] bcast_S_S128x5) : (⟨S_, .i32⟩ : BufTy).Contents (Elt F) → (⟨S128x5, .i32⟩ : BufTy).Contents (Elt F)),
    StableHlo.binary main_call3_v4 main_call3_v2 main_v9 (minsi : (⟨S128x5, .i32⟩ : BufTy).Contents (Elt F) → (⟨S128x5, .i32⟩ : BufTy).Contents (Elt F) → (⟨S128x5, .i32⟩ : BufTy).Contents (Elt F)) ]

/-- The buffers stage G2 writes, in order. -/
abbrev opsG2_W : List (Ref sig .tc) :=
  [main_c_4, main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v7, main_v8, main_c_5, main_c_6, main_call3_v0, main_call3_v1, main_call3_v2, main_call3_v3, main_call3_v4, main_v9]

theorem opsG2_sub : (opsG2 : List (HloOp τ sig (Elt F))).Forall fun op => op.bufs ⊆ StableHlo.tcRefs τ sig :=
  ⟨StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub ..⟩

/-- Stage G3: 27 operations, the last writing main_v12. -/
def opsG3 : List (HloOp τ sig (Elt F)) :=
  [ StableHlo.nullary main_c_7 (constantI S_ 32 2#32),
    StableHlo.unary main_c_7 main_call4_v0 (id : (⟨S_, .i32⟩ : BufTy).Contents (Elt F) → (⟨S_, .i32⟩ : BufTy).Contents (Elt F)),
    StableHlo.unary main_call4_v0 main_call4_v1 ((broadcastInDim S128x5 ![] bcast_S_S128x5) : (⟨S_, .i32⟩ : BufTy).Contents (Elt F) → (⟨S128x5, .i32⟩ : BufTy).Contents (Elt F)),
    StableHlo.binary main_v3 main_call4_v1 main_call4_v2 (Host.divsi : (⟨S128x5, .i32⟩ : BufTy).Contents (Elt F) → (⟨S128x5, .i32⟩ : BufTy).Contents (Elt F) → (⟨S128x5, .i32⟩ : BufTy).Contents (Elt F)),
    StableHlo.unary main_v3 main_call4_v3 (signi : (⟨S128x5, .i32⟩ : BufTy).Contents (Elt F) → (⟨S128x5, .i32⟩ : BufTy).Contents (Elt F)),
    StableHlo.unary main_call4_v0 main_call4_v4 (signi : (⟨S_, .i32⟩ : BufTy).Contents (Elt F) → (⟨S_, .i32⟩ : BufTy).Contents (Elt F)),
    StableHlo.unary main_call4_v4 main_call4_v5 ((broadcastInDim S128x5 ![] bcast_S_S128x5) : (⟨S_, .i32⟩ : BufTy).Contents (Elt F) → (⟨S128x5, .i32⟩ : BufTy).Contents (Elt F)),
    StableHlo.binary main_call4_v3 main_call4_v5 main_call4_v6 ((cmpi .ne) : (⟨S128x5, .i32⟩ : BufTy).Contents (Elt F) → (⟨S128x5, .i32⟩ : BufTy).Contents (Elt F) → (⟨S128x5, .i1⟩ : BufTy).Contents (Elt F)),
    StableHlo.unary main_call4_v0 main_call4_v7 ((broadcastInDim S128x5 ![] bcast_S_S128x5) : (⟨S_, .i32⟩ : BufTy).Contents (Elt F) → (⟨S128x5, .i32⟩ : BufTy).Contents (Elt F)),
    StableHlo.binary main_v3 main_call4_v7 main_call4_v8 (Host.remsi : (⟨S128x5, .i32⟩ : BufTy).Contents (Elt F) → (⟨S128x5, .i32⟩ : BufTy).Contents (Elt F) → (⟨S128x5, .i32⟩ : BufTy).Contents (Elt F)),
    StableHlo.nullary main_call4_c ((constantI S_ 32 0#32) : (⟨S_, .i32⟩ : BufTy).Contents (Elt F)),
    StableHlo.unary main_call4_c main_call4_v9 ((broadcastInDim S128x5 ![] bcast_S_S128x5) : (⟨S_, .i32⟩ : BufTy).Contents (Elt F) → (⟨S128x5, .i32⟩ : BufTy).Contents (Elt F)),
    StableHlo.binary main_call4_v8 main_call4_v9 main_call4_v10 ((cmpi .ne) : (⟨S128x5, .i32⟩ : BufTy).Contents (Elt F) → (⟨S128x5, .i32⟩ : BufTy).Contents (Elt F) → (⟨S128x5, .i1⟩ : BufTy).Contents (Elt F)),
    StableHlo.binary main_call4_v6 main_call4_v10 main_call4_v11 (andi : (⟨S128x5, .i1⟩ : BufTy).Contents (Elt F) → (⟨S128x5, .i1⟩ : BufTy).Contents (Elt F) → (⟨S128x5, .i1⟩ : BufTy).Contents (Elt F)),
    StableHlo.nullary main_call4_c_0 ((constantI S_ 32 1#32) : (⟨S_, .i32⟩ : BufTy).Contents (Elt F)),
    StableHlo.unary main_call4_c_0 main_call4_v12 ((broadcastInDim S128x5 ![] bcast_S_S128x5) : (⟨S_, .i32⟩ : BufTy).Contents (Elt F) → (⟨S128x5, .i32⟩ : BufTy).Contents (Elt F)),
    StableHlo.binary main_call4_v2 main_call4_v12 main_call4_v13 (subi : (⟨S128x5, .i32⟩ : BufTy).Contents (Elt F) → (⟨S128x5, .i32⟩ : BufTy).Contents (Elt F) → (⟨S128x5, .i32⟩ : BufTy).Contents (Elt F)),
    StableHlo.ternary main_call4_v11 main_call4_v13 main_call4_v2 main_v10 (select : (⟨S128x5, .i1⟩ : BufTy).Contents (Elt F) → (⟨S128x5, .i32⟩ : BufTy).Contents (Elt F) → (⟨S128x5, .i32⟩ : BufTy).Contents (Elt F) → (⟨S128x5, .i32⟩ : BufTy).Contents (Elt F)),
    StableHlo.binary main_arg2 main_v10 main_v11 (subi : (⟨S128x5, .i32⟩ : BufTy).Contents (Elt F) → (⟨S128x5, .i32⟩ : BufTy).Contents (Elt F) → (⟨S128x5, .i32⟩ : BufTy).Contents (Elt F)),
    StableHlo.nullary main_c_8 (constantI S_ 32 0#32),
    StableHlo.nullary main_c_9 (constantI S_ 32 254#32),
    StableHlo.unary main_c_8 main_call5_v0 (id : (⟨S_, .i32⟩ : BufTy).Contents (Elt F) → (⟨S_, .i32⟩ : BufTy).Contents (Elt F)),
    StableHlo.unary main_call5_v0 main_call5_v1 ((broadcastInDim S128x5 ![] bcast_S_S128x5) : (⟨S_, .i32⟩ : BufTy).Contents (Elt F) → (⟨S128x5, .i32⟩ : BufTy).Contents (Elt F)),
    StableHlo.binary main_call5_v1 main_v11 main_call5_v2 (maxsi : (⟨S128x5, .i32⟩ : BufTy).Contents (Elt F) → (⟨S128x5, .i32⟩ : BufTy).Contents (Elt F) → (⟨S128x5, .i32⟩ : BufTy).Contents (Elt F)),
    StableHlo.unary main_c_9 main_call5_v3 (id : (⟨S_, .i32⟩ : BufTy).Contents (Elt F) → (⟨S_, .i32⟩ : BufTy).Contents (Elt F)),
    StableHlo.unary main_call5_v3 main_call5_v4 ((broadcastInDim S128x5 ![] bcast_S_S128x5) : (⟨S_, .i32⟩ : BufTy).Contents (Elt F) → (⟨S128x5, .i32⟩ : BufTy).Contents (Elt F)),
    StableHlo.binary main_call5_v4 main_call5_v2 main_v12 (minsi : (⟨S128x5, .i32⟩ : BufTy).Contents (Elt F) → (⟨S128x5, .i32⟩ : BufTy).Contents (Elt F) → (⟨S128x5, .i32⟩ : BufTy).Contents (Elt F)) ]

/-- The buffers stage G3 writes, in order. -/
abbrev opsG3_W : List (Ref sig .tc) :=
  [main_c_7, main_call4_v0, main_call4_v1, main_call4_v2, main_call4_v3, main_call4_v4, main_call4_v5, main_call4_v6, main_call4_v7, main_call4_v8, main_call4_c, main_call4_v9, main_call4_v10, main_call4_v11, main_call4_c_0, main_call4_v12, main_call4_v13, main_v10, main_v11, main_c_8, main_c_9, main_call5_v0, main_call5_v1, main_call5_v2, main_call5_v3, main_call5_v4, main_v12]

theorem opsG3_sub : (opsG3 : List (HloOp τ sig (Elt F))).Forall fun op => op.bufs ⊆ StableHlo.tcRefs τ sig :=
  ⟨StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub ..⟩

/-- Stage G4: 27 operations, the last writing main_v15. -/
def opsG4 : List (HloOp τ sig (Elt F)) :=
  [ StableHlo.nullary main_c_10 (constantI S_ 32 2#32),
    StableHlo.unary main_c_10 main_call6_v0 (id : (⟨S_, .i32⟩ : BufTy).Contents (Elt F) → (⟨S_, .i32⟩ : BufTy).Contents (Elt F)),
    StableHlo.unary main_call6_v0 main_call6_v1 ((broadcastInDim S128x5 ![] bcast_S_S128x5) : (⟨S_, .i32⟩ : BufTy).Contents (Elt F) → (⟨S128x5, .i32⟩ : BufTy).Contents (Elt F)),
    StableHlo.binary main_v3 main_call6_v1 main_call6_v2 (Host.divsi : (⟨S128x5, .i32⟩ : BufTy).Contents (Elt F) → (⟨S128x5, .i32⟩ : BufTy).Contents (Elt F) → (⟨S128x5, .i32⟩ : BufTy).Contents (Elt F)),
    StableHlo.unary main_v3 main_call6_v3 (signi : (⟨S128x5, .i32⟩ : BufTy).Contents (Elt F) → (⟨S128x5, .i32⟩ : BufTy).Contents (Elt F)),
    StableHlo.unary main_call6_v0 main_call6_v4 (signi : (⟨S_, .i32⟩ : BufTy).Contents (Elt F) → (⟨S_, .i32⟩ : BufTy).Contents (Elt F)),
    StableHlo.unary main_call6_v4 main_call6_v5 ((broadcastInDim S128x5 ![] bcast_S_S128x5) : (⟨S_, .i32⟩ : BufTy).Contents (Elt F) → (⟨S128x5, .i32⟩ : BufTy).Contents (Elt F)),
    StableHlo.binary main_call6_v3 main_call6_v5 main_call6_v6 ((cmpi .ne) : (⟨S128x5, .i32⟩ : BufTy).Contents (Elt F) → (⟨S128x5, .i32⟩ : BufTy).Contents (Elt F) → (⟨S128x5, .i1⟩ : BufTy).Contents (Elt F)),
    StableHlo.unary main_call6_v0 main_call6_v7 ((broadcastInDim S128x5 ![] bcast_S_S128x5) : (⟨S_, .i32⟩ : BufTy).Contents (Elt F) → (⟨S128x5, .i32⟩ : BufTy).Contents (Elt F)),
    StableHlo.binary main_v3 main_call6_v7 main_call6_v8 (Host.remsi : (⟨S128x5, .i32⟩ : BufTy).Contents (Elt F) → (⟨S128x5, .i32⟩ : BufTy).Contents (Elt F) → (⟨S128x5, .i32⟩ : BufTy).Contents (Elt F)),
    StableHlo.nullary main_call6_c ((constantI S_ 32 0#32) : (⟨S_, .i32⟩ : BufTy).Contents (Elt F)),
    StableHlo.unary main_call6_c main_call6_v9 ((broadcastInDim S128x5 ![] bcast_S_S128x5) : (⟨S_, .i32⟩ : BufTy).Contents (Elt F) → (⟨S128x5, .i32⟩ : BufTy).Contents (Elt F)),
    StableHlo.binary main_call6_v8 main_call6_v9 main_call6_v10 ((cmpi .ne) : (⟨S128x5, .i32⟩ : BufTy).Contents (Elt F) → (⟨S128x5, .i32⟩ : BufTy).Contents (Elt F) → (⟨S128x5, .i1⟩ : BufTy).Contents (Elt F)),
    StableHlo.binary main_call6_v6 main_call6_v10 main_call6_v11 (andi : (⟨S128x5, .i1⟩ : BufTy).Contents (Elt F) → (⟨S128x5, .i1⟩ : BufTy).Contents (Elt F) → (⟨S128x5, .i1⟩ : BufTy).Contents (Elt F)),
    StableHlo.nullary main_call6_c_0 ((constantI S_ 32 1#32) : (⟨S_, .i32⟩ : BufTy).Contents (Elt F)),
    StableHlo.unary main_call6_c_0 main_call6_v12 ((broadcastInDim S128x5 ![] bcast_S_S128x5) : (⟨S_, .i32⟩ : BufTy).Contents (Elt F) → (⟨S128x5, .i32⟩ : BufTy).Contents (Elt F)),
    StableHlo.binary main_call6_v2 main_call6_v12 main_call6_v13 (subi : (⟨S128x5, .i32⟩ : BufTy).Contents (Elt F) → (⟨S128x5, .i32⟩ : BufTy).Contents (Elt F) → (⟨S128x5, .i32⟩ : BufTy).Contents (Elt F)),
    StableHlo.ternary main_call6_v11 main_call6_v13 main_call6_v2 main_v13 (select : (⟨S128x5, .i1⟩ : BufTy).Contents (Elt F) → (⟨S128x5, .i32⟩ : BufTy).Contents (Elt F) → (⟨S128x5, .i32⟩ : BufTy).Contents (Elt F) → (⟨S128x5, .i32⟩ : BufTy).Contents (Elt F)),
    StableHlo.binary main_arg2 main_v13 main_v14 (addi : (⟨S128x5, .i32⟩ : BufTy).Contents (Elt F) → (⟨S128x5, .i32⟩ : BufTy).Contents (Elt F) → (⟨S128x5, .i32⟩ : BufTy).Contents (Elt F)),
    StableHlo.nullary main_c_11 (constantI S_ 32 1#32),
    StableHlo.nullary main_c_12 (constantI S_ 32 255#32),
    StableHlo.unary main_c_11 main_call7_v0 (id : (⟨S_, .i32⟩ : BufTy).Contents (Elt F) → (⟨S_, .i32⟩ : BufTy).Contents (Elt F)),
    StableHlo.unary main_call7_v0 main_call7_v1 ((broadcastInDim S128x5 ![] bcast_S_S128x5) : (⟨S_, .i32⟩ : BufTy).Contents (Elt F) → (⟨S128x5, .i32⟩ : BufTy).Contents (Elt F)),
    StableHlo.binary main_call7_v1 main_v14 main_call7_v2 (maxsi : (⟨S128x5, .i32⟩ : BufTy).Contents (Elt F) → (⟨S128x5, .i32⟩ : BufTy).Contents (Elt F) → (⟨S128x5, .i32⟩ : BufTy).Contents (Elt F)),
    StableHlo.unary main_c_12 main_call7_v3 (id : (⟨S_, .i32⟩ : BufTy).Contents (Elt F) → (⟨S_, .i32⟩ : BufTy).Contents (Elt F)),
    StableHlo.unary main_call7_v3 main_call7_v4 ((broadcastInDim S128x5 ![] bcast_S_S128x5) : (⟨S_, .i32⟩ : BufTy).Contents (Elt F) → (⟨S128x5, .i32⟩ : BufTy).Contents (Elt F)),
    StableHlo.binary main_call7_v4 main_call7_v2 main_v15 (minsi : (⟨S128x5, .i32⟩ : BufTy).Contents (Elt F) → (⟨S128x5, .i32⟩ : BufTy).Contents (Elt F) → (⟨S128x5, .i32⟩ : BufTy).Contents (Elt F)) ]

/-- The buffers stage G4 writes, in order. -/
abbrev opsG4_W : List (Ref sig .tc) :=
  [main_c_10, main_call6_v0, main_call6_v1, main_call6_v2, main_call6_v3, main_call6_v4, main_call6_v5, main_call6_v6, main_call6_v7, main_call6_v8, main_call6_c, main_call6_v9, main_call6_v10, main_call6_v11, main_call6_c_0, main_call6_v12, main_call6_v13, main_v13, main_v14, main_c_11, main_c_12, main_call7_v0, main_call7_v1, main_call7_v2, main_call7_v3, main_call7_v4, main_v15]

theorem opsG4_sub : (opsG4 : List (HloOp τ sig (Elt F))).Forall fun op => op.bufs ⊆ StableHlo.tcRefs τ sig :=
  ⟨StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub ..⟩

/-- Stage G5: 7 operations, the last writing main_v20. -/
def opsG5 : List (HloOp τ sig (Elt F)) :=
  [ StableHlo.nullary main_cst (constant S_ .f32 0x3F800000#32),
    StableHlo.unary main_cst main_v16 (broadcastInDim S128x5 ![] bcast_S_S128x5 : (⟨S_, .f32⟩ : BufTy).Contents (Elt F) → (⟨S128x5, .f32⟩ : BufTy).Contents (Elt F)),
    StableHlo.binary main_arg5 main_v16 main_v17 (cmpf .olt : (⟨S128x5, .f32⟩ : BufTy).Contents (Elt F) → (⟨S128x5, .f32⟩ : BufTy).Contents (Elt F) → (⟨S128x5, .i1⟩ : BufTy).Contents (Elt F)),
    StableHlo.nullary main_v18 (iotaInDim S256 32 0),
    StableHlo.nullary main_v19 (iotaInDim S1024 32 0),
    StableHlo.nullary main_c_13 (constantI S_ 1 0#1),
    StableHlo.unary main_c_13 main_v20 (broadcastInDim S128x256x1024 ![] bcast_S_S128x256x1024 : (⟨S_, .i1⟩ : BufTy).Contents (Elt F) → (⟨S128x256x1024, .i1⟩ : BufTy).Contents (Elt F)) ]

/-- The buffers stage G5 writes, in order. -/
abbrev opsG5_W : List (Ref sig .tc) :=
  [main_cst, main_v16, main_v17, main_v18, main_v19, main_c_13, main_v20]

theorem opsG5_sub : (opsG5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub .., StableHlo.nullary_bufs_sub .., StableHlo.unary_bufs_sub ..⟩

/-- Stage H0: 41 operations, the last writing main_v61. -/
def opsH0 : List (HloOp τ sig (Elt F)) :=
  [ StableHlo.unary main_v12 main_v21 ((extractStridedSlice S128x1 ![0, 0] · slices_S128x5_S128x1_0_0) : (⟨S128x5, .i32⟩ : BufTy).Contents (Elt F) → (⟨S128x1, .i32⟩ : BufTy).Contents (Elt F)),
    StableHlo.reshape main_v21 main_v22 rfl shapeCasts_S128x1_S128,
    StableHlo.unary main_v22 main_v23 (broadcastInDim S128x1 ![0] bcast_S128_S128x1_0 : (⟨S128, .i32⟩ : BufTy).Contents (Elt F) → (⟨S128x1, .i32⟩ : BufTy).Contents (Elt F)),
    StableHlo.unary main_v18 main_v24 (broadcastInDim S1x256 ![1] bcast_S256_S1x256_1 : (⟨S256, .i32⟩ : BufTy).Contents (Elt F) → (⟨S1x256, .i32⟩ : BufTy).Contents (Elt F)),
    StableHlo.unary main_v23 main_v25 (broadcastInDim S128x256 ![0, 1] bcast_S128x1_S128x256_0_1 : (⟨S128x1, .i32⟩ : BufTy).Contents (Elt F) → (⟨S128x256, .i32⟩ : BufTy).Contents (Elt F)),
    StableHlo.unary main_v24 main_v26 (broadcastInDim S128x256 ![0, 1] bcast_S1x256_S128x256_0_1 : (⟨S1x256, .i32⟩ : BufTy).Contents (Elt F) → (⟨S128x256, .i32⟩ : BufTy).Contents (Elt F)),
    StableHlo.binary main_v25 main_v26 main_v27 (cmpi .sle : (⟨S128x256, .i32⟩ : BufTy).Contents (Elt F) → (⟨S128x256, .i32⟩ : BufTy).Contents (Elt F) → (⟨S128x256, .i1⟩ : BufTy).Contents (Elt F)),
    StableHlo.unary main_v15 main_v28 ((extractStridedSlice S128x1 ![0, 0] · slices_S128x5_S128x1_0_0) : (⟨S128x5, .i32⟩ : BufTy).Contents (Elt F) → (⟨S128x1, .i32⟩ : BufTy).Contents (Elt F)),
    StableHlo.reshape main_v28 main_v29 rfl shapeCasts_S128x1_S128,
    StableHlo.unary main_v29 main_v30 (broadcastInDim S128x1 ![0] bcast_S128_S128x1_0 : (⟨S128, .i32⟩ : BufTy).Contents (Elt F) → (⟨S128x1, .i32⟩ : BufTy).Contents (Elt F)),
    StableHlo.unary main_v18 main_v31 (broadcastInDim S1x256 ![1] bcast_S256_S1x256_1 : (⟨S256, .i32⟩ : BufTy).Contents (Elt F) → (⟨S1x256, .i32⟩ : BufTy).Contents (Elt F)),
    StableHlo.unary main_v31 main_v32 (broadcastInDim S128x256 ![0, 1] bcast_S1x256_S128x256_0_1 : (⟨S1x256, .i32⟩ : BufTy).Contents (Elt F) → (⟨S128x256, .i32⟩ : BufTy).Contents (Elt F)),
    StableHlo.unary main_v30 main_v33 (broadcastInDim S128x256 ![0, 1] bcast_S128x1_S128x256_0_1 : (⟨S128x1, .i32⟩ : BufTy).Contents (Elt F) → (⟨S128x256, .i32⟩ : BufTy).Contents (Elt F)),
    StableHlo.binary main_v32 main_v33 main_v34 (cmpi .sle : (⟨S128x256, .i32⟩ : BufTy).Contents (Elt F) → (⟨S128x256, .i32⟩ : BufTy).Contents (Elt F) → (⟨S128x256, .i1⟩ : BufTy).Contents (Elt F)),
    StableHlo.binary main_v27 main_v34 main_v35 (andi : (⟨S128x256, .i1⟩ : BufTy).Contents (Elt F) → (⟨S128x256, .i1⟩ : BufTy).Contents (Elt F) → (⟨S128x256, .i1⟩ : BufTy).Contents (Elt F)),
    StableHlo.unary main_v6 main_v36 ((extractStridedSlice S128x1 ![0, 0] · slices_S128x5_S128x1_0_0) : (⟨S128x5, .i32⟩ : BufTy).Contents (Elt F) → (⟨S128x1, .i32⟩ : BufTy).Contents (Elt F)),
    StableHlo.reshape main_v36 main_v37 rfl shapeCasts_S128x1_S128,
    StableHlo.unary main_v37 main_v38 (broadcastInDim S128x1 ![0] bcast_S128_S128x1_0 : (⟨S128, .i32⟩ : BufTy).Contents (Elt F) → (⟨S128x1, .i32⟩ : BufTy).Contents (Elt F)),
    StableHlo.unary main_v19 main_v39 (broadcastInDim S1x1024 ![1] bcast_S1024_S1x1024_1 : (⟨S1024, .i32⟩ : BufTy).Contents (Elt F) → (⟨S1x1024, .i32⟩ : BufTy).Contents (Elt F)),
    StableHlo.unary main_v38 main_v40 (broadcastInDim S128x1024 ![0, 1] bcast_S128x1_S128x1024_0_1 : (⟨S128x1, .i32⟩ : BufTy).Contents (Elt F) → (⟨S128x1024, .i32⟩ : BufTy).Contents (Elt F)),
    StableHlo.unary main_v39 main_v41 (broadcastInDim S128x1024 ![0, 1] bcast_S1x1024_S128x1024_0_1 : (⟨S1x1024, .i32⟩ : BufTy).Contents (Elt F) → (⟨S128x1024, .i32⟩ : BufTy).Contents (Elt F)),
    StableHlo.binary main_v40 main_v41 main_v42 (cmpi .sle : (⟨S128x1024, .i32⟩ : BufTy).Contents (Elt F) → (⟨S128x1024, .i32⟩ : BufTy).Contents (Elt F) → (⟨S128x1024, .i1⟩ : BufTy).Contents (Elt F)),
    StableHlo.unary main_v9 main_v43 ((extractStridedSlice S128x1 ![0, 0] · slices_S128x5_S128x1_0_0) : (⟨S128x5, .i32⟩ : BufTy).Contents (Elt F) → (⟨S128x1, .i32⟩ : BufTy).Contents (Elt F)),
    StableHlo.reshape main_v43 main_v44 rfl shapeCasts_S128x1_S128,
    StableHlo.unary main_v44 main_v45 (broadcastInDim S128x1 ![0] bcast_S128_S128x1_0 : (⟨S128, .i32⟩ : BufTy).Contents (Elt F) → (⟨S128x1, .i32⟩ : BufTy).Contents (Elt F)),
    StableHlo.unary main_v19 main_v46 (broadcastInDim S1x1024 ![1] bcast_S1024_S1x1024_1 : (⟨S1024, .i32⟩ : BufTy).Contents (Elt F) → (⟨S1x1024, .i32⟩ : BufTy).Contents (Elt F)),
    StableHlo.unary main_v46 main_v47 (broadcastInDim S128x1024 ![0, 1] bcast_S1x1024_S128x1024_0_1 : (⟨S1x1024, .i32⟩ : BufTy).Contents (Elt F) → (⟨S128x1024, .i32⟩ : BufTy).Contents (Elt F)),
    StableHlo.unary main_v45 main_v48 (broadcastInDim S128x1024 ![0, 1] bcast_S128x1_S128x1024_0_1 : (⟨S128x1, .i32⟩ : BufTy).Contents (Elt F) → (⟨S128x1024, .i32⟩ : BufTy).Contents (Elt F)),
    StableHlo.binary main_v47 main_v48 main_v49 (cmpi .sle : (⟨S128x1024, .i32⟩ : BufTy).Contents (Elt F) → (⟨S128x1024, .i32⟩ : BufTy).Contents (Elt F) → (⟨S128x1024, .i1⟩ : BufTy).Contents (Elt F)),
    StableHlo.binary main_v42 main_v49 main_v50 (andi : (⟨S128x1024, .i1⟩ : BufTy).Contents (Elt F) → (⟨S128x1024, .i1⟩ : BufTy).Contents (Elt F) → (⟨S128x1024, .i1⟩ : BufTy).Contents (Elt F)),
    StableHlo.unary main_v35 main_v51 (broadcastInDim S128x256x1 ![0, 1] bcast_S128x256_S128x256x1_0_1 : (⟨S128x256, .i1⟩ : BufTy).Contents (Elt F) → (⟨S128x256x1, .i1⟩ : BufTy).Contents (Elt F)),
    StableHlo.unary main_v50 main_v52 (broadcastInDim S128x1x1024 ![0, 2] bcast_S128x1024_S128x1x1024_0_2 : (⟨S128x1024, .i1⟩ : BufTy).Contents (Elt F) → (⟨S128x1x1024, .i1⟩ : BufTy).Contents (Elt F)),
    StableHlo.unary main_v51 main_v53 (broadcastInDim S128x256x1024 ![0, 1, 2] bcast_S128x256x1_S128x256x1024_0_1_2 : (⟨S128x256x1, .i1⟩ : BufTy).Contents (Elt F) → (⟨S128x256x1024, .i1⟩ : BufTy).Contents (Elt F)),
    StableHlo.unary main_v52 main_v54 (broadcastInDim S128x256x1024 ![0, 1, 2] bcast_S128x1x1024_S128x256x1024_0_1_2 : (⟨S128x1x1024, .i1⟩ : BufTy).Contents (Elt F) → (⟨S128x256x1024, .i1⟩ : BufTy).Contents (Elt F)),
    StableHlo.binary main_v53 main_v54 main_v55 (andi : (⟨S128x256x1024, .i1⟩ : BufTy).Contents (Elt F) → (⟨S128x256x1024, .i1⟩ : BufTy).Contents (Elt F) → (⟨S128x256x1024, .i1⟩ : BufTy).Contents (Elt F)),
    StableHlo.unary main_v17 main_v56 ((extractStridedSlice S128x1 ![0, 0] · slices_S128x5_S128x1_0_0) : (⟨S128x5, .i1⟩ : BufTy).Contents (Elt F) → (⟨S128x1, .i1⟩ : BufTy).Contents (Elt F)),
    StableHlo.reshape main_v56 main_v57 rfl shapeCasts_S128x1_S128,
    StableHlo.unary main_v57 main_v58 (broadcastInDim S128x1x1 ![0] bcast_S128_S128x1x1_0 : (⟨S128, .i1⟩ : BufTy).Contents (Elt F) → (⟨S128x1x1, .i1⟩ : BufTy).Contents (Elt F)),
    StableHlo.unary main_v58 main_v59 (broadcastInDim S128x256x1024 ![0, 1, 2] bcast_S128x1x1_S128x256x1024_0_1_2 : (⟨S128x1x1, .i1⟩ : BufTy).Contents (Elt F) → (⟨S128x256x1024, .i1⟩ : BufTy).Contents (Elt F)),
    StableHlo.binary main_v55 main_v59 main_v60 (andi : (⟨S128x256x1024, .i1⟩ : BufTy).Contents (Elt F) → (⟨S128x256x1024, .i1⟩ : BufTy).Contents (Elt F) → (⟨S128x256x1024, .i1⟩ : BufTy).Contents (Elt F)),
    StableHlo.binary main_v20 main_v60 main_v61 (ori : (⟨S128x256x1024, .i1⟩ : BufTy).Contents (Elt F) → (⟨S128x256x1024, .i1⟩ : BufTy).Contents (Elt F) → (⟨S128x256x1024, .i1⟩ : BufTy).Contents (Elt F)) ]

/-- The buffers stage H0 writes, in order. -/
abbrev opsH0_W : List (Ref sig .tc) :=
  [main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61]

theorem opsH0_sub : (opsH0 : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.binary_bufs_sub ..⟩

/-- Stage H1: 41 operations, the last writing main_v102. -/
def opsH1 : List (HloOp τ sig (Elt F)) :=
  [ StableHlo.unary main_v12 main_v62 ((extractStridedSlice S128x1 ![0, 1] · slices_S128x5_S128x1_0_1) : (⟨S128x5, .i32⟩ : BufTy).Contents (Elt F) → (⟨S128x1, .i32⟩ : BufTy).Contents (Elt F)),
    StableHlo.reshape main_v62 main_v63 rfl shapeCasts_S128x1_S128,
    StableHlo.unary main_v63 main_v64 (broadcastInDim S128x1 ![0] bcast_S128_S128x1_0 : (⟨S128, .i32⟩ : BufTy).Contents (Elt F) → (⟨S128x1, .i32⟩ : BufTy).Contents (Elt F)),
    StableHlo.unary main_v18 main_v65 (broadcastInDim S1x256 ![1] bcast_S256_S1x256_1 : (⟨S256, .i32⟩ : BufTy).Contents (Elt F) → (⟨S1x256, .i32⟩ : BufTy).Contents (Elt F)),
    StableHlo.unary main_v64 main_v66 (broadcastInDim S128x256 ![0, 1] bcast_S128x1_S128x256_0_1 : (⟨S128x1, .i32⟩ : BufTy).Contents (Elt F) → (⟨S128x256, .i32⟩ : BufTy).Contents (Elt F)),
    StableHlo.unary main_v65 main_v67 (broadcastInDim S128x256 ![0, 1] bcast_S1x256_S128x256_0_1 : (⟨S1x256, .i32⟩ : BufTy).Contents (Elt F) → (⟨S128x256, .i32⟩ : BufTy).Contents (Elt F)),
    StableHlo.binary main_v66 main_v67 main_v68 (cmpi .sle : (⟨S128x256, .i32⟩ : BufTy).Contents (Elt F) → (⟨S128x256, .i32⟩ : BufTy).Contents (Elt F) → (⟨S128x256, .i1⟩ : BufTy).Contents (Elt F)),
    StableHlo.unary main_v15 main_v69 ((extractStridedSlice S128x1 ![0, 1] · slices_S128x5_S128x1_0_1) : (⟨S128x5, .i32⟩ : BufTy).Contents (Elt F) → (⟨S128x1, .i32⟩ : BufTy).Contents (Elt F)),
    StableHlo.reshape main_v69 main_v70 rfl shapeCasts_S128x1_S128,
    StableHlo.unary main_v70 main_v71 (broadcastInDim S128x1 ![0] bcast_S128_S128x1_0 : (⟨S128, .i32⟩ : BufTy).Contents (Elt F) → (⟨S128x1, .i32⟩ : BufTy).Contents (Elt F)),
    StableHlo.unary main_v18 main_v72 (broadcastInDim S1x256 ![1] bcast_S256_S1x256_1 : (⟨S256, .i32⟩ : BufTy).Contents (Elt F) → (⟨S1x256, .i32⟩ : BufTy).Contents (Elt F)),
    StableHlo.unary main_v72 main_v73 (broadcastInDim S128x256 ![0, 1] bcast_S1x256_S128x256_0_1 : (⟨S1x256, .i32⟩ : BufTy).Contents (Elt F) → (⟨S128x256, .i32⟩ : BufTy).Contents (Elt F)),
    StableHlo.unary main_v71 main_v74 (broadcastInDim S128x256 ![0, 1] bcast_S128x1_S128x256_0_1 : (⟨S128x1, .i32⟩ : BufTy).Contents (Elt F) → (⟨S128x256, .i32⟩ : BufTy).Contents (Elt F)),
    StableHlo.binary main_v73 main_v74 main_v75 (cmpi .sle : (⟨S128x256, .i32⟩ : BufTy).Contents (Elt F) → (⟨S128x256, .i32⟩ : BufTy).Contents (Elt F) → (⟨S128x256, .i1⟩ : BufTy).Contents (Elt F)),
    StableHlo.binary main_v68 main_v75 main_v76 (andi : (⟨S128x256, .i1⟩ : BufTy).Contents (Elt F) → (⟨S128x256, .i1⟩ : BufTy).Contents (Elt F) → (⟨S128x256, .i1⟩ : BufTy).Contents (Elt F)),
    StableHlo.unary main_v6 main_v77 ((extractStridedSlice S128x1 ![0, 1] · slices_S128x5_S128x1_0_1) : (⟨S128x5, .i32⟩ : BufTy).Contents (Elt F) → (⟨S128x1, .i32⟩ : BufTy).Contents (Elt F)),
    StableHlo.reshape main_v77 main_v78 rfl shapeCasts_S128x1_S128,
    StableHlo.unary main_v78 main_v79 (broadcastInDim S128x1 ![0] bcast_S128_S128x1_0 : (⟨S128, .i32⟩ : BufTy).Contents (Elt F) → (⟨S128x1, .i32⟩ : BufTy).Contents (Elt F)),
    StableHlo.unary main_v19 main_v80 (broadcastInDim S1x1024 ![1] bcast_S1024_S1x1024_1 : (⟨S1024, .i32⟩ : BufTy).Contents (Elt F) → (⟨S1x1024, .i32⟩ : BufTy).Contents (Elt F)),
    StableHlo.unary main_v79 main_v81 (broadcastInDim S128x1024 ![0, 1] bcast_S128x1_S128x1024_0_1 : (⟨S128x1, .i32⟩ : BufTy).Contents (Elt F) → (⟨S128x1024, .i32⟩ : BufTy).Contents (Elt F)),
    StableHlo.unary main_v80 main_v82 (broadcastInDim S128x1024 ![0, 1] bcast_S1x1024_S128x1024_0_1 : (⟨S1x1024, .i32⟩ : BufTy).Contents (Elt F) → (⟨S128x1024, .i32⟩ : BufTy).Contents (Elt F)),
    StableHlo.binary main_v81 main_v82 main_v83 (cmpi .sle : (⟨S128x1024, .i32⟩ : BufTy).Contents (Elt F) → (⟨S128x1024, .i32⟩ : BufTy).Contents (Elt F) → (⟨S128x1024, .i1⟩ : BufTy).Contents (Elt F)),
    StableHlo.unary main_v9 main_v84 ((extractStridedSlice S128x1 ![0, 1] · slices_S128x5_S128x1_0_1) : (⟨S128x5, .i32⟩ : BufTy).Contents (Elt F) → (⟨S128x1, .i32⟩ : BufTy).Contents (Elt F)),
    StableHlo.reshape main_v84 main_v85 rfl shapeCasts_S128x1_S128,
    StableHlo.unary main_v85 main_v86 (broadcastInDim S128x1 ![0] bcast_S128_S128x1_0 : (⟨S128, .i32⟩ : BufTy).Contents (Elt F) → (⟨S128x1, .i32⟩ : BufTy).Contents (Elt F)),
    StableHlo.unary main_v19 main_v87 (broadcastInDim S1x1024 ![1] bcast_S1024_S1x1024_1 : (⟨S1024, .i32⟩ : BufTy).Contents (Elt F) → (⟨S1x1024, .i32⟩ : BufTy).Contents (Elt F)),
    StableHlo.unary main_v87 main_v88 (broadcastInDim S128x1024 ![0, 1] bcast_S1x1024_S128x1024_0_1 : (⟨S1x1024, .i32⟩ : BufTy).Contents (Elt F) → (⟨S128x1024, .i32⟩ : BufTy).Contents (Elt F)),
    StableHlo.unary main_v86 main_v89 (broadcastInDim S128x1024 ![0, 1] bcast_S128x1_S128x1024_0_1 : (⟨S128x1, .i32⟩ : BufTy).Contents (Elt F) → (⟨S128x1024, .i32⟩ : BufTy).Contents (Elt F)),
    StableHlo.binary main_v88 main_v89 main_v90 (cmpi .sle : (⟨S128x1024, .i32⟩ : BufTy).Contents (Elt F) → (⟨S128x1024, .i32⟩ : BufTy).Contents (Elt F) → (⟨S128x1024, .i1⟩ : BufTy).Contents (Elt F)),
    StableHlo.binary main_v83 main_v90 main_v91 (andi : (⟨S128x1024, .i1⟩ : BufTy).Contents (Elt F) → (⟨S128x1024, .i1⟩ : BufTy).Contents (Elt F) → (⟨S128x1024, .i1⟩ : BufTy).Contents (Elt F)),
    StableHlo.unary main_v76 main_v92 (broadcastInDim S128x256x1 ![0, 1] bcast_S128x256_S128x256x1_0_1 : (⟨S128x256, .i1⟩ : BufTy).Contents (Elt F) → (⟨S128x256x1, .i1⟩ : BufTy).Contents (Elt F)),
    StableHlo.unary main_v91 main_v93 (broadcastInDim S128x1x1024 ![0, 2] bcast_S128x1024_S128x1x1024_0_2 : (⟨S128x1024, .i1⟩ : BufTy).Contents (Elt F) → (⟨S128x1x1024, .i1⟩ : BufTy).Contents (Elt F)),
    StableHlo.unary main_v92 main_v94 (broadcastInDim S128x256x1024 ![0, 1, 2] bcast_S128x256x1_S128x256x1024_0_1_2 : (⟨S128x256x1, .i1⟩ : BufTy).Contents (Elt F) → (⟨S128x256x1024, .i1⟩ : BufTy).Contents (Elt F)),
    StableHlo.unary main_v93 main_v95 (broadcastInDim S128x256x1024 ![0, 1, 2] bcast_S128x1x1024_S128x256x1024_0_1_2 : (⟨S128x1x1024, .i1⟩ : BufTy).Contents (Elt F) → (⟨S128x256x1024, .i1⟩ : BufTy).Contents (Elt F)),
    StableHlo.binary main_v94 main_v95 main_v96 (andi : (⟨S128x256x1024, .i1⟩ : BufTy).Contents (Elt F) → (⟨S128x256x1024, .i1⟩ : BufTy).Contents (Elt F) → (⟨S128x256x1024, .i1⟩ : BufTy).Contents (Elt F)),
    StableHlo.unary main_v17 main_v97 ((extractStridedSlice S128x1 ![0, 1] · slices_S128x5_S128x1_0_1) : (⟨S128x5, .i1⟩ : BufTy).Contents (Elt F) → (⟨S128x1, .i1⟩ : BufTy).Contents (Elt F)),
    StableHlo.reshape main_v97 main_v98 rfl shapeCasts_S128x1_S128,
    StableHlo.unary main_v98 main_v99 (broadcastInDim S128x1x1 ![0] bcast_S128_S128x1x1_0 : (⟨S128, .i1⟩ : BufTy).Contents (Elt F) → (⟨S128x1x1, .i1⟩ : BufTy).Contents (Elt F)),
    StableHlo.unary main_v99 main_v100 (broadcastInDim S128x256x1024 ![0, 1, 2] bcast_S128x1x1_S128x256x1024_0_1_2 : (⟨S128x1x1, .i1⟩ : BufTy).Contents (Elt F) → (⟨S128x256x1024, .i1⟩ : BufTy).Contents (Elt F)),
    StableHlo.binary main_v96 main_v100 main_v101 (andi : (⟨S128x256x1024, .i1⟩ : BufTy).Contents (Elt F) → (⟨S128x256x1024, .i1⟩ : BufTy).Contents (Elt F) → (⟨S128x256x1024, .i1⟩ : BufTy).Contents (Elt F)),
    StableHlo.binary main_v61 main_v101 main_v102 (ori : (⟨S128x256x1024, .i1⟩ : BufTy).Contents (Elt F) → (⟨S128x256x1024, .i1⟩ : BufTy).Contents (Elt F) → (⟨S128x256x1024, .i1⟩ : BufTy).Contents (Elt F)) ]

/-- The buffers stage H1 writes, in order. -/
abbrev opsH1_W : List (Ref sig .tc) :=
  [main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102]

theorem opsH1_sub : (opsH1 : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.binary_bufs_sub ..⟩

/-- Stage H2: 41 operations, the last writing main_v143. -/
def opsH2 : List (HloOp τ sig (Elt F)) :=
  [ StableHlo.unary main_v12 main_v103 ((extractStridedSlice S128x1 ![0, 2] · slices_S128x5_S128x1_0_2) : (⟨S128x5, .i32⟩ : BufTy).Contents (Elt F) → (⟨S128x1, .i32⟩ : BufTy).Contents (Elt F)),
    StableHlo.reshape main_v103 main_v104 rfl shapeCasts_S128x1_S128,
    StableHlo.unary main_v104 main_v105 (broadcastInDim S128x1 ![0] bcast_S128_S128x1_0 : (⟨S128, .i32⟩ : BufTy).Contents (Elt F) → (⟨S128x1, .i32⟩ : BufTy).Contents (Elt F)),
    StableHlo.unary main_v18 main_v106 (broadcastInDim S1x256 ![1] bcast_S256_S1x256_1 : (⟨S256, .i32⟩ : BufTy).Contents (Elt F) → (⟨S1x256, .i32⟩ : BufTy).Contents (Elt F)),
    StableHlo.unary main_v105 main_v107 (broadcastInDim S128x256 ![0, 1] bcast_S128x1_S128x256_0_1 : (⟨S128x1, .i32⟩ : BufTy).Contents (Elt F) → (⟨S128x256, .i32⟩ : BufTy).Contents (Elt F)),
    StableHlo.unary main_v106 main_v108 (broadcastInDim S128x256 ![0, 1] bcast_S1x256_S128x256_0_1 : (⟨S1x256, .i32⟩ : BufTy).Contents (Elt F) → (⟨S128x256, .i32⟩ : BufTy).Contents (Elt F)),
    StableHlo.binary main_v107 main_v108 main_v109 (cmpi .sle : (⟨S128x256, .i32⟩ : BufTy).Contents (Elt F) → (⟨S128x256, .i32⟩ : BufTy).Contents (Elt F) → (⟨S128x256, .i1⟩ : BufTy).Contents (Elt F)),
    StableHlo.unary main_v15 main_v110 ((extractStridedSlice S128x1 ![0, 2] · slices_S128x5_S128x1_0_2) : (⟨S128x5, .i32⟩ : BufTy).Contents (Elt F) → (⟨S128x1, .i32⟩ : BufTy).Contents (Elt F)),
    StableHlo.reshape main_v110 main_v111 rfl shapeCasts_S128x1_S128,
    StableHlo.unary main_v111 main_v112 (broadcastInDim S128x1 ![0] bcast_S128_S128x1_0 : (⟨S128, .i32⟩ : BufTy).Contents (Elt F) → (⟨S128x1, .i32⟩ : BufTy).Contents (Elt F)),
    StableHlo.unary main_v18 main_v113 (broadcastInDim S1x256 ![1] bcast_S256_S1x256_1 : (⟨S256, .i32⟩ : BufTy).Contents (Elt F) → (⟨S1x256, .i32⟩ : BufTy).Contents (Elt F)),
    StableHlo.unary main_v113 main_v114 (broadcastInDim S128x256 ![0, 1] bcast_S1x256_S128x256_0_1 : (⟨S1x256, .i32⟩ : BufTy).Contents (Elt F) → (⟨S128x256, .i32⟩ : BufTy).Contents (Elt F)),
    StableHlo.unary main_v112 main_v115 (broadcastInDim S128x256 ![0, 1] bcast_S128x1_S128x256_0_1 : (⟨S128x1, .i32⟩ : BufTy).Contents (Elt F) → (⟨S128x256, .i32⟩ : BufTy).Contents (Elt F)),
    StableHlo.binary main_v114 main_v115 main_v116 (cmpi .sle : (⟨S128x256, .i32⟩ : BufTy).Contents (Elt F) → (⟨S128x256, .i32⟩ : BufTy).Contents (Elt F) → (⟨S128x256, .i1⟩ : BufTy).Contents (Elt F)),
    StableHlo.binary main_v109 main_v116 main_v117 (andi : (⟨S128x256, .i1⟩ : BufTy).Contents (Elt F) → (⟨S128x256, .i1⟩ : BufTy).Contents (Elt F) → (⟨S128x256, .i1⟩ : BufTy).Contents (Elt F)),
    StableHlo.unary main_v6 main_v118 ((extractStridedSlice S128x1 ![0, 2] · slices_S128x5_S128x1_0_2) : (⟨S128x5, .i32⟩ : BufTy).Contents (Elt F) → (⟨S128x1, .i32⟩ : BufTy).Contents (Elt F)),
    StableHlo.reshape main_v118 main_v119 rfl shapeCasts_S128x1_S128,
    StableHlo.unary main_v119 main_v120 (broadcastInDim S128x1 ![0] bcast_S128_S128x1_0 : (⟨S128, .i32⟩ : BufTy).Contents (Elt F) → (⟨S128x1, .i32⟩ : BufTy).Contents (Elt F)),
    StableHlo.unary main_v19 main_v121 (broadcastInDim S1x1024 ![1] bcast_S1024_S1x1024_1 : (⟨S1024, .i32⟩ : BufTy).Contents (Elt F) → (⟨S1x1024, .i32⟩ : BufTy).Contents (Elt F)),
    StableHlo.unary main_v120 main_v122 (broadcastInDim S128x1024 ![0, 1] bcast_S128x1_S128x1024_0_1 : (⟨S128x1, .i32⟩ : BufTy).Contents (Elt F) → (⟨S128x1024, .i32⟩ : BufTy).Contents (Elt F)),
    StableHlo.unary main_v121 main_v123 (broadcastInDim S128x1024 ![0, 1] bcast_S1x1024_S128x1024_0_1 : (⟨S1x1024, .i32⟩ : BufTy).Contents (Elt F) → (⟨S128x1024, .i32⟩ : BufTy).Contents (Elt F)),
    StableHlo.binary main_v122 main_v123 main_v124 (cmpi .sle : (⟨S128x1024, .i32⟩ : BufTy).Contents (Elt F) → (⟨S128x1024, .i32⟩ : BufTy).Contents (Elt F) → (⟨S128x1024, .i1⟩ : BufTy).Contents (Elt F)),
    StableHlo.unary main_v9 main_v125 ((extractStridedSlice S128x1 ![0, 2] · slices_S128x5_S128x1_0_2) : (⟨S128x5, .i32⟩ : BufTy).Contents (Elt F) → (⟨S128x1, .i32⟩ : BufTy).Contents (Elt F)),
    StableHlo.reshape main_v125 main_v126 rfl shapeCasts_S128x1_S128,
    StableHlo.unary main_v126 main_v127 (broadcastInDim S128x1 ![0] bcast_S128_S128x1_0 : (⟨S128, .i32⟩ : BufTy).Contents (Elt F) → (⟨S128x1, .i32⟩ : BufTy).Contents (Elt F)),
    StableHlo.unary main_v19 main_v128 (broadcastInDim S1x1024 ![1] bcast_S1024_S1x1024_1 : (⟨S1024, .i32⟩ : BufTy).Contents (Elt F) → (⟨S1x1024, .i32⟩ : BufTy).Contents (Elt F)),
    StableHlo.unary main_v128 main_v129 (broadcastInDim S128x1024 ![0, 1] bcast_S1x1024_S128x1024_0_1 : (⟨S1x1024, .i32⟩ : BufTy).Contents (Elt F) → (⟨S128x1024, .i32⟩ : BufTy).Contents (Elt F)),
    StableHlo.unary main_v127 main_v130 (broadcastInDim S128x1024 ![0, 1] bcast_S128x1_S128x1024_0_1 : (⟨S128x1, .i32⟩ : BufTy).Contents (Elt F) → (⟨S128x1024, .i32⟩ : BufTy).Contents (Elt F)),
    StableHlo.binary main_v129 main_v130 main_v131 (cmpi .sle : (⟨S128x1024, .i32⟩ : BufTy).Contents (Elt F) → (⟨S128x1024, .i32⟩ : BufTy).Contents (Elt F) → (⟨S128x1024, .i1⟩ : BufTy).Contents (Elt F)),
    StableHlo.binary main_v124 main_v131 main_v132 (andi : (⟨S128x1024, .i1⟩ : BufTy).Contents (Elt F) → (⟨S128x1024, .i1⟩ : BufTy).Contents (Elt F) → (⟨S128x1024, .i1⟩ : BufTy).Contents (Elt F)),
    StableHlo.unary main_v117 main_v133 (broadcastInDim S128x256x1 ![0, 1] bcast_S128x256_S128x256x1_0_1 : (⟨S128x256, .i1⟩ : BufTy).Contents (Elt F) → (⟨S128x256x1, .i1⟩ : BufTy).Contents (Elt F)),
    StableHlo.unary main_v132 main_v134 (broadcastInDim S128x1x1024 ![0, 2] bcast_S128x1024_S128x1x1024_0_2 : (⟨S128x1024, .i1⟩ : BufTy).Contents (Elt F) → (⟨S128x1x1024, .i1⟩ : BufTy).Contents (Elt F)),
    StableHlo.unary main_v133 main_v135 (broadcastInDim S128x256x1024 ![0, 1, 2] bcast_S128x256x1_S128x256x1024_0_1_2 : (⟨S128x256x1, .i1⟩ : BufTy).Contents (Elt F) → (⟨S128x256x1024, .i1⟩ : BufTy).Contents (Elt F)),
    StableHlo.unary main_v134 main_v136 (broadcastInDim S128x256x1024 ![0, 1, 2] bcast_S128x1x1024_S128x256x1024_0_1_2 : (⟨S128x1x1024, .i1⟩ : BufTy).Contents (Elt F) → (⟨S128x256x1024, .i1⟩ : BufTy).Contents (Elt F)),
    StableHlo.binary main_v135 main_v136 main_v137 (andi : (⟨S128x256x1024, .i1⟩ : BufTy).Contents (Elt F) → (⟨S128x256x1024, .i1⟩ : BufTy).Contents (Elt F) → (⟨S128x256x1024, .i1⟩ : BufTy).Contents (Elt F)),
    StableHlo.unary main_v17 main_v138 ((extractStridedSlice S128x1 ![0, 2] · slices_S128x5_S128x1_0_2) : (⟨S128x5, .i1⟩ : BufTy).Contents (Elt F) → (⟨S128x1, .i1⟩ : BufTy).Contents (Elt F)),
    StableHlo.reshape main_v138 main_v139 rfl shapeCasts_S128x1_S128,
    StableHlo.unary main_v139 main_v140 (broadcastInDim S128x1x1 ![0] bcast_S128_S128x1x1_0 : (⟨S128, .i1⟩ : BufTy).Contents (Elt F) → (⟨S128x1x1, .i1⟩ : BufTy).Contents (Elt F)),
    StableHlo.unary main_v140 main_v141 (broadcastInDim S128x256x1024 ![0, 1, 2] bcast_S128x1x1_S128x256x1024_0_1_2 : (⟨S128x1x1, .i1⟩ : BufTy).Contents (Elt F) → (⟨S128x256x1024, .i1⟩ : BufTy).Contents (Elt F)),
    StableHlo.binary main_v137 main_v141 main_v142 (andi : (⟨S128x256x1024, .i1⟩ : BufTy).Contents (Elt F) → (⟨S128x256x1024, .i1⟩ : BufTy).Contents (Elt F) → (⟨S128x256x1024, .i1⟩ : BufTy).Contents (Elt F)),
    StableHlo.binary main_v102 main_v142 main_v143 (ori : (⟨S128x256x1024, .i1⟩ : BufTy).Contents (Elt F) → (⟨S128x256x1024, .i1⟩ : BufTy).Contents (Elt F) → (⟨S128x256x1024, .i1⟩ : BufTy).Contents (Elt F)) ]

/-- The buffers stage H2 writes, in order. -/
abbrev opsH2_W : List (Ref sig .tc) :=
  [main_v103, main_v104, main_v105, main_v106, main_v107, main_v108, main_v109, main_v110, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143]

theorem opsH2_sub : (opsH2 : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.binary_bufs_sub ..⟩

/-- Stage H3: 41 operations, the last writing main_v184. -/
def opsH3 : List (HloOp τ sig (Elt F)) :=
  [ StableHlo.unary main_v12 main_v144 ((extractStridedSlice S128x1 ![0, 3] · slices_S128x5_S128x1_0_3) : (⟨S128x5, .i32⟩ : BufTy).Contents (Elt F) → (⟨S128x1, .i32⟩ : BufTy).Contents (Elt F)),
    StableHlo.reshape main_v144 main_v145 rfl shapeCasts_S128x1_S128,
    StableHlo.unary main_v145 main_v146 (broadcastInDim S128x1 ![0] bcast_S128_S128x1_0 : (⟨S128, .i32⟩ : BufTy).Contents (Elt F) → (⟨S128x1, .i32⟩ : BufTy).Contents (Elt F)),
    StableHlo.unary main_v18 main_v147 (broadcastInDim S1x256 ![1] bcast_S256_S1x256_1 : (⟨S256, .i32⟩ : BufTy).Contents (Elt F) → (⟨S1x256, .i32⟩ : BufTy).Contents (Elt F)),
    StableHlo.unary main_v146 main_v148 (broadcastInDim S128x256 ![0, 1] bcast_S128x1_S128x256_0_1 : (⟨S128x1, .i32⟩ : BufTy).Contents (Elt F) → (⟨S128x256, .i32⟩ : BufTy).Contents (Elt F)),
    StableHlo.unary main_v147 main_v149 (broadcastInDim S128x256 ![0, 1] bcast_S1x256_S128x256_0_1 : (⟨S1x256, .i32⟩ : BufTy).Contents (Elt F) → (⟨S128x256, .i32⟩ : BufTy).Contents (Elt F)),
    StableHlo.binary main_v148 main_v149 main_v150 (cmpi .sle : (⟨S128x256, .i32⟩ : BufTy).Contents (Elt F) → (⟨S128x256, .i32⟩ : BufTy).Contents (Elt F) → (⟨S128x256, .i1⟩ : BufTy).Contents (Elt F)),
    StableHlo.unary main_v15 main_v151 ((extractStridedSlice S128x1 ![0, 3] · slices_S128x5_S128x1_0_3) : (⟨S128x5, .i32⟩ : BufTy).Contents (Elt F) → (⟨S128x1, .i32⟩ : BufTy).Contents (Elt F)),
    StableHlo.reshape main_v151 main_v152 rfl shapeCasts_S128x1_S128,
    StableHlo.unary main_v152 main_v153 (broadcastInDim S128x1 ![0] bcast_S128_S128x1_0 : (⟨S128, .i32⟩ : BufTy).Contents (Elt F) → (⟨S128x1, .i32⟩ : BufTy).Contents (Elt F)),
    StableHlo.unary main_v18 main_v154 (broadcastInDim S1x256 ![1] bcast_S256_S1x256_1 : (⟨S256, .i32⟩ : BufTy).Contents (Elt F) → (⟨S1x256, .i32⟩ : BufTy).Contents (Elt F)),
    StableHlo.unary main_v154 main_v155 (broadcastInDim S128x256 ![0, 1] bcast_S1x256_S128x256_0_1 : (⟨S1x256, .i32⟩ : BufTy).Contents (Elt F) → (⟨S128x256, .i32⟩ : BufTy).Contents (Elt F)),
    StableHlo.unary main_v153 main_v156 (broadcastInDim S128x256 ![0, 1] bcast_S128x1_S128x256_0_1 : (⟨S128x1, .i32⟩ : BufTy).Contents (Elt F) → (⟨S128x256, .i32⟩ : BufTy).Contents (Elt F)),
    StableHlo.binary main_v155 main_v156 main_v157 (cmpi .sle : (⟨S128x256, .i32⟩ : BufTy).Contents (Elt F) → (⟨S128x256, .i32⟩ : BufTy).Contents (Elt F) → (⟨S128x256, .i1⟩ : BufTy).Contents (Elt F)),
    StableHlo.binary main_v150 main_v157 main_v158 (andi : (⟨S128x256, .i1⟩ : BufTy).Contents (Elt F) → (⟨S128x256, .i1⟩ : BufTy).Contents (Elt F) → (⟨S128x256, .i1⟩ : BufTy).Contents (Elt F)),
    StableHlo.unary main_v6 main_v159 ((extractStridedSlice S128x1 ![0, 3] · slices_S128x5_S128x1_0_3) : (⟨S128x5, .i32⟩ : BufTy).Contents (Elt F) → (⟨S128x1, .i32⟩ : BufTy).Contents (Elt F)),
    StableHlo.reshape main_v159 main_v160 rfl shapeCasts_S128x1_S128,
    StableHlo.unary main_v160 main_v161 (broadcastInDim S128x1 ![0] bcast_S128_S128x1_0 : (⟨S128, .i32⟩ : BufTy).Contents (Elt F) → (⟨S128x1, .i32⟩ : BufTy).Contents (Elt F)),
    StableHlo.unary main_v19 main_v162 (broadcastInDim S1x1024 ![1] bcast_S1024_S1x1024_1 : (⟨S1024, .i32⟩ : BufTy).Contents (Elt F) → (⟨S1x1024, .i32⟩ : BufTy).Contents (Elt F)),
    StableHlo.unary main_v161 main_v163 (broadcastInDim S128x1024 ![0, 1] bcast_S128x1_S128x1024_0_1 : (⟨S128x1, .i32⟩ : BufTy).Contents (Elt F) → (⟨S128x1024, .i32⟩ : BufTy).Contents (Elt F)),
    StableHlo.unary main_v162 main_v164 (broadcastInDim S128x1024 ![0, 1] bcast_S1x1024_S128x1024_0_1 : (⟨S1x1024, .i32⟩ : BufTy).Contents (Elt F) → (⟨S128x1024, .i32⟩ : BufTy).Contents (Elt F)),
    StableHlo.binary main_v163 main_v164 main_v165 (cmpi .sle : (⟨S128x1024, .i32⟩ : BufTy).Contents (Elt F) → (⟨S128x1024, .i32⟩ : BufTy).Contents (Elt F) → (⟨S128x1024, .i1⟩ : BufTy).Contents (Elt F)),
    StableHlo.unary main_v9 main_v166 ((extractStridedSlice S128x1 ![0, 3] · slices_S128x5_S128x1_0_3) : (⟨S128x5, .i32⟩ : BufTy).Contents (Elt F) → (⟨S128x1, .i32⟩ : BufTy).Contents (Elt F)),
    StableHlo.reshape main_v166 main_v167 rfl shapeCasts_S128x1_S128,
    StableHlo.unary main_v167 main_v168 (broadcastInDim S128x1 ![0] bcast_S128_S128x1_0 : (⟨S128, .i32⟩ : BufTy).Contents (Elt F) → (⟨S128x1, .i32⟩ : BufTy).Contents (Elt F)),
    StableHlo.unary main_v19 main_v169 (broadcastInDim S1x1024 ![1] bcast_S1024_S1x1024_1 : (⟨S1024, .i32⟩ : BufTy).Contents (Elt F) → (⟨S1x1024, .i32⟩ : BufTy).Contents (Elt F)),
    StableHlo.unary main_v169 main_v170 (broadcastInDim S128x1024 ![0, 1] bcast_S1x1024_S128x1024_0_1 : (⟨S1x1024, .i32⟩ : BufTy).Contents (Elt F) → (⟨S128x1024, .i32⟩ : BufTy).Contents (Elt F)),
    StableHlo.unary main_v168 main_v171 (broadcastInDim S128x1024 ![0, 1] bcast_S128x1_S128x1024_0_1 : (⟨S128x1, .i32⟩ : BufTy).Contents (Elt F) → (⟨S128x1024, .i32⟩ : BufTy).Contents (Elt F)),
    StableHlo.binary main_v170 main_v171 main_v172 (cmpi .sle : (⟨S128x1024, .i32⟩ : BufTy).Contents (Elt F) → (⟨S128x1024, .i32⟩ : BufTy).Contents (Elt F) → (⟨S128x1024, .i1⟩ : BufTy).Contents (Elt F)),
    StableHlo.binary main_v165 main_v172 main_v173 (andi : (⟨S128x1024, .i1⟩ : BufTy).Contents (Elt F) → (⟨S128x1024, .i1⟩ : BufTy).Contents (Elt F) → (⟨S128x1024, .i1⟩ : BufTy).Contents (Elt F)),
    StableHlo.unary main_v158 main_v174 (broadcastInDim S128x256x1 ![0, 1] bcast_S128x256_S128x256x1_0_1 : (⟨S128x256, .i1⟩ : BufTy).Contents (Elt F) → (⟨S128x256x1, .i1⟩ : BufTy).Contents (Elt F)),
    StableHlo.unary main_v173 main_v175 (broadcastInDim S128x1x1024 ![0, 2] bcast_S128x1024_S128x1x1024_0_2 : (⟨S128x1024, .i1⟩ : BufTy).Contents (Elt F) → (⟨S128x1x1024, .i1⟩ : BufTy).Contents (Elt F)),
    StableHlo.unary main_v174 main_v176 (broadcastInDim S128x256x1024 ![0, 1, 2] bcast_S128x256x1_S128x256x1024_0_1_2 : (⟨S128x256x1, .i1⟩ : BufTy).Contents (Elt F) → (⟨S128x256x1024, .i1⟩ : BufTy).Contents (Elt F)),
    StableHlo.unary main_v175 main_v177 (broadcastInDim S128x256x1024 ![0, 1, 2] bcast_S128x1x1024_S128x256x1024_0_1_2 : (⟨S128x1x1024, .i1⟩ : BufTy).Contents (Elt F) → (⟨S128x256x1024, .i1⟩ : BufTy).Contents (Elt F)),
    StableHlo.binary main_v176 main_v177 main_v178 (andi : (⟨S128x256x1024, .i1⟩ : BufTy).Contents (Elt F) → (⟨S128x256x1024, .i1⟩ : BufTy).Contents (Elt F) → (⟨S128x256x1024, .i1⟩ : BufTy).Contents (Elt F)),
    StableHlo.unary main_v17 main_v179 ((extractStridedSlice S128x1 ![0, 3] · slices_S128x5_S128x1_0_3) : (⟨S128x5, .i1⟩ : BufTy).Contents (Elt F) → (⟨S128x1, .i1⟩ : BufTy).Contents (Elt F)),
    StableHlo.reshape main_v179 main_v180 rfl shapeCasts_S128x1_S128,
    StableHlo.unary main_v180 main_v181 (broadcastInDim S128x1x1 ![0] bcast_S128_S128x1x1_0 : (⟨S128, .i1⟩ : BufTy).Contents (Elt F) → (⟨S128x1x1, .i1⟩ : BufTy).Contents (Elt F)),
    StableHlo.unary main_v181 main_v182 (broadcastInDim S128x256x1024 ![0, 1, 2] bcast_S128x1x1_S128x256x1024_0_1_2 : (⟨S128x1x1, .i1⟩ : BufTy).Contents (Elt F) → (⟨S128x256x1024, .i1⟩ : BufTy).Contents (Elt F)),
    StableHlo.binary main_v178 main_v182 main_v183 (andi : (⟨S128x256x1024, .i1⟩ : BufTy).Contents (Elt F) → (⟨S128x256x1024, .i1⟩ : BufTy).Contents (Elt F) → (⟨S128x256x1024, .i1⟩ : BufTy).Contents (Elt F)),
    StableHlo.binary main_v143 main_v183 main_v184 (ori : (⟨S128x256x1024, .i1⟩ : BufTy).Contents (Elt F) → (⟨S128x256x1024, .i1⟩ : BufTy).Contents (Elt F) → (⟨S128x256x1024, .i1⟩ : BufTy).Contents (Elt F)) ]

/-- The buffers stage H3 writes, in order. -/
abbrev opsH3_W : List (Ref sig .tc) :=
  [main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171, main_v172, main_v173, main_v174, main_v175, main_v176, main_v177, main_v178, main_v179, main_v180, main_v181, main_v182, main_v183, main_v184]

theorem opsH3_sub : (opsH3 : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.binary_bufs_sub ..⟩

/-- Stage H4: 41 operations, the last writing main_v225. -/
def opsH4 : List (HloOp τ sig (Elt F)) :=
  [ StableHlo.unary main_v12 main_v185 ((extractStridedSlice S128x1 ![0, 4] · slices_S128x5_S128x1_0_4) : (⟨S128x5, .i32⟩ : BufTy).Contents (Elt F) → (⟨S128x1, .i32⟩ : BufTy).Contents (Elt F)),
    StableHlo.reshape main_v185 main_v186 rfl shapeCasts_S128x1_S128,
    StableHlo.unary main_v186 main_v187 (broadcastInDim S128x1 ![0] bcast_S128_S128x1_0 : (⟨S128, .i32⟩ : BufTy).Contents (Elt F) → (⟨S128x1, .i32⟩ : BufTy).Contents (Elt F)),
    StableHlo.unary main_v18 main_v188 (broadcastInDim S1x256 ![1] bcast_S256_S1x256_1 : (⟨S256, .i32⟩ : BufTy).Contents (Elt F) → (⟨S1x256, .i32⟩ : BufTy).Contents (Elt F)),
    StableHlo.unary main_v187 main_v189 (broadcastInDim S128x256 ![0, 1] bcast_S128x1_S128x256_0_1 : (⟨S128x1, .i32⟩ : BufTy).Contents (Elt F) → (⟨S128x256, .i32⟩ : BufTy).Contents (Elt F)),
    StableHlo.unary main_v188 main_v190 (broadcastInDim S128x256 ![0, 1] bcast_S1x256_S128x256_0_1 : (⟨S1x256, .i32⟩ : BufTy).Contents (Elt F) → (⟨S128x256, .i32⟩ : BufTy).Contents (Elt F)),
    StableHlo.binary main_v189 main_v190 main_v191 (cmpi .sle : (⟨S128x256, .i32⟩ : BufTy).Contents (Elt F) → (⟨S128x256, .i32⟩ : BufTy).Contents (Elt F) → (⟨S128x256, .i1⟩ : BufTy).Contents (Elt F)),
    StableHlo.unary main_v15 main_v192 ((extractStridedSlice S128x1 ![0, 4] · slices_S128x5_S128x1_0_4) : (⟨S128x5, .i32⟩ : BufTy).Contents (Elt F) → (⟨S128x1, .i32⟩ : BufTy).Contents (Elt F)),
    StableHlo.reshape main_v192 main_v193 rfl shapeCasts_S128x1_S128,
    StableHlo.unary main_v193 main_v194 (broadcastInDim S128x1 ![0] bcast_S128_S128x1_0 : (⟨S128, .i32⟩ : BufTy).Contents (Elt F) → (⟨S128x1, .i32⟩ : BufTy).Contents (Elt F)),
    StableHlo.unary main_v18 main_v195 (broadcastInDim S1x256 ![1] bcast_S256_S1x256_1 : (⟨S256, .i32⟩ : BufTy).Contents (Elt F) → (⟨S1x256, .i32⟩ : BufTy).Contents (Elt F)),
    StableHlo.unary main_v195 main_v196 (broadcastInDim S128x256 ![0, 1] bcast_S1x256_S128x256_0_1 : (⟨S1x256, .i32⟩ : BufTy).Contents (Elt F) → (⟨S128x256, .i32⟩ : BufTy).Contents (Elt F)),
    StableHlo.unary main_v194 main_v197 (broadcastInDim S128x256 ![0, 1] bcast_S128x1_S128x256_0_1 : (⟨S128x1, .i32⟩ : BufTy).Contents (Elt F) → (⟨S128x256, .i32⟩ : BufTy).Contents (Elt F)),
    StableHlo.binary main_v196 main_v197 main_v198 (cmpi .sle : (⟨S128x256, .i32⟩ : BufTy).Contents (Elt F) → (⟨S128x256, .i32⟩ : BufTy).Contents (Elt F) → (⟨S128x256, .i1⟩ : BufTy).Contents (Elt F)),
    StableHlo.binary main_v191 main_v198 main_v199 (andi : (⟨S128x256, .i1⟩ : BufTy).Contents (Elt F) → (⟨S128x256, .i1⟩ : BufTy).Contents (Elt F) → (⟨S128x256, .i1⟩ : BufTy).Contents (Elt F)),
    StableHlo.unary main_v6 main_v200 ((extractStridedSlice S128x1 ![0, 4] · slices_S128x5_S128x1_0_4) : (⟨S128x5, .i32⟩ : BufTy).Contents (Elt F) → (⟨S128x1, .i32⟩ : BufTy).Contents (Elt F)),
    StableHlo.reshape main_v200 main_v201 rfl shapeCasts_S128x1_S128,
    StableHlo.unary main_v201 main_v202 (broadcastInDim S128x1 ![0] bcast_S128_S128x1_0 : (⟨S128, .i32⟩ : BufTy).Contents (Elt F) → (⟨S128x1, .i32⟩ : BufTy).Contents (Elt F)),
    StableHlo.unary main_v19 main_v203 (broadcastInDim S1x1024 ![1] bcast_S1024_S1x1024_1 : (⟨S1024, .i32⟩ : BufTy).Contents (Elt F) → (⟨S1x1024, .i32⟩ : BufTy).Contents (Elt F)),
    StableHlo.unary main_v202 main_v204 (broadcastInDim S128x1024 ![0, 1] bcast_S128x1_S128x1024_0_1 : (⟨S128x1, .i32⟩ : BufTy).Contents (Elt F) → (⟨S128x1024, .i32⟩ : BufTy).Contents (Elt F)),
    StableHlo.unary main_v203 main_v205 (broadcastInDim S128x1024 ![0, 1] bcast_S1x1024_S128x1024_0_1 : (⟨S1x1024, .i32⟩ : BufTy).Contents (Elt F) → (⟨S128x1024, .i32⟩ : BufTy).Contents (Elt F)),
    StableHlo.binary main_v204 main_v205 main_v206 (cmpi .sle : (⟨S128x1024, .i32⟩ : BufTy).Contents (Elt F) → (⟨S128x1024, .i32⟩ : BufTy).Contents (Elt F) → (⟨S128x1024, .i1⟩ : BufTy).Contents (Elt F)),
    StableHlo.unary main_v9 main_v207 ((extractStridedSlice S128x1 ![0, 4] · slices_S128x5_S128x1_0_4) : (⟨S128x5, .i32⟩ : BufTy).Contents (Elt F) → (⟨S128x1, .i32⟩ : BufTy).Contents (Elt F)),
    StableHlo.reshape main_v207 main_v208 rfl shapeCasts_S128x1_S128,
    StableHlo.unary main_v208 main_v209 (broadcastInDim S128x1 ![0] bcast_S128_S128x1_0 : (⟨S128, .i32⟩ : BufTy).Contents (Elt F) → (⟨S128x1, .i32⟩ : BufTy).Contents (Elt F)),
    StableHlo.unary main_v19 main_v210 (broadcastInDim S1x1024 ![1] bcast_S1024_S1x1024_1 : (⟨S1024, .i32⟩ : BufTy).Contents (Elt F) → (⟨S1x1024, .i32⟩ : BufTy).Contents (Elt F)),
    StableHlo.unary main_v210 main_v211 (broadcastInDim S128x1024 ![0, 1] bcast_S1x1024_S128x1024_0_1 : (⟨S1x1024, .i32⟩ : BufTy).Contents (Elt F) → (⟨S128x1024, .i32⟩ : BufTy).Contents (Elt F)),
    StableHlo.unary main_v209 main_v212 (broadcastInDim S128x1024 ![0, 1] bcast_S128x1_S128x1024_0_1 : (⟨S128x1, .i32⟩ : BufTy).Contents (Elt F) → (⟨S128x1024, .i32⟩ : BufTy).Contents (Elt F)),
    StableHlo.binary main_v211 main_v212 main_v213 (cmpi .sle : (⟨S128x1024, .i32⟩ : BufTy).Contents (Elt F) → (⟨S128x1024, .i32⟩ : BufTy).Contents (Elt F) → (⟨S128x1024, .i1⟩ : BufTy).Contents (Elt F)),
    StableHlo.binary main_v206 main_v213 main_v214 (andi : (⟨S128x1024, .i1⟩ : BufTy).Contents (Elt F) → (⟨S128x1024, .i1⟩ : BufTy).Contents (Elt F) → (⟨S128x1024, .i1⟩ : BufTy).Contents (Elt F)),
    StableHlo.unary main_v199 main_v215 (broadcastInDim S128x256x1 ![0, 1] bcast_S128x256_S128x256x1_0_1 : (⟨S128x256, .i1⟩ : BufTy).Contents (Elt F) → (⟨S128x256x1, .i1⟩ : BufTy).Contents (Elt F)),
    StableHlo.unary main_v214 main_v216 (broadcastInDim S128x1x1024 ![0, 2] bcast_S128x1024_S128x1x1024_0_2 : (⟨S128x1024, .i1⟩ : BufTy).Contents (Elt F) → (⟨S128x1x1024, .i1⟩ : BufTy).Contents (Elt F)),
    StableHlo.unary main_v215 main_v217 (broadcastInDim S128x256x1024 ![0, 1, 2] bcast_S128x256x1_S128x256x1024_0_1_2 : (⟨S128x256x1, .i1⟩ : BufTy).Contents (Elt F) → (⟨S128x256x1024, .i1⟩ : BufTy).Contents (Elt F)),
    StableHlo.unary main_v216 main_v218 (broadcastInDim S128x256x1024 ![0, 1, 2] bcast_S128x1x1024_S128x256x1024_0_1_2 : (⟨S128x1x1024, .i1⟩ : BufTy).Contents (Elt F) → (⟨S128x256x1024, .i1⟩ : BufTy).Contents (Elt F)),
    StableHlo.binary main_v217 main_v218 main_v219 (andi : (⟨S128x256x1024, .i1⟩ : BufTy).Contents (Elt F) → (⟨S128x256x1024, .i1⟩ : BufTy).Contents (Elt F) → (⟨S128x256x1024, .i1⟩ : BufTy).Contents (Elt F)),
    StableHlo.unary main_v17 main_v220 ((extractStridedSlice S128x1 ![0, 4] · slices_S128x5_S128x1_0_4) : (⟨S128x5, .i1⟩ : BufTy).Contents (Elt F) → (⟨S128x1, .i1⟩ : BufTy).Contents (Elt F)),
    StableHlo.reshape main_v220 main_v221 rfl shapeCasts_S128x1_S128,
    StableHlo.unary main_v221 main_v222 (broadcastInDim S128x1x1 ![0] bcast_S128_S128x1x1_0 : (⟨S128, .i1⟩ : BufTy).Contents (Elt F) → (⟨S128x1x1, .i1⟩ : BufTy).Contents (Elt F)),
    StableHlo.unary main_v222 main_v223 (broadcastInDim S128x256x1024 ![0, 1, 2] bcast_S128x1x1_S128x256x1024_0_1_2 : (⟨S128x1x1, .i1⟩ : BufTy).Contents (Elt F) → (⟨S128x256x1024, .i1⟩ : BufTy).Contents (Elt F)),
    StableHlo.binary main_v219 main_v223 main_v224 (andi : (⟨S128x256x1024, .i1⟩ : BufTy).Contents (Elt F) → (⟨S128x256x1024, .i1⟩ : BufTy).Contents (Elt F) → (⟨S128x256x1024, .i1⟩ : BufTy).Contents (Elt F)),
    StableHlo.binary main_v184 main_v224 main_v225 (ori : (⟨S128x256x1024, .i1⟩ : BufTy).Contents (Elt F) → (⟨S128x256x1024, .i1⟩ : BufTy).Contents (Elt F) → (⟨S128x256x1024, .i1⟩ : BufTy).Contents (Elt F)) ]

/-- The buffers stage H4 writes, in order. -/
abbrev opsH4_W : List (Ref sig .tc) :=
  [main_v185, main_v186, main_v187, main_v188, main_v189, main_v190, main_v191, main_v192, main_v193, main_v194, main_v195, main_v196, main_v197, main_v198, main_v199, main_v200, main_v201, main_v202, main_v203, main_v204, main_v205, main_v206, main_v207, main_v208, main_v209, main_v210, main_v211, main_v212, main_v213, main_v214, main_v215, main_v216, main_v217, main_v218, main_v219, main_v220, main_v221, main_v222, main_v223, main_v224, main_v225]

theorem opsH4_sub : (opsH4 : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.binary_bufs_sub ..⟩

/-- Stage Fin: 13 operations, the last writing main_v235. -/
def opsFin : List (HloOp τ sig (Elt F)) :=
  [ StableHlo.unary main_v225 main_v226 (broadcastInDim S128x256x1024x1 ![0, 1, 2] bcast_S128x256x1024_S128x256x1024x1_0_1_2 : (⟨S128x256x1024, .i1⟩ : BufTy).Contents (Elt F) → (⟨S128x256x1024x1, .i1⟩ : BufTy).Contents (Elt F)),
    StableHlo.unary main_v226 main_v227 (uitofp .f32 : (⟨S128x256x1024x1, .i1⟩ : BufTy).Contents (Elt F) → (⟨S128x256x1024x1, .f32⟩ : BufTy).Contents (Elt F)),
    StableHlo.nullary main_cst_14 (constant S_ .f32 0x00000000#32),
    StableHlo.binary main_arg0 main_cst_14 main_v228 ((fun x v => Host.reduceAdd x v reducesTo_S128x256x1024x1_S_d0_1_2_3 h_S_) : (⟨S128x256x1024x1, .f32⟩ : BufTy).Contents (Elt F) → (⟨S_, .f32⟩ : BufTy).Contents (Elt F) → (⟨S_, .f32⟩ : BufTy).Contents (Elt F)),
    StableHlo.nullary main_cst_15 (constant S_ .f32 0x4C000000#32),
    StableHlo.binary main_v228 main_cst_15 main_v229 (Host.divf : (⟨S_, .f32⟩ : BufTy).Contents (Elt F) → (⟨S_, .f32⟩ : BufTy).Contents (Elt F) → (⟨S_, .f32⟩ : BufTy).Contents (Elt F)),
    StableHlo.nullary main_cst_16 (constant S_ .f32 0x3F800000#32),
    StableHlo.unary main_cst_16 main_v230 (broadcastInDim S128x256x1024x1 ![] bcast_S_S128x256x1024x1 : (⟨S_, .f32⟩ : BufTy).Contents (Elt F) → (⟨S128x256x1024x1, .f32⟩ : BufTy).Contents (Elt F)),
    StableHlo.binary main_v230 main_v227 main_v231 (subf : (⟨S128x256x1024x1, .f32⟩ : BufTy).Contents (Elt F) → (⟨S128x256x1024x1, .f32⟩ : BufTy).Contents (Elt F) → (⟨S128x256x1024x1, .f32⟩ : BufTy).Contents (Elt F)),
    StableHlo.binary main_arg0 main_v231 main_v232 (mulf : (⟨S128x256x1024x1, .f32⟩ : BufTy).Contents (Elt F) → (⟨S128x256x1024x1, .f32⟩ : BufTy).Contents (Elt F) → (⟨S128x256x1024x1, .f32⟩ : BufTy).Contents (Elt F)),
    StableHlo.unary main_v229 main_v233 (broadcastInDim S128x256x1024x1 ![] bcast_S_S128x256x1024x1 : (⟨S_, .f32⟩ : BufTy).Contents (Elt F) → (⟨S128x256x1024x1, .f32⟩ : BufTy).Contents (Elt F)),
    StableHlo.binary main_v227 main_v233 main_v234 (mulf : (⟨S128x256x1024x1, .f32⟩ : BufTy).Contents (Elt F) → (⟨S128x256x1024x1, .f32⟩ : BufTy).Contents (Elt F) → (⟨S128x256x1024x1, .f32⟩ : BufTy).Contents (Elt F)),
    StableHlo.binary main_v232 main_v234 main_v235 (addf : (⟨S128x256x1024x1, .f32⟩ : BufTy).Contents (Elt F) → (⟨S128x256x1024x1, .f32⟩ : BufTy).Contents (Elt F) → (⟨S128x256x1024x1, .f32⟩ : BufTy).Contents (Elt F)) ]

/-- The buffers stage Fin writes, in order. -/
abbrev opsFin_W : List (Ref sig .tc) :=
  [main_v226, main_v227, main_cst_14, main_v228, main_cst_15, main_v229, main_cst_16, main_v230, main_v231, main_v232, main_v233, main_v234, main_v235]

theorem opsFin_sub : (opsFin : List (HloOp τ sig (Elt F))).Forall fun op => op.bufs ⊆ StableHlo.tcRefs τ sig :=
  ⟨StableHlo.unary_bufs_sub .., StableHlo.unary_bufs_sub .., StableHlo.nullary_bufs_sub .., StableHlo.binary_bufs_sub .., StableHlo.nullary_bufs_sub .., StableHlo.binary_bufs_sub .., StableHlo.nullary_bufs_sub .., StableHlo.unary_bufs_sub .., StableHlo.binary_bufs_sub .., StableHlo.binary_bufs_sub .., StableHlo.unary_bufs_sub .., StableHlo.binary_bufs_sub .., StableHlo.binary_bufs_sub ..⟩

/-- The whole line: the stages in order. -/
abbrev ops : List (HloOp τ sig (Elt F)) :=
  opsG1 ++ opsG2 ++ opsG3 ++ opsG4 ++ opsG5 ++ opsH0 ++ opsH1 ++ opsH2 ++ opsH3 ++ opsH4 ++ opsFin

end Cert.ReferenceIdeal.RefRun

end
-- ==== Proof.RefMainEq.lean ====
/- The reference program is the sequence of its host operations: @main, with the bodies of the functions it calls standing at
   the call sites, is the line `ops` run in order. -/
import proofs.«152792_j38062000177638_1_alg».proof.Proof.RefOps
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- @main is its operations in order (checked by definitional unfolding of both sides). -/
theorem main_eq' (c : Dev nD) : main (F := F) c = StableHlo.seq ops := by
  chain_rfl

end Cert.ReferenceIdeal.RefRun

end
-- ==== Proof.RefRun.lean ====
/-
  The reference program's run.  @main is a straight line of 339 host operations (the outlined functions' lines at
  their call sites): every weakly fair execution ends, and each buffer then holds the fold of the operations over the
  launch contents.  The line is read stage by stage: each stage's live results are stated as the composed terms of
  Proof/RefSpec.lean over the stage's inputs, a buffer a stage does not write keeps its contents, and the result
  buffer ends at RefSpec.refOut of the six argument arrays, which end unchanged.
-/
import proofs.«152792_j38062000177638_1_alg».proof.Proof.RefOps
import proofs.«152792_j38062000177638_1_alg».proof.Proof.RefSpec
import proofs.«152792_j38062000177638_1_alg».proof.Proof.RefMainEq
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

/-- A property of every operation of two lines holds of every operation of their concatenation. -/
theorem forall_append {p : HloOp τ sig (Elt F) → Prop} {l₁ l₂ : List (HloOp τ sig (Elt F))}
    (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

theorem ops_sub : (ops : List (HloOp τ sig (Elt F))).Forall fun op => op.bufs ⊆ tcRefs τ sig :=
  forall_append (forall_append (forall_append (forall_append (forall_append (forall_append (forall_append (forall_append
    (forall_append (forall_append opsG1_sub opsG2_sub) opsG3_sub) opsG4_sub) opsG5_sub) opsH0_sub) opsH1_sub) opsH2_sub)
    opsH3_sub) opsH4_sub) opsFin_sub

/-- Every operation determines what it writes. -/
macro "fresh_table " s:ident : tactic =>
  `(tactic| (simp only [$s:ident, List.Forall]; (repeat' apply And.intro) <;> rfl))
theorem opsG1_fresh : (opsG1 : List (HloOp τ sig (Elt F))).Forall fun op => op.fresh = ∅ := by fresh_table opsG1
theorem opsG2_fresh : (opsG2 : List (HloOp τ sig (Elt F))).Forall fun op => op.fresh = ∅ := by fresh_table opsG2
theorem opsG3_fresh : (opsG3 : List (HloOp τ sig (Elt F))).Forall fun op => op.fresh = ∅ := by fresh_table opsG3
theorem opsG4_fresh : (opsG4 : List (HloOp τ sig (Elt F))).Forall fun op => op.fresh = ∅ := by fresh_table opsG4
theorem opsG5_fresh : (opsG5 : List (HloOp τ sig (Elt F))).Forall fun op => op.fresh = ∅ := by fresh_table opsG5
theorem opsH0_fresh : (opsH0 : List (HloOp τ sig (Elt F))).Forall fun op => op.fresh = ∅ := by fresh_table opsH0
theorem opsH1_fresh : (opsH1 : List (HloOp τ sig (Elt F))).Forall fun op => op.fresh = ∅ := by fresh_table opsH1
theorem opsH2_fresh : (opsH2 : List (HloOp τ sig (Elt F))).Forall fun op => op.fresh = ∅ := by fresh_table opsH2
theorem opsH3_fresh : (opsH3 : List (HloOp τ sig (Elt F))).Forall fun op => op.fresh = ∅ := by fresh_table opsH3
theorem opsH4_fresh : (opsH4 : List (HloOp τ sig (Elt F))).Forall fun op => op.fresh = ∅ := by fresh_table opsH4
theorem opsFin_fresh : (opsFin : List (HloOp τ sig (Elt F))).Forall fun op => op.fresh = ∅ := by fresh_table opsFin

theorem ops_fresh : (ops : List (HloOp τ sig (Elt F))).Forall fun op => op.fresh = ∅ :=
  forall_append (forall_append (forall_append (forall_append (forall_append (forall_append (forall_append (forall_append
    (forall_append (forall_append opsG1_fresh opsG2_fresh) opsG3_fresh) opsG4_fresh) opsG5_fresh) opsH0_fresh) opsH1_fresh)
    opsH2_fresh) opsH3_fresh) opsH4_fresh) opsFin_fresh

/-- From any memory with zero counters every weakly fair execution of @main ends, each buffer at the fold of the
    operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq' (fun _ => ops_sub) m ρ
    (fun _ => List.forall_iff_forall_mem.1 ops_fresh)

/-! ## What a stage leaves alone -/

/-- Each operation of a stage writes a buffer of the stage's list. -/
macro "writes_table " s:ident : tactic =>
  `(tactic| (simp only [$s:ident, List.Forall, nullary_writes, unary_writes, binary_writes, ternary_writes, reshape_writes,
      Finset.singleton_subset_iff, List.mem_toFinset]; (repeat' apply And.intro) <;> exact List.mem_map_of_mem (by decide)))

theorem opsG1_writes : (opsG1 : List (HloOp τ sig (Elt F))).Forall fun op =>
    op.writes ⊆ (opsG1_W.map (Proc.devRef (τ := τ) .tc)).toFinset := by writes_table opsG1
/-- A buffer stage G1 does not write keeps its contents through it. -/
theorem keepG1 (W : Valuation τ sig (Elt F)) (r : Ref sig .tc) (h : r ∉ opsG1_W) :
    after opsG1 W (no_index (Proc.devRef .tc r)) = W (Proc.devRef .tc r) :=
  after_of_writes_sub opsG1 W opsG1_writes h

theorem opsG2_writes : (opsG2 : List (HloOp τ sig (Elt F))).Forall fun op =>
    op.writes ⊆ (opsG2_W.map (Proc.devRef (τ := τ) .tc)).toFinset := by writes_table opsG2
/-- A buffer stage G2 does not write keeps its contents through it. -/
theorem keepG2 (W : Valuation τ sig (Elt F)) (r : Ref sig .tc) (h : r ∉ opsG2_W) :
    after opsG2 W (no_index (Proc.devRef .tc r)) = W (Proc.devRef .tc r) :=
  after_of_writes_sub opsG2 W opsG2_writes h

theorem opsG3_writes : (opsG3 : List (HloOp τ sig (Elt F))).Forall fun op =>
    op.writes ⊆ (opsG3_W.map (Proc.devRef (τ := τ) .tc)).toFinset := by writes_table opsG3
/-- A buffer stage G3 does not write keeps its contents through it. -/
theorem keepG3 (W : Valuation τ sig (Elt F)) (r : Ref sig .tc) (h : r ∉ opsG3_W) :
    after opsG3 W (no_index (Proc.devRef .tc r)) = W (Proc.devRef .tc r) :=
  after_of_writes_sub opsG3 W opsG3_writes h

theorem opsG4_writes : (opsG4 : List (HloOp τ sig (Elt F))).Forall fun op =>
    op.writes ⊆ (opsG4_W.map (Proc.devRef (τ := τ) .tc)).toFinset := by writes_table opsG4
/-- A buffer stage G4 does not write keeps its contents through it. -/
theorem keepG4 (W : Valuation τ sig (Elt F)) (r : Ref sig .tc) (h : r ∉ opsG4_W) :
    after opsG4 W (no_index (Proc.devRef .tc r)) = W (Proc.devRef .tc r) :=
  after_of_writes_sub opsG4 W opsG4_writes h

theorem opsG5_writes : (opsG5 : List (HloOp τ sig (Elt F))).Forall fun op =>
    op.writes ⊆ (opsG5_W.map (Proc.devRef (τ := τ) .tc)).toFinset := by writes_table opsG5
/-- A buffer stage G5 does not write keeps its contents through it. -/
theorem keepG5 (W : Valuation τ sig (Elt F)) (r : Ref sig .tc) (h : r ∉ opsG5_W) :
    after opsG5 W (no_index (Proc.devRef .tc r)) = W (Proc.devRef .tc r) :=
  after_of_writes_sub opsG5 W opsG5_writes h

theorem opsH0_writes : (opsH0 : List (HloOp τ sig (Elt F))).Forall fun op =>
    op.writes ⊆ (opsH0_W.map (Proc.devRef (τ := τ) .tc)).toFinset := by writes_table opsH0
/-- A buffer stage H0 does not write keeps its contents through it. -/
theorem keepH0 (W : Valuation τ sig (Elt F)) (r : Ref sig .tc) (h : r ∉ opsH0_W) :
    after opsH0 W (no_index (Proc.devRef .tc r)) = W (Proc.devRef .tc r) :=
  after_of_writes_sub opsH0 W opsH0_writes h

theorem opsH1_writes : (opsH1 : List (HloOp τ sig (Elt F))).Forall fun op =>
    op.writes ⊆ (opsH1_W.map (Proc.devRef (τ := τ) .tc)).toFinset := by writes_table opsH1
/-- A buffer stage H1 does not write keeps its contents through it. -/
theorem keepH1 (W : Valuation τ sig (Elt F)) (r : Ref sig .tc) (h : r ∉ opsH1_W) :
    after opsH1 W (no_index (Proc.devRef .tc r)) = W (Proc.devRef .tc r) :=
  after_of_writes_sub opsH1 W opsH1_writes h

theorem opsH2_writes : (opsH2 : List (HloOp τ sig (Elt F))).Forall fun op =>
    op.writes ⊆ (opsH2_W.map (Proc.devRef (τ := τ) .tc)).toFinset := by writes_table opsH2
/-- A buffer stage H2 does not write keeps its contents through it. -/
theorem keepH2 (W : Valuation τ sig (Elt F)) (r : Ref sig .tc) (h : r ∉ opsH2_W) :
    after opsH2 W (no_index (Proc.devRef .tc r)) = W (Proc.devRef .tc r) :=
  after_of_writes_sub opsH2 W opsH2_writes h

theorem opsH3_writes : (opsH3 : List (HloOp τ sig (Elt F))).Forall fun op =>
    op.writes ⊆ (opsH3_W.map (Proc.devRef (τ := τ) .tc)).toFinset := by writes_table opsH3
/-- A buffer stage H3 does not write keeps its contents through it. -/
theorem keepH3 (W : Valuation τ sig (Elt F)) (r : Ref sig .tc) (h : r ∉ opsH3_W) :
    after opsH3 W (no_index (Proc.devRef .tc r)) = W (Proc.devRef .tc r) :=
  after_of_writes_sub opsH3 W opsH3_writes h

theorem opsH4_writes : (opsH4 : List (HloOp τ sig (Elt F))).Forall fun op =>
    op.writes ⊆ (opsH4_W.map (Proc.devRef (τ := τ) .tc)).toFinset := by writes_table opsH4
/-- A buffer stage H4 does not write keeps its contents through it. -/
theorem keepH4 (W : Valuation τ sig (Elt F)) (r : Ref sig .tc) (h : r ∉ opsH4_W) :
    after opsH4 W (no_index (Proc.devRef .tc r)) = W (Proc.devRef .tc r) :=
  after_of_writes_sub opsH4 W opsH4_writes h

theorem opsFin_writes : (opsFin : List (HloOp τ sig (Elt F))).Forall fun op =>
    op.writes ⊆ (opsFin_W.map (Proc.devRef (τ := τ) .tc)).toFinset := by writes_table opsFin
/-- A buffer stage Fin does not write keeps its contents through it. -/
theorem keepFin (W : Valuation τ sig (Elt F)) (r : Ref sig .tc) (h : r ∉ opsFin_W) :
    after opsFin W (no_index (Proc.devRef .tc r)) = W (Proc.devRef .tc r) :=
  after_of_writes_sub opsFin W opsFin_writes h

/-- The fold over the whole line is the stages' folds in order. -/
theorem after_ops (V : Valuation τ sig (Elt F)) :
    after ops V = after opsFin (after opsH4 (after opsH3 (after opsH2 (after opsH1 (after opsH0
      (after opsG5 (after opsG4 (after opsG3 (after opsG2 (after opsG1 V)))))))))) := by
  simp only [ops, after_append]

/-- An argument array is written by no stage. -/
theorem arg_keep (V : Valuation τ sig (Elt F)) (r : Ref sig .tc)
    (h : r ∉ opsG1_W ∧ r ∉ opsG2_W ∧ r ∉ opsG3_W ∧ r ∉ opsG4_W ∧ r ∉ opsG5_W ∧ r ∉ opsH0_W ∧ r ∉ opsH1_W ∧ r ∉ opsH2_W
      ∧ r ∉ opsH3_W ∧ r ∉ opsH4_W ∧ r ∉ opsFin_W) :
    after ops V (Proc.devRef .tc r) = V (Proc.devRef .tc r) := by
  obtain ⟨h1, h2, h3, h4, h5, h6, h7, h8, h9, h10, h11⟩ := h
  rw [after_ops, keepFin _ r h11, keepH4 _ r h10, keepH3 _ r h9, keepH2 _ r h8, keepH1 _ r h7, keepH0 _ r h6,
    keepG5 _ r h5, keepG4 _ r h4, keepG3 _ r h3, keepG2 _ r h2, keepG1 _ r h1]

/-- The frame: @main runs to its end and the six argument arrays end as they began. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c main_arg0).trans (arg_keep _ main_arg0 (by decide)), (h c main_arg1).trans (arg_keep _ main_arg1 (by decide)),
     (h c main_arg2).trans (arg_keep _ main_arg2 (by decide)), (h c main_arg3).trans (arg_keep _ main_arg3 (by decide)),
     (h c main_arg4).trans (arg_keep _ main_arg4 (by decide)), (h c main_arg5).trans (arg_keep _ main_arg5 (by decide))⟩)
    (run_all m ρ)

/-! ## What each stage computes, over the contents it starts from -/

theorem G1_v1 (W : Valuation τ sig (Elt F)) :
    after opsG1 W (no_index (Proc.devRef .tc main_v1)) = RefSpec.xsW (W (Proc.devRef .tc main_arg3)) := by
  simp only [opsG1]; after_results_simp; all_goals rfl

theorem G1_v3 (W : Valuation τ sig (Elt F)) :
    after opsG1 W (no_index (Proc.devRef .tc main_v3)) = RefSpec.ysH (W (Proc.devRef .tc main_arg4)) := by
  simp only [opsG1]; after_results_simp; all_goals rfl

theorem G1_v6 (W : Valuation τ sig (Elt F)) :
    after opsG1 W (no_index (Proc.devRef .tc main_v6)) = RefSpec.xsStartOf (W (Proc.devRef .tc main_arg1)) (RefSpec.xsW (W (Proc.devRef .tc main_arg3))) := by
  simp only [opsG1]; after_results_simp; all_goals rfl

theorem G2_v9 (W : Valuation τ sig (Elt F)) :
    after opsG2 W (no_index (Proc.devRef .tc main_v9)) = RefSpec.xsEndOf (W (Proc.devRef .tc main_arg1)) (W (Proc.devRef .tc main_v1)) := by
  simp only [opsG2]; after_results_simp; all_goals rfl

theorem G3_v12 (W : Valuation τ sig (Elt F)) :
    after opsG3 W (no_index (Proc.devRef .tc main_v12)) = RefSpec.ysStartOf (W (Proc.devRef .tc main_arg2)) (W (Proc.devRef .tc main_v3)) := by
  simp only [opsG3]; after_results_simp; all_goals rfl

theorem G4_v15 (W : Valuation τ sig (Elt F)) :
    after opsG4 W (no_index (Proc.devRef .tc main_v15)) = RefSpec.ysEndOf (W (Proc.devRef .tc main_arg2)) (W (Proc.devRef .tc main_v3)) := by
  simp only [opsG4]; after_results_simp; all_goals rfl

theorem G5_v17 (W : Valuation τ sig (Elt F)) :
    after opsG5 W (no_index (Proc.devRef .tc main_v17)) = RefSpec.act (F := F) (W (Proc.devRef .tc main_arg5)) := by
  simp only [opsG5]; after_results_simp; all_goals rfl

theorem G5_v18 (W : Valuation τ sig (Elt F)) :
    after opsG5 W (no_index (Proc.devRef .tc main_v18)) = RefSpec.rowIota := by
  simp only [opsG5]; after_results_simp; all_goals rfl

theorem G5_v19 (W : Valuation τ sig (Elt F)) :
    after opsG5 W (no_index (Proc.devRef .tc main_v19)) = RefSpec.colIota := by
  simp only [opsG5]; after_results_simp; all_goals rfl

theorem G5_v20 (W : Valuation τ sig (Elt F)) :
    after opsG5 W (no_index (Proc.devRef .tc main_v20)) = RefSpec.mask0 := by
  simp only [opsG5]; after_results_simp; all_goals rfl

theorem H0_out (W : Valuation τ sig (Elt F)) :
    after opsH0 W (no_index (Proc.devRef .tc main_v61)) = RefSpec.holeStep 0 (by decide) (W (Proc.devRef .tc main_v12)) (W (Proc.devRef .tc main_v15)) (W (Proc.devRef .tc main_v6)) (W (Proc.devRef .tc main_v9))
        (W (Proc.devRef .tc main_v17)) (W (Proc.devRef .tc main_v18)) (W (Proc.devRef .tc main_v19)) (W (Proc.devRef .tc main_v20)) := by
  simp only [opsH0]; after_results_simp; all_goals rfl

theorem H1_out (W : Valuation τ sig (Elt F)) :
    after opsH1 W (no_index (Proc.devRef .tc main_v102)) = RefSpec.holeStep 1 (by decide) (W (Proc.devRef .tc main_v12)) (W (Proc.devRef .tc main_v15)) (W (Proc.devRef .tc main_v6)) (W (Proc.devRef .tc main_v9))
        (W (Proc.devRef .tc main_v17)) (W (Proc.devRef .tc main_v18)) (W (Proc.devRef .tc main_v19)) (W (Proc.devRef .tc main_v61)) := by
  simp only [opsH1]; after_results_simp; all_goals rfl

theorem H2_out (W : Valuation τ sig (Elt F)) :
    after opsH2 W (no_index (Proc.devRef .tc main_v143)) = RefSpec.holeStep 2 (by decide) (W (Proc.devRef .tc main_v12)) (W (Proc.devRef .tc main_v15)) (W (Proc.devRef .tc main_v6)) (W (Proc.devRef .tc main_v9))
        (W (Proc.devRef .tc main_v17)) (W (Proc.devRef .tc main_v18)) (W (Proc.devRef .tc main_v19)) (W (Proc.devRef .tc main_v102)) := by
  simp only [opsH2]; after_results_simp; all_goals rfl

theorem H3_out (W : Valuation τ sig (Elt F)) :
    after opsH3 W (no_index (Proc.devRef .tc main_v184)) = RefSpec.holeStep 3 (by decide) (W (Proc.devRef .tc main_v12)) (W (Proc.devRef .tc main_v15)) (W (Proc.devRef .tc main_v6)) (W (Proc.devRef .tc main_v9))
        (W (Proc.devRef .tc main_v17)) (W (Proc.devRef .tc main_v18)) (W (Proc.devRef .tc main_v19)) (W (Proc.devRef .tc main_v143)) := by
  simp only [opsH3]; after_results_simp; all_goals rfl

theorem H4_out (W : Valuation τ sig (Elt F)) :
    after opsH4 W (no_index (Proc.devRef .tc main_v225)) = RefSpec.holeStep 4 (by decide) (W (Proc.devRef .tc main_v12)) (W (Proc.devRef .tc main_v15)) (W (Proc.devRef .tc main_v6)) (W (Proc.devRef .tc main_v9))
        (W (Proc.devRef .tc main_v17)) (W (Proc.devRef .tc main_v18)) (W (Proc.devRef .tc main_v19)) (W (Proc.devRef .tc main_v184)) := by
  simp only [opsH4]; after_results_simp; all_goals rfl

theorem Fin_out (W : Valuation τ sig (Elt F)) :
    after opsFin W (no_index (Proc.devRef .tc main_v235)) = RefSpec.blend (F := F) (W (Proc.devRef .tc main_arg0)) (W (Proc.devRef .tc main_v225)) := by
  simp only [opsFin]; after_results_simp; all_goals rfl

/-! ## The result -/

set_option maxHeartbeats 1000000 in
/-- After the whole line the result buffer holds RefSpec.refOut of the six argument arrays: each stage's result read
    over the stage before, a buffer a stage does not write read through it. -/
theorem out_eq (V : Valuation τ sig (Elt F)) :
    after ops V (Proc.devRef .tc main_v235)
      = RefSpec.refOut (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [after_ops]
  simp (disch := decide) only [Fin_out, H4_out, H3_out, H2_out, H1_out, H0_out, G5_v17, G5_v18, G5_v19, G5_v20, G4_v15,
    G3_v12, G2_v9, G1_v6, G1_v3, G1_v1, keepFin, keepH4, keepH3, keepH2, keepH1, keepH0, keepG5, keepG4, keepG3, keepG2,
    keepG1]
  all_goals rfl

/-- From any memory with zero counters every weakly fair execution of @main ends with the result buffer at
    RefSpec.refOut of the six argument arrays' launch contents, and the six arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v235)
        = RefSpec.refOut (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c main_v235).trans (out_eq _),
     (h c main_arg0).trans (arg_keep _ main_arg0 (by decide)), (h c main_arg1).trans (arg_keep _ main_arg1 (by decide)),
     (h c main_arg2).trans (arg_keep _ main_arg2 (by decide)), (h c main_arg3).trans (arg_keep _ main_arg3 (by decide)),
     (h c main_arg4).trans (arg_keep _ main_arg4 (by decide)), (h c main_arg5).trans (arg_keep _ main_arg5 (by decide))⟩)
    (run_all m ρ)

end Cert.ReferenceIdeal.RefRun

end
-- ==== Proof.RefRead.lean ====
/- The masked-fill reference's result read at one position (b, h, w): each layer of its mask — a column of a corner
   array, the row and column tests of one hole, one hole's mask, the union of the five — read at an index as a decided
   condition on the corner words, the mask as 0 or 1, the fill value as the mean of all of x, and the blend. The corner
   arrays and the activation flags enter as arbitrary arrays. -/
import proofs.«152792_j38062000177638_1_alg».proof.Proof.RefSpec
import proofs.«152792_j38062000177638_1_alg».proof.Proof.MaskSpec
import proofs.«152792_j38062000177638_1_alg».proof.Proof.GlueLemmas
import Idealize.ShloMosaic.PureOps.Ideal.Laws
import Idealize.ShloMosaic.Lib.ValueLayout

set_option maxRecDepth 16384

noncomputable section

open scoped BigOperators

namespace Cert.RefRead

open Idealize.ShloMosaic Idealize.ShloMosaic.ValueIdx Cert.RefSpec

/-! ## One-bit words -/

theorem andi_ofBool (p q : Bool) : IntOp.andi (BitVec.ofBool p) (BitVec.ofBool q) = BitVec.ofBool (p && q) :=
  BitVec.ofBool_and_ofBool
theorem ori_ofBool (p q : Bool) : IntOp.ori (BitVec.ofBool p) (BitVec.ofBool q) = BitVec.ofBool (p || q) :=
  BitVec.ofBool_or_ofBool
theorem bit_eq_ofBool (v : BitVec 1) : v = BitVec.ofBool (v == 1#1) := by
  rcases BitVec.eq_zero_or_eq_one v with e | e <;> rw [e] <;> decide

/-! ## The layers of one hole's mask, at an index -/

/-- Column `n` of a 128 × 5 array, kept 128 × 1, reads row `b` of that column. -/
theorem col_apply {w : Nat} (n : Nat) (hs : Sbn.Slices ![0, n] Sb1) (x : IVec Sbn w) (b : Fin 128) (u : Fin 1) (k : Fin 5)
    (hk : k.val = n) : col n hs x (ix2 b u) = x (ix2 b k) := by
  unfold col
  refine (broadcastInDim_apply _ _ _ (ix2 b u) (ix1 b) (fun a => by
    match a with
    | ⟨0, _⟩ => rfl)).trans ?_
  refine (shapeCast_apply _ _ (ix1 b) (ix2 b (0 : Fin 1)) ?_).trans
    (slice2_axis1_apply n x hs b (0 : Fin 1) k (by rw [hk]; rfl))
  rw [Shape.rowMajor_val_two, Shape.rowMajor_val_one]
  show b.val * 1 + 0 = b.val
  omega

/-- Column `n` as a 128-vector. -/
theorem colVec_apply {w : Nat} (n : Nat) (hs : Sbn.Slices ![0, n] Sb1) (x : IVec Sbn w) (b : Fin 128) (k : Fin 5)
    (hk : k.val = n) : colVec n hs x (ix1 b) = x (ix2 b k) := by
  unfold colVec
  refine (shapeCast_apply _ _ (ix1 b) (ix2 b (0 : Fin 1)) ?_).trans
    (slice2_axis1_apply n x hs b (0 : Fin 1) k (by rw [hk]; rfl))
  rw [Shape.rowMajor_val_two, Shape.rowMajor_val_one]
  show b.val * 1 + 0 = b.val
  omega

theorem rowsOver_apply (r : IVec Sh 32) (b : Fin 128) (h : Fin 256) : rowsOver r (ix2 b h) = r (ix1 h) := by
  unfold rowsOver
  refine (broadcastInDim_apply _ _ _ (ix2 b h) (ix2 (0 : Fin 1) h) (fun a => by
    match a with
    | ⟨0, _⟩ => rfl
    | ⟨1, _⟩ => rfl)).trans ?_
  exact broadcastInDim_apply _ _ _ (ix2 (0 : Fin 1) h) (ix1 h) (fun a => by
    match a with
    | ⟨0, _⟩ => rfl)

theorem colsOver_apply (c : IVec Sw 32) (b : Fin 128) (w : Fin 1024) : colsOver c (ix2 b w) = c (ix1 w) := by
  unfold colsOver
  refine (broadcastInDim_apply _ _ _ (ix2 b w) (ix2 (0 : Fin 1) w) (fun a => by
    match a with
    | ⟨0, _⟩ => rfl
    | ⟨1, _⟩ => rfl)).trans ?_
  exact broadcastInDim_apply _ _ _ (ix2 (0 : Fin 1) w) (ix1 w) (fun a => by
    match a with
    | ⟨0, _⟩ => rfl)

theorem rowIota_apply (h : Fin 256) : rowIota (ix1 h) = BitVec.ofNat 32 h.val := rfl
theorem colIota_apply (w : Fin 1024) : colIota (ix1 w) = BitVec.ofNat 32 w.val := rfl

/-- The rows of hole `n`: first row ≤ row ≤ last row. -/
theorem rowsIn_apply (n : Nat) (hs : Sbn.Slices ![0, n] Sb1) (ys ye : IVec Sbn 32) (r : IVec Sh 32) (b : Fin 128) (h : Fin 256)
    (k : Fin 5) (hk : k.val = n) :
    rowsIn n hs ys ye r (ix2 b h) = BitVec.ofBool ((ys (ix2 b k)).sle (r (ix1 h)) && (r (ix1 h)).sle (ye (ix2 b k))) := by
  unfold rowsIn
  rw [← andi_ofBool]
  refine congrArg₂ IntOp.andi ?_ ?_
  · refine congrArg₂ (fun p q : BitVec 32 => BitVec.ofBool (p.sle q)) ?_ (rowsOver_apply r b h)
    exact (broadcastInDim_apply _ _ _ (ix2 b h) (ix2 b (0 : Fin 1)) (fun a => by
      match a with
      | ⟨0, _⟩ => rfl
      | ⟨1, _⟩ => rfl)).trans (col_apply n hs ys b 0 k hk)
  · refine congrArg₂ (fun p q : BitVec 32 => BitVec.ofBool (p.sle q)) (rowsOver_apply r b h) ?_
    exact (broadcastInDim_apply _ _ _ (ix2 b h) (ix2 b (0 : Fin 1)) (fun a => by
      match a with
      | ⟨0, _⟩ => rfl
      | ⟨1, _⟩ => rfl)).trans (col_apply n hs ye b 0 k hk)

/-- The columns of hole `n`: first column ≤ column ≤ last column. -/
theorem colsIn_apply (n : Nat) (hs : Sbn.Slices ![0, n] Sb1) (xs xe : IVec Sbn 32) (c : IVec Sw 32) (b : Fin 128) (w : Fin 1024)
    (k : Fin 5) (hk : k.val = n) :
    colsIn n hs xs xe c (ix2 b w) = BitVec.ofBool ((xs (ix2 b k)).sle (c (ix1 w)) && (c (ix1 w)).sle (xe (ix2 b k))) := by
  unfold colsIn
  rw [← andi_ofBool]
  refine congrArg₂ IntOp.andi ?_ ?_
  · refine congrArg₂ (fun p q : BitVec 32 => BitVec.ofBool (p.sle q)) ?_ (colsOver_apply c b w)
    exact (broadcastInDim_apply _ _ _ (ix2 b w) (ix2 b (0 : Fin 1)) (fun a => by
      match a with
      | ⟨0, _⟩ => rfl
      | ⟨1, _⟩ => rfl)).trans (col_apply n hs xs b 0 k hk)
  · refine congrArg₂ (fun p q : BitVec 32 => BitVec.ofBool (p.sle q)) (colsOver_apply c b w) ?_
    exact (broadcastInDim_apply _ _ _ (ix2 b w) (ix2 b (0 : Fin 1)) (fun a => by
      match a with
      | ⟨0, _⟩ => rfl
      | ⟨1, _⟩ => rfl)).trans (col_apply n hs xe b 0 k hk)

/-- Hole `n`'s mask at a position is the decided condition "active and holding the position". -/
theorem holeMask_apply (n : Nat) (hs : Sbn.Slices ![0, n] Sb1) (ys ye xs xe : IVec Sbn 32) (ac : IVec Sbn 1)
    (b : Fin 128) (h : Fin 256) (w : Fin 1024) (k : Fin 5) (hk : k.val = n) :
    holeMask n hs ys ye xs xe ac rowIota colIota (ix3 b h w)
      = BitVec.ofBool (Cert.MaskSpec.hole ys ye xs xe (fun j => ac j == 1#1) b h w k) := by
  unfold holeMask Cert.MaskSpec.hole
  rw [← andi_ofBool, ← andi_ofBool]
  refine congrArg₂ IntOp.andi (congrArg₂ IntOp.andi ?_ ?_) ?_
  · refine (broadcastInDim_apply _ _ _ (ix3 b h w) (ix3 b h (0 : Fin 1)) (fun a => by
      match a with
      | ⟨0, _⟩ => rfl
      | ⟨1, _⟩ => rfl
      | ⟨2, _⟩ => rfl)).trans ?_
    refine (broadcastInDim_apply _ _ _ (ix3 b h (0 : Fin 1)) (ix2 b h) (fun a => by
      match a with
      | ⟨0, _⟩ => rfl
      | ⟨1, _⟩ => rfl)).trans ?_
    exact rowsIn_apply n hs ys ye rowIota b h k hk
  · refine (broadcastInDim_apply _ _ _ (ix3 b h w) (ix3 b (0 : Fin 1) w) (fun a => by
      match a with
      | ⟨0, _⟩ => rfl
      | ⟨1, _⟩ => rfl
      | ⟨2, _⟩ => rfl)).trans ?_
    refine (broadcastInDim_apply _ _ _ (ix3 b (0 : Fin 1) w) (ix2 b w) (fun a => by
      match a with
      | ⟨0, _⟩ => rfl
      | ⟨1, _⟩ => rfl)).trans ?_
    exact colsIn_apply n hs xs xe colIota b w k hk
  · refine (broadcastInDim_apply _ _ _ (ix3 b h w) (ix3 b (0 : Fin 1) (0 : Fin 1)) (fun a => by
      match a with
      | ⟨0, _⟩ => rfl
      | ⟨1, _⟩ => rfl
      | ⟨2, _⟩ => rfl)).trans ?_
    refine (broadcastInDim_apply _ _ _ (ix3 b (0 : Fin 1) (0 : Fin 1)) (ix1 b) (fun a => by
      match a with
      | ⟨0, _⟩ => rfl)).trans ?_
    exact (colVec_apply n hs ac b k hk).trans (bit_eq_ofBool _)

/-- Joining hole `n`'s mask to a mask that is a decided condition. -/
theorem holeStep_apply (n : Nat) (hs : Sbn.Slices ![0, n] Sb1) (ys ye xs xe : IVec Sbn 32) (ac : IVec Sbn 1)
    (prev : IVec Sbhw 1) (p : Bool) (b : Fin 128) (h : Fin 256) (w : Fin 1024) (k : Fin 5) (hk : k.val = n)
    (hp : prev (ix3 b h w) = BitVec.ofBool p) :
    holeStep n hs ys ye xs xe ac rowIota colIota prev (ix3 b h w)
      = BitVec.ofBool (p || Cert.MaskSpec.hole ys ye xs xe (fun j => ac j == 1#1) b h w k) := by
  unfold holeStep
  rw [← ori_ofBool]
  exact congrArg₂ IntOp.ori hp (holeMask_apply n hs ys ye xs xe ac b h w k hk)

theorem mask0_apply (j : Sbhw.Idx) : mask0 j = BitVec.ofBool false :=
  broadcastInDim_apply _ _ _ j ix0 (fun a => a.elim0)

/-- The union of the five holes' masks at a position. -/
theorem maskAll_apply (ys ye xs xe : IVec Sbn 32) (ac : IVec Sbn 1) (b : Fin 128) (h : Fin 256) (w : Fin 1024) :
    maskAll ys ye xs xe ac (ix3 b h w) = BitVec.ofBool (Cert.MaskSpec.covered ys ye xs xe (fun j => ac j == 1#1) b h w) := by
  unfold maskAll Cert.MaskSpec.covered
  refine holeStep_apply 4 _ ys ye xs xe ac _ _ b h w (4 : Fin 5) rfl ?_
  refine holeStep_apply 3 _ ys ye xs xe ac _ _ b h w (3 : Fin 5) rfl ?_
  refine holeStep_apply 2 _ ys ye xs xe ac _ _ b h w (2 : Fin 5) rfl ?_
  refine holeStep_apply 1 _ ys ye xs xe ac _ _ b h w (1 : Fin 5) rfl ?_
  refine (holeStep_apply 0 _ ys ye xs xe ac _ false b h w (0 : Fin 5) rfl (mask0_apply _)).trans ?_
  rw [Bool.false_or]

/-! ## The mask as a float, the fill value, the blend -/

theorem one_f32 : Ideal.ofBits .f32 0x3F800000#32 = 1 := by
  simp [Ideal.ofBits, Ideal.ieee, -EReal.coe_mul]; norm_num

theorem toNat_ofBool_ind (c : Bool) : (((BitVec.ofBool c).toNat : ℝ) : EReal) = Cert.MaskSpec.ind c := by
  cases c <;> simp [Cert.MaskSpec.ind]

/-- The float mask at (b, h, w, 0) is 1 where the integer mask's bit is set and 0 elsewhere. -/
theorem maskF_apply (mk : IVec Sbhw 1) (c : Bool) (b : Fin 128) (h : Fin 256) (w : Fin 1024) (hm : mk (ix3 b h w) = BitVec.ofBool c) :
    maskF (F := Ideal) mk (ix4 b h w (0 : Fin 1)) = Cert.MaskSpec.ind c := by
  unfold maskF
  show (((broadcastInDim Sbhw1 _ _ mk (ix4 b h w (0 : Fin 1))).toNat : ℝ) : EReal) = _
  rw [Cert.GlueLemmas.unsqueeze_apply mk _ b h w, hm]
  exact toNat_ofBool_ind c

/-- The fill value: the sum of all of x over 2^25. -/
theorem fill_apply (x : FVec Ideal Sbhw1 .f32) (j : Sc.Idx) :
    fill (F := Ideal) x j = Ideal.div (∑ i : Sbhw1.Idx, x i) (Ideal.ofBits .f32 0x4C000000#32) := by
  unfold fill total
  show Ideal.div (Ideal.hostReduceAdd _ x (Ideal.ofBits .f32 0x00000000#32) j) (Ideal.ofBits .f32 0x4C000000#32) = _
  rw [Ideal.hostReduceAdd_total _ (fun b => b.elim0) x _ j, Ideal.ofBits_zero_f32, zero_add]

/-- The reference's result at a position: the blend of x with the mean of x under the mask. -/
theorem refOut_apply (x : FVec Ideal Cert.RefSpec.Sbhw1 .f32) (a1 a2 a3 a4 : IVec Cert.RefSpec.Sbn 32) (a5 : FVec Ideal Cert.RefSpec.Sbn .f32)
    (b : Fin 128) (h : Fin 256) (w : Fin 1024) :
    Cert.RefSpec.refOut x a1 a2 a3 a4 a5 (ix4 b h w (0 : Fin 1))
      = Cert.MaskSpec.blendAt (x (ix4 b h w 0))
          (Cert.MaskSpec.ind (Cert.MaskSpec.covered (Cert.RefSpec.ysStart a2 a4) (Cert.RefSpec.ysEnd a2 a4) (Cert.RefSpec.xsStart a1 a3)
            (Cert.RefSpec.xsEnd a1 a3) (fun j => Cert.RefSpec.act (F := Ideal) a5 j == 1#1) b h w))
          (Ideal.div (∑ i : Cert.RefSpec.Sbhw1.Idx, x i) (Ideal.ofBits .f32 0x4C000000#32)) := by
  unfold refOut blend Cert.MaskSpec.blendAt
  have hm := maskF_apply _ _ b h w (maskAll_apply (ysStart a2 a4) (ysEnd a2 a4) (xsStart a1 a3) (xsEnd a1 a3) (act (F := Ideal) a5) b h w)
  show x (ix4 b h w (0 : Fin 1)) * (broadcastInDim Sbhw1 _ _ (constant (F := Ideal) Sc .f32 0x3F800000#32) (ix4 b h w (0 : Fin 1)) - maskF (F := Ideal) _ (ix4 b h w (0 : Fin 1)))
      + maskF (F := Ideal) _ (ix4 b h w (0 : Fin 1)) * broadcastInDim Sbhw1 _ _ (fill (F := Ideal) x) (ix4 b h w (0 : Fin 1)) = _
  rw [hm, broadcastInDim_apply _ _ (constant (F := Ideal) Sc .f32 0x3F800000#32) (ix4 b h w (0 : Fin 1)) ix0 (fun a => a.elim0),
    broadcastInDim_apply _ _ (fill (F := Ideal) x) (ix4 b h w (0 : Fin 1)) ix0 (fun a => a.elim0), fill_apply]
  show x (ix4 b h w (0 : Fin 1)) * (Ideal.ofBits .f32 0x3F800000#32 - _) + _ = _
  rw [one_f32]

end Cert.RefRead

end
-- ==== Proof.lean ====
/-
  The certificate's five claims for the cut-out kernel. The program is two kernel regions among host operations: a
  grid-of-8 kernel sums the input array block by block in a one-entry accumulator, the host divides the total by 2^25,
  and a grid-of-64 kernel writes x · (1 − m) + m · mean, m the largest over five rectangular holes of a product of 0/1
  comparisons. The reference forms the union of the five holes' Boolean masks and the same blend with mean(x).
  Both programs run to their ends with the arguments untouched (the frames); the idealization rewrote nothing
  (preserves); and at the exact values the two results agree position by position: the sum of the eight block sums is the
  sum of every entry, and a maximum of 0/1 products is the indicator of the union of the conjunctions.
-/
import proofs.«152792_j38062000177638_1_alg».proof.Defs
import proofs.«152792_j38062000177638_1_alg».proof.Proof.Gen.Kernel
import proofs.«152792_j38062000177638_1_alg».proof.Proof.Gen.KernelIdeal
import proofs.«152792_j38062000177638_1_alg».proof.Proof.Gen.ReferenceIdeal
import proofs.«152792_j38062000177638_1_alg».proof.Proof.Gen.Pre_finite_inputs
import proofs.«152792_j38062000177638_1_alg».proof.Proof.RunFrame
import proofs.«152792_j38062000177638_1_alg».proof.Proof.RunFrameK
import proofs.«152792_j38062000177638_1_alg».proof.Proof.KernelValue
import proofs.«152792_j38062000177638_1_alg».proof.Proof.RefRun
import proofs.«152792_j38062000177638_1_alg».proof.Proof.RefRead

noncomputable section

namespace Cert.Proof

open Idealize.ShloMosaic Idealize.ShloMosaic.TcCoe Idealize.SL.Sem Idealize.ShloMosaic.ValueIdx
open scoped BigOperators

/-- The kernel program as printed runs to its end with its arguments untouched. -/
theorem frame_k : Cert.frame_Kernel := fun m ρ _ => Cert.Kernel.Run.frame (F := Bits) m ρ

/-- So does its reading at the exact values. -/
theorem frame_ki : Cert.frame_KernelIdeal := fun m ρ _ => Cert.KernelIdeal.Run.frame (F := Ideal) m ρ

/-- And the reference. -/
theorem frame_ri : Cert.frame_ReferenceIdeal := fun m ρ _ => Cert.ReferenceIdeal.RefRun.frame (F := Ideal) m ρ

/-- The idealization rewrote no operation. -/
theorem preserves : Cert.preserves_Kernel_KernelIdeal := trivial

/-- At the exact values the kernel program and the reference, run from memories agreeing on the arguments, end with the
    same result: at (b, h, w) both are x · (1 − m) + m · (Σ x / 2^25) with m the indicator that an active hole of sample b
    holds (h, w). -/
theorem algebraic : Cert.algebraic_KernelIdeal_ReferenceIdeal := by
  intro m ρ m' ρ' _ hagree
  refine ⟨fun c => Cert.KernelIdeal.Run.B21 m c (Proc.devRef .tc Cert.KernelIdeal.main_v24), Cert.KernelIdeal.Run.run_result (F := Ideal) m ρ, ?_⟩
  refine (θ_run Cert.ReferenceIdeal.defs _ _).mono (fun r h c => ⟨(h c).1.trans ?_, (h c).2⟩) (Cert.ReferenceIdeal.RefRun.run (F := Ideal) m' ρ')
  obtain ⟨e0, e1, e2, e3, e4, e5⟩ := hagree c
  rw [e0, e1, e2, e3, e4, e5]
  funext i
  obtain ⟨b, h, w, u, rfl⟩ : ∃ (b : Fin 128) (h : Fin 256) (w : Fin 1024) (u : Fin 1), i = ix4 b h w u := ⟨i 0, i 1, i 2, i 3, eq_ix4 i⟩
  obtain rfl : u = 0 := Subsingleton.elim _ _
  rw [Cert.RefRead.refOut_apply]
  exact (Cert.KernelIdeal.Glue.result_apply m c b h w).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
